-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v384) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x96x320 : Shape := ⟨4, ![8, 128, 96, 320]⟩
abbrev S_ : Shape := ⟨0, ![]⟩

class Facts : Prop where
  bcast_S_S8x128x96x320 : S_.BroadcastsInDim S8x128x96x320 (![] : Fin 0 → Fin S8x128x96x320.rank)
  reducesTo_S8x128x96x320_S_d0_1_2_3 : S8x128x96x320.ReducesTo [0, 1, 2, 3] S_
  h_S_ : 0 < S_.numel

variable [Facts]

def fn {F : FTy → Type} [FloatOps F] (main_arg0 : FVec F S8x128x96x320 .f32) (main_arg1 : FVec F S8x128x96x320 .f32) : IVec S_ 1 :=
  let main_v0 : FVec F S8x128x96x320 .f32 := Host.absf main_arg0
  let main_cst : FVec F S_ .f32 := constant S_ .f32 0x7F800000#32
  let main_v1 : FVec F S8x128x96x320 .f32 := broadcastInDim S8x128x96x320 ![] bcast_S_S8x128x96x320 main_cst
  let main_v2 : IVec S8x128x96x320 1 := cmpf .olt main_v0 main_v1
  let main_c : IVec S_ 1 := constantI S_ 1 1#1
  let main_v3 : IVec S_ 1 := (fun x v => Host.reduce IntOp.andi x v reducesTo_S8x128x96x320_S_d0_1_2_3 h_S_) main_v2 main_c
  let main_v4 : FVec F S8x128x96x320 .f32 := Host.absf main_arg1
  let main_cst_0 : FVec F S_ .f32 := constant S_ .f32 0x7F800000#32
  let main_v5 : FVec F S8x128x96x320 .f32 := broadcastInDim S8x128x96x320 ![] bcast_S_S8x128x96x320 main_cst_0
  let main_v6 : IVec S8x128x96x320 1 := cmpf .olt main_v4 main_v5
  let main_c_1 : IVec S_ 1 := constantI S_ 1 1#1
  let main_v7 : IVec S_ 1 := (fun x v => Host.reduce IntOp.andi x v reducesTo_S8x128x96x320_S_d0_1_2_3 h_S_) main_v6 main_c_1
  let main_v8 : IVec S_ 1 := andi main_v3 main_v7
  main_v8
-- ==== Kernel.lean ====
abbrev S8x128x96x320 : Shape := ⟨4, ![8, 128, 96, 320]⟩
abbrev S8x48x96x320 : Shape := ⟨4, ![8, 48, 96, 320]⟩
abbrev S1x128x16x320 : Shape := ⟨4, ![1, 128, 16, 320]⟩
abbrev S1x48x16x320 : Shape := ⟨4, ![1, 48, 16, 320]⟩
abbrev S128x16x320 : Shape := ⟨3, ![128, 16, 320]⟩
abbrev S16x320 : Shape := ⟨2, ![16, 320]⟩
abbrev S1x1x16x320 : Shape := ⟨4, ![1, 1, 16, 320]⟩

abbrev nBuf : Space → Nat
  | .hbm => 3
  | .vmem => 6
  | .smem => 0
  | _ => 0

abbrev bufTy : (tb : Table) → Fin (tcTables nBuf tb) → BufTy
  | .hbm, ⟨0, _⟩ => ⟨S8x128x96x320, .f32⟩
  | .hbm, ⟨1, _⟩ => ⟨S8x128x96x320, .f32⟩
  | .hbm, ⟨2, _⟩ => ⟨S8x48x96x320, .f32⟩
  | .local _ .vmem, ⟨0, _⟩ => ⟨S1x128x16x320, .f32⟩
  | .local _ .vmem, ⟨1, _⟩ => ⟨S1x128x16x320, .f32⟩
  | .local _ .vmem, ⟨2, _⟩ => ⟨S1x128x16x320, .f32⟩
  | .local _ .vmem, ⟨3, _⟩ => ⟨S1x128x16x320, .f32⟩
  | .local _ .vmem, ⟨4, _⟩ => ⟨S1x48x16x320, .f32⟩
  | .local _ .vmem, ⟨5, _⟩ => ⟨S1x48x16x320, .f32⟩
  | _, _ => ⟨S8x128x96x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x16x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x16x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x16x320_S1x128x16x320_0_0_0_0 : ∀ a, (![0, 0, 0, 0] : Fin 4 → Nat) a + S1x128x16x320.size a ≤ S1x128x16x320.size a
  h_S1x128x16x320 : 0 < S1x128x16x320.numel
  shapeCasts_S1x128x16x320_S128x16x320 : S1x128x16x320.ShapeCasts S128x16x320
  iota_S16x320_d1_w32 : S16x320.Iotas .tc 32 [1]
  rotates_S128x16x320_d2 : S128x16x320.Rotates 2 none
  reduces_S128x16x320_S16x320 : S128x16x320.Reduces [0] S16x320
  inb_S1x48x16x320_S1x1x16x320_0_0_0_0 : ∀ a, (![0, 0, 0, 0] : Fin 4 → Nat) a + S1x1x16x320.size a ≤ S1x48x16x320.size a
  h_S1x1x16x320 : 0 < S1x1x16x320.numel
  shapeCasts_S1x1x16x320_S16x320 : S1x1x16x320.ShapeCasts S16x320
  shapeCasts_S16x320_S1x1x16x320 : S16x320.ShapeCasts S1x1x16x320
  inb_S1x48x16x320_S1x1x16x320_0_1_0_0 : ∀ a, (![0, 1, 0, 0] : Fin 4 → Nat) a + S1x1x16x320.size a ≤ S1x48x16x320.size a
  inb_S1x48x16x320_S1x1x16x320_0_2_0_0 : ∀ a, (![0, 2, 0, 0] : Fin 4 → Nat) a + S1x1x16x320.size a ≤ S1x48x16x320.size a
  inb_S1x48x16x320_S1x1x16x320_0_3_0_0 : ∀ a, (![0, 3, 0, 0] : Fin 4 → Nat) a + S1x1x16x320.size a ≤ S1x48x16x320.size a
  inb_S1x48x16x320_S1x1x16x320_0_4_0_0 : ∀ a, (![0, 4, 0, 0] : Fin 4 → Nat) a + S1x1x16x320.size a ≤ S1x48x16x320.size a
  inb_S1x48x16x320_S1x1x16x320_0_5_0_0 : ∀ a, (![0, 5, 0, 0] : Fin 4 → Nat) a + S1x1x16x320.size a ≤ S1x48x16x320.size a
  inb_S1x48x16x320_S1x1x16x320_0_6_0_0 : ∀ a, (![0, 6, 0, 0] : Fin 4 → Nat) a + S1x1x16x320.size a ≤ S1x48x16x320.size a
  inb_S1x48x16x320_S1x1x16x320_0_7_0_0 : ∀ a, (![0, 7, 0, 0] : Fin 4 → Nat) a + S1x1x16x320.size a ≤ S1x48x16x320.size a
  inb_S1x48x16x320_S1x1x16x320_0_8_0_0 : ∀ a, (![0, 8, 0, 0] : Fin 4 → Nat) a + S1x1x16x320.size a ≤ S1x48x16x320.size a
  inb_S1x48x16x320_S1x1x16x320_0_9_0_0 : ∀ a, (![0, 9, 0, 0] : Fin 4 → Nat) a + S1x1x16x320.size a ≤ S1x48x16x320.size a
  inb_S1x48x16x320_S1x1x16x320_0_10_0_0 : ∀ a, (![0, 10, 0, 0] : Fin 4 → Nat) a + S1x1x16x320.size a ≤ S1x48x16x320.size a
  inb_S1x48x16x320_S1x1x16x320_0_11_0_0 : ∀ a, (![0, 11, 0, 0] : Fin 4 → Nat) a + S1x1x16x320.size a ≤ S1x48x16x320.size a
  inb_S1x48x16x320_S1x1x16x320_0_12_0_0 : ∀ a, (![0, 12, 0, 0] : Fin 4 → Nat) a + S1x1x16x320.size a ≤ S1x48x16x320.size a
  inb_S1x48x16x320_S1x1x16x320_0_13_0_0 : ∀ a, (![0, 13, 0, 0] : Fin 4 → Nat) a + S1x1x16x320.size a ≤ S1x48x16x320.size a
  inb_S1x48x16x320_S1x1x16x320_0_14_0_0 : ∀ a, (![0, 14, 0, 0] : Fin 4 → Nat) a + S1x1x16x320.size a ≤ S1x48x16x320.size a
  inb_S1x48x16x320_S1x1x16x320_0_15_0_0 : ∀ a, (![0, 15, 0, 0] : Fin 4 → Nat) a + S1x1x16x320.size a ≤ S1x48x16x320.size a
  inb_S1x48x16x320_S1x1x16x320_0_16_0_0 : ∀ a, (![0, 16, 0, 0] : Fin 4 → Nat) a + S1x1x16x320.size a ≤ S1x48x16x320.size a
  inb_S1x48x16x320_S1x1x16x320_0_17_0_0 : ∀ a, (![0, 17, 0, 0] : Fin 4 → Nat) a + S1x1x16x320.size a ≤ S1x48x16x320.size a
  inb_S1x48x16x320_S1x1x16x320_0_18_0_0 : ∀ a, (![0, 18, 0, 0] : Fin 4 → Nat) a + S1x1x16x320.size a ≤ S1x48x16x320.size a
  inb_S1x48x16x320_S1x1x16x320_0_19_0_0 : ∀ a, (![0, 19, 0, 0] : Fin 4 → Nat) a + S1x1x16x320.size a ≤ S1x48x16x320.size a
  inb_S1x48x16x320_S1x1x16x320_0_20_0_0 : ∀ a, (![0, 20, 0, 0] : Fin 4 → Nat) a + S1x1x16x320.size a ≤ S1x48x16x320.size a
  inb_S1x48x16x320_S1x1x16x320_0_21_0_0 : ∀ a, (![0, 21, 0, 0] : Fin 4 → Nat) a + S1x1x16x320.size a ≤ S1x48x16x320.size a
  inb_S1x48x16x320_S1x1x16x320_0_22_0_0 : ∀ a, (![0, 22, 0, 0] : Fin 4 → Nat) a + S1x1x16x320.size a ≤ S1x48x16x320.size a
  inb_S1x48x16x320_S1x1x16x320_0_23_0_0 : ∀ a, (![0, 23, 0, 0] : Fin 4 → Nat) a + S1x1x16x320.size a ≤ S1x48x16x320.size a
  inb_S1x48x16x320_S1x1x16x320_0_24_0_0 : ∀ a, (![0, 24, 0, 0] : Fin 4 → Nat) a + S1x1x16x320.size a ≤ S1x48x16x320.size a
  inb_S1x48x16x320_S1x1x16x320_0_25_0_0 : ∀ a, (![0, 25, 0, 0] : Fin 4 → Nat) a + S1x1x16x320.size a ≤ S1x48x16x320.size a
  inb_S1x48x16x320_S1x1x16x320_0_26_0_0 : ∀ a, (![0, 26, 0, 0] : Fin 4 → Nat) a + S1x1x16x320.size a ≤ S1x48x16x320.size a
  inb_S1x48x16x320_S1x1x16x320_0_27_0_0 : ∀ a, (![0, 27, 0, 0] : Fin 4 → Nat) a + S1x1x16x320.size a ≤ S1x48x16x320.size a
  inb_S1x48x16x320_S1x1x16x320_0_28_0_0 : ∀ a, (![0, 28, 0, 0] : Fin 4 → Nat) a + S1x1x16x320.size a ≤ S1x48x16x320.size a
  inb_S1x48x16x320_S1x1x16x320_0_29_0_0 : ∀ a, (![0, 29, 0, 0] : Fin 4 → Nat) a + S1x1x16x320.size a ≤ S1x48x16x320.size a
  inb_S1x48x16x320_S1x1x16x320_0_30_0_0 : ∀ a, (![0, 30, 0, 0] : Fin 4 → Nat) a + S1x1x16x320.size a ≤ S1x48x16x320.size a
  inb_S1x48x16x320_S1x1x16x320_0_31_0_0 : ∀ a, (![0, 31, 0, 0] : Fin 4 → Nat) a + S1x1x16x320.size a ≤ S1x48x16x320.size a
  inb_S1x48x16x320_S1x1x16x320_0_32_0_0 : ∀ a, (![0, 32, 0, 0] : Fin 4 → Nat) a + S1x1x16x320.size a ≤ S1x48x16x320.size a
  inb_S1x48x16x320_S1x1x16x320_0_33_0_0 : ∀ a, (![0, 33, 0, 0] : Fin 4 → Nat) a + S1x1x16x320.size a ≤ S1x48x16x320.size a
  inb_S1x48x16x320_S1x1x16x320_0_34_0_0 : ∀ a, (![0, 34, 0, 0] : Fin 4 → Nat) a + S1x1x16x320.size a ≤ S1x48x16x320.size a
  inb_S1x48x16x320_S1x1x16x320_0_35_0_0 : ∀ a, (![0, 35, 0, 0] : Fin 4 → Nat) a + S1x1x16x320.size a ≤ S1x48x16x320.size a
  inb_S1x48x16x320_S1x1x16x320_0_36_0_0 : ∀ a, (![0, 36, 0, 0] : Fin 4 → Nat) a + S1x1x16x320.size a ≤ S1x48x16x320.size a
  inb_S1x48x16x320_S1x1x16x320_0_37_0_0 : ∀ a, (![0, 37, 0, 0] : Fin 4 → Nat) a + S1x1x16x320.size a ≤ S1x48x16x320.size a
  inb_S1x48x16x320_S1x1x16x320_0_38_0_0 : ∀ a, (![0, 38, 0, 0] : Fin 4 → Nat) a + S1x1x16x320.size a ≤ S1x48x16x320.size a
  inb_S1x48x16x320_S1x1x16x320_0_39_0_0 : ∀ a, (![0, 39, 0, 0] : Fin 4 → Nat) a + S1x1x16x320.size a ≤ S1x48x16x320.size a
  inb_S1x48x16x320_S1x1x16x320_0_40_0_0 : ∀ a, (![0, 40, 0, 0] : Fin 4 → Nat) a + S1x1x16x320.size a ≤ S1x48x16x320.size a
  inb_S1x48x16x320_S1x1x16x320_0_41_0_0 : ∀ a, (![0, 41, 0, 0] : Fin 4 → Nat) a + S1x1x16x320.size a ≤ S1x48x16x320.size a
  inb_S1x48x16x320_S1x1x16x320_0_42_0_0 : ∀ a, (![0, 42, 0, 0] : Fin 4 → Nat) a + S1x1x16x320.size a ≤ S1x48x16x320.size a
  inb_S1x48x16x320_S1x1x16x320_0_43_0_0 : ∀ a, (![0, 43, 0, 0] : Fin 4 → Nat) a + S1x1x16x320.size a ≤ S1x48x16x320.size a
  inb_S1x48x16x320_S1x1x16x320_0_44_0_0 : ∀ a, (![0, 44, 0, 0] : Fin 4 → Nat) a + S1x1x16x320.size a ≤ S1x48x16x320.size a
  inb_S1x48x16x320_S1x1x16x320_0_45_0_0 : ∀ a, (![0, 45, 0, 0] : Fin 4 → Nat) a + S1x1x16x320.size a ≤ S1x48x16x320.size a
  inb_S1x48x16x320_S1x1x16x320_0_46_0_0 : ∀ a, (![0, 46, 0, 0] : Fin 4 → Nat) a + S1x1x16x320.size a ≤ S1x48x16x320.size a
  inb_S1x48x16x320_S1x1x16x320_0_47_0_0 : ∀ a, (![0, 47, 0, 0] : Fin 4 → Nat) a + S1x1x16x320.size a ≤ S1x48x16x320.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x320.size a ≤ S8x128x96x320.size a
  hwx0_0 : ∀ i : grid0.Coords, EltTy.bits .f32 = 32 ∨ (Rect.block (s := S8x128x96x320) S1x128x16x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x320.size a ≤ S8x128x96x320.size a
  hwx0_1 : ∀ i : grid0.Coords, EltTy.bits .f32 = 32 ∨ (Rect.block (s := S8x128x96x320) S1x128x16x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x48x16x320.size a ≤ S8x48x96x320.size a
  hwx0_2 : ∀ i : grid0.Coords, EltTy.bits .f32 = 32 ∨ (Rect.block (s := S8x48x96x320) S1x48x16x320.size (cc0_transform_2 i) (hinb0_2 i)).WholeWords (EltTy.packing .f32)

variable [Facts₀]

abbrev win0_0 : Pipeline.Window sig grid0 :=
  Pipeline.Window.ofSpec (Memref.whole main_arg0) S1x128x16x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x16x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x48x16x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x96x320 : Shape := ⟨4, ![8, 128, 96, 320]⟩
abbrev S_ : Shape := ⟨0, ![]⟩
abbrev S8x96x320 : Shape := ⟨3, ![8, 96, 320]⟩
abbrev S8x128x96x319 : Shape := ⟨4, ![8, 128, 96, 319]⟩
abbrev S8x96x319 : Shape := ⟨3, ![8, 96, 319]⟩
abbrev S8x128x96x318 : Shape := ⟨4, ![8, 128, 96, 318]⟩
abbrev S8x96x318 : Shape := ⟨3, ![8, 96, 318]⟩
abbrev S8x128x96x317 : Shape := ⟨4, ![8, 128, 96, 317]⟩
abbrev S8x96x317 : Shape := ⟨3, ![8, 96, 317]⟩
abbrev S8x128x96x316 : Shape := ⟨4, ![8, 128, 96, 316]⟩
abbrev S8x96x316 : Shape := ⟨3, ![8, 96, 316]⟩
abbrev S8x128x96x315 : Shape := ⟨4, ![8, 128, 96, 315]⟩
abbrev S8x96x315 : Shape := ⟨3, ![8, 96, 315]⟩
abbrev S8x128x96x314 : Shape := ⟨4, ![8, 128, 96, 314]⟩
abbrev S8x96x314 : Shape := ⟨3, ![8, 96, 314]⟩
abbrev S8x128x96x313 : Shape := ⟨4, ![8, 128, 96, 313]⟩
abbrev S8x96x313 : Shape := ⟨3, ![8, 96, 313]⟩
abbrev S8x128x96x312 : Shape := ⟨4, ![8, 128, 96, 312]⟩
abbrev S8x96x312 : Shape := ⟨3, ![8, 96, 312]⟩
abbrev S8x128x96x311 : Shape := ⟨4, ![8, 128, 96, 311]⟩
abbrev S8x96x311 : Shape := ⟨3, ![8, 96, 311]⟩
abbrev S8x128x96x310 : Shape := ⟨4, ![8, 128, 96, 310]⟩
abbrev S8x96x310 : Shape := ⟨3, ![8, 96, 310]⟩
abbrev S8x128x96x309 : Shape := ⟨4, ![8, 128, 96, 309]⟩
abbrev S8x96x309 : Shape := ⟨3, ![8, 96, 309]⟩
abbrev S8x128x96x308 : Shape := ⟨4, ![8, 128, 96, 308]⟩
abbrev S8x96x308 : Shape := ⟨3, ![8, 96, 308]⟩
abbrev S8x128x96x307 : Shape := ⟨4, ![8, 128, 96, 307]⟩
abbrev S8x96x307 : Shape := ⟨3, ![8, 96, 307]⟩
abbrev S8x128x96x306 : Shape := ⟨4, ![8, 128, 96, 306]⟩
abbrev S8x96x306 : Shape := ⟨3, ![8, 96, 306]⟩
abbrev S8x128x96x305 : Shape := ⟨4, ![8, 128, 96, 305]⟩
abbrev S8x96x305 : Shape := ⟨3, ![8, 96, 305]⟩
abbrev S8x128x96x304 : Shape := ⟨4, ![8, 128, 96, 304]⟩
abbrev S8x96x304 : Shape := ⟨3, ![8, 96, 304]⟩
abbrev S8x128x96x303 : Shape := ⟨4, ![8, 128, 96, 303]⟩
abbrev S8x96x303 : Shape := ⟨3, ![8, 96, 303]⟩
abbrev S8x128x96x302 : Shape := ⟨4, ![8, 128, 96, 302]⟩
abbrev S8x96x302 : Shape := ⟨3, ![8, 96, 302]⟩
abbrev S8x128x96x301 : Shape := ⟨4, ![8, 128, 96, 301]⟩
abbrev S8x96x301 : Shape := ⟨3, ![8, 96, 301]⟩
abbrev S8x128x96x300 : Shape := ⟨4, ![8, 128, 96, 300]⟩
abbrev S8x96x300 : Shape := ⟨3, ![8, 96, 300]⟩
abbrev S8x128x96x299 : Shape := ⟨4, ![8, 128, 96, 299]⟩
abbrev S8x96x299 : Shape := ⟨3, ![8, 96, 299]⟩
abbrev S8x128x96x298 : Shape := ⟨4, ![8, 128, 96, 298]⟩
abbrev S8x96x298 : Shape := ⟨3, ![8, 96, 298]⟩
abbrev S8x128x96x297 : Shape := ⟨4, ![8, 128, 96, 297]⟩
abbrev S8x96x297 : Shape := ⟨3, ![8, 96, 297]⟩
abbrev S8x128x96x296 : Shape := ⟨4, ![8, 128, 96, 296]⟩
abbrev S8x96x296 : Shape := ⟨3, ![8, 96, 296]⟩
abbrev S8x128x96x295 : Shape := ⟨4, ![8, 128, 96, 295]⟩
abbrev S8x96x295 : Shape := ⟨3, ![8, 96, 295]⟩
abbrev S8x128x96x294 : Shape := ⟨4, ![8, 128, 96, 294]⟩
abbrev S8x96x294 : Shape := ⟨3, ![8, 96, 294]⟩
abbrev S8x128x96x293 : Shape := ⟨4, ![8, 128, 96, 293]⟩
abbrev S8x96x293 : Shape := ⟨3, ![8, 96, 293]⟩
abbrev S8x128x96x292 : Shape := ⟨4, ![8, 128, 96, 292]⟩
abbrev S8x96x292 : Shape := ⟨3, ![8, 96, 292]⟩
abbrev S8x128x96x291 : Shape := ⟨4, ![8, 128, 96, 291]⟩
abbrev S8x96x291 : Shape := ⟨3, ![8, 96, 291]⟩
abbrev S8x128x96x290 : Shape := ⟨4, ![8, 128, 96, 290]⟩
abbrev S8x96x290 : Shape := ⟨3, ![8, 96, 290]⟩
abbrev S8x128x96x289 : Shape := ⟨4, ![8, 128, 96, 289]⟩
abbrev S8x96x289 : Shape := ⟨3, ![8, 96, 289]⟩
abbrev S8x128x96x288 : Shape := ⟨4, ![8, 128, 96, 288]⟩
abbrev S8x96x288 : Shape := ⟨3, ![8, 96, 288]⟩
abbrev S8x128x96x287 : Shape := ⟨4, ![8, 128, 96, 287]⟩
abbrev S8x96x287 : Shape := ⟨3, ![8, 96, 287]⟩
abbrev S8x128x96x286 : Shape := ⟨4, ![8, 128, 96, 286]⟩
abbrev S8x96x286 : Shape := ⟨3, ![8, 96, 286]⟩
abbrev S8x128x96x285 : Shape := ⟨4, ![8, 128, 96, 285]⟩
abbrev S8x96x285 : Shape := ⟨3, ![8, 96, 285]⟩
abbrev S8x128x96x284 : Shape := ⟨4, ![8, 128, 96, 284]⟩
abbrev S8x96x284 : Shape := ⟨3, ![8, 96, 284]⟩
abbrev S8x128x96x283 : Shape := ⟨4, ![8, 128, 96, 283]⟩
abbrev S8x96x283 : Shape := ⟨3, ![8, 96, 283]⟩
abbrev S8x128x96x282 : Shape := ⟨4, ![8, 128, 96, 282]⟩
abbrev S8x96x282 : Shape := ⟨3, ![8, 96, 282]⟩
abbrev S8x128x96x281 : Shape := ⟨4, ![8, 128, 96, 281]⟩
abbrev S8x96x281 : Shape := ⟨3, ![8, 96, 281]⟩
abbrev S8x128x96x280 : Shape := ⟨4, ![8, 128, 96, 280]⟩
abbrev S8x96x280 : Shape := ⟨3, ![8, 96, 280]⟩
abbrev S8x128x96x279 : Shape := ⟨4, ![8, 128, 96, 279]⟩
abbrev S8x96x279 : Shape := ⟨3, ![8, 96, 279]⟩
abbrev S8x128x96x278 : Shape := ⟨4, ![8, 128, 96, 278]⟩
abbrev S8x96x278 : Shape := ⟨3, ![8, 96, 278]⟩
abbrev S8x128x96x277 : Shape := ⟨4, ![8, 128, 96, 277]⟩
abbrev S8x96x277 : Shape := ⟨3, ![8, 96, 277]⟩
abbrev S8x128x96x276 : Shape := ⟨4, ![8, 128, 96, 276]⟩
abbrev S8x96x276 : Shape := ⟨3, ![8, 96, 276]⟩
abbrev S8x128x96x275 : Shape := ⟨4, ![8, 128, 96, 275]⟩
abbrev S8x96x275 : Shape := ⟨3, ![8, 96, 275]⟩
abbrev S8x128x96x274 : Shape := ⟨4, ![8, 128, 96, 274]⟩
abbrev S8x96x274 : Shape := ⟨3, ![8, 96, 274]⟩
abbrev S8x128x96x273 : Shape := ⟨4, ![8, 128, 96, 273]⟩
abbrev S8x96x273 : Shape := ⟨3, ![8, 96, 273]⟩
abbrev S8x1x96x320 : Shape := ⟨4, ![8, 1, 96, 320]⟩
abbrev S8x16x96x320 : Shape := ⟨4, ![8, 16, 96, 320]⟩
abbrev S8x48x96x320 : Shape := ⟨4, ![8, 48, 96, 320]⟩

abbrev nBuf : Space → Nat
  | .hbm => 577
  | .vmem => 0
  | .smem => 0
  | _ => 0

abbrev hbmTy0_0 (i : Nat) : BufTy := match i % 128 with
  | 0 => ⟨S8x128x96x320, .f32⟩
  | 1 => ⟨S8x128x96x320, .f32⟩
  | 2 => ⟨S8x128x96x320, .f32⟩
  | 3 => ⟨S_, .f32⟩
  | 4 => ⟨S8x96x320, .f32⟩
  | 5 => ⟨S_, .f32⟩
  | 6 => ⟨S8x96x320, .f32⟩
  | 7 => ⟨S8x96x320, .f32⟩
  | 8 => ⟨S8x128x96x319, .f32⟩
  | 9 => ⟨S8x128x96x319, .f32⟩
  | 10 => ⟨S8x128x96x319, .f32⟩
  | 11 => ⟨S_, .f32⟩
  | 12 => ⟨S8x96x319, .f32⟩
  | 13 => ⟨S_, .f32⟩
  | 14 => ⟨S8x96x319, .f32⟩
  | 15 => ⟨S8x96x319, .f32⟩
  | 16 => ⟨S_, .i32⟩
  | 17 => ⟨S_, .f32⟩
  | 18 => ⟨S8x96x320, .f32⟩
  | 19 => ⟨S8x128x96x318, .f32⟩
  | 20 => ⟨S8x128x96x318, .f32⟩
  | 21 => ⟨S8x128x96x318, .f32⟩
  | 22 => ⟨S_, .f32⟩
  | 23 => ⟨S8x96x318, .f32⟩
  | 24 => ⟨S_, .f32⟩
  | 25 => ⟨S8x96x318, .f32⟩
  | 26 => ⟨S8x96x318, .f32⟩
  | 27 => ⟨S_, .i32⟩
  | 28 => ⟨S_, .f32⟩
  | 29 => ⟨S8x96x320, .f32⟩
  | 30 => ⟨S8x128x96x317, .f32⟩
  | 31 => ⟨S8x128x96x317, .f32⟩
  | 32 => ⟨S8x128x96x317, .f32⟩
  | 33 => ⟨S_, .f32⟩
  | 34 => ⟨S8x96x317, .f32⟩
  | 35 => ⟨S_, .f32⟩
  | 36 => ⟨S8x96x317, .f32⟩
  | 37 => ⟨S8x96x317, .f32⟩
  | 38 => ⟨S_, .i32⟩
  | 39 => ⟨S_, .f32⟩
  | 40 => ⟨S8x96x320, .f32⟩
  | 41 => ⟨S8x128x96x316, .f32⟩
  | 42 => ⟨S8x128x96x316, .f32⟩
  | 43 => ⟨S8x128x96x316, .f32⟩
  | 44 => ⟨S_, .f32⟩
  | 45 => ⟨S8x96x316, .f32⟩
  | 46 => ⟨S_, .f32⟩
  | 47 => ⟨S8x96x316, .f32⟩
  | 48 => ⟨S8x96x316, .f32⟩
  | 49 => ⟨S_, .i32⟩
  | 50 => ⟨S_, .f32⟩
  | 51 => ⟨S8x96x320, .f32⟩
  | 52 => ⟨S8x128x96x315, .f32⟩
  | 53 => ⟨S8x128x96x315, .f32⟩
  | 54 => ⟨S8x128x96x315, .f32⟩
  | 55 => ⟨S_, .f32⟩
  | 56 => ⟨S8x96x315, .f32⟩
  | 57 => ⟨S_, .f32⟩
  | 58 => ⟨S8x96x315, .f32⟩
  | 59 => ⟨S8x96x315, .f32⟩
  | 60 => ⟨S_, .i32⟩
  | 61 => ⟨S_, .f32⟩
  | 62 => ⟨S8x96x320, .f32⟩
  | 63 => ⟨S8x128x96x314, .f32⟩
  | 64 => ⟨S8x128x96x314, .f32⟩
  | 65 => ⟨S8x128x96x314, .f32⟩
  | 66 => ⟨S_, .f32⟩
  | 67 => ⟨S8x96x314, .f32⟩
  | 68 => ⟨S_, .f32⟩
  | 69 => ⟨S8x96x314, .f32⟩
  | 70 => ⟨S8x96x314, .f32⟩
  | 71 => ⟨S_, .i32⟩
  | 72 => ⟨S_, .f32⟩
  | 73 => ⟨S8x96x320, .f32⟩
  | 74 => ⟨S8x128x96x313, .f32⟩
  | 75 => ⟨S8x128x96x313, .f32⟩
  | 76 => ⟨S8x128x96x313, .f32⟩
  | 77 => ⟨S_, .f32⟩
  | 78 => ⟨S8x96x313, .f32⟩
  | 79 => ⟨S_, .f32⟩
  | 80 => ⟨S8x96x313, .f32⟩
  | 81 => ⟨S8x96x313, .f32⟩
  | 82 => ⟨S_, .i32⟩
  | 83 => ⟨S_, .f32⟩
  | 84 => ⟨S8x96x320, .f32⟩
  | 85 => ⟨S8x128x96x312, .f32⟩
  | 86 => ⟨S8x128x96x312, .f32⟩
  | 87 => ⟨S8x128x96x312, .f32⟩
  | 88 => ⟨S_, .f32⟩
  | 89 => ⟨S8x96x312, .f32⟩
  | 90 => ⟨S_, .f32⟩
  | 91 => ⟨S8x96x312, .f32⟩
  | 92 => ⟨S8x96x312, .f32⟩
  | 93 => ⟨S_, .i32⟩
  | 94 => ⟨S_, .f32⟩
  | 95 => ⟨S8x96x320, .f32⟩
  | 96 => ⟨S8x128x96x311, .f32⟩
  | 97 => ⟨S8x128x96x311, .f32⟩
  | 98 => ⟨S8x128x96x311, .f32⟩
  | 99 => ⟨S_, .f32⟩
  | 100 => ⟨S8x96x311, .f32⟩
  | 101 => ⟨S_, .f32⟩
  | 102 => ⟨S8x96x311, .f32⟩
  | 103 => ⟨S8x96x311, .f32⟩
  | 104 => ⟨S_, .i32⟩
  | 105 => ⟨S_, .f32⟩
  | 106 => ⟨S8x96x320, .f32⟩
  | 107 => ⟨S8x128x96x310, .f32⟩
  | 108 => ⟨S8x128x96x310, .f32⟩
  | 109 => ⟨S8x128x96x310, .f32⟩
  | 110 => ⟨S_, .f32⟩
  | 111 => ⟨S8x96x310, .f32⟩
  | 112 => ⟨S_, .f32⟩
  | 113 => ⟨S8x96x310, .f32⟩
  | 114 => ⟨S8x96x310, .f32⟩
  | 115 => ⟨S_, .i32⟩
  | 116 => ⟨S_, .f32⟩
  | 117 => ⟨S8x96x320, .f32⟩
  | 118 => ⟨S8x128x96x309, .f32⟩
  | 119 => ⟨S8x128x96x309, .f32⟩
  | 120 => ⟨S8x128x96x309, .f32⟩
  | 121 => ⟨S_, .f32⟩
  | 122 => ⟨S8x96x309, .f32⟩
  | 123 => ⟨S_, .f32⟩
  | 124 => ⟨S8x96x309, .f32⟩
  | 125 => ⟨S8x96x309, .f32⟩
  | 126 => ⟨S_, .i32⟩
  | 127 => ⟨S_, .f32⟩
  | _ => ⟨S8x128x96x320, .f32⟩

abbrev hbmTy0_1 (i : Nat) : BufTy := match i % 128 with
  | 0 => ⟨S8x96x320, .f32⟩
  | 1 => ⟨S8x128x96x308, .f32⟩
  | 2 => ⟨S8x128x96x308, .f32⟩
  | 3 => ⟨S8x128x96x308, .f32⟩
  | 4 => ⟨S_, .f32⟩
  | 5 => ⟨S8x96x308, .f32⟩
  | 6 => ⟨S_, .f32⟩
  | 7 => ⟨S8x96x308, .f32⟩
  | 8 => ⟨S8x96x308, .f32⟩
  | 9 => ⟨S_, .i32⟩
  | 10 => ⟨S_, .f32⟩
  | 11 => ⟨S8x96x320, .f32⟩
  | 12 => ⟨S8x128x96x307, .f32⟩
  | 13 => ⟨S8x128x96x307, .f32⟩
  | 14 => ⟨S8x128x96x307, .f32⟩
  | 15 => ⟨S_, .f32⟩
  | 16 => ⟨S8x96x307, .f32⟩
  | 17 => ⟨S_, .f32⟩
  | 18 => ⟨S8x96x307, .f32⟩
  | 19 => ⟨S8x96x307, .f32⟩
  | 20 => ⟨S_, .i32⟩
  | 21 => ⟨S_, .f32⟩
  | 22 => ⟨S8x96x320, .f32⟩
  | 23 => ⟨S8x128x96x306, .f32⟩
  | 24 => ⟨S8x128x96x306, .f32⟩
  | 25 => ⟨S8x128x96x306, .f32⟩
  | 26 => ⟨S_, .f32⟩
  | 27 => ⟨S8x96x306, .f32⟩
  | 28 => ⟨S_, .f32⟩
  | 29 => ⟨S8x96x306, .f32⟩
  | 30 => ⟨S8x96x306, .f32⟩
  | 31 => ⟨S_, .i32⟩
  | 32 => ⟨S_, .f32⟩
  | 33 => ⟨S8x96x320, .f32⟩
  | 34 => ⟨S8x128x96x305, .f32⟩
  | 35 => ⟨S8x128x96x305, .f32⟩
  | 36 => ⟨S8x128x96x305, .f32⟩
  | 37 => ⟨S_, .f32⟩
  | 38 => ⟨S8x96x305, .f32⟩
  | 39 => ⟨S_, .f32⟩
  | 40 => ⟨S8x96x305, .f32⟩
  | 41 => ⟨S8x96x305, .f32⟩
  | 42 => ⟨S_, .i32⟩
  | 43 => ⟨S_, .f32⟩
  | 44 => ⟨S8x96x320, .f32⟩
  | 45 => ⟨S8x128x96x304, .f32⟩
  | 46 => ⟨S8x128x96x304, .f32⟩
  | 47 => ⟨S8x128x96x304, .f32⟩
  | 48 => ⟨S_, .f32⟩
  | 49 => ⟨S8x96x304, .f32⟩
  | 50 => ⟨S_, .f32⟩
  | 51 => ⟨S8x96x304, .f32⟩
  | 52 => ⟨S8x96x304, .f32⟩
  | 53 => ⟨S_, .i32⟩
  | 54 => ⟨S_, .f32⟩
  | 55 => ⟨S8x96x320, .f32⟩
  | 56 => ⟨S8x128x96x303, .f32⟩
  | 57 => ⟨S8x128x96x303, .f32⟩
  | 58 => ⟨S8x128x96x303, .f32⟩
  | 59 => ⟨S_, .f32⟩
  | 60 => ⟨S8x96x303, .f32⟩
  | 61 => ⟨S_, .f32⟩
  | 62 => ⟨S8x96x303, .f32⟩
  | 63 => ⟨S8x96x303, .f32⟩
  | 64 => ⟨S_, .i32⟩
  | 65 => ⟨S_, .f32⟩
  | 66 => ⟨S8x96x320, .f32⟩
  | 67 => ⟨S8x128x96x302, .f32⟩
  | 68 => ⟨S8x128x96x302, .f32⟩
  | 69 => ⟨S8x128x96x302, .f32⟩
  | 70 => ⟨S_, .f32⟩
  | 71 => ⟨S8x96x302, .f32⟩
  | 72 => ⟨S_, .f32⟩
  | 73 => ⟨S8x96x302, .f32⟩
  | 74 => ⟨S8x96x302, .f32⟩
  | 75 => ⟨S_, .i32⟩
  | 76 => ⟨S_, .f32⟩
  | 77 => ⟨S8x96x320, .f32⟩
  | 78 => ⟨S8x128x96x301, .f32⟩
  | 79 => ⟨S8x128x96x301, .f32⟩
  | 80 => ⟨S8x128x96x301, .f32⟩
  | 81 => ⟨S_, .f32⟩
  | 82 => ⟨S8x96x301, .f32⟩
  | 83 => ⟨S_, .f32⟩
  | 84 => ⟨S8x96x301, .f32⟩
  | 85 => ⟨S8x96x301, .f32⟩
  | 86 => ⟨S_, .i32⟩
  | 87 => ⟨S_, .f32⟩
  | 88 => ⟨S8x96x320, .f32⟩
  | 89 => ⟨S8x128x96x300, .f32⟩
  | 90 => ⟨S8x128x96x300, .f32⟩
  | 91 => ⟨S8x128x96x300, .f32⟩
  | 92 => ⟨S_, .f32⟩
  | 93 => ⟨S8x96x300, .f32⟩
  | 94 => ⟨S_, .f32⟩
  | 95 => ⟨S8x96x300, .f32⟩
  | 96 => ⟨S8x96x300, .f32⟩
  | 97 => ⟨S_, .i32⟩
  | 98 => ⟨S_, .f32⟩
  | 99 => ⟨S8x96x320, .f32⟩
  | 100 => ⟨S8x128x96x299, .f32⟩
  | 101 => ⟨S8x128x96x299, .f32⟩
  | 102 => ⟨S8x128x96x299, .f32⟩
  | 103 => ⟨S_, .f32⟩
  | 104 => ⟨S8x96x299, .f32⟩
  | 105 => ⟨S_, .f32⟩
  | 106 => ⟨S8x96x299, .f32⟩
  | 107 => ⟨S8x96x299, .f32⟩
  | 108 => ⟨S_, .i32⟩
  | 109 => ⟨S_, .f32⟩
  | 110 => ⟨S8x96x320, .f32⟩
  | 111 => ⟨S8x128x96x298, .f32⟩
  | 112 => ⟨S8x128x96x298, .f32⟩
  | 113 => ⟨S8x128x96x298, .f32⟩
  | 114 => ⟨S_, .f32⟩
  | 115 => ⟨S8x96x298, .f32⟩
  | 116 => ⟨S_, .f32⟩
  | 117 => ⟨S8x96x298, .f32⟩
  | 118 => ⟨S8x96x298, .f32⟩
  | 119 => ⟨S_, .i32⟩
  | 120 => ⟨S_, .f32⟩
  | 121 => ⟨S8x96x320, .f32⟩
  | 122 => ⟨S8x128x96x297, .f32⟩
  | 123 => ⟨S8x128x96x297, .f32⟩
  | 124 => ⟨S8x128x96x297, .f32⟩
  | 125 => ⟨S_, .f32⟩
  | 126 => ⟨S8x96x297, .f32⟩
  | 127 => ⟨S_, .f32⟩
  | _ => ⟨S8x128x96x320, .f32⟩

abbrev hbmTy0_2 (i : Nat) : BufTy := match i % 128 with
  | 0 => ⟨S8x96x297, .f32⟩
  | 1 => ⟨S8x96x297, .f32⟩
  | 2 => ⟨S_, .i32⟩
  | 3 => ⟨S_, .f32⟩
  | 4 => ⟨S8x96x320, .f32⟩
  | 5 => ⟨S8x128x96x296, .f32⟩
  | 6 => ⟨S8x128x96x296, .f32⟩
  | 7 => ⟨S8x128x96x296, .f32⟩
  | 8 => ⟨S_, .f32⟩
  | 9 => ⟨S8x96x296, .f32⟩
  | 10 => ⟨S_, .f32⟩
  | 11 => ⟨S8x96x296, .f32⟩
  | 12 => ⟨S8x96x296, .f32⟩
  | 13 => ⟨S_, .i32⟩
  | 14 => ⟨S_, .f32⟩
  | 15 => ⟨S8x96x320, .f32⟩
  | 16 => ⟨S8x128x96x295, .f32⟩
  | 17 => ⟨S8x128x96x295, .f32⟩
  | 18 => ⟨S8x128x96x295, .f32⟩
  | 19 => ⟨S_, .f32⟩
  | 20 => ⟨S8x96x295, .f32⟩
  | 21 => ⟨S_, .f32⟩
  | 22 => ⟨S8x96x295, .f32⟩
  | 23 => ⟨S8x96x295, .f32⟩
  | 24 => ⟨S_, .i32⟩
  | 25 => ⟨S_, .f32⟩
  | 26 => ⟨S8x96x320, .f32⟩
  | 27 => ⟨S8x128x96x294, .f32⟩
  | 28 => ⟨S8x128x96x294, .f32⟩
  | 29 => ⟨S8x128x96x294, .f32⟩
  | 30 => ⟨S_, .f32⟩
  | 31 => ⟨S8x96x294, .f32⟩
  | 32 => ⟨S_, .f32⟩
  | 33 => ⟨S8x96x294, .f32⟩
  | 34 => ⟨S8x96x294, .f32⟩
  | 35 => ⟨S_, .i32⟩
  | 36 => ⟨S_, .f32⟩
  | 37 => ⟨S8x96x320, .f32⟩
  | 38 => ⟨S8x128x96x293, .f32⟩
  | 39 => ⟨S8x128x96x293, .f32⟩
  | 40 => ⟨S8x128x96x293, .f32⟩
  | 41 => ⟨S_, .f32⟩
  | 42 => ⟨S8x96x293, .f32⟩
  | 43 => ⟨S_, .f32⟩
  | 44 => ⟨S8x96x293, .f32⟩
  | 45 => ⟨S8x96x293, .f32⟩
  | 46 => ⟨S_, .i32⟩
  | 47 => ⟨S_, .f32⟩
  | 48 => ⟨S8x96x320, .f32⟩
  | 49 => ⟨S8x128x96x292, .f32⟩
  | 50 => ⟨S8x128x96x292, .f32⟩
  | 51 => ⟨S8x128x96x292, .f32⟩
  | 52 => ⟨S_, .f32⟩
  | 53 => ⟨S8x96x292, .f32⟩
  | 54 => ⟨S_, .f32⟩
  | 55 => ⟨S8x96x292, .f32⟩
  | 56 => ⟨S8x96x292, .f32⟩
  | 57 => ⟨S_, .i32⟩
  | 58 => ⟨S_, .f32⟩
  | 59 => ⟨S8x96x320, .f32⟩
  | 60 => ⟨S8x128x96x291, .f32⟩
  | 61 => ⟨S8x128x96x291, .f32⟩
  | 62 => ⟨S8x128x96x291, .f32⟩
  | 63 => ⟨S_, .f32⟩
  | 64 => ⟨S8x96x291, .f32⟩
  | 65 => ⟨S_, .f32⟩
  | 66 => ⟨S8x96x291, .f32⟩
  | 67 => ⟨S8x96x291, .f32⟩
  | 68 => ⟨S_, .i32⟩
  | 69 => ⟨S_, .f32⟩
  | 70 => ⟨S8x96x320, .f32⟩
  | 71 => ⟨S8x128x96x290, .f32⟩
  | 72 => ⟨S8x128x96x290, .f32⟩
  | 73 => ⟨S8x128x96x290, .f32⟩
  | 74 => ⟨S_, .f32⟩
  | 75 => ⟨S8x96x290, .f32⟩
  | 76 => ⟨S_, .f32⟩
  | 77 => ⟨S8x96x290, .f32⟩
  | 78 => ⟨S8x96x290, .f32⟩
  | 79 => ⟨S_, .i32⟩
  | 80 => ⟨S_, .f32⟩
  | 81 => ⟨S8x96x320, .f32⟩
  | 82 => ⟨S8x128x96x289, .f32⟩
  | 83 => ⟨S8x128x96x289, .f32⟩
  | 84 => ⟨S8x128x96x289, .f32⟩
  | 85 => ⟨S_, .f32⟩
  | 86 => ⟨S8x96x289, .f32⟩
  | 87 => ⟨S_, .f32⟩
  | 88 => ⟨S8x96x289, .f32⟩
  | 89 => ⟨S8x96x289, .f32⟩
  | 90 => ⟨S_, .i32⟩
  | 91 => ⟨S_, .f32⟩
  | 92 => ⟨S8x96x320, .f32⟩
  | 93 => ⟨S8x128x96x288, .f32⟩
  | 94 => ⟨S8x128x96x288, .f32⟩
  | 95 => ⟨S8x128x96x288, .f32⟩
  | 96 => ⟨S_, .f32⟩
  | 97 => ⟨S8x96x288, .f32⟩
  | 98 => ⟨S_, .f32⟩
  | 99 => ⟨S8x96x288, .f32⟩
  | 100 => ⟨S8x96x288, .f32⟩
  | 101 => ⟨S_, .i32⟩
  | 102 => ⟨S_, .f32⟩
  | 103 => ⟨S8x96x320, .f32⟩
  | 104 => ⟨S8x128x96x287, .f32⟩
  | 105 => ⟨S8x128x96x287, .f32⟩
  | 106 => ⟨S8x128x96x287, .f32⟩
  | 107 => ⟨S_, .f32⟩
  | 108 => ⟨S8x96x287, .f32⟩
  | 109 => ⟨S_, .f32⟩
  | 110 => ⟨S8x96x287, .f32⟩
  | 111 => ⟨S8x96x287, .f32⟩
  | 112 => ⟨S_, .i32⟩
  | 113 => ⟨S_, .f32⟩
  | 114 => ⟨S8x96x320, .f32⟩
  | 115 => ⟨S8x128x96x286, .f32⟩
  | 116 => ⟨S8x128x96x286, .f32⟩
  | 117 => ⟨S8x128x96x286, .f32⟩
  | 118 => ⟨S_, .f32⟩
  | 119 => ⟨S8x96x286, .f32⟩
  | 120 => ⟨S_, .f32⟩
  | 121 => ⟨S8x96x286, .f32⟩
  | 122 => ⟨S8x96x286, .f32⟩
  | 123 => ⟨S_, .i32⟩
  | 124 => ⟨S_, .f32⟩
  | 125 => ⟨S8x96x320, .f32⟩
  | 126 => ⟨S8x128x96x285, .f32⟩
  | 127 => ⟨S8x128x96x285, .f32⟩
  | _ => ⟨S8x128x96x320, .f32⟩

abbrev hbmTy0_3 (i : Nat) : BufTy := match i % 128 with
  | 0 => ⟨S8x128x96x285, .f32⟩
  | 1 => ⟨S_, .f32⟩
  | 2 => ⟨S8x96x285, .f32⟩
  | 3 => ⟨S_, .f32⟩
  | 4 => ⟨S8x96x285, .f32⟩
  | 5 => ⟨S8x96x285, .f32⟩
  | 6 => ⟨S_, .i32⟩
  | 7 => ⟨S_, .f32⟩
  | 8 => ⟨S8x96x320, .f32⟩
  | 9 => ⟨S8x128x96x284, .f32⟩
  | 10 => ⟨S8x128x96x284, .f32⟩
  | 11 => ⟨S8x128x96x284, .f32⟩
  | 12 => ⟨S_, .f32⟩
  | 13 => ⟨S8x96x284, .f32⟩
  | 14 => ⟨S_, .f32⟩
  | 15 => ⟨S8x96x284, .f32⟩
  | 16 => ⟨S8x96x284, .f32⟩
  | 17 => ⟨S_, .i32⟩
  | 18 => ⟨S_, .f32⟩
  | 19 => ⟨S8x96x320, .f32⟩
  | 20 => ⟨S8x128x96x283, .f32⟩
  | 21 => ⟨S8x128x96x283, .f32⟩
  | 22 => ⟨S8x128x96x283, .f32⟩
  | 23 => ⟨S_, .f32⟩
  | 24 => ⟨S8x96x283, .f32⟩
  | 25 => ⟨S_, .f32⟩
  | 26 => ⟨S8x96x283, .f32⟩
  | 27 => ⟨S8x96x283, .f32⟩
  | 28 => ⟨S_, .i32⟩
  | 29 => ⟨S_, .f32⟩
  | 30 => ⟨S8x96x320, .f32⟩
  | 31 => ⟨S8x128x96x282, .f32⟩
  | 32 => ⟨S8x128x96x282, .f32⟩
  | 33 => ⟨S8x128x96x282, .f32⟩
  | 34 => ⟨S_, .f32⟩
  | 35 => ⟨S8x96x282, .f32⟩
  | 36 => ⟨S_, .f32⟩
  | 37 => ⟨S8x96x282, .f32⟩
  | 38 => ⟨S8x96x282, .f32⟩
  | 39 => ⟨S_, .i32⟩
  | 40 => ⟨S_, .f32⟩
  | 41 => ⟨S8x96x320, .f32⟩
  | 42 => ⟨S8x128x96x281, .f32⟩
  | 43 => ⟨S8x128x96x281, .f32⟩
  | 44 => ⟨S8x128x96x281, .f32⟩
  | 45 => ⟨S_, .f32⟩
  | 46 => ⟨S8x96x281, .f32⟩
  | 47 => ⟨S_, .f32⟩
  | 48 => ⟨S8x96x281, .f32⟩
  | 49 => ⟨S8x96x281, .f32⟩
  | 50 => ⟨S_, .i32⟩
  | 51 => ⟨S_, .f32⟩
  | 52 => ⟨S8x96x320, .f32⟩
  | 53 => ⟨S8x128x96x280, .f32⟩
  | 54 => ⟨S8x128x96x280, .f32⟩
  | 55 => ⟨S8x128x96x280, .f32⟩
  | 56 => ⟨S_, .f32⟩
  | 57 => ⟨S8x96x280, .f32⟩
  | 58 => ⟨S_, .f32⟩
  | 59 => ⟨S8x96x280, .f32⟩
  | 60 => ⟨S8x96x280, .f32⟩
  | 61 => ⟨S_, .i32⟩
  | 62 => ⟨S_, .f32⟩
  | 63 => ⟨S8x96x320, .f32⟩
  | 64 => ⟨S8x128x96x279, .f32⟩
  | 65 => ⟨S8x128x96x279, .f32⟩
  | 66 => ⟨S8x128x96x279, .f32⟩
  | 67 => ⟨S_, .f32⟩
  | 68 => ⟨S8x96x279, .f32⟩
  | 69 => ⟨S_, .f32⟩
  | 70 => ⟨S8x96x279, .f32⟩
  | 71 => ⟨S8x96x279, .f32⟩
  | 72 => ⟨S_, .i32⟩
  | 73 => ⟨S_, .f32⟩
  | 74 => ⟨S8x96x320, .f32⟩
  | 75 => ⟨S8x128x96x278, .f32⟩
  | 76 => ⟨S8x128x96x278, .f32⟩
  | 77 => ⟨S8x128x96x278, .f32⟩
  | 78 => ⟨S_, .f32⟩
  | 79 => ⟨S8x96x278, .f32⟩
  | 80 => ⟨S_, .f32⟩
  | 81 => ⟨S8x96x278, .f32⟩
  | 82 => ⟨S8x96x278, .f32⟩
  | 83 => ⟨S_, .i32⟩
  | 84 => ⟨S_, .f32⟩
  | 85 => ⟨S8x96x320, .f32⟩
  | 86 => ⟨S8x128x96x277, .f32⟩
  | 87 => ⟨S8x128x96x277, .f32⟩
  | 88 => ⟨S8x128x96x277, .f32⟩
  | 89 => ⟨S_, .f32⟩
  | 90 => ⟨S8x96x277, .f32⟩
  | 91 => ⟨S_, .f32⟩
  | 92 => ⟨S8x96x277, .f32⟩
  | 93 => ⟨S8x96x277, .f32⟩
  | 94 => ⟨S_, .i32⟩
  | 95 => ⟨S_, .f32⟩
  | 96 => ⟨S8x96x320, .f32⟩
  | 97 => ⟨S8x128x96x276, .f32⟩
  | 98 => ⟨S8x128x96x276, .f32⟩
  | 99 => ⟨S8x128x96x276, .f32⟩
  | 100 => ⟨S_, .f32⟩
  | 101 => ⟨S8x96x276, .f32⟩
  | 102 => ⟨S_, .f32⟩
  | 103 => ⟨S8x96x276, .f32⟩
  | 104 => ⟨S8x96x276, .f32⟩
  | 105 => ⟨S_, .i32⟩
  | 106 => ⟨S_, .f32⟩
  | 107 => ⟨S8x96x320, .f32⟩
  | 108 => ⟨S8x128x96x275, .f32⟩
  | 109 => ⟨S8x128x96x275, .f32⟩
  | 110 => ⟨S8x128x96x275, .f32⟩
  | 111 => ⟨S_, .f32⟩
  | 112 => ⟨S8x96x275, .f32⟩
  | 113 => ⟨S_, .f32⟩
  | 114 => ⟨S8x96x275, .f32⟩
  | 115 => ⟨S8x96x275, .f32⟩
  | 116 => ⟨S_, .i32⟩
  | 117 => ⟨S_, .f32⟩
  | 118 => ⟨S8x96x320, .f32⟩
  | 119 => ⟨S8x128x96x274, .f32⟩
  | 120 => ⟨S8x128x96x274, .f32⟩
  | 121 => ⟨S8x128x96x274, .f32⟩
  | 122 => ⟨S_, .f32⟩
  | 123 => ⟨S8x96x274, .f32⟩
  | 124 => ⟨S_, .f32⟩
  | 125 => ⟨S8x96x274, .f32⟩
  | 126 => ⟨S8x96x274, .f32⟩
  | 127 => ⟨S_, .i32⟩
  | _ => ⟨S8x128x96x320, .f32⟩

abbrev hbmTy0_4 (i : Nat) : BufTy := match i % 128 with
  | 0 => ⟨S_, .f32⟩
  | 1 => ⟨S8x96x320, .f32⟩
  | 2 => ⟨S8x128x96x273, .f32⟩
  | 3 => ⟨S8x128x96x273, .f32⟩
  | 4 => ⟨S8x128x96x273, .f32⟩
  | 5 => ⟨S_, .f32⟩
  | 6 => ⟨S8x96x273, .f32⟩
  | 7 => ⟨S_, .f32⟩
  | 8 => ⟨S8x96x273, .f32⟩
  | 9 => ⟨S8x96x273, .f32⟩
  | 10 => ⟨S_, .i32⟩
  | 11 => ⟨S_, .f32⟩
  | 12 => ⟨S8x96x320, .f32⟩
  | 13 => ⟨S8x1x96x320, .f32⟩
  | 14 => ⟨S8x1x96x320, .f32⟩
  | 15 => ⟨S8x1x96x320, .f32⟩
  | 16 => ⟨S8x1x96x320, .f32⟩
  | 17 => ⟨S8x1x96x320, .f32⟩
  | 18 => ⟨S8x1x96x320, .f32⟩
  | 19 => ⟨S8x1x96x320, .f32⟩
  | 20 => ⟨S8x1x96x320, .f32⟩
  | 21 => ⟨S8x1x96x320, .f32⟩
  | 22 => ⟨S8x1x96x320, .f32⟩
  | 23 => ⟨S8x1x96x320, .f32⟩
  | 24 => ⟨S8x1x96x320, .f32⟩
  | 25 => ⟨S8x1x96x320, .f32⟩
  | 26 => ⟨S8x1x96x320, .f32⟩
  | 27 => ⟨S8x1x96x320, .f32⟩
  | 28 => ⟨S8x1x96x320, .f32⟩
  | 29 => ⟨S8x1x96x320, .f32⟩
  | 30 => ⟨S8x1x96x320, .f32⟩
  | 31 => ⟨S8x1x96x320, .f32⟩
  | 32 => ⟨S8x1x96x320, .f32⟩
  | 33 => ⟨S8x1x96x320, .f32⟩
  | 34 => ⟨S8x1x96x320, .f32⟩
  | 35 => ⟨S8x1x96x320, .f32⟩
  | 36 => ⟨S8x1x96x320, .f32⟩
  | 37 => ⟨S8x1x96x320, .f32⟩
  | 38 => ⟨S8x1x96x320, .f32⟩
  | 39 => ⟨S8x1x96x320, .f32⟩
  | 40 => ⟨S8x1x96x320, .f32⟩
  | 41 => ⟨S8x1x96x320, .f32⟩
  | 42 => ⟨S8x1x96x320, .f32⟩
  | 43 => ⟨S8x1x96x320, .f32⟩
  | 44 => ⟨S8x1x96x320, .f32⟩
  | 45 => ⟨S8x1x96x320, .f32⟩
  | 46 => ⟨S8x1x96x320, .f32⟩
  | 47 => ⟨S8x1x96x320, .f32⟩
  | 48 => ⟨S8x1x96x320, .f32⟩
  | 49 => ⟨S8x1x96x320, .f32⟩
  | 50 => ⟨S8x1x96x320, .f32⟩
  | 51 => ⟨S8x1x96x320, .f32⟩
  | 52 => ⟨S8x1x96x320, .f32⟩
  | 53 => ⟨S8x1x96x320, .f32⟩
  | 54 => ⟨S8x1x96x320, .f32⟩
  | 55 => ⟨S8x1x96x320, .f32⟩
  | 56 => ⟨S8x1x96x320, .f32⟩
  | 57 => ⟨S8x1x96x320, .f32⟩
  | 58 => ⟨S8x1x96x320, .f32⟩
  | 59 => ⟨S8x1x96x320, .f32⟩
  | 60 => ⟨S8x1x96x320, .f32⟩
  | 61 => ⟨S8x16x96x320, .f32⟩
  | 62 => ⟨S8x16x96x320, .f32⟩
  | 63 => ⟨S8x16x96x320, .f32⟩
  | 64 => ⟨S8x48x96x320, .f32⟩
  | _ => ⟨S8x128x96x320, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x128x96x320, .f32⟩

abbrev bufTy : (tb : Table) → Fin (tcTables nBuf tb) → BufTy
  | .hbm, ⟨i, _⟩ => hbmTy i
  | _, _ => ⟨S8x128x96x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_call2_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_c_11 : Ref sig .tc := ⟨.hbm, 49, rfl⟩
abbrev main_call3_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_v37 : Ref sig .tc := ⟨.hbm, 59, rfl⟩
abbrev main_c_14 : Ref sig .tc := ⟨.hbm, 60, rfl⟩
abbrev main_call4_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_15 : Ref sig .tc := ⟨.hbm, 66, rfl⟩
abbrev main_v42 : Ref sig .tc := ⟨.hbm, 67, rfl⟩
abbrev main_cst_16 : Ref sig .tc := ⟨.hbm, 68, rfl⟩
abbrev main_v43 : Ref sig .tc := ⟨.hbm, 69, rfl⟩
abbrev main_v44 : Ref sig .tc := ⟨.hbm, 70, rfl⟩
abbrev main_c_17 : Ref sig .tc := ⟨.hbm, 71, rfl⟩
abbrev main_call5_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_v49 : Ref sig .tc := ⟨.hbm, 78, rfl⟩
abbrev main_cst_19 : Ref sig .tc := ⟨.hbm, 79, rfl⟩
abbrev main_v50 : Ref sig .tc := ⟨.hbm, 80, rfl⟩
abbrev main_v51 : Ref sig .tc := ⟨.hbm, 81, rfl⟩
abbrev main_c_20 : Ref sig .tc := ⟨.hbm, 82, rfl⟩
abbrev main_call6_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_21 : Ref sig .tc := ⟨.hbm, 88, rfl⟩
abbrev main_v56 : Ref sig .tc := ⟨.hbm, 89, rfl⟩
abbrev main_cst_22 : Ref sig .tc := ⟨.hbm, 90, rfl⟩
abbrev main_v57 : Ref sig .tc := ⟨.hbm, 91, rfl⟩
abbrev main_v58 : Ref sig .tc := ⟨.hbm, 92, rfl⟩
abbrev main_c_23 : Ref sig .tc := ⟨.hbm, 93, rfl⟩
abbrev main_call7_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_24 : Ref sig .tc := ⟨.hbm, 99, rfl⟩
abbrev main_v63 : Ref sig .tc := ⟨.hbm, 100, rfl⟩
abbrev main_cst_25 : Ref sig .tc := ⟨.hbm, 101, rfl⟩
abbrev main_v64 : Ref sig .tc := ⟨.hbm, 102, rfl⟩
abbrev main_v65 : Ref sig .tc := ⟨.hbm, 103, rfl⟩
abbrev main_c_26 : Ref sig .tc := ⟨.hbm, 104, rfl⟩
abbrev main_call8_v0 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_cst_28 : Ref sig .tc := ⟨.hbm, 112, rfl⟩
abbrev main_v71 : Ref sig .tc := ⟨.hbm, 113, rfl⟩
abbrev main_v72 : Ref sig .tc := ⟨.hbm, 114, rfl⟩
abbrev main_c_29 : Ref sig .tc := ⟨.hbm, 115, rfl⟩
abbrev main_call9_v0 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_30 : Ref sig .tc := ⟨.hbm, 121, rfl⟩
abbrev main_v77 : Ref sig .tc := ⟨.hbm, 122, rfl⟩
abbrev main_cst_31 : Ref sig .tc := ⟨.hbm, 123, rfl⟩
abbrev main_v78 : Ref sig .tc := ⟨.hbm, 124, rfl⟩
abbrev main_v79 : Ref sig .tc := ⟨.hbm, 125, rfl⟩
abbrev main_c_32 : Ref sig .tc := ⟨.hbm, 126, rfl⟩
abbrev main_call10_v0 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_33 : Ref sig .tc := ⟨.hbm, 132, rfl⟩
abbrev main_v84 : Ref sig .tc := ⟨.hbm, 133, rfl⟩
abbrev main_cst_34 : Ref sig .tc := ⟨.hbm, 134, rfl⟩
abbrev main_v85 : Ref sig .tc := ⟨.hbm, 135, rfl⟩
abbrev main_v86 : Ref sig .tc := ⟨.hbm, 136, rfl⟩
abbrev main_c_35 : Ref sig .tc := ⟨.hbm, 137, rfl⟩
abbrev main_call11_v0 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_36 : Ref sig .tc := ⟨.hbm, 143, rfl⟩
abbrev main_v91 : Ref sig .tc := ⟨.hbm, 144, rfl⟩
abbrev main_cst_37 : Ref sig .tc := ⟨.hbm, 145, rfl⟩
abbrev main_v92 : Ref sig .tc := ⟨.hbm, 146, rfl⟩
abbrev main_v93 : Ref sig .tc := ⟨.hbm, 147, rfl⟩
abbrev main_c_38 : Ref sig .tc := ⟨.hbm, 148, rfl⟩
abbrev main_call12_v0 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_39 : Ref sig .tc := ⟨.hbm, 154, rfl⟩
abbrev main_v98 : Ref sig .tc := ⟨.hbm, 155, rfl⟩
abbrev main_cst_40 : Ref sig .tc := ⟨.hbm, 156, rfl⟩
abbrev main_v99 : Ref sig .tc := ⟨.hbm, 157, rfl⟩
abbrev main_v100 : Ref sig .tc := ⟨.hbm, 158, rfl⟩
abbrev main_c_41 : Ref sig .tc := ⟨.hbm, 159, rfl⟩
abbrev main_call13_v0 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_42 : Ref sig .tc := ⟨.hbm, 165, rfl⟩
abbrev main_v105 : Ref sig .tc := ⟨.hbm, 166, rfl⟩
abbrev main_cst_43 : Ref sig .tc := ⟨.hbm, 167, rfl⟩
abbrev main_v106 : Ref sig .tc := ⟨.hbm, 168, rfl⟩
abbrev main_v107 : Ref sig .tc := ⟨.hbm, 169, rfl⟩
abbrev main_c_44 : Ref sig .tc := ⟨.hbm, 170, rfl⟩
abbrev main_call14_v0 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_45 : Ref sig .tc := ⟨.hbm, 176, rfl⟩
abbrev main_v112 : Ref sig .tc := ⟨.hbm, 177, rfl⟩
abbrev main_cst_46 : Ref sig .tc := ⟨.hbm, 178, rfl⟩
abbrev main_v113 : Ref sig .tc := ⟨.hbm, 179, rfl⟩
abbrev main_v114 : Ref sig .tc := ⟨.hbm, 180, rfl⟩
abbrev main_c_47 : Ref sig .tc := ⟨.hbm, 181, rfl⟩
abbrev main_call15_v0 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_48 : Ref sig .tc := ⟨.hbm, 187, rfl⟩
abbrev main_v119 : Ref sig .tc := ⟨.hbm, 188, rfl⟩
abbrev main_cst_49 : Ref sig .tc := ⟨.hbm, 189, rfl⟩
abbrev main_v120 : Ref sig .tc := ⟨.hbm, 190, rfl⟩
abbrev main_v121 : Ref sig .tc := ⟨.hbm, 191, rfl⟩
abbrev main_c_50 : Ref sig .tc := ⟨.hbm, 192, rfl⟩
abbrev main_call16_v0 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_51 : Ref sig .tc := ⟨.hbm, 198, rfl⟩
abbrev main_v126 : Ref sig .tc := ⟨.hbm, 199, rfl⟩
abbrev main_cst_52 : Ref sig .tc := ⟨.hbm, 200, rfl⟩
abbrev main_v127 : Ref sig .tc := ⟨.hbm, 201, rfl⟩
abbrev main_v128 : Ref sig .tc := ⟨.hbm, 202, rfl⟩
abbrev main_c_53 : Ref sig .tc := ⟨.hbm, 203, rfl⟩
abbrev main_call17_v0 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_cst_54 : Ref sig .tc := ⟨.hbm, 209, rfl⟩
abbrev main_v133 : Ref sig .tc := ⟨.hbm, 210, rfl⟩
abbrev main_cst_55 : Ref sig .tc := ⟨.hbm, 211, rfl⟩
abbrev main_v134 : Ref sig .tc := ⟨.hbm, 212, rfl⟩
abbrev main_v135 : Ref sig .tc := ⟨.hbm, 213, rfl⟩
abbrev main_c_56 : Ref sig .tc := ⟨.hbm, 214, rfl⟩
abbrev main_call18_v0 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_cst_57 : Ref sig .tc := ⟨.hbm, 220, rfl⟩
abbrev main_v140 : Ref sig .tc := ⟨.hbm, 221, rfl⟩
abbrev main_cst_58 : Ref sig .tc := ⟨.hbm, 222, rfl⟩
abbrev main_v141 : Ref sig .tc := ⟨.hbm, 223, rfl⟩
abbrev main_v142 : Ref sig .tc := ⟨.hbm, 224, rfl⟩
abbrev main_c_59 : Ref sig .tc := ⟨.hbm, 225, rfl⟩
abbrev main_call19_v0 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_cst_60 : Ref sig .tc := ⟨.hbm, 231, rfl⟩
abbrev main_v147 : Ref sig .tc := ⟨.hbm, 232, rfl⟩
abbrev main_cst_61 : Ref sig .tc := ⟨.hbm, 233, rfl⟩
abbrev main_v148 : Ref sig .tc := ⟨.hbm, 234, rfl⟩
abbrev main_v149 : Ref sig .tc := ⟨.hbm, 235, rfl⟩
abbrev main_c_62 : Ref sig .tc := ⟨.hbm, 236, rfl⟩
abbrev main_call20_v0 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_cst_63 : Ref sig .tc := ⟨.hbm, 242, rfl⟩
abbrev main_v154 : Ref sig .tc := ⟨.hbm, 243, rfl⟩
abbrev main_cst_64 : Ref sig .tc := ⟨.hbm, 244, rfl⟩
abbrev main_v155 : Ref sig .tc := ⟨.hbm, 245, rfl⟩
abbrev main_v156 : Ref sig .tc := ⟨.hbm, 246, rfl⟩
abbrev main_c_65 : Ref sig .tc := ⟨.hbm, 247, rfl⟩
abbrev main_call21_v0 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_cst_66 : Ref sig .tc := ⟨.hbm, 253, rfl⟩
abbrev main_v161 : Ref sig .tc := ⟨.hbm, 254, rfl⟩
abbrev main_cst_67 : Ref sig .tc := ⟨.hbm, 255, rfl⟩
abbrev main_v162 : Ref sig .tc := ⟨.hbm, 256, rfl⟩
abbrev main_v163 : Ref sig .tc := ⟨.hbm, 257, rfl⟩
abbrev main_c_68 : Ref sig .tc := ⟨.hbm, 258, rfl⟩
abbrev main_call22_v0 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_cst_69 : Ref sig .tc := ⟨.hbm, 264, rfl⟩
abbrev main_v168 : Ref sig .tc := ⟨.hbm, 265, rfl⟩
abbrev main_cst_70 : Ref sig .tc := ⟨.hbm, 266, rfl⟩
abbrev main_v169 : Ref sig .tc := ⟨.hbm, 267, rfl⟩
abbrev main_v170 : Ref sig .tc := ⟨.hbm, 268, rfl⟩
abbrev main_c_71 : Ref sig .tc := ⟨.hbm, 269, rfl⟩
abbrev main_call23_v0 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_cst_72 : Ref sig .tc := ⟨.hbm, 275, rfl⟩
abbrev main_v175 : Ref sig .tc := ⟨.hbm, 276, rfl⟩
abbrev main_cst_73 : Ref sig .tc := ⟨.hbm, 277, rfl⟩
abbrev main_v176 : Ref sig .tc := ⟨.hbm, 278, rfl⟩
abbrev main_v177 : Ref sig .tc := ⟨.hbm, 279, rfl⟩
abbrev main_c_74 : Ref sig .tc := ⟨.hbm, 280, rfl⟩
abbrev main_call24_v0 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_cst_75 : Ref sig .tc := ⟨.hbm, 286, rfl⟩
abbrev main_v182 : Ref sig .tc := ⟨.hbm, 287, rfl⟩
abbrev main_cst_76 : Ref sig .tc := ⟨.hbm, 288, rfl⟩
abbrev main_v183 : Ref sig .tc := ⟨.hbm, 289, rfl⟩
abbrev main_v184 : Ref sig .tc := ⟨.hbm, 290, rfl⟩
abbrev main_c_77 : Ref sig .tc := ⟨.hbm, 291, rfl⟩
abbrev main_call25_v0 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_cst_78 : Ref sig .tc := ⟨.hbm, 297, rfl⟩
abbrev main_v189 : Ref sig .tc := ⟨.hbm, 298, rfl⟩
abbrev main_cst_79 : Ref sig .tc := ⟨.hbm, 299, rfl⟩
abbrev main_v190 : Ref sig .tc := ⟨.hbm, 300, rfl⟩
abbrev main_v191 : Ref sig .tc := ⟨.hbm, 301, rfl⟩
abbrev main_c_80 : Ref sig .tc := ⟨.hbm, 302, rfl⟩
abbrev main_call26_v0 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_cst_81 : Ref sig .tc := ⟨.hbm, 308, rfl⟩
abbrev main_v196 : Ref sig .tc := ⟨.hbm, 309, rfl⟩
abbrev main_cst_82 : Ref sig .tc := ⟨.hbm, 310, rfl⟩
abbrev main_v197 : Ref sig .tc := ⟨.hbm, 311, rfl⟩
abbrev main_v198 : Ref sig .tc := ⟨.hbm, 312, rfl⟩
abbrev main_c_83 : Ref sig .tc := ⟨.hbm, 313, rfl⟩
abbrev main_call27_v0 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_84 : Ref sig .tc := ⟨.hbm, 319, rfl⟩
abbrev main_v203 : Ref sig .tc := ⟨.hbm, 320, rfl⟩
abbrev main_cst_85 : Ref sig .tc := ⟨.hbm, 321, rfl⟩
abbrev main_v204 : Ref sig .tc := ⟨.hbm, 322, rfl⟩
abbrev main_v205 : Ref sig .tc := ⟨.hbm, 323, rfl⟩
abbrev main_c_86 : Ref sig .tc := ⟨.hbm, 324, rfl⟩
abbrev main_call28_v0 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_cst_87 : Ref sig .tc := ⟨.hbm, 330, rfl⟩
abbrev main_v210 : Ref sig .tc := ⟨.hbm, 331, rfl⟩
abbrev main_cst_88 : Ref sig .tc := ⟨.hbm, 332, rfl⟩
abbrev main_v211 : Ref sig .tc := ⟨.hbm, 333, rfl⟩
abbrev main_v212 : Ref sig .tc := ⟨.hbm, 334, rfl⟩
abbrev main_c_89 : Ref sig .tc := ⟨.hbm, 335, rfl⟩
abbrev main_call29_v0 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_cst_90 : Ref sig .tc := ⟨.hbm, 341, rfl⟩
abbrev main_v217 : Ref sig .tc := ⟨.hbm, 342, rfl⟩
abbrev main_cst_91 : Ref sig .tc := ⟨.hbm, 343, rfl⟩
abbrev main_v218 : Ref sig .tc := ⟨.hbm, 344, rfl⟩
abbrev main_v219 : Ref sig .tc := ⟨.hbm, 345, rfl⟩
abbrev main_c_92 : Ref sig .tc := ⟨.hbm, 346, rfl⟩
abbrev main_call30_v0 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_93 : Ref sig .tc := ⟨.hbm, 352, rfl⟩
abbrev main_v224 : Ref sig .tc := ⟨.hbm, 353, rfl⟩
abbrev main_cst_94 : Ref sig .tc := ⟨.hbm, 354, rfl⟩
abbrev main_v225 : Ref sig .tc := ⟨.hbm, 355, rfl⟩
abbrev main_v226 : Ref sig .tc := ⟨.hbm, 356, rfl⟩
abbrev main_c_95 : Ref sig .tc := ⟨.hbm, 357, rfl⟩
abbrev main_call31_v0 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_cst_96 : Ref sig .tc := ⟨.hbm, 363, rfl⟩
abbrev main_v231 : Ref sig .tc := ⟨.hbm, 364, rfl⟩
abbrev main_cst_97 : Ref sig .tc := ⟨.hbm, 365, rfl⟩
abbrev main_v232 : Ref sig .tc := ⟨.hbm, 366, rfl⟩
abbrev main_v233 : Ref sig .tc := ⟨.hbm, 367, rfl⟩
abbrev main_c_98 : Ref sig .tc := ⟨.hbm, 368, rfl⟩
abbrev main_call32_v0 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_cst_99 : Ref sig .tc := ⟨.hbm, 374, rfl⟩
abbrev main_v238 : Ref sig .tc := ⟨.hbm, 375, rfl⟩
abbrev main_cst_100 : Ref sig .tc := ⟨.hbm, 376, rfl⟩
abbrev main_v239 : Ref sig .tc := ⟨.hbm, 377, rfl⟩
abbrev main_v240 : Ref sig .tc := ⟨.hbm, 378, rfl⟩
abbrev main_c_101 : Ref sig .tc := ⟨.hbm, 379, rfl⟩
abbrev main_call33_v0 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_102 : Ref sig .tc := ⟨.hbm, 385, rfl⟩
abbrev main_v245 : Ref sig .tc := ⟨.hbm, 386, rfl⟩
abbrev main_cst_103 : Ref sig .tc := ⟨.hbm, 387, rfl⟩
abbrev main_v246 : Ref sig .tc := ⟨.hbm, 388, rfl⟩
abbrev main_v247 : Ref sig .tc := ⟨.hbm, 389, rfl⟩
abbrev main_c_104 : Ref sig .tc := ⟨.hbm, 390, rfl⟩
abbrev main_call34_v0 : Ref sig .tc := ⟨.hbm, 391, rfl⟩
abbrev main_v248 : Ref sig .tc := ⟨.hbm, 392, rfl⟩
abbrev main_v249 : Ref sig .tc := ⟨.hbm, 393, rfl⟩
abbrev main_v250 : Ref sig .tc := ⟨.hbm, 394, rfl⟩
abbrev main_v251 : Ref sig .tc := ⟨.hbm, 395, rfl⟩
abbrev main_cst_105 : Ref sig .tc := ⟨.hbm, 396, rfl⟩
abbrev main_v252 : Ref sig .tc := ⟨.hbm, 397, rfl⟩
abbrev main_cst_106 : Ref sig .tc := ⟨.hbm, 398, rfl⟩
abbrev main_v253 : Ref sig .tc := ⟨.hbm, 399, rfl⟩
abbrev main_v254 : Ref sig .tc := ⟨.hbm, 400, rfl⟩
abbrev main_c_107 : Ref sig .tc := ⟨.hbm, 401, rfl⟩
abbrev main_call35_v0 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_cst_108 : Ref sig .tc := ⟨.hbm, 407, rfl⟩
abbrev main_v259 : Ref sig .tc := ⟨.hbm, 408, rfl⟩
abbrev main_cst_109 : Ref sig .tc := ⟨.hbm, 409, rfl⟩
abbrev main_v260 : Ref sig .tc := ⟨.hbm, 410, rfl⟩
abbrev main_v261 : Ref sig .tc := ⟨.hbm, 411, rfl⟩
abbrev main_c_110 : Ref sig .tc := ⟨.hbm, 412, rfl⟩
abbrev main_call36_v0 : Ref sig .tc := ⟨.hbm, 413, rfl⟩
abbrev main_v262 : Ref sig .tc := ⟨.hbm, 414, rfl⟩
abbrev main_v263 : Ref sig .tc := ⟨.hbm, 415, rfl⟩
abbrev main_v264 : Ref sig .tc := ⟨.hbm, 416, rfl⟩
abbrev main_v265 : Ref sig .tc := ⟨.hbm, 417, rfl⟩
abbrev main_cst_111 : Ref sig .tc := ⟨.hbm, 418, rfl⟩
abbrev main_v266 : Ref sig .tc := ⟨.hbm, 419, rfl⟩
abbrev main_cst_112 : Ref sig .tc := ⟨.hbm, 420, rfl⟩
abbrev main_v267 : Ref sig .tc := ⟨.hbm, 421, rfl⟩
abbrev main_v268 : Ref sig .tc := ⟨.hbm, 422, rfl⟩
abbrev main_c_113 : Ref sig .tc := ⟨.hbm, 423, rfl⟩
abbrev main_call37_v0 : Ref sig .tc := ⟨.hbm, 424, rfl⟩
abbrev main_v269 : Ref sig .tc := ⟨.hbm, 425, rfl⟩
abbrev main_v270 : Ref sig .tc := ⟨.hbm, 426, rfl⟩
abbrev main_v271 : Ref sig .tc := ⟨.hbm, 427, rfl⟩
abbrev main_v272 : Ref sig .tc := ⟨.hbm, 428, rfl⟩
abbrev main_cst_114 : Ref sig .tc := ⟨.hbm, 429, rfl⟩
abbrev main_v273 : Ref sig .tc := ⟨.hbm, 430, rfl⟩
abbrev main_cst_115 : Ref sig .tc := ⟨.hbm, 431, rfl⟩
abbrev main_v274 : Ref sig .tc := ⟨.hbm, 432, rfl⟩
abbrev main_v275 : Ref sig .tc := ⟨.hbm, 433, rfl⟩
abbrev main_c_116 : Ref sig .tc := ⟨.hbm, 434, rfl⟩
abbrev main_call38_v0 : Ref sig .tc := ⟨.hbm, 435, rfl⟩
abbrev main_v276 : Ref sig .tc := ⟨.hbm, 436, rfl⟩
abbrev main_v277 : Ref sig .tc := ⟨.hbm, 437, rfl⟩
abbrev main_v278 : Ref sig .tc := ⟨.hbm, 438, rfl⟩
abbrev main_v279 : Ref sig .tc := ⟨.hbm, 439, rfl⟩
abbrev main_cst_117 : Ref sig .tc := ⟨.hbm, 440, rfl⟩
abbrev main_v280 : Ref sig .tc := ⟨.hbm, 441, rfl⟩
abbrev main_cst_118 : Ref sig .tc := ⟨.hbm, 442, rfl⟩
abbrev main_v281 : Ref sig .tc := ⟨.hbm, 443, rfl⟩
abbrev main_v282 : Ref sig .tc := ⟨.hbm, 444, rfl⟩
abbrev main_c_119 : Ref sig .tc := ⟨.hbm, 445, rfl⟩
abbrev main_call39_v0 : Ref sig .tc := ⟨.hbm, 446, rfl⟩
abbrev main_v283 : Ref sig .tc := ⟨.hbm, 447, rfl⟩
abbrev main_v284 : Ref sig .tc := ⟨.hbm, 448, rfl⟩
abbrev main_v285 : Ref sig .tc := ⟨.hbm, 449, rfl⟩
abbrev main_v286 : Ref sig .tc := ⟨.hbm, 450, rfl⟩
abbrev main_cst_120 : Ref sig .tc := ⟨.hbm, 451, rfl⟩
abbrev main_v287 : Ref sig .tc := ⟨.hbm, 452, rfl⟩
abbrev main_cst_121 : Ref sig .tc := ⟨.hbm, 453, rfl⟩
abbrev main_v288 : Ref sig .tc := ⟨.hbm, 454, rfl⟩
abbrev main_v289 : Ref sig .tc := ⟨.hbm, 455, rfl⟩
abbrev main_c_122 : Ref sig .tc := ⟨.hbm, 456, rfl⟩
abbrev main_call40_v0 : Ref sig .tc := ⟨.hbm, 457, rfl⟩
abbrev main_v290 : Ref sig .tc := ⟨.hbm, 458, rfl⟩
abbrev main_v291 : Ref sig .tc := ⟨.hbm, 459, rfl⟩
abbrev main_v292 : Ref sig .tc := ⟨.hbm, 460, rfl⟩
abbrev main_v293 : Ref sig .tc := ⟨.hbm, 461, rfl⟩
abbrev main_cst_123 : Ref sig .tc := ⟨.hbm, 462, rfl⟩
abbrev main_v294 : Ref sig .tc := ⟨.hbm, 463, rfl⟩
abbrev main_cst_124 : Ref sig .tc := ⟨.hbm, 464, rfl⟩
abbrev main_v295 : Ref sig .tc := ⟨.hbm, 465, rfl⟩
abbrev main_v296 : Ref sig .tc := ⟨.hbm, 466, rfl⟩
abbrev main_c_125 : Ref sig .tc := ⟨.hbm, 467, rfl⟩
abbrev main_call41_v0 : Ref sig .tc := ⟨.hbm, 468, rfl⟩
abbrev main_v297 : Ref sig .tc := ⟨.hbm, 469, rfl⟩
abbrev main_v298 : Ref sig .tc := ⟨.hbm, 470, rfl⟩
abbrev main_v299 : Ref sig .tc := ⟨.hbm, 471, rfl⟩
abbrev main_v300 : Ref sig .tc := ⟨.hbm, 472, rfl⟩
abbrev main_cst_126 : Ref sig .tc := ⟨.hbm, 473, rfl⟩
abbrev main_v301 : Ref sig .tc := ⟨.hbm, 474, rfl⟩
abbrev main_cst_127 : Ref sig .tc := ⟨.hbm, 475, rfl⟩
abbrev main_v302 : Ref sig .tc := ⟨.hbm, 476, rfl⟩
abbrev main_v303 : Ref sig .tc := ⟨.hbm, 477, rfl⟩
abbrev main_c_128 : Ref sig .tc := ⟨.hbm, 478, rfl⟩
abbrev main_call42_v0 : Ref sig .tc := ⟨.hbm, 479, rfl⟩
abbrev main_v304 : Ref sig .tc := ⟨.hbm, 480, rfl⟩
abbrev main_v305 : Ref sig .tc := ⟨.hbm, 481, rfl⟩
abbrev main_v306 : Ref sig .tc := ⟨.hbm, 482, rfl⟩
abbrev main_v307 : Ref sig .tc := ⟨.hbm, 483, rfl⟩
abbrev main_cst_129 : Ref sig .tc := ⟨.hbm, 484, rfl⟩
abbrev main_v308 : Ref sig .tc := ⟨.hbm, 485, rfl⟩
abbrev main_cst_130 : Ref sig .tc := ⟨.hbm, 486, rfl⟩
abbrev main_v309 : Ref sig .tc := ⟨.hbm, 487, rfl⟩
abbrev main_v310 : Ref sig .tc := ⟨.hbm, 488, rfl⟩
abbrev main_c_131 : Ref sig .tc := ⟨.hbm, 489, rfl⟩
abbrev main_call43_v0 : Ref sig .tc := ⟨.hbm, 490, rfl⟩
abbrev main_v311 : Ref sig .tc := ⟨.hbm, 491, rfl⟩
abbrev main_v312 : Ref sig .tc := ⟨.hbm, 492, rfl⟩
abbrev main_v313 : Ref sig .tc := ⟨.hbm, 493, rfl⟩
abbrev main_v314 : Ref sig .tc := ⟨.hbm, 494, rfl⟩
abbrev main_cst_132 : Ref sig .tc := ⟨.hbm, 495, rfl⟩
abbrev main_v315 : Ref sig .tc := ⟨.hbm, 496, rfl⟩
abbrev main_cst_133 : Ref sig .tc := ⟨.hbm, 497, rfl⟩
abbrev main_v316 : Ref sig .tc := ⟨.hbm, 498, rfl⟩
abbrev main_v317 : Ref sig .tc := ⟨.hbm, 499, rfl⟩
abbrev main_c_134 : Ref sig .tc := ⟨.hbm, 500, rfl⟩
abbrev main_call44_v0 : Ref sig .tc := ⟨.hbm, 501, rfl⟩
abbrev main_v318 : Ref sig .tc := ⟨.hbm, 502, rfl⟩
abbrev main_v319 : Ref sig .tc := ⟨.hbm, 503, rfl⟩
abbrev main_v320 : Ref sig .tc := ⟨.hbm, 504, rfl⟩
abbrev main_v321 : Ref sig .tc := ⟨.hbm, 505, rfl⟩
abbrev main_cst_135 : Ref sig .tc := ⟨.hbm, 506, rfl⟩
abbrev main_v322 : Ref sig .tc := ⟨.hbm, 507, rfl⟩
abbrev main_cst_136 : Ref sig .tc := ⟨.hbm, 508, rfl⟩
abbrev main_v323 : Ref sig .tc := ⟨.hbm, 509, rfl⟩
abbrev main_v324 : Ref sig .tc := ⟨.hbm, 510, rfl⟩
abbrev main_c_137 : Ref sig .tc := ⟨.hbm, 511, rfl⟩
abbrev main_call45_v0 : Ref sig .tc := ⟨.hbm, 512, rfl⟩
abbrev main_v325 : Ref sig .tc := ⟨.hbm, 513, rfl⟩
abbrev main_v326 : Ref sig .tc := ⟨.hbm, 514, rfl⟩
abbrev main_v327 : Ref sig .tc := ⟨.hbm, 515, rfl⟩
abbrev main_v328 : Ref sig .tc := ⟨.hbm, 516, rfl⟩
abbrev main_cst_138 : Ref sig .tc := ⟨.hbm, 517, rfl⟩
abbrev main_v329 : Ref sig .tc := ⟨.hbm, 518, rfl⟩
abbrev main_cst_139 : Ref sig .tc := ⟨.hbm, 519, rfl⟩
abbrev main_v330 : Ref sig .tc := ⟨.hbm, 520, rfl⟩
abbrev main_v331 : Ref sig .tc := ⟨.hbm, 521, rfl⟩
abbrev main_c_140 : Ref sig .tc := ⟨.hbm, 522, rfl⟩
abbrev main_call46_v0 : Ref sig .tc := ⟨.hbm, 523, rfl⟩
abbrev main_v332 : Ref sig .tc := ⟨.hbm, 524, rfl⟩
abbrev main_v333 : Ref sig .tc := ⟨.hbm, 525, rfl⟩
abbrev main_v334 : Ref sig .tc := ⟨.hbm, 526, rfl⟩
abbrev main_v335 : Ref sig .tc := ⟨.hbm, 527, rfl⟩
abbrev main_v336 : Ref sig .tc := ⟨.hbm, 528, rfl⟩
abbrev main_v337 : Ref sig .tc := ⟨.hbm, 529, rfl⟩
abbrev main_v338 : Ref sig .tc := ⟨.hbm, 530, rfl⟩
abbrev main_v339 : Ref sig .tc := ⟨.hbm, 531, rfl⟩
abbrev main_v340 : Ref sig .tc := ⟨.hbm, 532, rfl⟩
abbrev main_v341 : Ref sig .tc := ⟨.hbm, 533, rfl⟩
abbrev main_v342 : Ref sig .tc := ⟨.hbm, 534, rfl⟩
abbrev main_v343 : Ref sig .tc := ⟨.hbm, 535, rfl⟩
abbrev main_v344 : Ref sig .tc := ⟨.hbm, 536, rfl⟩
abbrev main_v345 : Ref sig .tc := ⟨.hbm, 537, rfl⟩
abbrev main_v346 : Ref sig .tc := ⟨.hbm, 538, rfl⟩
abbrev main_v347 : Ref sig .tc := ⟨.hbm, 539, rfl⟩
abbrev main_v348 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_v352 : Ref sig .tc := ⟨.hbm, 544, rfl⟩
abbrev main_v353 : Ref sig .tc := ⟨.hbm, 545, rfl⟩
abbrev main_v354 : Ref sig .tc := ⟨.hbm, 546, rfl⟩
abbrev main_v355 : Ref sig .tc := ⟨.hbm, 547, rfl⟩
abbrev main_v356 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_v360 : Ref sig .tc := ⟨.hbm, 552, rfl⟩
abbrev main_v361 : Ref sig .tc := ⟨.hbm, 553, rfl⟩
abbrev main_v362 : Ref sig .tc := ⟨.hbm, 554, rfl⟩
abbrev main_v363 : Ref sig .tc := ⟨.hbm, 555, rfl⟩
abbrev main_v364 : Ref sig .tc := ⟨.hbm, 556, rfl⟩
abbrev main_v365 : Ref sig .tc := ⟨.hbm, 557, rfl⟩
abbrev main_v366 : Ref sig .tc := ⟨.hbm, 558, rfl⟩
abbrev main_v367 : Ref sig .tc := ⟨.hbm, 559, rfl⟩
abbrev main_v368 : Ref sig .tc := ⟨.hbm, 560, rfl⟩
abbrev main_v369 : Ref sig .tc := ⟨.hbm, 561, rfl⟩
abbrev main_v370 : Ref sig .tc := ⟨.hbm, 562, rfl⟩
abbrev main_v371 : Ref sig .tc := ⟨.hbm, 563, rfl⟩
abbrev main_v372 : Ref sig .tc := ⟨.hbm, 564, rfl⟩
abbrev main_v373 : Ref sig .tc := ⟨.hbm, 565, rfl⟩
abbrev main_v374 : Ref sig .tc := ⟨.hbm, 566, rfl⟩
abbrev main_v375 : Ref sig .tc := ⟨.hbm, 567, rfl⟩
abbrev main_v376 : Ref sig .tc := ⟨.hbm, 568, rfl⟩
abbrev main_v377 : Ref sig .tc := ⟨.hbm, 569, rfl⟩
abbrev main_v378 : Ref sig .tc := ⟨.hbm, 570, rfl⟩
abbrev main_v379 : Ref sig .tc := ⟨.hbm, 571, rfl⟩
abbrev main_v380 : Ref sig .tc := ⟨.hbm, 572, rfl⟩
abbrev main_v381 : Ref sig .tc := ⟨.hbm, 573, rfl⟩
abbrev main_v382 : Ref sig .tc := ⟨.hbm, 574, rfl⟩
abbrev main_v383 : Ref sig .tc := ⟨.hbm, 575, rfl⟩
abbrev main_v384 : Ref sig .tc := ⟨.hbm, 576, rfl⟩

abbrev nD : Nat := 1
abbrev τ : Topo := Topo.v7x

variable {F : FTy → Type} [FloatOps F]

class Facts₀ : Prop where
  reducesTo_S8x128x96x320_S8x96x320_d1 : S8x128x96x320.ReducesTo [1] S8x96x320
  h_S_ : 0 < S_.numel
  bcast_S_S8x96x320 : S_.BroadcastsInDim S8x96x320 (![] : Fin 0 → Fin S8x96x320.rank)
  slices_S8x128x96x320_S8x128x96x319_0_0_0_1 : S8x128x96x320.Slices ![0, 0, 0, 1] S8x128x96x319
  slices_S8x128x96x320_S8x128x96x319_0_0_0_0 : S8x128x96x320.Slices ![0, 0, 0, 0] S8x128x96x319
  reducesTo_S8x128x96x319_S8x96x319_d1 : S8x128x96x319.ReducesTo [1] S8x96x319
  bcast_S_S8x96x319 : S_.BroadcastsInDim S8x96x319 (![] : Fin 0 → Fin S8x96x319.rank)
  pads_S8x96x319_S8x96x320_000_000_100 : S8x96x319.Pads (![0, 0, 1] : Fin 3 → Nat) ![0, 0, 0] ![0, 0, 0] S8x96x320
  slices_S8x128x96x320_S8x128x96x318_0_0_0_2 : S8x128x96x320.Slices ![0, 0, 0, 2] S8x128x96x318
  slices_S8x128x96x320_S8x128x96x318_0_0_0_0 : S8x128x96x320.Slices ![0, 0, 0, 0] S8x128x96x318
  reducesTo_S8x128x96x318_S8x96x318_d1 : S8x128x96x318.ReducesTo [1] S8x96x318
  bcast_S_S8x96x318 : S_.BroadcastsInDim S8x96x318 (![] : Fin 0 → Fin S8x96x318.rank)
  pads_S8x96x318_S8x96x320_000_000_200 : S8x96x318.Pads (![0, 0, 2] : Fin 3 → Nat) ![0, 0, 0] ![0, 0, 0] S8x96x320
  slices_S8x128x96x320_S8x128x96x317_0_0_0_3 : S8x128x96x320.Slices ![0, 0, 0, 3] S8x128x96x317
  slices_S8x128x96x320_S8x128x96x317_0_0_0_0 : S8x128x96x320.Slices ![0, 0, 0, 0] S8x128x96x317
  reducesTo_S8x128x96x317_S8x96x317_d1 : S8x128x96x317.ReducesTo [1] S8x96x317
  bcast_S_S8x96x317 : S_.BroadcastsInDim S8x96x317 (![] : Fin 0 → Fin S8x96x317.rank)
  pads_S8x96x317_S8x96x320_000_000_300 : S8x96x317.Pads (![0, 0, 3] : Fin 3 → Nat) ![0, 0, 0] ![0, 0, 0] S8x96x320
  slices_S8x128x96x320_S8x128x96x316_0_0_0_4 : S8x128x96x320.Slices ![0, 0, 0, 4] S8x128x96x316
  slices_S8x128x96x320_S8x128x96x316_0_0_0_0 : S8x128x96x320.Slices ![0, 0, 0, 0] S8x128x96x316
  reducesTo_S8x128x96x316_S8x96x316_d1 : S8x128x96x316.ReducesTo [1] S8x96x316
  bcast_S_S8x96x316 : S_.BroadcastsInDim S8x96x316 (![] : Fin 0 → Fin S8x96x316.rank)
  pads_S8x96x316_S8x96x320_000_000_400 : S8x96x316.Pads (![0, 0, 4] : Fin 3 → Nat) ![0, 0, 0] ![0, 0, 0] S8x96x320
  slices_S8x128x96x320_S8x128x96x315_0_0_0_5 : S8x128x96x320.Slices ![0, 0, 0, 5] S8x128x96x315
  slices_S8x128x96x320_S8x128x96x315_0_0_0_0 : S8x128x96x320.Slices ![0, 0, 0, 0] S8x128x96x315
  reducesTo_S8x128x96x315_S8x96x315_d1 : S8x128x96x315.ReducesTo [1] S8x96x315
  bcast_S_S8x96x315 : S_.BroadcastsInDim S8x96x315 (![] : Fin 0 → Fin S8x96x315.rank)
  pads_S8x96x315_S8x96x320_000_000_500 : S8x96x315.Pads (![0, 0, 5] : Fin 3 → Nat) ![0, 0, 0] ![0, 0, 0] S8x96x320
  slices_S8x128x96x320_S8x128x96x314_0_0_0_6 : S8x128x96x320.Slices ![0, 0, 0, 6] S8x128x96x314
  slices_S8x128x96x320_S8x128x96x314_0_0_0_0 : S8x128x96x320.Slices ![0, 0, 0, 0] S8x128x96x314
  reducesTo_S8x128x96x314_S8x96x314_d1 : S8x128x96x314.ReducesTo [1] S8x96x314
  bcast_S_S8x96x314 : S_.BroadcastsInDim S8x96x314 (![] : Fin 0 → Fin S8x96x314.rank)
  pads_S8x96x314_S8x96x320_000_000_600 : S8x96x314.Pads (![0, 0, 6] : Fin 3 → Nat) ![0, 0, 0] ![0, 0, 0] S8x96x320
  slices_S8x128x96x320_S8x128x96x313_0_0_0_7 : S8x128x96x320.Slices ![0, 0, 0, 7] S8x128x96x313
  slices_S8x128x96x320_S8x128x96x313_0_0_0_0 : S8x128x96x320.Slices ![0, 0, 0, 0] S8x128x96x313
  reducesTo_S8x128x96x313_S8x96x313_d1 : S8x128x96x313.ReducesTo [1] S8x96x313
  bcast_S_S8x96x313 : S_.BroadcastsInDim S8x96x313 (![] : Fin 0 → Fin S8x96x313.rank)
  pads_S8x96x313_S8x96x320_000_000_700 : S8x96x313.Pads (![0, 0, 7] : Fin 3 → Nat) ![0, 0, 0] ![0, 0, 0] S8x96x320
  slices_S8x128x96x320_S8x128x96x312_0_0_0_8 : S8x128x96x320.Slices ![0, 0, 0, 8] S8x128x96x312
  slices_S8x128x96x320_S8x128x96x312_0_0_0_0 : S8x128x96x320.Slices ![0, 0, 0, 0] S8x128x96x312
  reducesTo_S8x128x96x312_S8x96x312_d1 : S8x128x96x312.ReducesTo [1] S8x96x312
  bcast_S_S8x96x312 : S_.BroadcastsInDim S8x96x312 (![] : Fin 0 → Fin S8x96x312.rank)
  pads_S8x96x312_S8x96x320_000_000_800 : S8x96x312.Pads (![0, 0, 8] : Fin 3 → Nat) ![0, 0, 0] ![0, 0, 0] S8x96x320
  slices_S8x128x96x320_S8x128x96x311_0_0_0_9 : S8x128x96x320.Slices ![0, 0, 0, 9] S8x128x96x311
  slices_S8x128x96x320_S8x128x96x311_0_0_0_0 : S8x128x96x320.Slices ![0, 0, 0, 0] S8x128x96x311
  reducesTo_S8x128x96x311_S8x96x311_d1 : S8x128x96x311.ReducesTo [1] S8x96x311
  bcast_S_S8x96x311 : S_.BroadcastsInDim S8x96x311 (![] : Fin 0 → Fin S8x96x311.rank)
  pads_S8x96x311_S8x96x320_000_000_900 : S8x96x311.Pads (![0, 0, 9] : Fin 3 → Nat) ![0, 0, 0] ![0, 0, 0] S8x96x320
  slices_S8x128x96x320_S8x128x96x310_0_0_0_10 : S8x128x96x320.Slices ![0, 0, 0, 10] S8x128x96x310
  slices_S8x128x96x320_S8x128x96x310_0_0_0_0 : S8x128x96x320.Slices ![0, 0, 0, 0] S8x128x96x310
  reducesTo_S8x128x96x310_S8x96x310_d1 : S8x128x96x310.ReducesTo [1] S8x96x310
  bcast_S_S8x96x310 : S_.BroadcastsInDim S8x96x310 (![] : Fin 0 → Fin S8x96x310.rank)
  pads_S8x96x310_S8x96x320_000_000_1000 : S8x96x310.Pads (![0, 0, 10] : Fin 3 → Nat) ![0, 0, 0] ![0, 0, 0] S8x96x320
  slices_S8x128x96x320_S8x128x96x309_0_0_0_11 : S8x128x96x320.Slices ![0, 0, 0, 11] S8x128x96x309
  slices_S8x128x96x320_S8x128x96x309_0_0_0_0 : S8x128x96x320.Slices ![0, 0, 0, 0] S8x128x96x309
  reducesTo_S8x128x96x309_S8x96x309_d1 : S8x128x96x309.ReducesTo [1] S8x96x309
  bcast_S_S8x96x309 : S_.BroadcastsInDim S8x96x309 (![] : Fin 0 → Fin S8x96x309.rank)
  pads_S8x96x309_S8x96x320_000_000_1100 : S8x96x309.Pads (![0, 0, 11] : Fin 3 → Nat) ![0, 0, 0] ![0, 0, 0] S8x96x320
  slices_S8x128x96x320_S8x128x96x308_0_0_0_12 : S8x128x96x320.Slices ![0, 0, 0, 12] S8x128x96x308
  slices_S8x128x96x320_S8x128x96x308_0_0_0_0 : S8x128x96x320.Slices ![0, 0, 0, 0] S8x128x96x308
  reducesTo_S8x128x96x308_S8x96x308_d1 : S8x128x96x308.ReducesTo [1] S8x96x308
  bcast_S_S8x96x308 : S_.BroadcastsInDim S8x96x308 (![] : Fin 0 → Fin S8x96x308.rank)
  pads_S8x96x308_S8x96x320_000_000_1200 : S8x96x308.Pads (![0, 0, 12] : Fin 3 → Nat) ![0, 0, 0] ![0, 0, 0] S8x96x320
  slices_S8x128x96x320_S8x128x96x307_0_0_0_13 : S8x128x96x320.Slices ![0, 0, 0, 13] S8x128x96x307
  slices_S8x128x96x320_S8x128x96x307_0_0_0_0 : S8x128x96x320.Slices ![0, 0, 0, 0] S8x128x96x307
  reducesTo_S8x128x96x307_S8x96x307_d1 : S8x128x96x307.ReducesTo [1] S8x96x307
  bcast_S_S8x96x307 : S_.BroadcastsInDim S8x96x307 (![] : Fin 0 → Fin S8x96x307.rank)
  pads_S8x96x307_S8x96x320_000_000_1300 : S8x96x307.Pads (![0, 0, 13] : Fin 3 → Nat) ![0, 0, 0] ![0, 0, 0] S8x96x320
  slices_S8x128x96x320_S8x128x96x306_0_0_0_14 : S8x128x96x320.Slices ![0, 0, 0, 14] S8x128x96x306
  slices_S8x128x96x320_S8x128x96x306_0_0_0_0 : S8x128x96x320.Slices ![0, 0, 0, 0] S8x128x96x306
  reducesTo_S8x128x96x306_S8x96x306_d1 : S8x128x96x306.ReducesTo [1] S8x96x306
  bcast_S_S8x96x306 : S_.BroadcastsInDim S8x96x306 (![] : Fin 0 → Fin S8x96x306.rank)
  pads_S8x96x306_S8x96x320_000_000_1400 : S8x96x306.Pads (![0, 0, 14] : Fin 3 → Nat) ![0, 0, 0] ![0, 0, 0] S8x96x320
  slices_S8x128x96x320_S8x128x96x305_0_0_0_15 : S8x128x96x320.Slices ![0, 0, 0, 15] S8x128x96x305
  slices_S8x128x96x320_S8x128x96x305_0_0_0_0 : S8x128x96x320.Slices ![0, 0, 0, 0] S8x128x96x305
  reducesTo_S8x128x96x305_S8x96x305_d1 : S8x128x96x305.ReducesTo [1] S8x96x305
  bcast_S_S8x96x305 : S_.BroadcastsInDim S8x96x305 (![] : Fin 0 → Fin S8x96x305.rank)
  pads_S8x96x305_S8x96x320_000_000_1500 : S8x96x305.Pads (![0, 0, 15] : Fin 3 → Nat) ![0, 0, 0] ![0, 0, 0] S8x96x320
  slices_S8x128x96x320_S8x128x96x304_0_0_0_16 : S8x128x96x320.Slices ![0, 0, 0, 16] S8x128x96x304
  slices_S8x128x96x320_S8x128x96x304_0_0_0_0 : S8x128x96x320.Slices ![0, 0, 0, 0] S8x128x96x304
  reducesTo_S8x128x96x304_S8x96x304_d1 : S8x128x96x304.ReducesTo [1] S8x96x304
  bcast_S_S8x96x304 : S_.BroadcastsInDim S8x96x304 (![] : Fin 0 → Fin S8x96x304.rank)
  pads_S8x96x304_S8x96x320_000_000_1600 : S8x96x304.Pads (![0, 0, 16] : Fin 3 → Nat) ![0, 0, 0] ![0, 0, 0] S8x96x320
  slices_S8x128x96x320_S8x128x96x303_0_0_0_17 : S8x128x96x320.Slices ![0, 0, 0, 17] S8x128x96x303
  slices_S8x128x96x320_S8x128x96x303_0_0_0_0 : S8x128x96x320.Slices ![0, 0, 0, 0] S8x128x96x303
  reducesTo_S8x128x96x303_S8x96x303_d1 : S8x128x96x303.ReducesTo [1] S8x96x303
  bcast_S_S8x96x303 : S_.BroadcastsInDim S8x96x303 (![] : Fin 0 → Fin S8x96x303.rank)
  pads_S8x96x303_S8x96x320_000_000_1700 : S8x96x303.Pads (![0, 0, 17] : Fin 3 → Nat) ![0, 0, 0] ![0, 0, 0] S8x96x320
  slices_S8x128x96x320_S8x128x96x302_0_0_0_18 : S8x128x96x320.Slices ![0, 0, 0, 18] S8x128x96x302
  slices_S8x128x96x320_S8x128x96x302_0_0_0_0 : S8x128x96x320.Slices ![0, 0, 0, 0] S8x128x96x302
  reducesTo_S8x128x96x302_S8x96x302_d1 : S8x128x96x302.ReducesTo [1] S8x96x302
  bcast_S_S8x96x302 : S_.BroadcastsInDim S8x96x302 (![] : Fin 0 → Fin S8x96x302.rank)
  pads_S8x96x302_S8x96x320_000_000_1800 : S8x96x302.Pads (![0, 0, 18] : Fin 3 → Nat) ![0, 0, 0] ![0, 0, 0] S8x96x320
  slices_S8x128x96x320_S8x128x96x301_0_0_0_19 : S8x128x96x320.Slices ![0, 0, 0, 19] S8x128x96x301
  slices_S8x128x96x320_S8x128x96x301_0_0_0_0 : S8x128x96x320.Slices ![0, 0, 0, 0] S8x128x96x301
  reducesTo_S8x128x96x301_S8x96x301_d1 : S8x128x96x301.ReducesTo [1] S8x96x301
  bcast_S_S8x96x301 : S_.BroadcastsInDim S8x96x301 (![] : Fin 0 → Fin S8x96x301.rank)
  pads_S8x96x301_S8x96x320_000_000_1900 : S8x96x301.Pads (![0, 0, 19] : Fin 3 → Nat) ![0, 0, 0] ![0, 0, 0] S8x96x320
  slices_S8x128x96x320_S8x128x96x300_0_0_0_20 : S8x128x96x320.Slices ![0, 0, 0, 20] S8x128x96x300
  slices_S8x128x96x320_S8x128x96x300_0_0_0_0 : S8x128x96x320.Slices ![0, 0, 0, 0] S8x128x96x300
  reducesTo_S8x128x96x300_S8x96x300_d1 : S8x128x96x300.ReducesTo [1] S8x96x300
  bcast_S_S8x96x300 : S_.BroadcastsInDim S8x96x300 (![] : Fin 0 → Fin S8x96x300.rank)
  pads_S8x96x300_S8x96x320_000_000_2000 : S8x96x300.Pads (![0, 0, 20] : Fin 3 → Nat) ![0, 0, 0] ![0, 0, 0] S8x96x320
  slices_S8x128x96x320_S8x128x96x299_0_0_0_21 : S8x128x96x320.Slices ![0, 0, 0, 21] S8x128x96x299
  slices_S8x128x96x320_S8x128x96x299_0_0_0_0 : S8x128x96x320.Slices ![0, 0, 0, 0] S8x128x96x299
  reducesTo_S8x128x96x299_S8x96x299_d1 : S8x128x96x299.ReducesTo [1] S8x96x299
  bcast_S_S8x96x299 : S_.BroadcastsInDim S8x96x299 (![] : Fin 0 → Fin S8x96x299.rank)
  pads_S8x96x299_S8x96x320_000_000_2100 : S8x96x299.Pads (![0, 0, 21] : Fin 3 → Nat) ![0, 0, 0] ![0, 0, 0] S8x96x320
  slices_S8x128x96x320_S8x128x96x298_0_0_0_22 : S8x128x96x320.Slices ![0, 0, 0, 22] S8x128x96x298
  slices_S8x128x96x320_S8x128x96x298_0_0_0_0 : S8x128x96x320.Slices ![0, 0, 0, 0] S8x128x96x298
  reducesTo_S8x128x96x298_S8x96x298_d1 : S8x128x96x298.ReducesTo [1] S8x96x298
  bcast_S_S8x96x298 : S_.BroadcastsInDim S8x96x298 (![] : Fin 0 → Fin S8x96x298.rank)
  pads_S8x96x298_S8x96x320_000_000_2200 : S8x96x298.Pads (![0, 0, 22] : Fin 3 → Nat) ![0, 0, 0] ![0, 0, 0] S8x96x320
  slices_S8x128x96x320_S8x128x96x297_0_0_0_23 : S8x128x96x320.Slices ![0, 0, 0, 23] S8x128x96x297
  slices_S8x128x96x320_S8x128x96x297_0_0_0_0 : S8x128x96x320.Slices ![0, 0, 0, 0] S8x128x96x297
  reducesTo_S8x128x96x297_S8x96x297_d1 : S8x128x96x297.ReducesTo [1] S8x96x297
  bcast_S_S8x96x297 : S_.BroadcastsInDim S8x96x297 (![] : Fin 0 → Fin S8x96x297.rank)
  pads_S8x96x297_S8x96x320_000_000_2300 : S8x96x297.Pads (![0, 0, 23] : Fin 3 → Nat) ![0, 0, 0] ![0, 0, 0] S8x96x320
  slices_S8x128x96x320_S8x128x96x296_0_0_0_24 : S8x128x96x320.Slices ![0, 0, 0, 24] S8x128x96x296
  slices_S8x128x96x320_S8x128x96x296_0_0_0_0 : S8x128x96x320.Slices ![0, 0, 0, 0] S8x128x96x296
  reducesTo_S8x128x96x296_S8x96x296_d1 : S8x128x96x296.ReducesTo [1] S8x96x296
  bcast_S_S8x96x296 : S_.BroadcastsInDim S8x96x296 (![] : Fin 0 → Fin S8x96x296.rank)
  pads_S8x96x296_S8x96x320_000_000_2400 : S8x96x296.Pads (![0, 0, 24] : Fin 3 → Nat) ![0, 0, 0] ![0, 0, 0] S8x96x320
  slices_S8x128x96x320_S8x128x96x295_0_0_0_25 : S8x128x96x320.Slices ![0, 0, 0, 25] S8x128x96x295
  slices_S8x128x96x320_S8x128x96x295_0_0_0_0 : S8x128x96x320.Slices ![0, 0, 0, 0] S8x128x96x295
  reducesTo_S8x128x96x295_S8x96x295_d1 : S8x128x96x295.ReducesTo [1] S8x96x295
  bcast_S_S8x96x295 : S_.BroadcastsInDim S8x96x295 (![] : Fin 0 → Fin S8x96x295.rank)
  pads_S8x96x295_S8x96x320_000_000_2500 : S8x96x295.Pads (![0, 0, 25] : Fin 3 → Nat) ![0, 0, 0] ![0, 0, 0] S8x96x320
  slices_S8x128x96x320_S8x128x96x294_0_0_0_26 : S8x128x96x320.Slices ![0, 0, 0, 26] S8x128x96x294
  slices_S8x128x96x320_S8x128x96x294_0_0_0_0 : S8x128x96x320.Slices ![0, 0, 0, 0] S8x128x96x294
  reducesTo_S8x128x96x294_S8x96x294_d1 : S8x128x96x294.ReducesTo [1] S8x96x294
  bcast_S_S8x96x294 : S_.BroadcastsInDim S8x96x294 (![] : Fin 0 → Fin S8x96x294.rank)
  pads_S8x96x294_S8x96x320_000_000_2600 : S8x96x294.Pads (![0, 0, 26] : Fin 3 → Nat) ![0, 0, 0] ![0, 0, 0] S8x96x320
  slices_S8x128x96x320_S8x128x96x293_0_0_0_27 : S8x128x96x320.Slices ![0, 0, 0, 27] S8x128x96x293
  slices_S8x128x96x320_S8x128x96x293_0_0_0_0 : S8x128x96x320.Slices ![0, 0, 0, 0] S8x128x96x293
  reducesTo_S8x128x96x293_S8x96x293_d1 : S8x128x96x293.ReducesTo [1] S8x96x293
  bcast_S_S8x96x293 : S_.BroadcastsInDim S8x96x293 (![] : Fin 0 → Fin S8x96x293.rank)
  pads_S8x96x293_S8x96x320_000_000_2700 : S8x96x293.Pads (![0, 0, 27] : Fin 3 → Nat) ![0, 0, 0] ![0, 0, 0] S8x96x320
  slices_S8x128x96x320_S8x128x96x292_0_0_0_28 : S8x128x96x320.Slices ![0, 0, 0, 28] S8x128x96x292
  slices_S8x128x96x320_S8x128x96x292_0_0_0_0 : S8x128x96x320.Slices ![0, 0, 0, 0] S8x128x96x292
  reducesTo_S8x128x96x292_S8x96x292_d1 : S8x128x96x292.ReducesTo [1] S8x96x292
  bcast_S_S8x96x292 : S_.BroadcastsInDim S8x96x292 (![] : Fin 0 → Fin S8x96x292.rank)
  pads_S8x96x292_S8x96x320_000_000_2800 : S8x96x292.Pads (![0, 0, 28] : Fin 3 → Nat) ![0, 0, 0] ![0, 0, 0] S8x96x320
  slices_S8x128x96x320_S8x128x96x291_0_0_0_29 : S8x128x96x320.Slices ![0, 0, 0, 29] S8x128x96x291
  slices_S8x128x96x320_S8x128x96x291_0_0_0_0 : S8x128x96x320.Slices ![0, 0, 0, 0] S8x128x96x291
  reducesTo_S8x128x96x291_S8x96x291_d1 : S8x128x96x291.ReducesTo [1] S8x96x291
  bcast_S_S8x96x291 : S_.BroadcastsInDim S8x96x291 (![] : Fin 0 → Fin S8x96x291.rank)
  pads_S8x96x291_S8x96x320_000_000_2900 : S8x96x291.Pads (![0, 0, 29] : Fin 3 → Nat) ![0, 0, 0] ![0, 0, 0] S8x96x320
  slices_S8x128x96x320_S8x128x96x290_0_0_0_30 : S8x128x96x320.Slices ![0, 0, 0, 30] S8x128x96x290
  slices_S8x128x96x320_S8x128x96x290_0_0_0_0 : S8x128x96x320.Slices ![0, 0, 0, 0] S8x128x96x290
  reducesTo_S8x128x96x290_S8x96x290_d1 : S8x128x96x290.ReducesTo [1] S8x96x290
  bcast_S_S8x96x290 : S_.BroadcastsInDim S8x96x290 (![] : Fin 0 → Fin S8x96x290.rank)
  pads_S8x96x290_S8x96x320_000_000_3000 : S8x96x290.Pads (![0, 0, 30] : Fin 3 → Nat) ![0, 0, 0] ![0, 0, 0] S8x96x320
  slices_S8x128x96x320_S8x128x96x289_0_0_0_31 : S8x128x96x320.Slices ![0, 0, 0, 31] S8x128x96x289
  slices_S8x128x96x320_S8x128x96x289_0_0_0_0 : S8x128x96x320.Slices ![0, 0, 0, 0] S8x128x96x289
  reducesTo_S8x128x96x289_S8x96x289_d1 : S8x128x96x289.ReducesTo [1] S8x96x289
  bcast_S_S8x96x289 : S_.BroadcastsInDim S8x96x289 (![] : Fin 0 → Fin S8x96x289.rank)
  pads_S8x96x289_S8x96x320_000_000_3100 : S8x96x289.Pads (![0, 0, 31] : Fin 3 → Nat) ![0, 0, 0] ![0, 0, 0] S8x96x320
  slices_S8x128x96x320_S8x128x96x288_0_0_0_32 : S8x128x96x320.Slices ![0, 0, 0, 32] S8x128x96x288
  slices_S8x128x96x320_S8x128x96x288_0_0_0_0 : S8x128x96x320.Slices ![0, 0, 0, 0] S8x128x96x288
  reducesTo_S8x128x96x288_S8x96x288_d1 : S8x128x96x288.ReducesTo [1] S8x96x288
  bcast_S_S8x96x288 : S_.BroadcastsInDim S8x96x288 (![] : Fin 0 → Fin S8x96x288.rank)
  pads_S8x96x288_S8x96x320_000_000_3200 : S8x96x288.Pads (![0, 0, 32] : Fin 3 → Nat) ![0, 0, 0] ![0, 0, 0] S8x96x320
  slices_S8x128x96x320_S8x128x96x287_0_0_0_33 : S8x128x96x320.Slices ![0, 0, 0, 33] S8x128x96x287
  slices_S8x128x96x320_S8x128x96x287_0_0_0_0 : S8x128x96x320.Slices ![0, 0, 0, 0] S8x128x96x287
  reducesTo_S8x128x96x287_S8x96x287_d1 : S8x128x96x287.ReducesTo [1] S8x96x287
  bcast_S_S8x96x287 : S_.BroadcastsInDim S8x96x287 (![] : Fin 0 → Fin S8x96x287.rank)
  pads_S8x96x287_S8x96x320_000_000_3300 : S8x96x287.Pads (![0, 0, 33] : Fin 3 → Nat) ![0, 0, 0] ![0, 0, 0] S8x96x320
  slices_S8x128x96x320_S8x128x96x286_0_0_0_34 : S8x128x96x320.Slices ![0, 0, 0, 34] S8x128x96x286
  slices_S8x128x96x320_S8x128x96x286_0_0_0_0 : S8x128x96x320.Slices ![0, 0, 0, 0] S8x128x96x286
  reducesTo_S8x128x96x286_S8x96x286_d1 : S8x128x96x286.ReducesTo [1] S8x96x286
  bcast_S_S8x96x286 : S_.BroadcastsInDim S8x96x286 (![] : Fin 0 → Fin S8x96x286.rank)
  pads_S8x96x286_S8x96x320_000_000_3400 : S8x96x286.Pads (![0, 0, 34] : Fin 3 → Nat) ![0, 0, 0] ![0, 0, 0] S8x96x320
  slices_S8x128x96x320_S8x128x96x285_0_0_0_35 : S8x128x96x320.Slices ![0, 0, 0, 35] S8x128x96x285
  slices_S8x128x96x320_S8x128x96x285_0_0_0_0 : S8x128x96x320.Slices ![0, 0, 0, 0] S8x128x96x285
  reducesTo_S8x128x96x285_S8x96x285_d1 : S8x128x96x285.ReducesTo [1] S8x96x285
  bcast_S_S8x96x285 : S_.BroadcastsInDim S8x96x285 (![] : Fin 0 → Fin S8x96x285.rank)
  pads_S8x96x285_S8x96x320_000_000_3500 : S8x96x285.Pads (![0, 0, 35] : Fin 3 → Nat) ![0, 0, 0] ![0, 0, 0] S8x96x320
  slices_S8x128x96x320_S8x128x96x284_0_0_0_36 : S8x128x96x320.Slices ![0, 0, 0, 36] S8x128x96x284
  slices_S8x128x96x320_S8x128x96x284_0_0_0_0 : S8x128x96x320.Slices ![0, 0, 0, 0] S8x128x96x284
  reducesTo_S8x128x96x284_S8x96x284_d1 : S8x128x96x284.ReducesTo [1] S8x96x284
  bcast_S_S8x96x284 : S_.BroadcastsInDim S8x96x284 (![] : Fin 0 → Fin S8x96x284.rank)
  pads_S8x96x284_S8x96x320_000_000_3600 : S8x96x284.Pads (![0, 0, 36] : Fin 3 → Nat) ![0, 0, 0] ![0, 0, 0] S8x96x320
  slices_S8x128x96x320_S8x128x96x283_0_0_0_37 : S8x128x96x320.Slices ![0, 0, 0, 37] S8x128x96x283
  slices_S8x128x96x320_S8x128x96x283_0_0_0_0 : S8x128x96x320.Slices ![0, 0, 0, 0] S8x128x96x283
  reducesTo_S8x128x96x283_S8x96x283_d1 : S8x128x96x283.ReducesTo [1] S8x96x283
  bcast_S_S8x96x283 : S_.BroadcastsInDim S8x96x283 (![] : Fin 0 → Fin S8x96x283.rank)
  pads_S8x96x283_S8x96x320_000_000_3700 : S8x96x283.Pads (![0, 0, 37] : Fin 3 → Nat) ![0, 0, 0] ![0, 0, 0] S8x96x320
  slices_S8x128x96x320_S8x128x96x282_0_0_0_38 : S8x128x96x320.Slices ![0, 0, 0, 38] S8x128x96x282
  slices_S8x128x96x320_S8x128x96x282_0_0_0_0 : S8x128x96x320.Slices ![0, 0, 0, 0] S8x128x96x282
  reducesTo_S8x128x96x282_S8x96x282_d1 : S8x128x96x282.ReducesTo [1] S8x96x282
  bcast_S_S8x96x282 : S_.BroadcastsInDim S8x96x282 (![] : Fin 0 → Fin S8x96x282.rank)
  pads_S8x96x282_S8x96x320_000_000_3800 : S8x96x282.Pads (![0, 0, 38] : Fin 3 → Nat) ![0, 0, 0] ![0, 0, 0] S8x96x320
  slices_S8x128x96x320_S8x128x96x281_0_0_0_39 : S8x128x96x320.Slices ![0, 0, 0, 39] S8x128x96x281
  slices_S8x128x96x320_S8x128x96x281_0_0_0_0 : S8x128x96x320.Slices ![0, 0, 0, 0] S8x128x96x281
  reducesTo_S8x128x96x281_S8x96x281_d1 : S8x128x96x281.ReducesTo [1] S8x96x281
  bcast_S_S8x96x281 : S_.BroadcastsInDim S8x96x281 (![] : Fin 0 → Fin S8x96x281.rank)
  pads_S8x96x281_S8x96x320_000_000_3900 : S8x96x281.Pads (![0, 0, 39] : Fin 3 → Nat) ![0, 0, 0] ![0, 0, 0] S8x96x320
  slices_S8x128x96x320_S8x128x96x280_0_0_0_40 : S8x128x96x320.Slices ![0, 0, 0, 40] S8x128x96x280
  slices_S8x128x96x320_S8x128x96x280_0_0_0_0 : S8x128x96x320.Slices ![0, 0, 0, 0] S8x128x96x280
  reducesTo_S8x128x96x280_S8x96x280_d1 : S8x128x96x280.ReducesTo [1] S8x96x280
  bcast_S_S8x96x280 : S_.BroadcastsInDim S8x96x280 (![] : Fin 0 → Fin S8x96x280.rank)
  pads_S8x96x280_S8x96x320_000_000_4000 : S8x96x280.Pads (![0, 0, 40] : Fin 3 → Nat) ![0, 0, 0] ![0, 0, 0] S8x96x320
  slices_S8x128x96x320_S8x128x96x279_0_0_0_41 : S8x128x96x320.Slices ![0, 0, 0, 41] S8x128x96x279
  slices_S8x128x96x320_S8x128x96x279_0_0_0_0 : S8x128x96x320.Slices ![0, 0, 0, 0] S8x128x96x279
  reducesTo_S8x128x96x279_S8x96x279_d1 : S8x128x96x279.ReducesTo [1] S8x96x279
  bcast_S_S8x96x279 : S_.BroadcastsInDim S8x96x279 (![] : Fin 0 → Fin S8x96x279.rank)
  pads_S8x96x279_S8x96x320_000_000_4100 : S8x96x279.Pads (![0, 0, 41] : Fin 3 → Nat) ![0, 0, 0] ![0, 0, 0] S8x96x320
  slices_S8x128x96x320_S8x128x96x278_0_0_0_42 : S8x128x96x320.Slices ![0, 0, 0, 42] S8x128x96x278
  slices_S8x128x96x320_S8x128x96x278_0_0_0_0 : S8x128x96x320.Slices ![0, 0, 0, 0] S8x128x96x278
  reducesTo_S8x128x96x278_S8x96x278_d1 : S8x128x96x278.ReducesTo [1] S8x96x278
  bcast_S_S8x96x278 : S_.BroadcastsInDim S8x96x278 (![] : Fin 0 → Fin S8x96x278.rank)
  pads_S8x96x278_S8x96x320_000_000_4200 : S8x96x278.Pads (![0, 0, 42] : Fin 3 → Nat) ![0, 0, 0] ![0, 0, 0] S8x96x320
  slices_S8x128x96x320_S8x128x96x277_0_0_0_43 : S8x128x96x320.Slices ![0, 0, 0, 43] S8x128x96x277
  slices_S8x128x96x320_S8x128x96x277_0_0_0_0 : S8x128x96x320.Slices ![0, 0, 0, 0] S8x128x96x277
  reducesTo_S8x128x96x277_S8x96x277_d1 : S8x128x96x277.ReducesTo [1] S8x96x277
  bcast_S_S8x96x277 : S_.BroadcastsInDim S8x96x277 (![] : Fin 0 → Fin S8x96x277.rank)
  pads_S8x96x277_S8x96x320_000_000_4300 : S8x96x277.Pads (![0, 0, 43] : Fin 3 → Nat) ![0, 0, 0] ![0, 0, 0] S8x96x320
  slices_S8x128x96x320_S8x128x96x276_0_0_0_44 : S8x128x96x320.Slices ![0, 0, 0, 44] S8x128x96x276
  slices_S8x128x96x320_S8x128x96x276_0_0_0_0 : S8x128x96x320.Slices ![0, 0, 0, 0] S8x128x96x276
  reducesTo_S8x128x96x276_S8x96x276_d1 : S8x128x96x276.ReducesTo [1] S8x96x276
  bcast_S_S8x96x276 : S_.BroadcastsInDim S8x96x276 (![] : Fin 0 → Fin S8x96x276.rank)
  pads_S8x96x276_S8x96x320_000_000_4400 : S8x96x276.Pads (![0, 0, 44] : Fin 3 → Nat) ![0, 0, 0] ![0, 0, 0] S8x96x320
  slices_S8x128x96x320_S8x128x96x275_0_0_0_45 : S8x128x96x320.Slices ![0, 0, 0, 45] S8x128x96x275
  slices_S8x128x96x320_S8x128x96x275_0_0_0_0 : S8x128x96x320.Slices ![0, 0, 0, 0] S8x128x96x275
  reducesTo_S8x128x96x275_S8x96x275_d1 : S8x128x96x275.ReducesTo [1] S8x96x275
  bcast_S_S8x96x275 : S_.BroadcastsInDim S8x96x275 (![] : Fin 0 → Fin S8x96x275.rank)
  pads_S8x96x275_S8x96x320_000_000_4500 : S8x96x275.Pads (![0, 0, 45] : Fin 3 → Nat) ![0, 0, 0] ![0, 0, 0] S8x96x320
  slices_S8x128x96x320_S8x128x96x274_0_0_0_46 : S8x128x96x320.Slices ![0, 0, 0, 46] S8x128x96x274
  slices_S8x128x96x320_S8x128x96x274_0_0_0_0 : S8x128x96x320.Slices ![0, 0, 0, 0] S8x128x96x274
  reducesTo_S8x128x96x274_S8x96x274_d1 : S8x128x96x274.ReducesTo [1] S8x96x274
  bcast_S_S8x96x274 : S_.BroadcastsInDim S8x96x274 (![] : Fin 0 → Fin S8x96x274.rank)
  pads_S8x96x274_S8x96x320_000_000_4600 : S8x96x274.Pads (![0, 0, 46] : Fin 3 → Nat) ![0, 0, 0] ![0, 0, 0] S8x96x320
  slices_S8x128x96x320_S8x128x96x273_0_0_0_47 : S8x128x96x320.Slices ![0, 0, 0, 47] S8x128x96x273
  slices_S8x128x96x320_S8x128x96x273_0_0_0_0 : S8x128x96x320.Slices ![0, 0, 0, 0] S8x128x96x273
  reducesTo_S8x128x96x273_S8x96x273_d1 : S8x128x96x273.ReducesTo [1] S8x96x273
  bcast_S_S8x96x273 : S_.BroadcastsInDim S8x96x273 (![] : Fin 0 → Fin S8x96x273.rank)
  pads_S8x96x273_S8x96x320_000_000_4700 : S8x96x273.Pads (![0, 0, 47] : Fin 3 → Nat) ![0, 0, 0] ![0, 0, 0] S8x96x320
  bcast_S8x96x320_S8x1x96x320_0_2_3 : S8x96x320.BroadcastsInDim S8x1x96x320 (![0, 2, 3] : Fin 3 → Fin S8x1x96x320.rank)
  concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1 : Shape.Concatenates [S8x1x96x320, S8x1x96x320, S8x1x96x320, S8x1x96x320, S8x1x96x320, S8x1x96x320, S8x1x96x320, S8x1x96x320, S8x1x96x320, S8x1x96x320, S8x1x96x320, S8x1x96x320, S8x1x96x320, S8x1x96x320, S8x1x96x320, S8x1x96x320] S8x16x96x320 1
  concatenates_S8x16x96x320_S8x16x96x320_S8x16x96x320_S8x48x96x320_d1 : Shape.Concatenates [S8x16x96x320, S8x16x96x320, S8x16x96x320] S8x48x96x320 1

variable [Facts₀]

class Facts : Prop extends Facts₀ where

variable [Facts]
-- ==== Proof.LibLeadingUnits.lean ====
/-
  Two leading unit axes, read at an index.

  A `[1, 1, a, b]` block viewed as an `[a, b]` matrix reads, at `(r, d)`, the block at `(0, 0, r, d)`; and an `[a, b]`
  matrix viewed as a `[1, 1, a, b]` block reads, at `(u, w, r, d)`, the matrix at `(r, d)` whatever the two unit
  coordinates.  Both views keep the row-major order, so only the position `r · b + d` matters.
-/
import Idealize.ShloMosaic.Lib.ValueIdx
import Idealize.ShloMosaic.Lib.Pipeline.Value

noncomputable section

namespace Cert.Lib.LeadingUnits

open Idealize.ShloMosaic Idealize.ShloMosaic.ValueIdx

variable {α : Type}

/-- A `[1, 1, a, b]` block viewed as an `[a, b]` matrix, at `(r, d)`. -/
theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (d : Fin b) :
    shapeCast ⟨2, ![a, b]⟩ x h (ix2 r d) = x (ix4 (0 : Fin 1) (0 : Fin 1) r d) :=
  shapeCast_apply x h _ _ (by
    rw [Shape.rowMajor_val_four, Shape.rowMajor_val_two]
    show (((0 : Fin 1).val * 1 + (0 : Fin 1).val) * a + r.val) * b + d.val = r.val * b + d.val
    simp)

/-- An `[a, b]` matrix viewed as a `[1, 1, a, b]` block, at `(u, w, r, d)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (r : Fin a) (d : Fin b) :
    shapeCast ⟨4, ![1, 1, a, b]⟩ x h (ix4 u w r d) = x (ix2 r d) :=
  shapeCast_apply x h _ _ (by
    have hu : u.val = 0 := by omega
    have hw : w.val = 0 := by omega
    rw [Shape.rowMajor_val_four, Shape.rowMajor_val_two]
    show r.val * b + d.val = ((u.val * 1 + w.val) * a + r.val) * b + d.val
    rw [hu, hw]; simp)

end Cert.Lib.LeadingUnits

end
-- ==== Proof.Tile.lean ====
/-
  One disparity's tile of the kernel, read at an entry.

  The kernel holds a left and a right block `[128, 16, 320]` (channel, row, column).  For a disparity `d` it rotates the
  right block by `d` along the columns, multiplies, sums over the channels, divides by `128`, and keeps the result only
  where the column index is at least `d` (elsewhere `0`).  Where `d ≤ x` the rotated column `(x + 320 − d) mod 320` is
  `x − d`, so no wrapped value survives the mask.
-/
import Idealize.ShloMosaic.Lib.ValueIdx
import Idealize.ShloMosaic.Lib.Pipeline.Value
import Idealize.ShloMosaic.Lib.KernelVsHost
import Idealize.ShloMosaic.PureOps.Ideal.Laws
import proofs.«126808_j80762565034123_2_alg».proof.Proof.LibLeadingUnits

noncomputable section

namespace Cert.CostVolume

open Idealize.ShloMosaic Idealize.ShloMosaic.ValueIdx

/-- A block of features, `[channel, row, column]`. -/
abbrev Blk : Shape := ⟨3, ![128, 16, 320]⟩
/-- One disparity's tile, `[row, column]`. -/
abbrev Til : Shape := ⟨2, ![16, 320]⟩
/-- The same tile as it is stored, under two unit axes. -/
abbrev Til4 : Shape := ⟨4, ![1, 1, 16, 320]⟩

/-- A natural number below 320 is its own 32-bit word's value. -/
theorem toNat_word (n : ℕ) (hn : n < 320) : (BitVec.ofNat 32 n).toNat = n := by
  rw [BitVec.toNat_ofNat]; exact Nat.mod_eq_of_lt (by omega)

/-- … also read as a signed integer. -/
theorem toInt_word (n : ℕ) (hn : n < 320) : (BitVec.ofNat 32 n).toInt = (n : ℤ) := by
  rw [BitVec.toInt_eq_toNat_cond, toNat_word n hn]
  split
  · rfl
  · omega

/-- The signed comparison `x ≥ d` of two such words is the comparison of the numbers. -/
theorem sge_word (x d : ℕ) (hx : x < 320) (hd : d < 320) :
    IntOp.cmpi .sge (BitVec.ofNat 32 x) (BitVec.ofNat 32 d) = if d ≤ x then 1#1 else 0#1 := by
  unfold IntOp.cmpi
  simp only [BitVec.sle, toInt_word x hx, toInt_word d hd]
  by_cases h : d ≤ x
  · simp [h]
  · simp [h]

/-- The right block rotated by `d` along the columns, read at a column `x ≥ d`: the block at column `x − d`. -/
theorem rotate_apply (d : ℕ) (hd : d < 320) (r : Blk.Idx → EReal) (hrot : Blk.Rotates 2 none)
    (k : Fin 128) (h : Fin 16) (x : Fin 320) (hx : d ≤ x.val) :
    dynamicRotate 2 (BitVec.ofNat 32 d) none r hrot (ix3 k h x) = r (ix3 k h ⟨x.val - d, by have := x.isLt; omega⟩) := by
  refine dynamicRotate_apply 2 _ r hrot _ _ fun b => ?_
  have hx' := x.isLt
  rw [toNat_word d hd]
  match b with
  | ⟨0, _⟩ => rfl
  | ⟨1, _⟩ => rfl
  | ⟨2, _⟩ =>
    show x.val - d = (x.val + 320 - d % 320) % 320
    rw [Nat.mod_eq_of_lt hd]
    omega

/-- ONE DISPARITY'S TILE AT AN ENTRY.  The tile of disparity `d` — rotate, multiply, sum over the channels, divide by 128,
    mask the columns left of `d` — stored under two unit axes, read at `(0, 0, h, x)`. -/
theorem tile_apply (d : ℕ) (hd : d < 320) (l r : FVec Ideal Blk .f32) (hi : Til.Iotas .tc 32 [1]) (hrot : Blk.Rotates 2 none)
    (hred : Blk.Reduces [0] Til) (hφ : FKind.Formats .f32) (hacc : (0x00000000#32 : BitVec 32) = FKind.add.neutral .f32 hφ)
    (hsc : Til.ShapeCasts Til4) (u w : Fin 1) (h : Fin 16) (x : Fin 320) :
    shapeCast Til4 (select (cmpi .sge (iota .tc Til 32 [1] hi) (broadcast Til (BitVec.ofNat 32 d)))
        (divf (multiReduction .add [0] Til (mulf l (dynamicRotate 2 (BitVec.ofNat 32 d) none r hrot)) 0x00000000#32 hred hφ hacc)
          (broadcast Til (Scalar.ofBits .f32 0x43000000#32)))
        (broadcast Til (Scalar.ofBits .f32 0x00000000#32))) hsc (ix4 u w h x)
      = if d ≤ x.val then
          Ideal.div (∑ k : Fin 128, l (ix3 k h x) * r (ix3 k h ⟨x.val - d, by have := x.isLt; omega⟩)) (Ideal.ofBits .f32 0x43000000#32)
        else 0 := by
  refine (Cert.Lib.LeadingUnits.shapeCast_ab_11ab_apply _ hsc u w h x).trans ?_
  rw [select_apply]
  have hc : cmpi .sge (iota .tc Til 32 [1] hi) (broadcast Til (BitVec.ofNat 32 d)) (ix2 h x)
      = if d ≤ x.val then 1#1 else 0#1 := by
    show IntOp.cmpi .sge (iota .tc Til 32 [1] hi (ix2 h x)) (BitVec.ofNat 32 d) = _
    rw [iota_single_apply]
    exact sge_word x.val d x.isLt hd
  rw [hc]
  by_cases hx : d ≤ x.val
  · rw [if_pos hx, if_pos hx]
    show Ideal.div (multiReduction .add [0] Til (mulf l (dynamicRotate 2 (BitVec.ofNat 32 d) none r hrot)) 0x00000000#32 hred hφ hacc (ix2 h x))
      (Ideal.ofBits .f32 0x43000000#32) = _
    refine congrArg (Ideal.div · _) ?_
    refine (Ideal.multiReduction_add_single _ 0x00000000#32 hred hφ hacc (ix2 h x)).trans ?_
    refine Finset.sum_congr rfl fun k _ => ?_
    have hk : hred.lift (ix2 h x) k = ix3 k h x := by
      funext a; apply Fin.ext
      match a with
      | ⟨0, _⟩ => rfl
      | ⟨1, _⟩ => rfl
      | ⟨2, _⟩ => rfl
    rw [hk]
    show l (ix3 k h x) * dynamicRotate 2 (BitVec.ofNat 32 d) none r hrot (ix3 k h x) = _
    rw [rotate_apply d hd r hrot k h x hx]
  · rw [if_neg hx, if_neg hx]
    show (if (0#1 : BitVec 1) = 1 then _ else Ideal.ofBits .f32 0x00000000#32) = 0
    rw [if_neg (by decide)]
    exact Ideal.ofBits_zero_f32

end Cert.CostVolume

end
-- ==== Proof.KernelBlock.lean ====
/-
  The kernel's output block as one function of its two input blocks.

  At a grid point the kernel holds a left and a right block `[1, 128, 16, 320]` and writes 48 tiles `[1, 1, 16, 320]`, one
  per disparity `d`, at offset `d` along the second axis of its `[1, 48, 16, 320]` output block.  Entry `(0, d, h, x)` of the
  block is therefore `tileVal x0 x1 d h x`: the channel mean of `x0[0, k, h, x] · x1[0, k, h, x − d]` when `d ≤ x`, else `0`.
  The 48 stores tile the block, so the block is that one function everywhere.
-/
import proofs.«126808_j80762565034123_2_alg».proof.Proof.Gen.KernelIdeal.Frame
import proofs.«126808_j80762565034123_2_alg».proof.Proof.Tile

set_option maxRecDepth 16384

noncomputable section

namespace Cert.CostVolume

open Cert.KernelIdeal Cert.KernelIdeal.Gen Idealize.ShloMosaic Idealize.ShloMosaic.ValueIdx

/-- One entry of one disparity's tile, from the two input blocks. -/
def tileVal (x0 x1 : S1x128x16x320.Idx → EReal) (d : ℕ) (h : Fin 16) (x : Fin 320) : EReal :=
  if d ≤ x.val then
    Ideal.div (∑ k : Fin 128, x0 (ix4 (0 : Fin 1) k h x) * x1 (ix4 (0 : Fin 1) k h ⟨x.val - d, by have := x.isLt; omega⟩))
      (Ideal.ofBits .f32 0x43000000#32)
  else 0

/-- The whole output block: entry `(·, d, h, x)` is the tile of disparity `d` at `(h, x)`. -/
def blockFn (x0 x1 : S1x128x16x320.Idx → EReal) : S1x48x16x320.Idx → EReal :=
  fun j => tileVal x0 x1 (j 1).val (j 2) (j 3)

theorem zero_off4 : (![0, 0, 0, 0] : Fin 4 → ℕ) = fun _ => 0 := funext fun a => by fin_cases a <;> rfl

/-- A block `[1, 128, 16, 320]` viewed as `[128, 16, 320]` reads `(k, h, x)` at `(0, k, h, x)`. -/
theorem dropUnit_apply (v : S1x128x16x320.Idx → EReal) (hsc : S1x128x16x320.ShapeCasts S128x16x320)
    (k : Fin 128) (h : Fin 16) (x : Fin 320) :
    shapeCast S128x16x320 v hsc (ix3 k h x) = v (ix4 (0 : Fin 1) k h x) := by
  rw [shapeCast_dropUnit_apply ![128, 16, 320] v hsc (ix3 k h x)]
  refine congrArg v (funext fun a => ?_)
  match a with
  | ⟨0, _⟩ => rfl
  | ⟨1, _⟩ => rfl
  | ⟨2, _⟩ => rfl
  | ⟨3, _⟩ => rfl

/-- ONE STORE'S PAYLOAD IS ITS PART OF THE BLOCK.  The tile of disparity `d` computed from the loaded blocks, at a local
    index `y`, is `blockFn` at the index the store's rectangle (offset `d` on the second axis) sends `y` to. -/
theorem piece_apply (d : ℕ) (hd : d < 48) (x0 x1 : Vec Ideal S1x128x16x320 .f32)
    (inb0 : ∀ a, (![0, 0, 0, 0] : Fin 4 → ℕ) a + S1x128x16x320.size a ≤ S1x128x16x320.size a)
    (hsc0 : S1x128x16x320.ShapeCasts S128x16x320) (hi : S16x320.Iotas .tc 32 [1]) (hrot : S128x16x320.Rotates 2 none)
    (hred : S128x16x320.Reduces [0] S16x320) (hφ : FKind.Formats .f32)
    (hacc : (0x00000000#32 : BitVec 32) = FKind.add.neutral .f32 hφ) (hsc : S16x320.ShapeCasts S1x1x16x320)
    (inb : ∀ a, (![0, d, 0, 0] : Fin 4 → ℕ) a + S1x1x16x320.size a ≤ S1x48x16x320.size a)
    (y : S1x1x16x320.Idx) :
    shapeCast S1x1x16x320 (select (cmpi .sge (iota .tc S16x320 32 [1] hi) (broadcast S16x320 (BitVec.ofNat 32 d)))
        (divf (F := Ideal) (multiReduction (F := Ideal) .add [0] S16x320
            (mulf (F := Ideal) (shapeCast S128x16x320 (View.ld (Val := Elt Ideal) x0 (Rect.unit ![0, 0, 0, 0] S1x128x16x320.size inb0)) hsc0)
              (dynamicRotate 2 (BitVec.ofNat 32 d) none
                (shapeCast S128x16x320 (View.ld (Val := Elt Ideal) x1 (Rect.unit ![0, 0, 0, 0] S1x128x16x320.size inb0)) hsc0) hrot))
            0x00000000#32 hred hφ hacc)
          (broadcast S16x320 (Scalar.ofBits (F := Ideal) .f32 0x43000000#32)))
        (broadcast S16x320 (Scalar.ofBits (F := Ideal) .f32 0x00000000#32))) hsc y
      = blockFn x0 x1 ((Rect.unit (s := S1x48x16x320) ![0, d, 0, 0] S1x1x16x320.size inb).emb y) := by
  obtain ⟨u, w, h, x, rfl⟩ : ∃ (u w : Fin 1) (h : Fin 16) (x : Fin 320), y = ix4 u w h x :=
    ⟨y 0, y 1, y 2, y 3, eq_ix4 y⟩
  rw [View.ld_unit_zero (S := S1x128x16x320) zero_off4 inb0 x0, View.ld_unit_zero (S := S1x128x16x320) zero_off4 inb0 x1]
  refine (tile_apply d (by omega) _ _ hi hrot hred hφ hacc hsc u w h x).trans ?_
  have hemb : (Rect.unit (s := S1x48x16x320) ![0, d, 0, 0] S1x1x16x320.size inb).emb (ix4 u w h x)
      = ix4 (0 : Fin 1) (⟨d, hd⟩ : Fin 48) h x := by
    funext a; apply Fin.ext
    match a with
    | ⟨0, _⟩ => show 0 + 1 * u.val = 0; omega
    | ⟨1, _⟩ => show d + 1 * w.val = d; omega
    | ⟨2, _⟩ => show 0 + 1 * h.val = h.val; omega
    | ⟨3, _⟩ => show 0 + 1 * x.val = x.val; omega
  rw [hemb]
  show _ = tileVal x0 x1 d h x
  unfold tileVal
  simp only [dropUnit_apply]

/-- A property of every entry of a list, one entry at a time. -/
theorem all_cons {α : Type} {P : α → Prop} {a : α} {l : List α} (ha : P a) (hl : ∀ p ∈ l, P p) : ∀ p ∈ a :: l, P p :=
  List.forall_mem_cons.2 ⟨ha, hl⟩
theorem all_nil {α : Type} (P : α → Prop) : ∀ p ∈ ([] : List α), P p := fun _ h => absurd h List.not_mem_nil

/-! Each of the 48 stores, by name: store `d` writes the tile of disparity `d`. -/

set_option maxHeartbeats 1000000 in
theorem piece0 (x0 x1 : Vec Ideal S1x128x16x320 .f32) (z : S1x1x16x320.Idx) :
    (k0_pay4 (View.ld x0 r0_0) (View.ld x1 r0_0) : Vec Ideal S1x1x16x320 .f32) z = blockFn x0 x1 (r0_1.emb z) :=
  piece_apply 0 (by norm_num) x0 x1 _ _ _ _ _ (.inl rfl) rfl _ _ z
set_option maxHeartbeats 1000000 in
theorem piece1 (x0 x1 : Vec Ideal S1x128x16x320 .f32) (z : S1x1x16x320.Idx) :
    (k0_pay5 (View.ld x0 r0_0) (View.ld x1 r0_0) : Vec Ideal S1x1x16x320 .f32) z = blockFn x0 x1 (r0_2.emb z) :=
  piece_apply 1 (by norm_num) x0 x1 _ _ _ _ _ (.inl rfl) rfl _ _ z
set_option maxHeartbeats 1000000 in
theorem piece2 (x0 x1 : Vec Ideal S1x128x16x320 .f32) (z : S1x1x16x320.Idx) :
    (k0_pay6 (k0_pay2 (View.ld x0 r0_0)) (k0_pay3 (View.ld x1 r0_0)) (iota .tc S16x320 32 [1] iota_S16x320_d1_w32) 2#32 : Vec Ideal S1x1x16x320 .f32) z = blockFn x0 x1 (r0_3.emb z) :=
  piece_apply 2 (by norm_num) x0 x1 _ _ _ _ _ (.inl rfl) rfl _ _ z
set_option maxHeartbeats 1000000 in
theorem piece3 (x0 x1 : Vec Ideal S1x128x16x320 .f32) (z : S1x1x16x320.Idx) :
    (k0_pay7 (k0_pay2 (View.ld x0 r0_0)) (k0_pay3 (View.ld x1 r0_0)) (iota .tc S16x320 32 [1] iota_S16x320_d1_w32) : Vec Ideal S1x1x16x320 .f32) z = blockFn x0 x1 (r0_4.emb z) :=
  piece_apply 3 (by norm_num) x0 x1 _ _ _ _ _ (.inl rfl) rfl _ _ z
set_option maxHeartbeats 1000000 in
theorem piece4 (x0 x1 : Vec Ideal S1x128x16x320 .f32) (z : S1x1x16x320.Idx) :
    (k0_pay9 (k0_pay8 (k0_pay2 (View.ld x0 r0_0)) (k0_pay3 (View.ld x1 r0_0)) (iota .tc S16x320 32 [1] iota_S16x320_d1_w32)) : Vec Ideal S1x1x16x320 .f32) z = blockFn x0 x1 (r0_5.emb z) :=
  piece_apply 4 (by norm_num) x0 x1 _ _ _ _ _ (.inl rfl) rfl _ _ z
set_option maxHeartbeats 1000000 in
theorem piece5 (x0 x1 : Vec Ideal S1x128x16x320 .f32) (z : S1x1x16x320.Idx) :
    (k0_pay10 (k0_pay2 (View.ld x0 r0_0)) (k0_pay3 (View.ld x1 r0_0)) (iota .tc S16x320 32 [1] iota_S16x320_d1_w32) : Vec Ideal S1x1x16x320 .f32) z = blockFn x0 x1 (r0_6.emb z) :=
  piece_apply 5 (by norm_num) x0 x1 _ _ _ _ _ (.inl rfl) rfl _ _ z
set_option maxHeartbeats 1000000 in
theorem piece6 (x0 x1 : Vec Ideal S1x128x16x320 .f32) (z : S1x1x16x320.Idx) :
    (k0_pay11 (k0_pay2 (View.ld x0 r0_0)) (k0_pay3 (View.ld x1 r0_0)) (iota .tc S16x320 32 [1] iota_S16x320_d1_w32) : Vec Ideal S1x1x16x320 .f32) z = blockFn x0 x1 (r0_7.emb z) :=
  piece_apply 6 (by norm_num) x0 x1 _ _ _ _ _ (.inl rfl) rfl _ _ z
set_option maxHeartbeats 1000000 in
theorem piece7 (x0 x1 : Vec Ideal S1x128x16x320 .f32) (z : S1x1x16x320.Idx) :
    (k0_pay14 (k0_pay12 (k0_pay2 (View.ld x0 r0_0)) (k0_pay3 (View.ld x1 r0_0))) (k0_pay13 (iota .tc S16x320 32 [1] iota_S16x320_d1_w32)) : Vec Ideal S1x1x16x320 .f32) z = blockFn x0 x1 (r0_8.emb z) :=
  piece_apply 7 (by norm_num) x0 x1 _ _ _ _ _ (.inl rfl) rfl _ _ z
set_option maxHeartbeats 1000000 in
theorem piece8 (x0 x1 : Vec Ideal S1x128x16x320 .f32) (z : S1x1x16x320.Idx) :
    (k0_pay15 (k0_pay2 (View.ld x0 r0_0)) (k0_pay3 (View.ld x1 r0_0)) (iota .tc S16x320 32 [1] iota_S16x320_d1_w32) : Vec Ideal S1x1x16x320 .f32) z = blockFn x0 x1 (r0_9.emb z) :=
  piece_apply 8 (by norm_num) x0 x1 _ _ _ _ _ (.inl rfl) rfl _ _ z
set_option maxHeartbeats 1000000 in
theorem piece9 (x0 x1 : Vec Ideal S1x128x16x320 .f32) (z : S1x1x16x320.Idx) :
    (k0_pay16 (k0_pay2 (View.ld x0 r0_0)) (k0_pay3 (View.ld x1 r0_0)) (iota .tc S16x320 32 [1] iota_S16x320_d1_w32) : Vec Ideal S1x1x16x320 .f32) z = blockFn x0 x1 (r0_10.emb z) :=
  piece_apply 9 (by norm_num) x0 x1 _ _ _ _ _ (.inl rfl) rfl _ _ z
set_option maxHeartbeats 1000000 in
theorem piece10 (x0 x1 : Vec Ideal S1x128x16x320 .f32) (z : S1x1x16x320.Idx) :
    (k0_pay18 (iota .tc S16x320 32 [1] iota_S16x320_d1_w32) (k0_pay17 (k0_pay2 (View.ld x0 r0_0)) (k0_pay3 (View.ld x1 r0_0))) : Vec Ideal S1x1x16x320 .f32) z = blockFn x0 x1 (r0_11.emb z) :=
  piece_apply 10 (by norm_num) x0 x1 _ _ _ _ _ (.inl rfl) rfl _ _ z
set_option maxHeartbeats 1000000 in
theorem piece11 (x0 x1 : Vec Ideal S1x128x16x320 .f32) (z : S1x1x16x320.Idx) :
    (k0_pay19 (k0_pay2 (View.ld x0 r0_0)) (k0_pay3 (View.ld x1 r0_0)) (iota .tc S16x320 32 [1] iota_S16x320_d1_w32) : Vec Ideal S1x1x16x320 .f32) z = blockFn x0 x1 (r0_12.emb z) :=
  piece_apply 11 (by norm_num) x0 x1 _ _ _ _ _ (.inl rfl) rfl _ _ z
set_option maxHeartbeats 1000000 in
theorem piece12 (x0 x1 : Vec Ideal S1x128x16x320 .f32) (z : S1x1x16x320.Idx) :
    (k0_pay20 (k0_pay2 (View.ld x0 r0_0)) (k0_pay3 (View.ld x1 r0_0)) (iota .tc S16x320 32 [1] iota_S16x320_d1_w32) : Vec Ideal S1x1x16x320 .f32) z = blockFn x0 x1 (r0_13.emb z) :=
  piece_apply 12 (by norm_num) x0 x1 _ _ _ _ _ (.inl rfl) rfl _ _ z
set_option maxHeartbeats 1000000 in
theorem piece13 (x0 x1 : Vec Ideal S1x128x16x320 .f32) (z : S1x1x16x320.Idx) :
    (k0_pay21 (k0_pay2 (View.ld x0 r0_0)) (k0_pay3 (View.ld x1 r0_0)) (iota .tc S16x320 32 [1] iota_S16x320_d1_w32) : Vec Ideal S1x1x16x320 .f32) z = blockFn x0 x1 (r0_14.emb z) :=
  piece_apply 13 (by norm_num) x0 x1 _ _ _ _ _ (.inl rfl) rfl _ _ z
set_option maxHeartbeats 1000000 in
theorem piece14 (x0 x1 : Vec Ideal S1x128x16x320 .f32) (z : S1x1x16x320.Idx) :
    (k0_pay22 (k0_pay2 (View.ld x0 r0_0)) (k0_pay3 (View.ld x1 r0_0)) (iota .tc S16x320 32 [1] iota_S16x320_d1_w32) : Vec Ideal S1x1x16x320 .f32) z = blockFn x0 x1 (r0_15.emb z) :=
  piece_apply 14 (by norm_num) x0 x1 _ _ _ _ _ (.inl rfl) rfl _ _ z
set_option maxHeartbeats 1000000 in
theorem piece15 (x0 x1 : Vec Ideal S1x128x16x320 .f32) (z : S1x1x16x320.Idx) :
    (k0_pay24 (k0_pay23 (k0_pay2 (View.ld x0 r0_0)) (k0_pay3 (View.ld x1 r0_0)) (iota .tc S16x320 32 [1] iota_S16x320_d1_w32)) : Vec Ideal S1x1x16x320 .f32) z = blockFn x0 x1 (r0_16.emb z) :=
  piece_apply 15 (by norm_num) x0 x1 _ _ _ _ _ (.inl rfl) rfl _ _ z
set_option maxHeartbeats 1000000 in
theorem piece16 (x0 x1 : Vec Ideal S1x128x16x320 .f32) (z : S1x1x16x320.Idx) :
    (k0_pay25 (k0_pay2 (View.ld x0 r0_0)) (k0_pay3 (View.ld x1 r0_0)) (iota .tc S16x320 32 [1] iota_S16x320_d1_w32) : Vec Ideal S1x1x16x320 .f32) z = blockFn x0 x1 (r0_17.emb z) :=
  piece_apply 16 (by norm_num) x0 x1 _ _ _ _ _ (.inl rfl) rfl _ _ z
set_option maxHeartbeats 1000000 in
theorem piece17 (x0 x1 : Vec Ideal S1x128x16x320 .f32) (z : S1x1x16x320.Idx) :
    (k0_pay26 (k0_pay2 (View.ld x0 r0_0)) (k0_pay3 (View.ld x1 r0_0)) (iota .tc S16x320 32 [1] iota_S16x320_d1_w32) : Vec Ideal S1x1x16x320 .f32) z = blockFn x0 x1 (r0_18.emb z) :=
  piece_apply 17 (by norm_num) x0 x1 _ _ _ _ _ (.inl rfl) rfl _ _ z
set_option maxHeartbeats 1000000 in
theorem piece18 (x0 x1 : Vec Ideal S1x128x16x320 .f32) (z : S1x1x16x320.Idx) :
    (k0_pay28 (iota .tc S16x320 32 [1] iota_S16x320_d1_w32) (k0_pay27 (k0_pay2 (View.ld x0 r0_0)) (k0_pay3 (View.ld x1 r0_0))) 18#32 : Vec Ideal S1x1x16x320 .f32) z = blockFn x0 x1 (r0_19.emb z) :=
  piece_apply 18 (by norm_num) x0 x1 _ _ _ _ _ (.inl rfl) rfl _ _ z
set_option maxHeartbeats 1000000 in
theorem piece19 (x0 x1 : Vec Ideal S1x128x16x320 .f32) (z : S1x1x16x320.Idx) :
    (k0_pay29 (k0_pay2 (View.ld x0 r0_0)) (k0_pay3 (View.ld x1 r0_0)) (iota .tc S16x320 32 [1] iota_S16x320_d1_w32) : Vec Ideal S1x1x16x320 .f32) z = blockFn x0 x1 (r0_20.emb z) :=
  piece_apply 19 (by norm_num) x0 x1 _ _ _ _ _ (.inl rfl) rfl _ _ z
set_option maxHeartbeats 1000000 in
theorem piece20 (x0 x1 : Vec Ideal S1x128x16x320 .f32) (z : S1x1x16x320.Idx) :
    (k0_pay30 (k0_pay2 (View.ld x0 r0_0)) (k0_pay3 (View.ld x1 r0_0)) (iota .tc S16x320 32 [1] iota_S16x320_d1_w32) : Vec Ideal S1x1x16x320 .f32) z = blockFn x0 x1 (r0_21.emb z) :=
  piece_apply 20 (by norm_num) x0 x1 _ _ _ _ _ (.inl rfl) rfl _ _ z
set_option maxHeartbeats 1000000 in
theorem piece21 (x0 x1 : Vec Ideal S1x128x16x320 .f32) (z : S1x1x16x320.Idx) :
    (k0_pay32 (iota .tc S16x320 32 [1] iota_S16x320_d1_w32) (k0_pay31 (k0_pay2 (View.ld x0 r0_0)) (k0_pay3 (View.ld x1 r0_0))) : Vec Ideal S1x1x16x320 .f32) z = blockFn x0 x1 (r0_22.emb z) :=
  piece_apply 21 (by norm_num) x0 x1 _ _ _ _ _ (.inl rfl) rfl _ _ z
set_option maxHeartbeats 1000000 in
theorem piece22 (x0 x1 : Vec Ideal S1x128x16x320 .f32) (z : S1x1x16x320.Idx) :
    (k0_pay33 (k0_pay2 (View.ld x0 r0_0)) (k0_pay3 (View.ld x1 r0_0)) (iota .tc S16x320 32 [1] iota_S16x320_d1_w32) : Vec Ideal S1x1x16x320 .f32) z = blockFn x0 x1 (r0_23.emb z) :=
  piece_apply 22 (by norm_num) x0 x1 _ _ _ _ _ (.inl rfl) rfl _ _ z
set_option maxHeartbeats 1000000 in
theorem piece23 (x0 x1 : Vec Ideal S1x128x16x320 .f32) (z : S1x1x16x320.Idx) :
    (k0_pay35 (k0_pay34 (k0_pay2 (View.ld x0 r0_0)) (k0_pay3 (View.ld x1 r0_0)) (iota .tc S16x320 32 [1] iota_S16x320_d1_w32)) : Vec Ideal S1x1x16x320 .f32) z = blockFn x0 x1 (r0_24.emb z) :=
  piece_apply 23 (by norm_num) x0 x1 _ _ _ _ _ (.inl rfl) rfl _ _ z
set_option maxHeartbeats 1000000 in
theorem piece24 (x0 x1 : Vec Ideal S1x128x16x320 .f32) (z : S1x1x16x320.Idx) :
    (k0_pay36 (k0_pay2 (View.ld x0 r0_0)) (k0_pay3 (View.ld x1 r0_0)) (iota .tc S16x320 32 [1] iota_S16x320_d1_w32) : Vec Ideal S1x1x16x320 .f32) z = blockFn x0 x1 (r0_25.emb z) :=
  piece_apply 24 (by norm_num) x0 x1 _ _ _ _ _ (.inl rfl) rfl _ _ z
set_option maxHeartbeats 1000000 in
theorem piece25 (x0 x1 : Vec Ideal S1x128x16x320 .f32) (z : S1x1x16x320.Idx) :
    (k0_pay37 (k0_pay2 (View.ld x0 r0_0)) (k0_pay3 (View.ld x1 r0_0)) (iota .tc S16x320 32 [1] iota_S16x320_d1_w32) : Vec Ideal S1x1x16x320 .f32) z = blockFn x0 x1 (r0_26.emb z) :=
  piece_apply 25 (by norm_num) x0 x1 _ _ _ _ _ (.inl rfl) rfl _ _ z
set_option maxHeartbeats 1000000 in
theorem piece26 (x0 x1 : Vec Ideal S1x128x16x320 .f32) (z : S1x1x16x320.Idx) :
    (k0_pay41 (k0_pay38 (k0_pay2 (View.ld x0 r0_0)) (k0_pay3 (View.ld x1 r0_0))) (k0_pay39 (iota .tc S16x320 32 [1] iota_S16x320_d1_w32)) (k0_pay40 (F := Ideal)) : Vec Ideal S1x1x16x320 .f32) z = blockFn x0 x1 (r0_27.emb z) :=
  piece_apply 26 (by norm_num) x0 x1 _ _ _ _ _ (.inl rfl) rfl _ _ z
set_option maxHeartbeats 1000000 in
theorem piece27 (x0 x1 : Vec Ideal S1x128x16x320 .f32) (z : S1x1x16x320.Idx) :
    (k0_pay42 (k0_pay2 (View.ld x0 r0_0)) (k0_pay3 (View.ld x1 r0_0)) (iota .tc S16x320 32 [1] iota_S16x320_d1_w32) : Vec Ideal S1x1x16x320 .f32) z = blockFn x0 x1 (r0_28.emb z) :=
  piece_apply 27 (by norm_num) x0 x1 _ _ _ _ _ (.inl rfl) rfl _ _ z
set_option maxHeartbeats 1000000 in
theorem piece28 (x0 x1 : Vec Ideal S1x128x16x320 .f32) (z : S1x1x16x320.Idx) :
    (k0_pay43 (k0_pay2 (View.ld x0 r0_0)) (k0_pay3 (View.ld x1 r0_0)) (iota .tc S16x320 32 [1] iota_S16x320_d1_w32) : Vec Ideal S1x1x16x320 .f32) z = blockFn x0 x1 (r0_29.emb z) :=
  piece_apply 28 (by norm_num) x0 x1 _ _ _ _ _ (.inl rfl) rfl _ _ z
set_option maxHeartbeats 1000000 in
theorem piece29 (x0 x1 : Vec Ideal S1x128x16x320 .f32) (z : S1x1x16x320.Idx) :
    (k0_pay46 (iota .tc S16x320 32 [1] iota_S16x320_d1_w32) (k0_pay44 (k0_pay2 (View.ld x0 r0_0)) (k0_pay3 (View.ld x1 r0_0))) (k0_pay45 (F := Ideal)) : Vec Ideal S1x1x16x320 .f32) z = blockFn x0 x1 (r0_30.emb z) :=
  piece_apply 29 (by norm_num) x0 x1 _ _ _ _ _ (.inl rfl) rfl _ _ z
set_option maxHeartbeats 1000000 in
theorem piece30 (x0 x1 : Vec Ideal S1x128x16x320 .f32) (z : S1x1x16x320.Idx) :
    (k0_pay47 (k0_pay2 (View.ld x0 r0_0)) (k0_pay3 (View.ld x1 r0_0)) (iota .tc S16x320 32 [1] iota_S16x320_d1_w32) : Vec Ideal S1x1x16x320 .f32) z = blockFn x0 x1 (r0_31.emb z) :=
  piece_apply 30 (by norm_num) x0 x1 _ _ _ _ _ (.inl rfl) rfl _ _ z
set_option maxHeartbeats 1000000 in
theorem piece31 (x0 x1 : Vec Ideal S1x128x16x320 .f32) (z : S1x1x16x320.Idx) :
    (k0_pay48 (k0_pay2 (View.ld x0 r0_0)) (k0_pay3 (View.ld x1 r0_0)) (iota .tc S16x320 32 [1] iota_S16x320_d1_w32) : Vec Ideal S1x1x16x320 .f32) z = blockFn x0 x1 (r0_32.emb z) :=
  piece_apply 31 (by norm_num) x0 x1 _ _ _ _ _ (.inl rfl) rfl _ _ z
set_option maxHeartbeats 1000000 in
theorem piece32 (x0 x1 : Vec Ideal S1x128x16x320 .f32) (z : S1x1x16x320.Idx) :
    (k0_pay49 (k0_pay2 (View.ld x0 r0_0)) (k0_pay3 (View.ld x1 r0_0)) (iota .tc S16x320 32 [1] iota_S16x320_d1_w32) 32#32 : Vec Ideal S1x1x16x320 .f32) z = blockFn x0 x1 (r0_33.emb z) :=
  piece_apply 32 (by norm_num) x0 x1 _ _ _ _ _ (.inl rfl) rfl _ _ z
set_option maxHeartbeats 1000000 in
theorem piece33 (x0 x1 : Vec Ideal S1x128x16x320 .f32) (z : S1x1x16x320.Idx) :
    (k0_pay50 (k0_pay2 (View.ld x0 r0_0)) (k0_pay3 (View.ld x1 r0_0)) (iota .tc S16x320 32 [1] iota_S16x320_d1_w32) : Vec Ideal S1x1x16x320 .f32) z = blockFn x0 x1 (r0_34.emb z) :=
  piece_apply 33 (by norm_num) x0 x1 _ _ _ _ _ (.inl rfl) rfl _ _ z
set_option maxHeartbeats 1000000 in
theorem piece34 (x0 x1 : Vec Ideal S1x128x16x320 .f32) (z : S1x1x16x320.Idx) :
    (k0_pay52 (k0_pay51 (k0_pay2 (View.ld x0 r0_0)) (k0_pay3 (View.ld x1 r0_0)) (iota .tc S16x320 32 [1] iota_S16x320_d1_w32)) : Vec Ideal S1x1x16x320 .f32) z = blockFn x0 x1 (r0_35.emb z) :=
  piece_apply 34 (by norm_num) x0 x1 _ _ _ _ _ (.inl rfl) rfl _ _ z
set_option maxHeartbeats 1000000 in
theorem piece35 (x0 x1 : Vec Ideal S1x128x16x320 .f32) (z : S1x1x16x320.Idx) :
    (k0_pay53 (k0_pay2 (View.ld x0 r0_0)) (k0_pay3 (View.ld x1 r0_0)) (iota .tc S16x320 32 [1] iota_S16x320_d1_w32) : Vec Ideal S1x1x16x320 .f32) z = blockFn x0 x1 (r0_36.emb z) :=
  piece_apply 35 (by norm_num) x0 x1 _ _ _ _ _ (.inl rfl) rfl _ _ z
set_option maxHeartbeats 1000000 in
theorem piece36 (x0 x1 : Vec Ideal S1x128x16x320 .f32) (z : S1x1x16x320.Idx) :
    (k0_pay54 (k0_pay2 (View.ld x0 r0_0)) (k0_pay3 (View.ld x1 r0_0)) (iota .tc S16x320 32 [1] iota_S16x320_d1_w32) : Vec Ideal S1x1x16x320 .f32) z = blockFn x0 x1 (r0_37.emb z) :=
  piece_apply 36 (by norm_num) x0 x1 _ _ _ _ _ (.inl rfl) rfl _ _ z
set_option maxHeartbeats 1000000 in
theorem piece37 (x0 x1 : Vec Ideal S1x128x16x320 .f32) (z : S1x1x16x320.Idx) :
    (k0_pay57 (k0_pay55 (k0_pay2 (View.ld x0 r0_0)) (k0_pay3 (View.ld x1 r0_0))) (k0_pay56 (iota .tc S16x320 32 [1] iota_S16x320_d1_w32)) : Vec Ideal S1x1x16x320 .f32) z = blockFn x0 x1 (r0_38.emb z) :=
  piece_apply 37 (by norm_num) x0 x1 _ _ _ _ _ (.inl rfl) rfl _ _ z
set_option maxHeartbeats 1000000 in
theorem piece38 (x0 x1 : Vec Ideal S1x128x16x320 .f32) (z : S1x1x16x320.Idx) :
    (k0_pay58 (k0_pay2 (View.ld x0 r0_0)) (k0_pay3 (View.ld x1 r0_0)) (iota .tc S16x320 32 [1] iota_S16x320_d1_w32) : Vec Ideal S1x1x16x320 .f32) z = blockFn x0 x1 (r0_39.emb z) :=
  piece_apply 38 (by norm_num) x0 x1 _ _ _ _ _ (.inl rfl) rfl _ _ z
set_option maxHeartbeats 1000000 in
theorem piece39 (x0 x1 : Vec Ideal S1x128x16x320 .f32) (z : S1x1x16x320.Idx) :
    (k0_pay59 (k0_pay2 (View.ld x0 r0_0)) (k0_pay3 (View.ld x1 r0_0)) (iota .tc S16x320 32 [1] iota_S16x320_d1_w32) : Vec Ideal S1x1x16x320 .f32) z = blockFn x0 x1 (r0_40.emb z) :=
  piece_apply 39 (by norm_num) x0 x1 _ _ _ _ _ (.inl rfl) rfl _ _ z
set_option maxHeartbeats 1000000 in
theorem piece40 (x0 x1 : Vec Ideal S1x128x16x320 .f32) (z : S1x1x16x320.Idx) :
    (k0_pay61 (iota .tc S16x320 32 [1] iota_S16x320_d1_w32) (k0_pay60 (k0_pay2 (View.ld x0 r0_0)) (k0_pay3 (View.ld x1 r0_0))) : Vec Ideal S1x1x16x320 .f32) z = blockFn x0 x1 (r0_41.emb z) :=
  piece_apply 40 (by norm_num) x0 x1 _ _ _ _ _ (.inl rfl) rfl _ _ z
set_option maxHeartbeats 1000000 in
theorem piece41 (x0 x1 : Vec Ideal S1x128x16x320 .f32) (z : S1x1x16x320.Idx) :
    (k0_pay62 (k0_pay2 (View.ld x0 r0_0)) (k0_pay3 (View.ld x1 r0_0)) (iota .tc S16x320 32 [1] iota_S16x320_d1_w32) : Vec Ideal S1x1x16x320 .f32) z = blockFn x0 x1 (r0_42.emb z) :=
  piece_apply 41 (by norm_num) x0 x1 _ _ _ _ _ (.inl rfl) rfl _ _ z
set_option maxHeartbeats 1000000 in
theorem piece42 (x0 x1 : Vec Ideal S1x128x16x320 .f32) (z : S1x1x16x320.Idx) :
    (k0_pay63 (k0_pay2 (View.ld x0 r0_0)) (k0_pay3 (View.ld x1 r0_0)) (iota .tc S16x320 32 [1] iota_S16x320_d1_w32) : Vec Ideal S1x1x16x320 .f32) z = blockFn x0 x1 (r0_43.emb z) :=
  piece_apply 42 (by norm_num) x0 x1 _ _ _ _ _ (.inl rfl) rfl _ _ z
set_option maxHeartbeats 1000000 in
theorem piece43 (x0 x1 : Vec Ideal S1x128x16x320 .f32) (z : S1x1x16x320.Idx) :
    (k0_pay64 (k0_pay2 (View.ld x0 r0_0)) (k0_pay3 (View.ld x1 r0_0)) (iota .tc S16x320 32 [1] iota_S16x320_d1_w32) : Vec Ideal S1x1x16x320 .f32) z = blockFn x0 x1 (r0_44.emb z) :=
  piece_apply 43 (by norm_num) x0 x1 _ _ _ _ _ (.inl rfl) rfl _ _ z
set_option maxHeartbeats 1000000 in
theorem piece44 (x0 x1 : Vec Ideal S1x128x16x320 .f32) (z : S1x1x16x320.Idx) :
    (k0_pay65 (k0_pay2 (View.ld x0 r0_0)) (k0_pay3 (View.ld x1 r0_0)) (iota .tc S16x320 32 [1] iota_S16x320_d1_w32) : Vec Ideal S1x1x16x320 .f32) z = blockFn x0 x1 (r0_45.emb z) :=
  piece_apply 44 (by norm_num) x0 x1 _ _ _ _ _ (.inl rfl) rfl _ _ z
set_option maxHeartbeats 1000000 in
theorem piece45 (x0 x1 : Vec Ideal S1x128x16x320 .f32) (z : S1x1x16x320.Idx) :
    (k0_pay67 (k0_pay66 (k0_pay2 (View.ld x0 r0_0)) (k0_pay3 (View.ld x1 r0_0)) (iota .tc S16x320 32 [1] iota_S16x320_d1_w32)) : Vec Ideal S1x1x16x320 .f32) z = blockFn x0 x1 (r0_46.emb z) :=
  piece_apply 45 (by norm_num) x0 x1 _ _ _ _ _ (.inl rfl) rfl _ _ z
set_option maxHeartbeats 1000000 in
theorem piece46 (x0 x1 : Vec Ideal S1x128x16x320 .f32) (z : S1x1x16x320.Idx) :
    (k0_pay68 (k0_pay2 (View.ld x0 r0_0)) (k0_pay3 (View.ld x1 r0_0)) (iota .tc S16x320 32 [1] iota_S16x320_d1_w32) : Vec Ideal S1x1x16x320 .f32) z = blockFn x0 x1 (r0_47.emb z) :=
  piece_apply 46 (by norm_num) x0 x1 _ _ _ _ _ (.inl rfl) rfl _ _ z
set_option maxHeartbeats 1000000 in
theorem piece47 (x0 x1 : Vec Ideal S1x128x16x320 .f32) (z : S1x1x16x320.Idx) :
    (k0_pay1 (k0_pay69 (k0_pay2 (View.ld x0 r0_0)) (k0_pay3 (View.ld x1 r0_0)) (iota .tc S16x320 32 [1] iota_S16x320_d1_w32)) : Vec Ideal S1x1x16x320 .f32) z = blockFn x0 x1 (r0_48.emb z) :=
  piece_apply 47 (by norm_num) x0 x1 _ _ _ _ _ (.inl rfl) rfl _ _ z

set_option maxHeartbeats 4000000 in
/-- THE BLOCK.  What the body leaves in the output block, from the two input blocks, is `blockFn`: each of the 48 stores
    writes its part of it, and the stores cover the block. -/
theorem out_eq (x0 x1 : Vec Ideal S1x128x16x320 .f32) : out0_2 (F := Ideal) x0 x1 = blockFn x0 x1 := by
  funext y
  unfold out0_2
  refine View.canon_apply_of_pieces (Val := Elt Ideal) (blockFn x0 x1 : S1x48x16x320.Idx → Elt Ideal .f32) _ ?_ y
    (cover0_2 _ _ _ _ _ _ _ _ _ _ _ _ _ _ _ _ _ _ _ _ _ _ _ _ _ _ _ _ _ _ _ _ _ _ _ _ _ _ _ _ _ _ _ _ _ _ _ _ y)
  exact all_cons (piece47 x0 x1) (all_cons (piece46 x0 x1) (all_cons (piece45 x0 x1) (all_cons (piece44 x0 x1) (all_cons (piece43 x0 x1) (all_cons (piece42 x0 x1) (all_cons (piece41 x0 x1) (all_cons (piece40 x0 x1) (all_cons (piece39 x0 x1) (all_cons (piece38 x0 x1) (all_cons (piece37 x0 x1) (all_cons (piece36 x0 x1) (all_cons (piece35 x0 x1) (all_cons (piece34 x0 x1) (all_cons (piece33 x0 x1) (all_cons (piece32 x0 x1) (all_cons (piece31 x0 x1) (all_cons (piece30 x0 x1) (all_cons (piece29 x0 x1) (all_cons (piece28 x0 x1) (all_cons (piece27 x0 x1) (all_cons (piece26 x0 x1) (all_cons (piece25 x0 x1) (all_cons (piece24 x0 x1) (all_cons (piece23 x0 x1) (all_cons (piece22 x0 x1) (all_cons (piece21 x0 x1) (all_cons (piece20 x0 x1) (all_cons (piece19 x0 x1) (all_cons (piece18 x0 x1) (all_cons (piece17 x0 x1) (all_cons (piece16 x0 x1) (all_cons (piece15 x0 x1) (all_cons (piece14 x0 x1) (all_cons (piece13 x0 x1) (all_cons (piece12 x0 x1) (all_cons (piece11 x0 x1) (all_cons (piece10 x0 x1) (all_cons (piece9 x0 x1) (all_cons (piece8 x0 x1) (all_cons (piece7 x0 x1) (all_cons (piece6 x0 x1) (all_cons (piece5 x0 x1) (all_cons (piece4 x0 x1) (all_cons (piece3 x0 x1) (all_cons (piece2 x0 x1) (all_cons (piece1 x0 x1) (all_cons (piece0 x0 x1) (all_nil _))))))))))))))))))))))))))))))))))))))))))))))))

end Cert.CostVolume

end
-- ==== Proof.Spec.lean ====
/-
  The correlation cost volume, as one function of the two feature arrays.

  For a batch entry `b`, a disparity `d < 48`, a row `h` and a column `x`, the cost is the mean over the 128 channels of
  `left[b, c, h, x] · right[b, c, h, x − d]` when the shifted column exists (`d ≤ x`), and `0` to the left of it.  The mean
  is the plain sum divided by the float `128`; the sum is a finite sum of extended reals, so no order of summation is
  recorded in it.
-/
import Idealize.ShloMosaic.Lib.ValueIdx
import Idealize.ShloMosaic.PureOps.Ideal.Laws

noncomputable section

namespace Cert.CostVolume

open Idealize.ShloMosaic Idealize.ShloMosaic.ValueIdx

/-- The feature arrays' shape, `[batch, channel, row, column]`. -/
abbrev Feat : Shape := ⟨4, ![8, 128, 96, 320]⟩
/-- The volume's shape, `[batch, disparity, row, column]`. -/
abbrev Vol : Shape := ⟨4, ![8, 48, 96, 320]⟩

/-- The cost at disparity `d` (a natural number) of entry `(b, h, x)`: the channel mean of the products of the left
    feature at column `x` with the right feature at column `x − d`, and `0` where `x < d`. -/
def cost (L R : Feat.Idx → EReal) (d : ℕ) (b : Fin 8) (h : Fin 96) (x : Fin 320) : EReal :=
  if d ≤ x.val then
    Ideal.div (∑ k : Fin 128, L (ix4 b k h x) * R (ix4 b k h ⟨x.val - d, by have := x.isLt; omega⟩))
      (Ideal.ofBits .f32 0x43000000#32)
  else 0

/-- The whole volume: entry `(b, d, h, x)` is the cost at disparity `d`. -/
def volume (L R : Feat.Idx → EReal) : Vol.Idx → EReal :=
  fun j => cost L R (j 1).val (j 0) (j 2) (j 3)

end Cert.CostVolume

end
-- ==== Proof.KernelVolume.lean ====
/-
  The kernel's result array is the cost volume.

  Grid point `(bi, hi)` stages batch entry `bi`, rows `16·hi … 16·hi + 15` of both feature arrays (all channels, all
  columns) and writes back the `[1, 48, 16, 320]` block of the volume at the same batch entry and rows.  Entry
  `(0, d, h, x)` of that block is the tile of disparity `d` at `(h, x)`, a sum over the channels of products of entries of
  the two staged blocks in row `h`; those are the arrays' entries at batch `bi`, row `16·hi + h`, so the block is the
  volume's block.  The 8 × 6 blocks tile the volume, so the array the kernel leaves is the volume everywhere.
-/
import proofs.«126808_j80762565034123_2_alg».proof.Proof.Gen.KernelIdeal.Value
import proofs.«126808_j80762565034123_2_alg».proof.Proof.KernelBlock
import proofs.«126808_j80762565034123_2_alg».proof.Proof.Spec

set_option maxRecDepth 16384

noncomputable section

namespace Cert.CostVolume

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three windows' block indices over the 48 grid points: the inputs move with the output on the batch and row
    axes, and every window stays at block 0 on the channel / disparity axis and on the column axis. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 7 ∧ win0_2.index t (2 : Fin 4) ≤ 5 :=
  (by decide +kernel : ∀ t : Fin grid0.N, _)

/-- Every (batch entry, row block) is some grid point's. -/
theorem idx_onto : ∀ (q0 : Fin 8) (q2 : Fin 6), ∃ t : Fin cfg0.N, win0_2.index t = ![q0.val, 0, q2.val, 0] :=
  (by decide +kernel : ∀ (q0 : Fin 8) (q2 : Fin 6), ∃ t : Fin grid0.N, win0_2.index t = ![q0.val, 0, q2.val, 0])

/-- A tile entry computed from two blocks that are rows of the arrays `L`, `R` is the volume's entry there. -/
theorem tile_vs_cost (L R : Feat.Idx → EReal) (x0 x1 : S1x128x16x320.Idx → EReal) (d : ℕ) (h : Fin 16) (x : Fin 320)
    (bI : Fin 8) (hI : Fin 96)
    (hx0 : ∀ (k : Fin 128) (xx : Fin 320), x0 (ix4 (0 : Fin 1) k h xx) = L (ix4 bI k hI xx))
    (hx1 : ∀ (k : Fin 128) (xx : Fin 320), x1 (ix4 (0 : Fin 1) k h xx) = R (ix4 bI k hI xx)) :
    tileVal x0 x1 d h x = cost L R d bI hI x := by
  unfold tileVal cost
  simp only [hx0, hx1]

/-- WHAT POINT `t` WRITES BACK is block `t` of the volume of the argument arrays as the region finds them. -/
theorem flushed_eq (c : Dev nD) (t : Fin cfg0.N) :
    (dats m 0 c).flushed 2 t
      = ((cfg0.win 2).blk t).view.read (Elt Ideal) (volume (V m c main_arg0) (V m c main_arg1)) := by
  rw [Cert.KernelIdeal.Value.flushed2 m c t, out_eq (iblk m c 0 t) (iblk m c 1 t)]
  obtain ⟨e00, e01, e02, e03, e10, e11, e12, e13, e21, e23, b0, b2⟩ := idx_facts t
  funext j
  show tileVal (iblk m c 0 t) (iblk m c 1 t) (j 1).val (j 2) (j 3)
    = cost (V m c main_arg0) (V m c main_arg1) ((((cfg0.win 2).blk t).view.emb j) 1).val
        ((((cfg0.win 2).blk t).view.emb j) 0) ((((cfg0.win 2).blk t).view.emb j) 2) ((((cfg0.win 2).blk t).view.emb j) 3)
  have hj0 : (j 0).val < 1 := (j 0).isLt
  have hj2 : (j 2).val < 16 := (j 2).isLt
  have e1 : ((((cfg0.win 2).blk t).view.emb j) 1).val = (j 1).val := by
    show win0_2.index t (1 : Fin 4) * 48 + 1 * (j 1).val = (j 1).val
    omega
  have e3 : (((cfg0.win 2).blk t).view.emb j) 3 = j 3 := Fin.ext (by
    show win0_2.index t (3 : Fin 4) * 320 + 1 * (j 3).val = (j 3).val
    omega)
  rw [e1, e3]
  refine tile_vs_cost _ _ _ _ _ _ _ _ _ (fun k xx => ?_) (fun k xx => ?_)
  · show V m c main_arg0 (((cfg0.win 0).blk t).view.emb (ix4 (0 : Fin 1) k (j 2) xx)) = _
    refine congrArg (V m c main_arg0) (funext fun a => Fin.ext ?_)
    match a with
    | ⟨0, _⟩ => show win0_0.index t (0 : Fin 4) * 1 + 1 * 0 = win0_2.index t (0 : Fin 4) * 1 + 1 * (j 0).val; omega
    | ⟨1, _⟩ => show win0_0.index t (1 : Fin 4) * 128 + 1 * k.val = k.val; omega
    | ⟨2, _⟩ => show win0_0.index t (2 : Fin 4) * 16 + 1 * (j 2).val = win0_2.index t (2 : Fin 4) * 16 + 1 * (j 2).val; omega
    | ⟨3, _⟩ => show win0_0.index t (3 : Fin 4) * 320 + 1 * xx.val = xx.val; omega
  · show V m c main_arg1 (((cfg0.win 1).blk t).view.emb (ix4 (0 : Fin 1) k (j 2) xx)) = _
    refine congrArg (V m c main_arg1) (funext fun a => Fin.ext ?_)
    match a with
    | ⟨0, _⟩ => show win0_1.index t (0 : Fin 4) * 1 + 1 * 0 = win0_2.index t (0 : Fin 4) * 1 + 1 * (j 0).val; omega
    | ⟨1, _⟩ => show win0_1.index t (1 : Fin 4) * 128 + 1 * k.val = k.val; omega
    | ⟨2, _⟩ => show win0_1.index t (2 : Fin 4) * 16 + 1 * (j 2).val = win0_2.index t (2 : Fin 4) * 16 + 1 * (j 2).val; omega
    | ⟨3, _⟩ => show win0_1.index t (3 : Fin 4) * 320 + 1 * xx.val = xx.val; omega

/-- An index of the volume is in point `t`'s block iff each coordinate is in the block's range on its axis. -/
theorem mem_blk (t : Fin cfg0.N) (i : S8x48x96x320.Idx) :
    i ∈ ((cfg0.win 2).blk t).view.set ↔ ∀ a : Fin 4, win0_2.index t a * S1x48x16x320.size a ≤ (i a).val
      ∧ (i a).val < win0_2.index t a * S1x48x16x320.size a + S1x48x16x320.size a := by
  show i ∈ ((View.whole main_v0).slice (win0_2.rect t)).set ↔ _
  rw [View.set_slice_whole, Rect.mem_set_unit]
  exact Iff.rfl

/-- Every index of the volume lies in the block of the grid point of its batch entry and row block. -/
theorem covered (i : S8x48x96x320.Idx) :
    ∃ t : Fin cfg0.N, (cfg0.win 2).flush t = true ∧ i ∈ ((cfg0.win 2).blk t).view.set := by
  have hi0 : (i 0).val < 8 := (i 0).isLt
  have hi1 : (i 1).val < 48 := (i 1).isLt
  have hi2 : (i 2).val < 96 := (i 2).isLt
  have hi3 : (i 3).val < 320 := (i 3).isLt
  obtain ⟨t, ht⟩ := idx_onto ⟨(i 0).val, hi0⟩ ⟨(i 2).val / 16, by omega⟩
  have q0 : win0_2.index t (0 : Fin 4) = (i 0).val := congrFun ht 0
  have q1 : win0_2.index t (1 : Fin 4) = 0 := congrFun ht 1
  have q2 : win0_2.index t (2 : Fin 4) = (i 2).val / 16 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 48 ≤ (i 1).val ∧ (i 1).val < win0_2.index t (1 : Fin 4) * 48 + 48; omega
  | ⟨2, _⟩ => show win0_2.index t (2 : Fin 4) * 16 ≤ (i 2).val ∧ (i 2).val < win0_2.index t (2 : Fin 4) * 16 + 16; omega
  | ⟨3, _⟩ => show win0_2.index t (3 : Fin 4) * 320 ≤ (i 3).val ∧ (i 3).val < win0_2.index t (3 : Fin 4) * 320 + 320; omega

/-- THE ARRAY after the run is the volume of the two argument arrays. -/
theorem final (c : Dev nD) :
    (dats m 0 c).arrAt 2 cfg0.N
      = volume (m ((c : Thread nD τ).loc main_arg0)) (m ((c : Thread nD τ).loc main_arg1)) :=
  (dats m 0 c).arrAt_eq_of_cover 2 (volume (V m c main_arg0) (V m c main_arg1)) (fun t _ => flushed_eq m c t) covered

/-- The kernel's run: every weakly fair execution terminates with the result array at the volume of the arguments, and
    the arguments unchanged. -/
theorem kernel_run : θ_run defs (onTc (τ := τ) (main (F := Ideal))) ⟨m, fun _ => 0, ρ⟩ fun r => ∀ c : Dev nD,
      r.2.mem ((c : Thread nD τ).loc main_v0)
        = volume (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.CostVolume

end
-- ==== Proof.RefRun.lean ====
/-
  The reference program as a straight line of host operations, and its run.

  The 575 operations are listed in program order and cut where the mathematics cuts them: one group per disparity `d`
  (for `d = 0` the product, the channel sum and the division; for `d ≥ 1` the two column cuts, the product, the channel
  sum, the division and the padding), and a last group that views each of the 48 slabs as `[8, 1, 96, 320]` and joins
  them.  A group writes only its own buffers, so the slab a group leaves is still there when the last group reads it, and
  the two argument arrays are never written.  Every weakly fair execution therefore ends with the result array at the
  joined slabs of the argument arrays, and the arguments unchanged.
-/
import proofs.«126808_j80762565034123_2_alg».proof.Proof.Gen.ReferenceIdeal
import Idealize.ShloMosaic.Lib.StableHlo.Run
import Idealize.ShloMosaic.Lib.Pipeline.Frame

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Sixteen slabs `[8, 1, 96, 320]` joined along the disparity axis, as a function of the sixteen. -/
def fn_cat16 : (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x1x96x320, .f32⟩ : BufTy).Contents (Elt F) → (⟨S8x16x96x320, .f32⟩ : BufTy).Contents (Elt F) :=
  fun u0 u1 u2 u3 u4 u5 u6 u7 u8 u9 u10 u11 u12 u13 u14 u15 => concatenate S8x16x96x320 1 [⟨S8x1x96x320, u0⟩, ⟨S8x1x96x320, u1⟩, ⟨S8x1x96x320, u2⟩, ⟨S8x1x96x320, u3⟩, ⟨S8x1x96x320, u4⟩, ⟨S8x1x96x320, u5⟩, ⟨S8x1x96x320, u6⟩, ⟨S8x1x96x320, u7⟩, ⟨S8x1x96x320, u8⟩, ⟨S8x1x96x320, u9⟩, ⟨S8x1x96x320, u10⟩, ⟨S8x1x96x320, u11⟩, ⟨S8x1x96x320, u12⟩, ⟨S8x1x96x320, u13⟩, ⟨S8x1x96x320, u14⟩, ⟨S8x1x96x320, u15⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1

/-- Three groups of sixteen joined along the disparity axis, as a function of the three. -/
def fn_cat3 : (⟨S8x16x96x320, .f32⟩ : BufTy).Contents (Elt F) → (⟨S8x16x96x320, .f32⟩ : BufTy).Contents (Elt F) → (⟨S8x16x96x320, .f32⟩ : BufTy).Contents (Elt F) → (⟨S8x48x96x320, .f32⟩ : BufTy).Contents (Elt F) :=
  fun u0 u1 u2 => concatenate S8x48x96x320 1 [⟨S8x16x96x320, u0⟩, ⟨S8x16x96x320, u1⟩, ⟨S8x16x96x320, u2⟩] concatenates_S8x16x96x320_S8x16x96x320_S8x16x96x320_S8x48x96x320_d1

/-- The slab of disparity 0 as a function of the argument arrays. -/
def res_slab0 (V0 : Valuation τ sig (Elt F)) : (Proc.devRef .tc main_v3 : DevRef τ sig).ty.Contents (Elt F) :=
  Host.divf (Host.reduceAdd (mulf (V0 (Proc.devRef .tc main_arg0)) (V0 (Proc.devRef .tc main_arg1))) (constant S_ .f32 0x00000000#32) reducesTo_S8x128x96x320_S8x96x320_d1 h_S_) (broadcastInDim S8x96x320 ![] bcast_S_S8x96x320 (constant S_ .f32 0x43000000#32))

/-- The slab of disparity 1 as a function of the argument arrays. -/
def res_slab1 (V0 : Valuation τ sig (Elt F)) : (Proc.devRef .tc main_v10 : DevRef τ sig).ty.Contents (Elt F) :=
  pad S8x96x320 ![0, 0, 1] ![0, 0, 0] ![0, 0, 0] (Host.divf (Host.reduceAdd (mulf (extractStridedSlice S8x128x96x319 ![0, 0, 0, 1] (V0 (Proc.devRef .tc main_arg0)) slices_S8x128x96x320_S8x128x96x319_0_0_0_1) (extractStridedSlice S8x128x96x319 ![0, 0, 0, 0] (V0 (Proc.devRef .tc main_arg1)) slices_S8x128x96x320_S8x128x96x319_0_0_0_0)) (constant S_ .f32 0x00000000#32) reducesTo_S8x128x96x319_S8x96x319_d1 h_S_) (broadcastInDim S8x96x319 ![] bcast_S_S8x96x319 (constant S_ .f32 0x43000000#32))) (sitofp .f32 (constantI S_ 32 0#32)) pads_S8x96x319_S8x96x320_000_000_100 h_S_

/-- The slab of disparity 2 as a function of the argument arrays. -/
def res_slab2 (V0 : Valuation τ sig (Elt F)) : (Proc.devRef .tc main_v17 : DevRef τ sig).ty.Contents (Elt F) :=
  pad S8x96x320 ![0, 0, 2] ![0, 0, 0] ![0, 0, 0] (Host.divf (Host.reduceAdd (mulf (extractStridedSlice S8x128x96x318 ![0, 0, 0, 2] (V0 (Proc.devRef .tc main_arg0)) slices_S8x128x96x320_S8x128x96x318_0_0_0_2) (extractStridedSlice S8x128x96x318 ![0, 0, 0, 0] (V0 (Proc.devRef .tc main_arg1)) slices_S8x128x96x320_S8x128x96x318_0_0_0_0)) (constant S_ .f32 0x00000000#32) reducesTo_S8x128x96x318_S8x96x318_d1 h_S_) (broadcastInDim S8x96x318 ![] bcast_S_S8x96x318 (constant S_ .f32 0x43000000#32))) (sitofp .f32 (constantI S_ 32 0#32)) pads_S8x96x318_S8x96x320_000_000_200 h_S_

/-- The slab of disparity 3 as a function of the argument arrays. -/
def res_slab3 (V0 : Valuation τ sig (Elt F)) : (Proc.devRef .tc main_v24 : DevRef τ sig).ty.Contents (Elt F) :=
  pad S8x96x320 ![0, 0, 3] ![0, 0, 0] ![0, 0, 0] (Host.divf (Host.reduceAdd (mulf (extractStridedSlice S8x128x96x317 ![0, 0, 0, 3] (V0 (Proc.devRef .tc main_arg0)) slices_S8x128x96x320_S8x128x96x317_0_0_0_3) (extractStridedSlice S8x128x96x317 ![0, 0, 0, 0] (V0 (Proc.devRef .tc main_arg1)) slices_S8x128x96x320_S8x128x96x317_0_0_0_0)) (constant S_ .f32 0x00000000#32) reducesTo_S8x128x96x317_S8x96x317_d1 h_S_) (broadcastInDim S8x96x317 ![] bcast_S_S8x96x317 (constant S_ .f32 0x43000000#32))) (sitofp .f32 (constantI S_ 32 0#32)) pads_S8x96x317_S8x96x320_000_000_300 h_S_

/-- The slab of disparity 4 as a function of the argument arrays. -/
def res_slab4 (V0 : Valuation τ sig (Elt F)) : (Proc.devRef .tc main_v31 : DevRef τ sig).ty.Contents (Elt F) :=
  pad S8x96x320 ![0, 0, 4] ![0, 0, 0] ![0, 0, 0] (Host.divf (Host.reduceAdd (mulf (extractStridedSlice S8x128x96x316 ![0, 0, 0, 4] (V0 (Proc.devRef .tc main_arg0)) slices_S8x128x96x320_S8x128x96x316_0_0_0_4) (extractStridedSlice S8x128x96x316 ![0, 0, 0, 0] (V0 (Proc.devRef .tc main_arg1)) slices_S8x128x96x320_S8x128x96x316_0_0_0_0)) (constant S_ .f32 0x00000000#32) reducesTo_S8x128x96x316_S8x96x316_d1 h_S_) (broadcastInDim S8x96x316 ![] bcast_S_S8x96x316 (constant S_ .f32 0x43000000#32))) (sitofp .f32 (constantI S_ 32 0#32)) pads_S8x96x316_S8x96x320_000_000_400 h_S_

/-- The slab of disparity 5 as a function of the argument arrays. -/
def res_slab5 (V0 : Valuation τ sig (Elt F)) : (Proc.devRef .tc main_v38 : DevRef τ sig).ty.Contents (Elt F) :=
  pad S8x96x320 ![0, 0, 5] ![0, 0, 0] ![0, 0, 0] (Host.divf (Host.reduceAdd (mulf (extractStridedSlice S8x128x96x315 ![0, 0, 0, 5] (V0 (Proc.devRef .tc main_arg0)) slices_S8x128x96x320_S8x128x96x315_0_0_0_5) (extractStridedSlice S8x128x96x315 ![0, 0, 0, 0] (V0 (Proc.devRef .tc main_arg1)) slices_S8x128x96x320_S8x128x96x315_0_0_0_0)) (constant S_ .f32 0x00000000#32) reducesTo_S8x128x96x315_S8x96x315_d1 h_S_) (broadcastInDim S8x96x315 ![] bcast_S_S8x96x315 (constant S_ .f32 0x43000000#32))) (sitofp .f32 (constantI S_ 32 0#32)) pads_S8x96x315_S8x96x320_000_000_500 h_S_

/-- The slab of disparity 6 as a function of the argument arrays. -/
def res_slab6 (V0 : Valuation τ sig (Elt F)) : (Proc.devRef .tc main_v45 : DevRef τ sig).ty.Contents (Elt F) :=
  pad S8x96x320 ![0, 0, 6] ![0, 0, 0] ![0, 0, 0] (Host.divf (Host.reduceAdd (mulf (extractStridedSlice S8x128x96x314 ![0, 0, 0, 6] (V0 (Proc.devRef .tc main_arg0)) slices_S8x128x96x320_S8x128x96x314_0_0_0_6) (extractStridedSlice S8x128x96x314 ![0, 0, 0, 0] (V0 (Proc.devRef .tc main_arg1)) slices_S8x128x96x320_S8x128x96x314_0_0_0_0)) (constant S_ .f32 0x00000000#32) reducesTo_S8x128x96x314_S8x96x314_d1 h_S_) (broadcastInDim S8x96x314 ![] bcast_S_S8x96x314 (constant S_ .f32 0x43000000#32))) (sitofp .f32 (constantI S_ 32 0#32)) pads_S8x96x314_S8x96x320_000_000_600 h_S_

/-- The slab of disparity 7 as a function of the argument arrays. -/
def res_slab7 (V0 : Valuation τ sig (Elt F)) : (Proc.devRef .tc main_v52 : DevRef τ sig).ty.Contents (Elt F) :=
  pad S8x96x320 ![0, 0, 7] ![0, 0, 0] ![0, 0, 0] (Host.divf (Host.reduceAdd (mulf (extractStridedSlice S8x128x96x313 ![0, 0, 0, 7] (V0 (Proc.devRef .tc main_arg0)) slices_S8x128x96x320_S8x128x96x313_0_0_0_7) (extractStridedSlice S8x128x96x313 ![0, 0, 0, 0] (V0 (Proc.devRef .tc main_arg1)) slices_S8x128x96x320_S8x128x96x313_0_0_0_0)) (constant S_ .f32 0x00000000#32) reducesTo_S8x128x96x313_S8x96x313_d1 h_S_) (broadcastInDim S8x96x313 ![] bcast_S_S8x96x313 (constant S_ .f32 0x43000000#32))) (sitofp .f32 (constantI S_ 32 0#32)) pads_S8x96x313_S8x96x320_000_000_700 h_S_

/-- The slab of disparity 8 as a function of the argument arrays. -/
def res_slab8 (V0 : Valuation τ sig (Elt F)) : (Proc.devRef .tc main_v59 : DevRef τ sig).ty.Contents (Elt F) :=
  pad S8x96x320 ![0, 0, 8] ![0, 0, 0] ![0, 0, 0] (Host.divf (Host.reduceAdd (mulf (extractStridedSlice S8x128x96x312 ![0, 0, 0, 8] (V0 (Proc.devRef .tc main_arg0)) slices_S8x128x96x320_S8x128x96x312_0_0_0_8) (extractStridedSlice S8x128x96x312 ![0, 0, 0, 0] (V0 (Proc.devRef .tc main_arg1)) slices_S8x128x96x320_S8x128x96x312_0_0_0_0)) (constant S_ .f32 0x00000000#32) reducesTo_S8x128x96x312_S8x96x312_d1 h_S_) (broadcastInDim S8x96x312 ![] bcast_S_S8x96x312 (constant S_ .f32 0x43000000#32))) (sitofp .f32 (constantI S_ 32 0#32)) pads_S8x96x312_S8x96x320_000_000_800 h_S_

/-- The slab of disparity 9 as a function of the argument arrays. -/
def res_slab9 (V0 : Valuation τ sig (Elt F)) : (Proc.devRef .tc main_v66 : DevRef τ sig).ty.Contents (Elt F) :=
  pad S8x96x320 ![0, 0, 9] ![0, 0, 0] ![0, 0, 0] (Host.divf (Host.reduceAdd (mulf (extractStridedSlice S8x128x96x311 ![0, 0, 0, 9] (V0 (Proc.devRef .tc main_arg0)) slices_S8x128x96x320_S8x128x96x311_0_0_0_9) (extractStridedSlice S8x128x96x311 ![0, 0, 0, 0] (V0 (Proc.devRef .tc main_arg1)) slices_S8x128x96x320_S8x128x96x311_0_0_0_0)) (constant S_ .f32 0x00000000#32) reducesTo_S8x128x96x311_S8x96x311_d1 h_S_) (broadcastInDim S8x96x311 ![] bcast_S_S8x96x311 (constant S_ .f32 0x43000000#32))) (sitofp .f32 (constantI S_ 32 0#32)) pads_S8x96x311_S8x96x320_000_000_900 h_S_

/-- The slab of disparity 10 as a function of the argument arrays. -/
def res_slab10 (V0 : Valuation τ sig (Elt F)) : (Proc.devRef .tc main_v73 : DevRef τ sig).ty.Contents (Elt F) :=
  pad S8x96x320 ![0, 0, 10] ![0, 0, 0] ![0, 0, 0] (Host.divf (Host.reduceAdd (mulf (extractStridedSlice S8x128x96x310 ![0, 0, 0, 10] (V0 (Proc.devRef .tc main_arg0)) slices_S8x128x96x320_S8x128x96x310_0_0_0_10) (extractStridedSlice S8x128x96x310 ![0, 0, 0, 0] (V0 (Proc.devRef .tc main_arg1)) slices_S8x128x96x320_S8x128x96x310_0_0_0_0)) (constant S_ .f32 0x00000000#32) reducesTo_S8x128x96x310_S8x96x310_d1 h_S_) (broadcastInDim S8x96x310 ![] bcast_S_S8x96x310 (constant S_ .f32 0x43000000#32))) (sitofp .f32 (constantI S_ 32 0#32)) pads_S8x96x310_S8x96x320_000_000_1000 h_S_

/-- The slab of disparity 11 as a function of the argument arrays. -/
def res_slab11 (V0 : Valuation τ sig (Elt F)) : (Proc.devRef .tc main_v80 : DevRef τ sig).ty.Contents (Elt F) :=
  pad S8x96x320 ![0, 0, 11] ![0, 0, 0] ![0, 0, 0] (Host.divf (Host.reduceAdd (mulf (extractStridedSlice S8x128x96x309 ![0, 0, 0, 11] (V0 (Proc.devRef .tc main_arg0)) slices_S8x128x96x320_S8x128x96x309_0_0_0_11) (extractStridedSlice S8x128x96x309 ![0, 0, 0, 0] (V0 (Proc.devRef .tc main_arg1)) slices_S8x128x96x320_S8x128x96x309_0_0_0_0)) (constant S_ .f32 0x00000000#32) reducesTo_S8x128x96x309_S8x96x309_d1 h_S_) (broadcastInDim S8x96x309 ![] bcast_S_S8x96x309 (constant S_ .f32 0x43000000#32))) (sitofp .f32 (constantI S_ 32 0#32)) pads_S8x96x309_S8x96x320_000_000_1100 h_S_

/-- The slab of disparity 12 as a function of the argument arrays. -/
def res_slab12 (V0 : Valuation τ sig (Elt F)) : (Proc.devRef .tc main_v87 : DevRef τ sig).ty.Contents (Elt F) :=
  pad S8x96x320 ![0, 0, 12] ![0, 0, 0] ![0, 0, 0] (Host.divf (Host.reduceAdd (mulf (extractStridedSlice S8x128x96x308 ![0, 0, 0, 12] (V0 (Proc.devRef .tc main_arg0)) slices_S8x128x96x320_S8x128x96x308_0_0_0_12) (extractStridedSlice S8x128x96x308 ![0, 0, 0, 0] (V0 (Proc.devRef .tc main_arg1)) slices_S8x128x96x320_S8x128x96x308_0_0_0_0)) (constant S_ .f32 0x00000000#32) reducesTo_S8x128x96x308_S8x96x308_d1 h_S_) (broadcastInDim S8x96x308 ![] bcast_S_S8x96x308 (constant S_ .f32 0x43000000#32))) (sitofp .f32 (constantI S_ 32 0#32)) pads_S8x96x308_S8x96x320_000_000_1200 h_S_

/-- The slab of disparity 13 as a function of the argument arrays. -/
def res_slab13 (V0 : Valuation τ sig (Elt F)) : (Proc.devRef .tc main_v94 : DevRef τ sig).ty.Contents (Elt F) :=
  pad S8x96x320 ![0, 0, 13] ![0, 0, 0] ![0, 0, 0] (Host.divf (Host.reduceAdd (mulf (extractStridedSlice S8x128x96x307 ![0, 0, 0, 13] (V0 (Proc.devRef .tc main_arg0)) slices_S8x128x96x320_S8x128x96x307_0_0_0_13) (extractStridedSlice S8x128x96x307 ![0, 0, 0, 0] (V0 (Proc.devRef .tc main_arg1)) slices_S8x128x96x320_S8x128x96x307_0_0_0_0)) (constant S_ .f32 0x00000000#32) reducesTo_S8x128x96x307_S8x96x307_d1 h_S_) (broadcastInDim S8x96x307 ![] bcast_S_S8x96x307 (constant S_ .f32 0x43000000#32))) (sitofp .f32 (constantI S_ 32 0#32)) pads_S8x96x307_S8x96x320_000_000_1300 h_S_

/-- The slab of disparity 14 as a function of the argument arrays. -/
def res_slab14 (V0 : Valuation τ sig (Elt F)) : (Proc.devRef .tc main_v101 : DevRef τ sig).ty.Contents (Elt F) :=
  pad S8x96x320 ![0, 0, 14] ![0, 0, 0] ![0, 0, 0] (Host.divf (Host.reduceAdd (mulf (extractStridedSlice S8x128x96x306 ![0, 0, 0, 14] (V0 (Proc.devRef .tc main_arg0)) slices_S8x128x96x320_S8x128x96x306_0_0_0_14) (extractStridedSlice S8x128x96x306 ![0, 0, 0, 0] (V0 (Proc.devRef .tc main_arg1)) slices_S8x128x96x320_S8x128x96x306_0_0_0_0)) (constant S_ .f32 0x00000000#32) reducesTo_S8x128x96x306_S8x96x306_d1 h_S_) (broadcastInDim S8x96x306 ![] bcast_S_S8x96x306 (constant S_ .f32 0x43000000#32))) (sitofp .f32 (constantI S_ 32 0#32)) pads_S8x96x306_S8x96x320_000_000_1400 h_S_

/-- The slab of disparity 15 as a function of the argument arrays. -/
def res_slab15 (V0 : Valuation τ sig (Elt F)) : (Proc.devRef .tc main_v108 : DevRef τ sig).ty.Contents (Elt F) :=
  pad S8x96x320 ![0, 0, 15] ![0, 0, 0] ![0, 0, 0] (Host.divf (Host.reduceAdd (mulf (extractStridedSlice S8x128x96x305 ![0, 0, 0, 15] (V0 (Proc.devRef .tc main_arg0)) slices_S8x128x96x320_S8x128x96x305_0_0_0_15) (extractStridedSlice S8x128x96x305 ![0, 0, 0, 0] (V0 (Proc.devRef .tc main_arg1)) slices_S8x128x96x320_S8x128x96x305_0_0_0_0)) (constant S_ .f32 0x00000000#32) reducesTo_S8x128x96x305_S8x96x305_d1 h_S_) (broadcastInDim S8x96x305 ![] bcast_S_S8x96x305 (constant S_ .f32 0x43000000#32))) (sitofp .f32 (constantI S_ 32 0#32)) pads_S8x96x305_S8x96x320_000_000_1500 h_S_

/-- The slab of disparity 16 as a function of the argument arrays. -/
def res_slab16 (V0 : Valuation τ sig (Elt F)) : (Proc.devRef .tc main_v115 : DevRef τ sig).ty.Contents (Elt F) :=
  pad S8x96x320 ![0, 0, 16] ![0, 0, 0] ![0, 0, 0] (Host.divf (Host.reduceAdd (mulf (extractStridedSlice S8x128x96x304 ![0, 0, 0, 16] (V0 (Proc.devRef .tc main_arg0)) slices_S8x128x96x320_S8x128x96x304_0_0_0_16) (extractStridedSlice S8x128x96x304 ![0, 0, 0, 0] (V0 (Proc.devRef .tc main_arg1)) slices_S8x128x96x320_S8x128x96x304_0_0_0_0)) (constant S_ .f32 0x00000000#32) reducesTo_S8x128x96x304_S8x96x304_d1 h_S_) (broadcastInDim S8x96x304 ![] bcast_S_S8x96x304 (constant S_ .f32 0x43000000#32))) (sitofp .f32 (constantI S_ 32 0#32)) pads_S8x96x304_S8x96x320_000_000_1600 h_S_

/-- The slab of disparity 17 as a function of the argument arrays. -/
def res_slab17 (V0 : Valuation τ sig (Elt F)) : (Proc.devRef .tc main_v122 : DevRef τ sig).ty.Contents (Elt F) :=
  pad S8x96x320 ![0, 0, 17] ![0, 0, 0] ![0, 0, 0] (Host.divf (Host.reduceAdd (mulf (extractStridedSlice S8x128x96x303 ![0, 0, 0, 17] (V0 (Proc.devRef .tc main_arg0)) slices_S8x128x96x320_S8x128x96x303_0_0_0_17) (extractStridedSlice S8x128x96x303 ![0, 0, 0, 0] (V0 (Proc.devRef .tc main_arg1)) slices_S8x128x96x320_S8x128x96x303_0_0_0_0)) (constant S_ .f32 0x00000000#32) reducesTo_S8x128x96x303_S8x96x303_d1 h_S_) (broadcastInDim S8x96x303 ![] bcast_S_S8x96x303 (constant S_ .f32 0x43000000#32))) (sitofp .f32 (constantI S_ 32 0#32)) pads_S8x96x303_S8x96x320_000_000_1700 h_S_

/-- The slab of disparity 18 as a function of the argument arrays. -/
def res_slab18 (V0 : Valuation τ sig (Elt F)) : (Proc.devRef .tc main_v129 : DevRef τ sig).ty.Contents (Elt F) :=
  pad S8x96x320 ![0, 0, 18] ![0, 0, 0] ![0, 0, 0] (Host.divf (Host.reduceAdd (mulf (extractStridedSlice S8x128x96x302 ![0, 0, 0, 18] (V0 (Proc.devRef .tc main_arg0)) slices_S8x128x96x320_S8x128x96x302_0_0_0_18) (extractStridedSlice S8x128x96x302 ![0, 0, 0, 0] (V0 (Proc.devRef .tc main_arg1)) slices_S8x128x96x320_S8x128x96x302_0_0_0_0)) (constant S_ .f32 0x00000000#32) reducesTo_S8x128x96x302_S8x96x302_d1 h_S_) (broadcastInDim S8x96x302 ![] bcast_S_S8x96x302 (constant S_ .f32 0x43000000#32))) (sitofp .f32 (constantI S_ 32 0#32)) pads_S8x96x302_S8x96x320_000_000_1800 h_S_

/-- The slab of disparity 19 as a function of the argument arrays. -/
def res_slab19 (V0 : Valuation τ sig (Elt F)) : (Proc.devRef .tc main_v136 : DevRef τ sig).ty.Contents (Elt F) :=
  pad S8x96x320 ![0, 0, 19] ![0, 0, 0] ![0, 0, 0] (Host.divf (Host.reduceAdd (mulf (extractStridedSlice S8x128x96x301 ![0, 0, 0, 19] (V0 (Proc.devRef .tc main_arg0)) slices_S8x128x96x320_S8x128x96x301_0_0_0_19) (extractStridedSlice S8x128x96x301 ![0, 0, 0, 0] (V0 (Proc.devRef .tc main_arg1)) slices_S8x128x96x320_S8x128x96x301_0_0_0_0)) (constant S_ .f32 0x00000000#32) reducesTo_S8x128x96x301_S8x96x301_d1 h_S_) (broadcastInDim S8x96x301 ![] bcast_S_S8x96x301 (constant S_ .f32 0x43000000#32))) (sitofp .f32 (constantI S_ 32 0#32)) pads_S8x96x301_S8x96x320_000_000_1900 h_S_

/-- The slab of disparity 20 as a function of the argument arrays. -/
def res_slab20 (V0 : Valuation τ sig (Elt F)) : (Proc.devRef .tc main_v143 : DevRef τ sig).ty.Contents (Elt F) :=
  pad S8x96x320 ![0, 0, 20] ![0, 0, 0] ![0, 0, 0] (Host.divf (Host.reduceAdd (mulf (extractStridedSlice S8x128x96x300 ![0, 0, 0, 20] (V0 (Proc.devRef .tc main_arg0)) slices_S8x128x96x320_S8x128x96x300_0_0_0_20) (extractStridedSlice S8x128x96x300 ![0, 0, 0, 0] (V0 (Proc.devRef .tc main_arg1)) slices_S8x128x96x320_S8x128x96x300_0_0_0_0)) (constant S_ .f32 0x00000000#32) reducesTo_S8x128x96x300_S8x96x300_d1 h_S_) (broadcastInDim S8x96x300 ![] bcast_S_S8x96x300 (constant S_ .f32 0x43000000#32))) (sitofp .f32 (constantI S_ 32 0#32)) pads_S8x96x300_S8x96x320_000_000_2000 h_S_

/-- The slab of disparity 21 as a function of the argument arrays. -/
def res_slab21 (V0 : Valuation τ sig (Elt F)) : (Proc.devRef .tc main_v150 : DevRef τ sig).ty.Contents (Elt F) :=
  pad S8x96x320 ![0, 0, 21] ![0, 0, 0] ![0, 0, 0] (Host.divf (Host.reduceAdd (mulf (extractStridedSlice S8x128x96x299 ![0, 0, 0, 21] (V0 (Proc.devRef .tc main_arg0)) slices_S8x128x96x320_S8x128x96x299_0_0_0_21) (extractStridedSlice S8x128x96x299 ![0, 0, 0, 0] (V0 (Proc.devRef .tc main_arg1)) slices_S8x128x96x320_S8x128x96x299_0_0_0_0)) (constant S_ .f32 0x00000000#32) reducesTo_S8x128x96x299_S8x96x299_d1 h_S_) (broadcastInDim S8x96x299 ![] bcast_S_S8x96x299 (constant S_ .f32 0x43000000#32))) (sitofp .f32 (constantI S_ 32 0#32)) pads_S8x96x299_S8x96x320_000_000_2100 h_S_

/-- The slab of disparity 22 as a function of the argument arrays. -/
def res_slab22 (V0 : Valuation τ sig (Elt F)) : (Proc.devRef .tc main_v157 : DevRef τ sig).ty.Contents (Elt F) :=
  pad S8x96x320 ![0, 0, 22] ![0, 0, 0] ![0, 0, 0] (Host.divf (Host.reduceAdd (mulf (extractStridedSlice S8x128x96x298 ![0, 0, 0, 22] (V0 (Proc.devRef .tc main_arg0)) slices_S8x128x96x320_S8x128x96x298_0_0_0_22) (extractStridedSlice S8x128x96x298 ![0, 0, 0, 0] (V0 (Proc.devRef .tc main_arg1)) slices_S8x128x96x320_S8x128x96x298_0_0_0_0)) (constant S_ .f32 0x00000000#32) reducesTo_S8x128x96x298_S8x96x298_d1 h_S_) (broadcastInDim S8x96x298 ![] bcast_S_S8x96x298 (constant S_ .f32 0x43000000#32))) (sitofp .f32 (constantI S_ 32 0#32)) pads_S8x96x298_S8x96x320_000_000_2200 h_S_

/-- The slab of disparity 23 as a function of the argument arrays. -/
def res_slab23 (V0 : Valuation τ sig (Elt F)) : (Proc.devRef .tc main_v164 : DevRef τ sig).ty.Contents (Elt F) :=
  pad S8x96x320 ![0, 0, 23] ![0, 0, 0] ![0, 0, 0] (Host.divf (Host.reduceAdd (mulf (extractStridedSlice S8x128x96x297 ![0, 0, 0, 23] (V0 (Proc.devRef .tc main_arg0)) slices_S8x128x96x320_S8x128x96x297_0_0_0_23) (extractStridedSlice S8x128x96x297 ![0, 0, 0, 0] (V0 (Proc.devRef .tc main_arg1)) slices_S8x128x96x320_S8x128x96x297_0_0_0_0)) (constant S_ .f32 0x00000000#32) reducesTo_S8x128x96x297_S8x96x297_d1 h_S_) (broadcastInDim S8x96x297 ![] bcast_S_S8x96x297 (constant S_ .f32 0x43000000#32))) (sitofp .f32 (constantI S_ 32 0#32)) pads_S8x96x297_S8x96x320_000_000_2300 h_S_

/-- The slab of disparity 24 as a function of the argument arrays. -/
def res_slab24 (V0 : Valuation τ sig (Elt F)) : (Proc.devRef .tc main_v171 : DevRef τ sig).ty.Contents (Elt F) :=
  pad S8x96x320 ![0, 0, 24] ![0, 0, 0] ![0, 0, 0] (Host.divf (Host.reduceAdd (mulf (extractStridedSlice S8x128x96x296 ![0, 0, 0, 24] (V0 (Proc.devRef .tc main_arg0)) slices_S8x128x96x320_S8x128x96x296_0_0_0_24) (extractStridedSlice S8x128x96x296 ![0, 0, 0, 0] (V0 (Proc.devRef .tc main_arg1)) slices_S8x128x96x320_S8x128x96x296_0_0_0_0)) (constant S_ .f32 0x00000000#32) reducesTo_S8x128x96x296_S8x96x296_d1 h_S_) (broadcastInDim S8x96x296 ![] bcast_S_S8x96x296 (constant S_ .f32 0x43000000#32))) (sitofp .f32 (constantI S_ 32 0#32)) pads_S8x96x296_S8x96x320_000_000_2400 h_S_

/-- The slab of disparity 25 as a function of the argument arrays. -/
def res_slab25 (V0 : Valuation τ sig (Elt F)) : (Proc.devRef .tc main_v178 : DevRef τ sig).ty.Contents (Elt F) :=
  pad S8x96x320 ![0, 0, 25] ![0, 0, 0] ![0, 0, 0] (Host.divf (Host.reduceAdd (mulf (extractStridedSlice S8x128x96x295 ![0, 0, 0, 25] (V0 (Proc.devRef .tc main_arg0)) slices_S8x128x96x320_S8x128x96x295_0_0_0_25) (extractStridedSlice S8x128x96x295 ![0, 0, 0, 0] (V0 (Proc.devRef .tc main_arg1)) slices_S8x128x96x320_S8x128x96x295_0_0_0_0)) (constant S_ .f32 0x00000000#32) reducesTo_S8x128x96x295_S8x96x295_d1 h_S_) (broadcastInDim S8x96x295 ![] bcast_S_S8x96x295 (constant S_ .f32 0x43000000#32))) (sitofp .f32 (constantI S_ 32 0#32)) pads_S8x96x295_S8x96x320_000_000_2500 h_S_

/-- The slab of disparity 26 as a function of the argument arrays. -/
def res_slab26 (V0 : Valuation τ sig (Elt F)) : (Proc.devRef .tc main_v185 : DevRef τ sig).ty.Contents (Elt F) :=
  pad S8x96x320 ![0, 0, 26] ![0, 0, 0] ![0, 0, 0] (Host.divf (Host.reduceAdd (mulf (extractStridedSlice S8x128x96x294 ![0, 0, 0, 26] (V0 (Proc.devRef .tc main_arg0)) slices_S8x128x96x320_S8x128x96x294_0_0_0_26) (extractStridedSlice S8x128x96x294 ![0, 0, 0, 0] (V0 (Proc.devRef .tc main_arg1)) slices_S8x128x96x320_S8x128x96x294_0_0_0_0)) (constant S_ .f32 0x00000000#32) reducesTo_S8x128x96x294_S8x96x294_d1 h_S_) (broadcastInDim S8x96x294 ![] bcast_S_S8x96x294 (constant S_ .f32 0x43000000#32))) (sitofp .f32 (constantI S_ 32 0#32)) pads_S8x96x294_S8x96x320_000_000_2600 h_S_

/-- The slab of disparity 27 as a function of the argument arrays. -/
def res_slab27 (V0 : Valuation τ sig (Elt F)) : (Proc.devRef .tc main_v192 : DevRef τ sig).ty.Contents (Elt F) :=
  pad S8x96x320 ![0, 0, 27] ![0, 0, 0] ![0, 0, 0] (Host.divf (Host.reduceAdd (mulf (extractStridedSlice S8x128x96x293 ![0, 0, 0, 27] (V0 (Proc.devRef .tc main_arg0)) slices_S8x128x96x320_S8x128x96x293_0_0_0_27) (extractStridedSlice S8x128x96x293 ![0, 0, 0, 0] (V0 (Proc.devRef .tc main_arg1)) slices_S8x128x96x320_S8x128x96x293_0_0_0_0)) (constant S_ .f32 0x00000000#32) reducesTo_S8x128x96x293_S8x96x293_d1 h_S_) (broadcastInDim S8x96x293 ![] bcast_S_S8x96x293 (constant S_ .f32 0x43000000#32))) (sitofp .f32 (constantI S_ 32 0#32)) pads_S8x96x293_S8x96x320_000_000_2700 h_S_

/-- The slab of disparity 28 as a function of the argument arrays. -/
def res_slab28 (V0 : Valuation τ sig (Elt F)) : (Proc.devRef .tc main_v199 : DevRef τ sig).ty.Contents (Elt F) :=
  pad S8x96x320 ![0, 0, 28] ![0, 0, 0] ![0, 0, 0] (Host.divf (Host.reduceAdd (mulf (extractStridedSlice S8x128x96x292 ![0, 0, 0, 28] (V0 (Proc.devRef .tc main_arg0)) slices_S8x128x96x320_S8x128x96x292_0_0_0_28) (extractStridedSlice S8x128x96x292 ![0, 0, 0, 0] (V0 (Proc.devRef .tc main_arg1)) slices_S8x128x96x320_S8x128x96x292_0_0_0_0)) (constant S_ .f32 0x00000000#32) reducesTo_S8x128x96x292_S8x96x292_d1 h_S_) (broadcastInDim S8x96x292 ![] bcast_S_S8x96x292 (constant S_ .f32 0x43000000#32))) (sitofp .f32 (constantI S_ 32 0#32)) pads_S8x96x292_S8x96x320_000_000_2800 h_S_

/-- The slab of disparity 29 as a function of the argument arrays. -/
def res_slab29 (V0 : Valuation τ sig (Elt F)) : (Proc.devRef .tc main_v206 : DevRef τ sig).ty.Contents (Elt F) :=
  pad S8x96x320 ![0, 0, 29] ![0, 0, 0] ![0, 0, 0] (Host.divf (Host.reduceAdd (mulf (extractStridedSlice S8x128x96x291 ![0, 0, 0, 29] (V0 (Proc.devRef .tc main_arg0)) slices_S8x128x96x320_S8x128x96x291_0_0_0_29) (extractStridedSlice S8x128x96x291 ![0, 0, 0, 0] (V0 (Proc.devRef .tc main_arg1)) slices_S8x128x96x320_S8x128x96x291_0_0_0_0)) (constant S_ .f32 0x00000000#32) reducesTo_S8x128x96x291_S8x96x291_d1 h_S_) (broadcastInDim S8x96x291 ![] bcast_S_S8x96x291 (constant S_ .f32 0x43000000#32))) (sitofp .f32 (constantI S_ 32 0#32)) pads_S8x96x291_S8x96x320_000_000_2900 h_S_

/-- The slab of disparity 30 as a function of the argument arrays. -/
def res_slab30 (V0 : Valuation τ sig (Elt F)) : (Proc.devRef .tc main_v213 : DevRef τ sig).ty.Contents (Elt F) :=
  pad S8x96x320 ![0, 0, 30] ![0, 0, 0] ![0, 0, 0] (Host.divf (Host.reduceAdd (mulf (extractStridedSlice S8x128x96x290 ![0, 0, 0, 30] (V0 (Proc.devRef .tc main_arg0)) slices_S8x128x96x320_S8x128x96x290_0_0_0_30) (extractStridedSlice S8x128x96x290 ![0, 0, 0, 0] (V0 (Proc.devRef .tc main_arg1)) slices_S8x128x96x320_S8x128x96x290_0_0_0_0)) (constant S_ .f32 0x00000000#32) reducesTo_S8x128x96x290_S8x96x290_d1 h_S_) (broadcastInDim S8x96x290 ![] bcast_S_S8x96x290 (constant S_ .f32 0x43000000#32))) (sitofp .f32 (constantI S_ 32 0#32)) pads_S8x96x290_S8x96x320_000_000_3000 h_S_

/-- The slab of disparity 31 as a function of the argument arrays. -/
def res_slab31 (V0 : Valuation τ sig (Elt F)) : (Proc.devRef .tc main_v220 : DevRef τ sig).ty.Contents (Elt F) :=
  pad S8x96x320 ![0, 0, 31] ![0, 0, 0] ![0, 0, 0] (Host.divf (Host.reduceAdd (mulf (extractStridedSlice S8x128x96x289 ![0, 0, 0, 31] (V0 (Proc.devRef .tc main_arg0)) slices_S8x128x96x320_S8x128x96x289_0_0_0_31) (extractStridedSlice S8x128x96x289 ![0, 0, 0, 0] (V0 (Proc.devRef .tc main_arg1)) slices_S8x128x96x320_S8x128x96x289_0_0_0_0)) (constant S_ .f32 0x00000000#32) reducesTo_S8x128x96x289_S8x96x289_d1 h_S_) (broadcastInDim S8x96x289 ![] bcast_S_S8x96x289 (constant S_ .f32 0x43000000#32))) (sitofp .f32 (constantI S_ 32 0#32)) pads_S8x96x289_S8x96x320_000_000_3100 h_S_

/-- The slab of disparity 32 as a function of the argument arrays. -/
def res_slab32 (V0 : Valuation τ sig (Elt F)) : (Proc.devRef .tc main_v227 : DevRef τ sig).ty.Contents (Elt F) :=
  pad S8x96x320 ![0, 0, 32] ![0, 0, 0] ![0, 0, 0] (Host.divf (Host.reduceAdd (mulf (extractStridedSlice S8x128x96x288 ![0, 0, 0, 32] (V0 (Proc.devRef .tc main_arg0)) slices_S8x128x96x320_S8x128x96x288_0_0_0_32) (extractStridedSlice S8x128x96x288 ![0, 0, 0, 0] (V0 (Proc.devRef .tc main_arg1)) slices_S8x128x96x320_S8x128x96x288_0_0_0_0)) (constant S_ .f32 0x00000000#32) reducesTo_S8x128x96x288_S8x96x288_d1 h_S_) (broadcastInDim S8x96x288 ![] bcast_S_S8x96x288 (constant S_ .f32 0x43000000#32))) (sitofp .f32 (constantI S_ 32 0#32)) pads_S8x96x288_S8x96x320_000_000_3200 h_S_

/-- The slab of disparity 33 as a function of the argument arrays. -/
def res_slab33 (V0 : Valuation τ sig (Elt F)) : (Proc.devRef .tc main_v234 : DevRef τ sig).ty.Contents (Elt F) :=
  pad S8x96x320 ![0, 0, 33] ![0, 0, 0] ![0, 0, 0] (Host.divf (Host.reduceAdd (mulf (extractStridedSlice S8x128x96x287 ![0, 0, 0, 33] (V0 (Proc.devRef .tc main_arg0)) slices_S8x128x96x320_S8x128x96x287_0_0_0_33) (extractStridedSlice S8x128x96x287 ![0, 0, 0, 0] (V0 (Proc.devRef .tc main_arg1)) slices_S8x128x96x320_S8x128x96x287_0_0_0_0)) (constant S_ .f32 0x00000000#32) reducesTo_S8x128x96x287_S8x96x287_d1 h_S_) (broadcastInDim S8x96x287 ![] bcast_S_S8x96x287 (constant S_ .f32 0x43000000#32))) (sitofp .f32 (constantI S_ 32 0#32)) pads_S8x96x287_S8x96x320_000_000_3300 h_S_

/-- The slab of disparity 34 as a function of the argument arrays. -/
def res_slab34 (V0 : Valuation τ sig (Elt F)) : (Proc.devRef .tc main_v241 : DevRef τ sig).ty.Contents (Elt F) :=
  pad S8x96x320 ![0, 0, 34] ![0, 0, 0] ![0, 0, 0] (Host.divf (Host.reduceAdd (mulf (extractStridedSlice S8x128x96x286 ![0, 0, 0, 34] (V0 (Proc.devRef .tc main_arg0)) slices_S8x128x96x320_S8x128x96x286_0_0_0_34) (extractStridedSlice S8x128x96x286 ![0, 0, 0, 0] (V0 (Proc.devRef .tc main_arg1)) slices_S8x128x96x320_S8x128x96x286_0_0_0_0)) (constant S_ .f32 0x00000000#32) reducesTo_S8x128x96x286_S8x96x286_d1 h_S_) (broadcastInDim S8x96x286 ![] bcast_S_S8x96x286 (constant S_ .f32 0x43000000#32))) (sitofp .f32 (constantI S_ 32 0#32)) pads_S8x96x286_S8x96x320_000_000_3400 h_S_

/-- The slab of disparity 35 as a function of the argument arrays. -/
def res_slab35 (V0 : Valuation τ sig (Elt F)) : (Proc.devRef .tc main_v248 : DevRef τ sig).ty.Contents (Elt F) :=
  pad S8x96x320 ![0, 0, 35] ![0, 0, 0] ![0, 0, 0] (Host.divf (Host.reduceAdd (mulf (extractStridedSlice S8x128x96x285 ![0, 0, 0, 35] (V0 (Proc.devRef .tc main_arg0)) slices_S8x128x96x320_S8x128x96x285_0_0_0_35) (extractStridedSlice S8x128x96x285 ![0, 0, 0, 0] (V0 (Proc.devRef .tc main_arg1)) slices_S8x128x96x320_S8x128x96x285_0_0_0_0)) (constant S_ .f32 0x00000000#32) reducesTo_S8x128x96x285_S8x96x285_d1 h_S_) (broadcastInDim S8x96x285 ![] bcast_S_S8x96x285 (constant S_ .f32 0x43000000#32))) (sitofp .f32 (constantI S_ 32 0#32)) pads_S8x96x285_S8x96x320_000_000_3500 h_S_

/-- The slab of disparity 36 as a function of the argument arrays. -/
def res_slab36 (V0 : Valuation τ sig (Elt F)) : (Proc.devRef .tc main_v255 : DevRef τ sig).ty.Contents (Elt F) :=
  pad S8x96x320 ![0, 0, 36] ![0, 0, 0] ![0, 0, 0] (Host.divf (Host.reduceAdd (mulf (extractStridedSlice S8x128x96x284 ![0, 0, 0, 36] (V0 (Proc.devRef .tc main_arg0)) slices_S8x128x96x320_S8x128x96x284_0_0_0_36) (extractStridedSlice S8x128x96x284 ![0, 0, 0, 0] (V0 (Proc.devRef .tc main_arg1)) slices_S8x128x96x320_S8x128x96x284_0_0_0_0)) (constant S_ .f32 0x00000000#32) reducesTo_S8x128x96x284_S8x96x284_d1 h_S_) (broadcastInDim S8x96x284 ![] bcast_S_S8x96x284 (constant S_ .f32 0x43000000#32))) (sitofp .f32 (constantI S_ 32 0#32)) pads_S8x96x284_S8x96x320_000_000_3600 h_S_

/-- The slab of disparity 37 as a function of the argument arrays. -/
def res_slab37 (V0 : Valuation τ sig (Elt F)) : (Proc.devRef .tc main_v262 : DevRef τ sig).ty.Contents (Elt F) :=
  pad S8x96x320 ![0, 0, 37] ![0, 0, 0] ![0, 0, 0] (Host.divf (Host.reduceAdd (mulf (extractStridedSlice S8x128x96x283 ![0, 0, 0, 37] (V0 (Proc.devRef .tc main_arg0)) slices_S8x128x96x320_S8x128x96x283_0_0_0_37) (extractStridedSlice S8x128x96x283 ![0, 0, 0, 0] (V0 (Proc.devRef .tc main_arg1)) slices_S8x128x96x320_S8x128x96x283_0_0_0_0)) (constant S_ .f32 0x00000000#32) reducesTo_S8x128x96x283_S8x96x283_d1 h_S_) (broadcastInDim S8x96x283 ![] bcast_S_S8x96x283 (constant S_ .f32 0x43000000#32))) (sitofp .f32 (constantI S_ 32 0#32)) pads_S8x96x283_S8x96x320_000_000_3700 h_S_

/-- The slab of disparity 38 as a function of the argument arrays. -/
def res_slab38 (V0 : Valuation τ sig (Elt F)) : (Proc.devRef .tc main_v269 : DevRef τ sig).ty.Contents (Elt F) :=
  pad S8x96x320 ![0, 0, 38] ![0, 0, 0] ![0, 0, 0] (Host.divf (Host.reduceAdd (mulf (extractStridedSlice S8x128x96x282 ![0, 0, 0, 38] (V0 (Proc.devRef .tc main_arg0)) slices_S8x128x96x320_S8x128x96x282_0_0_0_38) (extractStridedSlice S8x128x96x282 ![0, 0, 0, 0] (V0 (Proc.devRef .tc main_arg1)) slices_S8x128x96x320_S8x128x96x282_0_0_0_0)) (constant S_ .f32 0x00000000#32) reducesTo_S8x128x96x282_S8x96x282_d1 h_S_) (broadcastInDim S8x96x282 ![] bcast_S_S8x96x282 (constant S_ .f32 0x43000000#32))) (sitofp .f32 (constantI S_ 32 0#32)) pads_S8x96x282_S8x96x320_000_000_3800 h_S_

/-- The slab of disparity 39 as a function of the argument arrays. -/
def res_slab39 (V0 : Valuation τ sig (Elt F)) : (Proc.devRef .tc main_v276 : DevRef τ sig).ty.Contents (Elt F) :=
  pad S8x96x320 ![0, 0, 39] ![0, 0, 0] ![0, 0, 0] (Host.divf (Host.reduceAdd (mulf (extractStridedSlice S8x128x96x281 ![0, 0, 0, 39] (V0 (Proc.devRef .tc main_arg0)) slices_S8x128x96x320_S8x128x96x281_0_0_0_39) (extractStridedSlice S8x128x96x281 ![0, 0, 0, 0] (V0 (Proc.devRef .tc main_arg1)) slices_S8x128x96x320_S8x128x96x281_0_0_0_0)) (constant S_ .f32 0x00000000#32) reducesTo_S8x128x96x281_S8x96x281_d1 h_S_) (broadcastInDim S8x96x281 ![] bcast_S_S8x96x281 (constant S_ .f32 0x43000000#32))) (sitofp .f32 (constantI S_ 32 0#32)) pads_S8x96x281_S8x96x320_000_000_3900 h_S_

/-- The slab of disparity 40 as a function of the argument arrays. -/
def res_slab40 (V0 : Valuation τ sig (Elt F)) : (Proc.devRef .tc main_v283 : DevRef τ sig).ty.Contents (Elt F) :=
  pad S8x96x320 ![0, 0, 40] ![0, 0, 0] ![0, 0, 0] (Host.divf (Host.reduceAdd (mulf (extractStridedSlice S8x128x96x280 ![0, 0, 0, 40] (V0 (Proc.devRef .tc main_arg0)) slices_S8x128x96x320_S8x128x96x280_0_0_0_40) (extractStridedSlice S8x128x96x280 ![0, 0, 0, 0] (V0 (Proc.devRef .tc main_arg1)) slices_S8x128x96x320_S8x128x96x280_0_0_0_0)) (constant S_ .f32 0x00000000#32) reducesTo_S8x128x96x280_S8x96x280_d1 h_S_) (broadcastInDim S8x96x280 ![] bcast_S_S8x96x280 (constant S_ .f32 0x43000000#32))) (sitofp .f32 (constantI S_ 32 0#32)) pads_S8x96x280_S8x96x320_000_000_4000 h_S_

/-- The slab of disparity 41 as a function of the argument arrays. -/
def res_slab41 (V0 : Valuation τ sig (Elt F)) : (Proc.devRef .tc main_v290 : DevRef τ sig).ty.Contents (Elt F) :=
  pad S8x96x320 ![0, 0, 41] ![0, 0, 0] ![0, 0, 0] (Host.divf (Host.reduceAdd (mulf (extractStridedSlice S8x128x96x279 ![0, 0, 0, 41] (V0 (Proc.devRef .tc main_arg0)) slices_S8x128x96x320_S8x128x96x279_0_0_0_41) (extractStridedSlice S8x128x96x279 ![0, 0, 0, 0] (V0 (Proc.devRef .tc main_arg1)) slices_S8x128x96x320_S8x128x96x279_0_0_0_0)) (constant S_ .f32 0x00000000#32) reducesTo_S8x128x96x279_S8x96x279_d1 h_S_) (broadcastInDim S8x96x279 ![] bcast_S_S8x96x279 (constant S_ .f32 0x43000000#32))) (sitofp .f32 (constantI S_ 32 0#32)) pads_S8x96x279_S8x96x320_000_000_4100 h_S_

/-- The slab of disparity 42 as a function of the argument arrays. -/
def res_slab42 (V0 : Valuation τ sig (Elt F)) : (Proc.devRef .tc main_v297 : DevRef τ sig).ty.Contents (Elt F) :=
  pad S8x96x320 ![0, 0, 42] ![0, 0, 0] ![0, 0, 0] (Host.divf (Host.reduceAdd (mulf (extractStridedSlice S8x128x96x278 ![0, 0, 0, 42] (V0 (Proc.devRef .tc main_arg0)) slices_S8x128x96x320_S8x128x96x278_0_0_0_42) (extractStridedSlice S8x128x96x278 ![0, 0, 0, 0] (V0 (Proc.devRef .tc main_arg1)) slices_S8x128x96x320_S8x128x96x278_0_0_0_0)) (constant S_ .f32 0x00000000#32) reducesTo_S8x128x96x278_S8x96x278_d1 h_S_) (broadcastInDim S8x96x278 ![] bcast_S_S8x96x278 (constant S_ .f32 0x43000000#32))) (sitofp .f32 (constantI S_ 32 0#32)) pads_S8x96x278_S8x96x320_000_000_4200 h_S_

/-- The slab of disparity 43 as a function of the argument arrays. -/
def res_slab43 (V0 : Valuation τ sig (Elt F)) : (Proc.devRef .tc main_v304 : DevRef τ sig).ty.Contents (Elt F) :=
  pad S8x96x320 ![0, 0, 43] ![0, 0, 0] ![0, 0, 0] (Host.divf (Host.reduceAdd (mulf (extractStridedSlice S8x128x96x277 ![0, 0, 0, 43] (V0 (Proc.devRef .tc main_arg0)) slices_S8x128x96x320_S8x128x96x277_0_0_0_43) (extractStridedSlice S8x128x96x277 ![0, 0, 0, 0] (V0 (Proc.devRef .tc main_arg1)) slices_S8x128x96x320_S8x128x96x277_0_0_0_0)) (constant S_ .f32 0x00000000#32) reducesTo_S8x128x96x277_S8x96x277_d1 h_S_) (broadcastInDim S8x96x277 ![] bcast_S_S8x96x277 (constant S_ .f32 0x43000000#32))) (sitofp .f32 (constantI S_ 32 0#32)) pads_S8x96x277_S8x96x320_000_000_4300 h_S_

/-- The slab of disparity 44 as a function of the argument arrays. -/
def res_slab44 (V0 : Valuation τ sig (Elt F)) : (Proc.devRef .tc main_v311 : DevRef τ sig).ty.Contents (Elt F) :=
  pad S8x96x320 ![0, 0, 44] ![0, 0, 0] ![0, 0, 0] (Host.divf (Host.reduceAdd (mulf (extractStridedSlice S8x128x96x276 ![0, 0, 0, 44] (V0 (Proc.devRef .tc main_arg0)) slices_S8x128x96x320_S8x128x96x276_0_0_0_44) (extractStridedSlice S8x128x96x276 ![0, 0, 0, 0] (V0 (Proc.devRef .tc main_arg1)) slices_S8x128x96x320_S8x128x96x276_0_0_0_0)) (constant S_ .f32 0x00000000#32) reducesTo_S8x128x96x276_S8x96x276_d1 h_S_) (broadcastInDim S8x96x276 ![] bcast_S_S8x96x276 (constant S_ .f32 0x43000000#32))) (sitofp .f32 (constantI S_ 32 0#32)) pads_S8x96x276_S8x96x320_000_000_4400 h_S_

/-- The slab of disparity 45 as a function of the argument arrays. -/
def res_slab45 (V0 : Valuation τ sig (Elt F)) : (Proc.devRef .tc main_v318 : DevRef τ sig).ty.Contents (Elt F) :=
  pad S8x96x320 ![0, 0, 45] ![0, 0, 0] ![0, 0, 0] (Host.divf (Host.reduceAdd (mulf (extractStridedSlice S8x128x96x275 ![0, 0, 0, 45] (V0 (Proc.devRef .tc main_arg0)) slices_S8x128x96x320_S8x128x96x275_0_0_0_45) (extractStridedSlice S8x128x96x275 ![0, 0, 0, 0] (V0 (Proc.devRef .tc main_arg1)) slices_S8x128x96x320_S8x128x96x275_0_0_0_0)) (constant S_ .f32 0x00000000#32) reducesTo_S8x128x96x275_S8x96x275_d1 h_S_) (broadcastInDim S8x96x275 ![] bcast_S_S8x96x275 (constant S_ .f32 0x43000000#32))) (sitofp .f32 (constantI S_ 32 0#32)) pads_S8x96x275_S8x96x320_000_000_4500 h_S_

/-- The slab of disparity 46 as a function of the argument arrays. -/
def res_slab46 (V0 : Valuation τ sig (Elt F)) : (Proc.devRef .tc main_v325 : DevRef τ sig).ty.Contents (Elt F) :=
  pad S8x96x320 ![0, 0, 46] ![0, 0, 0] ![0, 0, 0] (Host.divf (Host.reduceAdd (mulf (extractStridedSlice S8x128x96x274 ![0, 0, 0, 46] (V0 (Proc.devRef .tc main_arg0)) slices_S8x128x96x320_S8x128x96x274_0_0_0_46) (extractStridedSlice S8x128x96x274 ![0, 0, 0, 0] (V0 (Proc.devRef .tc main_arg1)) slices_S8x128x96x320_S8x128x96x274_0_0_0_0)) (constant S_ .f32 0x00000000#32) reducesTo_S8x128x96x274_S8x96x274_d1 h_S_) (broadcastInDim S8x96x274 ![] bcast_S_S8x96x274 (constant S_ .f32 0x43000000#32))) (sitofp .f32 (constantI S_ 32 0#32)) pads_S8x96x274_S8x96x320_000_000_4600 h_S_

/-- The slab of disparity 47 as a function of the argument arrays. -/
def res_slab47 (V0 : Valuation τ sig (Elt F)) : (Proc.devRef .tc main_v332 : DevRef τ sig).ty.Contents (Elt F) :=
  pad S8x96x320 ![0, 0, 47] ![0, 0, 0] ![0, 0, 0] (Host.divf (Host.reduceAdd (mulf (extractStridedSlice S8x128x96x273 ![0, 0, 0, 47] (V0 (Proc.devRef .tc main_arg0)) slices_S8x128x96x320_S8x128x96x273_0_0_0_47) (extractStridedSlice S8x128x96x273 ![0, 0, 0, 0] (V0 (Proc.devRef .tc main_arg1)) slices_S8x128x96x320_S8x128x96x273_0_0_0_0)) (constant S_ .f32 0x00000000#32) reducesTo_S8x128x96x273_S8x96x273_d1 h_S_) (broadcastInDim S8x96x273 ![] bcast_S_S8x96x273 (constant S_ .f32 0x43000000#32))) (sitofp .f32 (constantI S_ 32 0#32)) pads_S8x96x273_S8x96x320_000_000_4700 h_S_

/-- The operations of disparity 0. -/
abbrev ops_c0 : List (HloOp τ sig (Elt F)) :=
  [ binary main_arg0 main_arg1 main_v0 (mulf : (⟨S8x128x96x320, .f32⟩ : BufTy).Contents (Elt F) → (⟨S8x128x96x320, .f32⟩ : BufTy).Contents (Elt F) → (⟨S8x128x96x320, .f32⟩ : BufTy).Contents (Elt F)),
    nullary main_cst (constant S_ .f32 0x00000000#32),
    binary main_v0 main_cst main_v1 ((fun x v => Host.reduceAdd x v reducesTo_S8x128x96x320_S8x96x320_d1 h_S_) : (⟨S8x128x96x320, .f32⟩ : BufTy).Contents (Elt F) → (⟨S_, .f32⟩ : BufTy).Contents (Elt F) → (⟨S8x96x320, .f32⟩ : BufTy).Contents (Elt F)),
    nullary main_cst_0 (constant S_ .f32 0x43000000#32),
    unary main_cst_0 main_v2 (broadcastInDim S8x96x320 ![] bcast_S_S8x96x320 : (⟨S_, .f32⟩ : BufTy).Contents (Elt F) → (⟨S8x96x320, .f32⟩ : BufTy).Contents (Elt F)),
    binary main_v1 main_v2 main_v3 (Host.divf : (⟨S8x96x320, .f32⟩ : BufTy).Contents (Elt F) → (⟨S8x96x320, .f32⟩ : BufTy).Contents (Elt F) → (⟨S8x96x320, .f32⟩ : BufTy).Contents (Elt F)) ]

/-- The operations of disparity 1. -/
abbrev ops_c1 : List (HloOp τ sig (Elt F)) :=
  [ unary main_arg0 main_v4 ((extractStridedSlice S8x128x96x319 ![0, 0, 0, 1] · slices_S8x128x96x320_S8x128x96x319_0_0_0_1) : (⟨S8x128x96x320, .f32⟩ : BufTy).Contents (Elt F) → (⟨S8x128x96x319, .f32⟩ : BufTy).Contents (Elt F)),
    unary main_arg1 main_v5 ((extractStridedSlice S8x128x96x319 ![0, 0, 0, 0] · slices_S8x128x96x320_S8x128x96x319_0_0_0_0) : (⟨S8x128x96x320, .f32⟩ : BufTy).Contents (Elt F) → (⟨S8x128x96x319, .f32⟩ : BufTy).Contents (Elt F)),
    binary main_v4 main_v5 main_v6 (mulf : (⟨S8x128x96x319, .f32⟩ : BufTy).Contents (Elt F) → (⟨S8x128x96x319, .f32⟩ : BufTy).Contents (Elt F) → (⟨S8x128x96x319, .f32⟩ : BufTy).Contents (Elt F)),
    nullary main_cst_1 (constant S_ .f32 0x00000000#32),
    binary main_v6 main_cst_1 main_v7 ((fun x v => Host.reduceAdd x v reducesTo_S8x128x96x319_S8x96x319_d1 h_S_) : (⟨S8x128x96x319, .f32⟩ : BufTy).Contents (Elt F) → (⟨S_, .f32⟩ : BufTy).Contents (Elt F) → (⟨S8x96x319, .f32⟩ : BufTy).Contents (Elt F)),
    nullary main_cst_2 (constant S_ .f32 0x43000000#32),
    unary main_cst_2 main_v8 (broadcastInDim S8x96x319 ![] bcast_S_S8x96x319 : (⟨S_, .f32⟩ : BufTy).Contents (Elt F) → (⟨S8x96x319, .f32⟩ : BufTy).Contents (Elt F)),
    binary main_v7 main_v8 main_v9 (Host.divf : (⟨S8x96x319, .f32⟩ : BufTy).Contents (Elt F) → (⟨S8x96x319, .f32⟩ : BufTy).Contents (Elt F) → (⟨S8x96x319, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x96x319, .f32⟩) main_v9) (TRef.of (T := ⟨S_, .f32⟩) main_call0_v0) (TRef.of (T := ⟨S8x96x320, .f32⟩) main_v10) (fun x v => pad S8x96x320 ![0, 0, 1] ![0, 0, 0] ![0, 0, 0] x v pads_S8x96x319_S8x96x320_000_000_100 h_S_) ]

/-- The operations of disparity 2. -/
abbrev ops_c2 : List (HloOp τ sig (Elt F)) :=
  [ unary main_arg0 main_v11 ((extractStridedSlice S8x128x96x318 ![0, 0, 0, 2] · slices_S8x128x96x320_S8x128x96x318_0_0_0_2) : (⟨S8x128x96x320, .f32⟩ : BufTy).Contents (Elt F) → (⟨S8x128x96x318, .f32⟩ : BufTy).Contents (Elt F)),
    unary main_arg1 main_v12 ((extractStridedSlice S8x128x96x318 ![0, 0, 0, 0] · slices_S8x128x96x320_S8x128x96x318_0_0_0_0) : (⟨S8x128x96x320, .f32⟩ : BufTy).Contents (Elt F) → (⟨S8x128x96x318, .f32⟩ : BufTy).Contents (Elt F)),
    binary main_v11 main_v12 main_v13 (mulf : (⟨S8x128x96x318, .f32⟩ : BufTy).Contents (Elt F) → (⟨S8x128x96x318, .f32⟩ : BufTy).Contents (Elt F) → (⟨S8x128x96x318, .f32⟩ : BufTy).Contents (Elt F)),
    nullary main_cst_3 (constant S_ .f32 0x00000000#32),
    binary main_v13 main_cst_3 main_v14 ((fun x v => Host.reduceAdd x v reducesTo_S8x128x96x318_S8x96x318_d1 h_S_) : (⟨S8x128x96x318, .f32⟩ : BufTy).Contents (Elt F) → (⟨S_, .f32⟩ : BufTy).Contents (Elt F) → (⟨S8x96x318, .f32⟩ : BufTy).Contents (Elt F)),
    nullary main_cst_4 (constant S_ .f32 0x43000000#32),
    unary main_cst_4 main_v15 (broadcastInDim S8x96x318 ![] bcast_S_S8x96x318 : (⟨S_, .f32⟩ : BufTy).Contents (Elt F) → (⟨S8x96x318, .f32⟩ : BufTy).Contents (Elt F)),
    binary main_v14 main_v15 main_v16 (Host.divf : (⟨S8x96x318, .f32⟩ : BufTy).Contents (Elt F) → (⟨S8x96x318, .f32⟩ : BufTy).Contents (Elt F) → (⟨S8x96x318, .f32⟩ : BufTy).Contents (Elt F)),
    nullary main_c_5 (constantI S_ 32 0#32),
    TRef.unary (TRef.of (T := ⟨S_, .i32⟩) main_c_5) (TRef.of (T := ⟨S_, .f32⟩) main_call1_v0) (sitofp .f32),
    TRef.binary (TRef.of (T := ⟨S8x96x318, .f32⟩) main_v16) (TRef.of (T := ⟨S_, .f32⟩) main_call1_v0) (TRef.of (T := ⟨S8x96x320, .f32⟩) main_v17) (fun x v => pad S8x96x320 ![0, 0, 2] ![0, 0, 0] ![0, 0, 0] x v pads_S8x96x318_S8x96x320_000_000_200 h_S_) ]

/-- The operations of disparity 3. -/
abbrev ops_c3 : List (HloOp τ sig (Elt F)) :=
  [ unary main_arg0 main_v18 ((extractStridedSlice S8x128x96x317 ![0, 0, 0, 3] · slices_S8x128x96x320_S8x128x96x317_0_0_0_3) : (⟨S8x128x96x320, .f32⟩ : BufTy).Contents (Elt F) → (⟨S8x128x96x317, .f32⟩ : BufTy).Contents (Elt F)),
    unary main_arg1 main_v19 ((extractStridedSlice S8x128x96x317 ![0, 0, 0, 0] · slices_S8x128x96x320_S8x128x96x317_0_0_0_0) : (⟨S8x128x96x320, .f32⟩ : BufTy).Contents (Elt F) → (⟨S8x128x96x317, .f32⟩ : BufTy).Contents (Elt F)),
    binary main_v18 main_v19 main_v20 (mulf : (⟨S8x128x96x317, .f32⟩ : BufTy).Contents (Elt F) → (⟨S8x128x96x317, .f32⟩ : BufTy).Contents (Elt F) → (⟨S8x128x96x317, .f32⟩ : BufTy).Contents (Elt F)),
    nullary main_cst_6 (constant S_ .f32 0x00000000#32),
    binary main_v20 main_cst_6 main_v21 ((fun x v => Host.reduceAdd x v reducesTo_S8x128x96x317_S8x96x317_d1 h_S_) : (⟨S8x128x96x317, .f32⟩ : BufTy).Contents (Elt F) → (⟨S_, .f32⟩ : BufTy).Contents (Elt F) → (⟨S8x96x317, .f32⟩ : BufTy).Contents (Elt F)),
    nullary main_cst_7 (constant S_ .f32 0x43000000#32),
    unary main_cst_7 main_v22 (broadcastInDim S8x96x317 ![] bcast_S_S8x96x317 : (⟨S_, .f32⟩ : BufTy).Contents (Elt F) → (⟨S8x96x317, .f32⟩ : BufTy).Contents (Elt F)),
    binary main_v21 main_v22 main_v23 (Host.divf : (⟨S8x96x317, .f32⟩ : BufTy).Contents (Elt F) → (⟨S8x96x317, .f32⟩ : BufTy).Contents (Elt F) → (⟨S8x96x317, .f32⟩ : BufTy).Contents (Elt F)),
    nullary main_c_8 (constantI S_ 32 0#32),
    TRef.unary (TRef.of (T := ⟨S_, .i32⟩) main_c_8) (TRef.of (T := ⟨S_, .f32⟩) main_call2_v0) (sitofp .f32),
    TRef.binary (TRef.of (T := ⟨S8x96x317, .f32⟩) main_v23) (TRef.of (T := ⟨S_, .f32⟩) main_call2_v0) (TRef.of (T := ⟨S8x96x320, .f32⟩) main_v24) (fun x v => pad S8x96x320 ![0, 0, 3] ![0, 0, 0] ![0, 0, 0] x v pads_S8x96x317_S8x96x320_000_000_300 h_S_) ]

/-- The operations of disparity 4. -/
abbrev ops_c4 : List (HloOp τ sig (Elt F)) :=
  [ unary main_arg0 main_v25 ((extractStridedSlice S8x128x96x316 ![0, 0, 0, 4] · slices_S8x128x96x320_S8x128x96x316_0_0_0_4) : (⟨S8x128x96x320, .f32⟩ : BufTy).Contents (Elt F) → (⟨S8x128x96x316, .f32⟩ : BufTy).Contents (Elt F)),
    unary main_arg1 main_v26 ((extractStridedSlice S8x128x96x316 ![0, 0, 0, 0] · slices_S8x128x96x320_S8x128x96x316_0_0_0_0) : (⟨S8x128x96x320, .f32⟩ : BufTy).Contents (Elt F) → (⟨S8x128x96x316, .f32⟩ : BufTy).Contents (Elt F)),
    binary main_v25 main_v26 main_v27 (mulf : (⟨S8x128x96x316, .f32⟩ : BufTy).Contents (Elt F) → (⟨S8x128x96x316, .f32⟩ : BufTy).Contents (Elt F) → (⟨S8x128x96x316, .f32⟩ : BufTy).Contents (Elt F)),
    nullary main_cst_9 (constant S_ .f32 0x00000000#32),
    binary main_v27 main_cst_9 main_v28 ((fun x v => Host.reduceAdd x v reducesTo_S8x128x96x316_S8x96x316_d1 h_S_) : (⟨S8x128x96x316, .f32⟩ : BufTy).Contents (Elt F) → (⟨S_, .f32⟩ : BufTy).Contents (Elt F) → (⟨S8x96x316, .f32⟩ : BufTy).Contents (Elt F)),
    nullary main_cst_10 (constant S_ .f32 0x43000000#32),
    unary main_cst_10 main_v29 (broadcastInDim S8x96x316 ![] bcast_S_S8x96x316 : (⟨S_, .f32⟩ : BufTy).Contents (Elt F) → (⟨S8x96x316, .f32⟩ : BufTy).Contents (Elt F)),
    binary main_v28 main_v29 main_v30 (Host.divf : (⟨S8x96x316, .f32⟩ : BufTy).Contents (Elt F) → (⟨S8x96x316, .f32⟩ : BufTy).Contents (Elt F) → (⟨S8x96x316, .f32⟩ : BufTy).Contents (Elt F)),
    nullary main_c_11 (constantI S_ 32 0#32),
    TRef.unary (TRef.of (T := ⟨S_, .i32⟩) main_c_11) (TRef.of (T := ⟨S_, .f32⟩) main_call3_v0) (sitofp .f32),
    TRef.binary (TRef.of (T := ⟨S8x96x316, .f32⟩) main_v30) (TRef.of (T := ⟨S_, .f32⟩) main_call3_v0) (TRef.of (T := ⟨S8x96x320, .f32⟩) main_v31) (fun x v => pad S8x96x320 ![0, 0, 4] ![0, 0, 0] ![0, 0, 0] x v pads_S8x96x316_S8x96x320_000_000_400 h_S_) ]

/-- The operations of disparity 5. -/
abbrev ops_c5 : List (HloOp τ sig (Elt F)) :=
  [ unary main_arg0 main_v32 ((extractStridedSlice S8x128x96x315 ![0, 0, 0, 5] · slices_S8x128x96x320_S8x128x96x315_0_0_0_5) : (⟨S8x128x96x320, .f32⟩ : BufTy).Contents (Elt F) → (⟨S8x128x96x315, .f32⟩ : BufTy).Contents (Elt F)),
    unary main_arg1 main_v33 ((extractStridedSlice S8x128x96x315 ![0, 0, 0, 0] · slices_S8x128x96x320_S8x128x96x315_0_0_0_0) : (⟨S8x128x96x320, .f32⟩ : BufTy).Contents (Elt F) → (⟨S8x128x96x315, .f32⟩ : BufTy).Contents (Elt F)),
    binary main_v32 main_v33 main_v34 (mulf : (⟨S8x128x96x315, .f32⟩ : BufTy).Contents (Elt F) → (⟨S8x128x96x315, .f32⟩ : BufTy).Contents (Elt F) → (⟨S8x128x96x315, .f32⟩ : BufTy).Contents (Elt F)),
    nullary main_cst_12 (constant S_ .f32 0x00000000#32),
    binary main_v34 main_cst_12 main_v35 ((fun x v => Host.reduceAdd x v reducesTo_S8x128x96x315_S8x96x315_d1 h_S_) : (⟨S8x128x96x315, .f32⟩ : BufTy).Contents (Elt F) → (⟨S_, .f32⟩ : BufTy).Contents (Elt F) → (⟨S8x96x315, .f32⟩ : BufTy).Contents (Elt F)),
    nullary main_cst_13 (constant S_ .f32 0x43000000#32),
    unary main_cst_13 main_v36 (broadcastInDim S8x96x315 ![] bcast_S_S8x96x315 : (⟨S_, .f32⟩ : BufTy).Contents (Elt F) → (⟨S8x96x315, .f32⟩ : BufTy).Contents (Elt F)),
    binary main_v35 main_v36 main_v37 (Host.divf : (⟨S8x96x315, .f32⟩ : BufTy).Contents (Elt F) → (⟨S8x96x315, .f32⟩ : BufTy).Contents (Elt F) → (⟨S8x96x315, .f32⟩ : BufTy).Contents (Elt F)),
    nullary main_c_14 (constantI S_ 32 0#32),
    TRef.unary (TRef.of (T := ⟨S_, .i32⟩) main_c_14) (TRef.of (T := ⟨S_, .f32⟩) main_call4_v0) (sitofp .f32),
    TRef.binary (TRef.of (T := ⟨S8x96x315, .f32⟩) main_v37) (TRef.of (T := ⟨S_, .f32⟩) main_call4_v0) (TRef.of (T := ⟨S8x96x320, .f32⟩) main_v38) (fun x v => pad S8x96x320 ![0, 0, 5] ![0, 0, 0] ![0, 0, 0] x v pads_S8x96x315_S8x96x320_000_000_500 h_S_) ]

/-- The operations of disparity 6. -/
abbrev ops_c6 : List (HloOp τ sig (Elt F)) :=
  [ unary main_arg0 main_v39 ((extractStridedSlice S8x128x96x314 ![0, 0, 0, 6] · slices_S8x128x96x320_S8x128x96x314_0_0_0_6) : (⟨S8x128x96x320, .f32⟩ : BufTy).Contents (Elt F) → (⟨S8x128x96x314, .f32⟩ : BufTy).Contents (Elt F)),
    unary main_arg1 main_v40 ((extractStridedSlice S8x128x96x314 ![0, 0, 0, 0] · slices_S8x128x96x320_S8x128x96x314_0_0_0_0) : (⟨S8x128x96x320, .f32⟩ : BufTy).Contents (Elt F) → (⟨S8x128x96x314, .f32⟩ : BufTy).Contents (Elt F)),
    binary main_v39 main_v40 main_v41 (mulf : (⟨S8x128x96x314, .f32⟩ : BufTy).Contents (Elt F) → (⟨S8x128x96x314, .f32⟩ : BufTy).Contents (Elt F) → (⟨S8x128x96x314, .f32⟩ : BufTy).Contents (Elt F)),
    nullary main_cst_15 (constant S_ .f32 0x00000000#32),
    binary main_v41 main_cst_15 main_v42 ((fun x v => Host.reduceAdd x v reducesTo_S8x128x96x314_S8x96x314_d1 h_S_) : (⟨S8x128x96x314, .f32⟩ : BufTy).Contents (Elt F) → (⟨S_, .f32⟩ : BufTy).Contents (Elt F) → (⟨S8x96x314, .f32⟩ : BufTy).Contents (Elt F)),
    nullary main_cst_16 (constant S_ .f32 0x43000000#32),
    unary main_cst_16 main_v43 (broadcastInDim S8x96x314 ![] bcast_S_S8x96x314 : (⟨S_, .f32⟩ : BufTy).Contents (Elt F) → (⟨S8x96x314, .f32⟩ : BufTy).Contents (Elt F)),
    binary main_v42 main_v43 main_v44 (Host.divf : (⟨S8x96x314, .f32⟩ : BufTy).Contents (Elt F) → (⟨S8x96x314, .f32⟩ : BufTy).Contents (Elt F) → (⟨S8x96x314, .f32⟩ : BufTy).Contents (Elt F)),
    nullary main_c_17 (constantI S_ 32 0#32),
    TRef.unary (TRef.of (T := ⟨S_, .i32⟩) main_c_17) (TRef.of (T := ⟨S_, .f32⟩) main_call5_v0) (sitofp .f32),
    TRef.binary (TRef.of (T := ⟨S8x96x314, .f32⟩) main_v44) (TRef.of (T := ⟨S_, .f32⟩) main_call5_v0) (TRef.of (T := ⟨S8x96x320, .f32⟩) main_v45) (fun x v => pad S8x96x320 ![0, 0, 6] ![0, 0, 0] ![0, 0, 0] x v pads_S8x96x314_S8x96x320_000_000_600 h_S_) ]

/-- The operations of disparity 7. -/
abbrev ops_c7 : List (HloOp τ sig (Elt F)) :=
  [ unary main_arg0 main_v46 ((extractStridedSlice S8x128x96x313 ![0, 0, 0, 7] · slices_S8x128x96x320_S8x128x96x313_0_0_0_7) : (⟨S8x128x96x320, .f32⟩ : BufTy).Contents (Elt F) → (⟨S8x128x96x313, .f32⟩ : BufTy).Contents (Elt F)),
    unary main_arg1 main_v47 ((extractStridedSlice S8x128x96x313 ![0, 0, 0, 0] · slices_S8x128x96x320_S8x128x96x313_0_0_0_0) : (⟨S8x128x96x320, .f32⟩ : BufTy).Contents (Elt F) → (⟨S8x128x96x313, .f32⟩ : BufTy).Contents (Elt F)),
    binary main_v46 main_v47 main_v48 (mulf : (⟨S8x128x96x313, .f32⟩ : BufTy).Contents (Elt F) → (⟨S8x128x96x313, .f32⟩ : BufTy).Contents (Elt F) → (⟨S8x128x96x313, .f32⟩ : BufTy).Contents (Elt F)),
    nullary main_cst_18 (constant S_ .f32 0x00000000#32),
    binary main_v48 main_cst_18 main_v49 ((fun x v => Host.reduceAdd x v reducesTo_S8x128x96x313_S8x96x313_d1 h_S_) : (⟨S8x128x96x313, .f32⟩ : BufTy).Contents (Elt F) → (⟨S_, .f32⟩ : BufTy).Contents (Elt F) → (⟨S8x96x313, .f32⟩ : BufTy).Contents (Elt F)),
    nullary main_cst_19 (constant S_ .f32 0x43000000#32),
    unary main_cst_19 main_v50 (broadcastInDim S8x96x313 ![] bcast_S_S8x96x313 : (⟨S_, .f32⟩ : BufTy).Contents (Elt F) → (⟨S8x96x313, .f32⟩ : BufTy).Contents (Elt F)),
    binary main_v49 main_v50 main_v51 (Host.divf : (⟨S8x96x313, .f32⟩ : BufTy).Contents (Elt F) → (⟨S8x96x313, .f32⟩ : BufTy).Contents (Elt F) → (⟨S8x96x313, .f32⟩ : BufTy).Contents (Elt F)),
    nullary main_c_20 (constantI S_ 32 0#32),
    TRef.unary (TRef.of (T := ⟨S_, .i32⟩) main_c_20) (TRef.of (T := ⟨S_, .f32⟩) main_call6_v0) (sitofp .f32),
    TRef.binary (TRef.of (T := ⟨S8x96x313, .f32⟩) main_v51) (TRef.of (T := ⟨S_, .f32⟩) main_call6_v0) (TRef.of (T := ⟨S8x96x320, .f32⟩) main_v52) (fun x v => pad S8x96x320 ![0, 0, 7] ![0, 0, 0] ![0, 0, 0] x v pads_S8x96x313_S8x96x320_000_000_700 h_S_) ]

/-- The operations of disparity 8. -/
abbrev ops_c8 : List (HloOp τ sig (Elt F)) :=
  [ unary main_arg0 main_v53 ((extractStridedSlice S8x128x96x312 ![0, 0, 0, 8] · slices_S8x128x96x320_S8x128x96x312_0_0_0_8) : (⟨S8x128x96x320, .f32⟩ : BufTy).Contents (Elt F) → (⟨S8x128x96x312, .f32⟩ : BufTy).Contents (Elt F)),
    unary main_arg1 main_v54 ((extractStridedSlice S8x128x96x312 ![0, 0, 0, 0] · slices_S8x128x96x320_S8x128x96x312_0_0_0_0) : (⟨S8x128x96x320, .f32⟩ : BufTy).Contents (Elt F) → (⟨S8x128x96x312, .f32⟩ : BufTy).Contents (Elt F)),
    binary main_v53 main_v54 main_v55 (mulf : (⟨S8x128x96x312, .f32⟩ : BufTy).Contents (Elt F) → (⟨S8x128x96x312, .f32⟩ : BufTy).Contents (Elt F) → (⟨S8x128x96x312, .f32⟩ : BufTy).Contents (Elt F)),
    nullary main_cst_21 (constant S_ .f32 0x00000000#32),
    binary main_v55 main_cst_21 main_v56 ((fun x v => Host.reduceAdd x v reducesTo_S8x128x96x312_S8x96x312_d1 h_S_) : (⟨S8x128x96x312, .f32⟩ : BufTy).Contents (Elt F) → (⟨S_, .f32⟩ : BufTy).Contents (Elt F) → (⟨S8x96x312, .f32⟩ : BufTy).Contents (Elt F)),
    nullary main_cst_22 (constant S_ .f32 0x43000000#32),
    unary main_cst_22 main_v57 (broadcastInDim S8x96x312 ![] bcast_S_S8x96x312 : (⟨S_, .f32⟩ : BufTy).Contents (Elt F) → (⟨S8x96x312, .f32⟩ : BufTy).Contents (Elt F)),
    binary main_v56 main_v57 main_v58 (Host.divf : (⟨S8x96x312, .f32⟩ : BufTy).Contents (Elt F) → (⟨S8x96x312, .f32⟩ : BufTy).Contents (Elt F) → (⟨S8x96x312, .f32⟩ : BufTy).Contents (Elt F)),
    nullary main_c_23 (constantI S_ 32 0#32),
    TRef.unary (TRef.of (T := ⟨S_, .i32⟩) main_c_23) (TRef.of (T := ⟨S_, .f32⟩) main_call7_v0) (sitofp .f32),
    TRef.binary (TRef.of (T := ⟨S8x96x312, .f32⟩) main_v58) (TRef.of (T := ⟨S_, .f32⟩) main_call7_v0) (TRef.of (T := ⟨S8x96x320, .f32⟩) main_v59) (fun x v => pad S8x96x320 ![0, 0, 8] ![0, 0, 0] ![0, 0, 0] x v pads_S8x96x312_S8x96x320_000_000_800 h_S_) ]

/-- The operations of disparity 9. -/
abbrev ops_c9 : List (HloOp τ sig (Elt F)) :=
  [ unary main_arg0 main_v60 ((extractStridedSlice S8x128x96x311 ![0, 0, 0, 9] · slices_S8x128x96x320_S8x128x96x311_0_0_0_9) : (⟨S8x128x96x320, .f32⟩ : BufTy).Contents (Elt F) → (⟨S8x128x96x311, .f32⟩ : BufTy).Contents (Elt F)),
    unary main_arg1 main_v61 ((extractStridedSlice S8x128x96x311 ![0, 0, 0, 0] · slices_S8x128x96x320_S8x128x96x311_0_0_0_0) : (⟨S8x128x96x320, .f32⟩ : BufTy).Contents (Elt F) → (⟨S8x128x96x311, .f32⟩ : BufTy).Contents (Elt F)),
    binary main_v60 main_v61 main_v62 (mulf : (⟨S8x128x96x311, .f32⟩ : BufTy).Contents (Elt F) → (⟨S8x128x96x311, .f32⟩ : BufTy).Contents (Elt F) → (⟨S8x128x96x311, .f32⟩ : BufTy).Contents (Elt F)),
    nullary main_cst_24 (constant S_ .f32 0x00000000#32),
    binary main_v62 main_cst_24 main_v63 ((fun x v => Host.reduceAdd x v reducesTo_S8x128x96x311_S8x96x311_d1 h_S_) : (⟨S8x128x96x311, .f32⟩ : BufTy).Contents (Elt F) → (⟨S_, .f32⟩ : BufTy).Contents (Elt F) → (⟨S8x96x311, .f32⟩ : BufTy).Contents (Elt F)),
    nullary main_cst_25 (constant S_ .f32 0x43000000#32),
    unary main_cst_25 main_v64 (broadcastInDim S8x96x311 ![] bcast_S_S8x96x311 : (⟨S_, .f32⟩ : BufTy).Contents (Elt F) → (⟨S8x96x311, .f32⟩ : BufTy).Contents (Elt F)),
    binary main_v63 main_v64 main_v65 (Host.divf : (⟨S8x96x311, .f32⟩ : BufTy).Contents (Elt F) → (⟨S8x96x311, .f32⟩ : BufTy).Contents (Elt F) → (⟨S8x96x311, .f32⟩ : BufTy).Contents (Elt F)),
    nullary main_c_26 (constantI S_ 32 0#32),
    TRef.unary (TRef.of (T := ⟨S_, .i32⟩) main_c_26) (TRef.of (T := ⟨S_, .f32⟩) main_call8_v0) (sitofp .f32),
    TRef.binary (TRef.of (T := ⟨S8x96x311, .f32⟩) main_v65) (TRef.of (T := ⟨S_, .f32⟩) main_call8_v0) (TRef.of (T := ⟨S8x96x320, .f32⟩) main_v66) (fun x v => pad S8x96x320 ![0, 0, 9] ![0, 0, 0] ![0, 0, 0] x v pads_S8x96x311_S8x96x320_000_000_900 h_S_) ]

/-- The operations of disparity 10. -/
abbrev ops_c10 : List (HloOp τ sig (Elt F)) :=
  [ unary main_arg0 main_v67 ((extractStridedSlice S8x128x96x310 ![0, 0, 0, 10] · slices_S8x128x96x320_S8x128x96x310_0_0_0_10) : (⟨S8x128x96x320, .f32⟩ : BufTy).Contents (Elt F) → (⟨S8x128x96x310, .f32⟩ : BufTy).Contents (Elt F)),
    unary main_arg1 main_v68 ((extractStridedSlice S8x128x96x310 ![0, 0, 0, 0] · slices_S8x128x96x320_S8x128x96x310_0_0_0_0) : (⟨S8x128x96x320, .f32⟩ : BufTy).Contents (Elt F) → (⟨S8x128x96x310, .f32⟩ : BufTy).Contents (Elt F)),
    binary main_v67 main_v68 main_v69 (mulf : (⟨S8x128x96x310, .f32⟩ : BufTy).Contents (Elt F) → (⟨S8x128x96x310, .f32⟩ : BufTy).Contents (Elt F) → (⟨S8x128x96x310, .f32⟩ : BufTy).Contents (Elt F)),
    nullary main_cst_27 (constant S_ .f32 0x00000000#32),
    binary main_v69 main_cst_27 main_v70 ((fun x v => Host.reduceAdd x v reducesTo_S8x128x96x310_S8x96x310_d1 h_S_) : (⟨S8x128x96x310, .f32⟩ : BufTy).Contents (Elt F) → (⟨S_, .f32⟩ : BufTy).Contents (Elt F) → (⟨S8x96x310, .f32⟩ : BufTy).Contents (Elt F)),
    nullary main_cst_28 (constant S_ .f32 0x43000000#32),
    unary main_cst_28 main_v71 (broadcastInDim S8x96x310 ![] bcast_S_S8x96x310 : (⟨S_, .f32⟩ : BufTy).Contents (Elt F) → (⟨S8x96x310, .f32⟩ : BufTy).Contents (Elt F)),
    binary main_v70 main_v71 main_v72 (Host.divf : (⟨S8x96x310, .f32⟩ : BufTy).Contents (Elt F) → (⟨S8x96x310, .f32⟩ : BufTy).Contents (Elt F) → (⟨S8x96x310, .f32⟩ : BufTy).Contents (Elt F)),
    nullary main_c_29 (constantI S_ 32 0#32),
    TRef.unary (TRef.of (T := ⟨S_, .i32⟩) main_c_29) (TRef.of (T := ⟨S_, .f32⟩) main_call9_v0) (sitofp .f32),
    TRef.binary (TRef.of (T := ⟨S8x96x310, .f32⟩) main_v72) (TRef.of (T := ⟨S_, .f32⟩) main_call9_v0) (TRef.of (T := ⟨S8x96x320, .f32⟩) main_v73) (fun x v => pad S8x96x320 ![0, 0, 10] ![0, 0, 0] ![0, 0, 0] x v pads_S8x96x310_S8x96x320_000_000_1000 h_S_) ]

/-- The operations of disparity 11. -/
abbrev ops_c11 : List (HloOp τ sig (Elt F)) :=
  [ unary main_arg0 main_v74 ((extractStridedSlice S8x128x96x309 ![0, 0, 0, 11] · slices_S8x128x96x320_S8x128x96x309_0_0_0_11) : (⟨S8x128x96x320, .f32⟩ : BufTy).Contents (Elt F) → (⟨S8x128x96x309, .f32⟩ : BufTy).Contents (Elt F)),
    unary main_arg1 main_v75 ((extractStridedSlice S8x128x96x309 ![0, 0, 0, 0] · slices_S8x128x96x320_S8x128x96x309_0_0_0_0) : (⟨S8x128x96x320, .f32⟩ : BufTy).Contents (Elt F) → (⟨S8x128x96x309, .f32⟩ : BufTy).Contents (Elt F)),
    binary main_v74 main_v75 main_v76 (mulf : (⟨S8x128x96x309, .f32⟩ : BufTy).Contents (Elt F) → (⟨S8x128x96x309, .f32⟩ : BufTy).Contents (Elt F) → (⟨S8x128x96x309, .f32⟩ : BufTy).Contents (Elt F)),
    nullary main_cst_30 (constant S_ .f32 0x00000000#32),
    binary main_v76 main_cst_30 main_v77 ((fun x v => Host.reduceAdd x v reducesTo_S8x128x96x309_S8x96x309_d1 h_S_) : (⟨S8x128x96x309, .f32⟩ : BufTy).Contents (Elt F) → (⟨S_, .f32⟩ : BufTy).Contents (Elt F) → (⟨S8x96x309, .f32⟩ : BufTy).Contents (Elt F)),
    nullary main_cst_31 (constant S_ .f32 0x43000000#32),
    unary main_cst_31 main_v78 (broadcastInDim S8x96x309 ![] bcast_S_S8x96x309 : (⟨S_, .f32⟩ : BufTy).Contents (Elt F) → (⟨S8x96x309, .f32⟩ : BufTy).Contents (Elt F)),
    binary main_v77 main_v78 main_v79 (Host.divf : (⟨S8x96x309, .f32⟩ : BufTy).Contents (Elt F) → (⟨S8x96x309, .f32⟩ : BufTy).Contents (Elt F) → (⟨S8x96x309, .f32⟩ : BufTy).Contents (Elt F)),
    nullary main_c_32 (constantI S_ 32 0#32),
    TRef.unary (TRef.of (T := ⟨S_, .i32⟩) main_c_32) (TRef.of (T := ⟨S_, .f32⟩) main_call10_v0) (sitofp .f32),
    TRef.binary (TRef.of (T := ⟨S8x96x309, .f32⟩) main_v79) (TRef.of (T := ⟨S_, .f32⟩) main_call10_v0) (TRef.of (T := ⟨S8x96x320, .f32⟩) main_v80) (fun x v => pad S8x96x320 ![0, 0, 11] ![0, 0, 0] ![0, 0, 0] x v pads_S8x96x309_S8x96x320_000_000_1100 h_S_) ]

/-- The operations of disparity 12. -/
abbrev ops_c12 : List (HloOp τ sig (Elt F)) :=
  [ unary main_arg0 main_v81 ((extractStridedSlice S8x128x96x308 ![0, 0, 0, 12] · slices_S8x128x96x320_S8x128x96x308_0_0_0_12) : (⟨S8x128x96x320, .f32⟩ : BufTy).Contents (Elt F) → (⟨S8x128x96x308, .f32⟩ : BufTy).Contents (Elt F)),
    unary main_arg1 main_v82 ((extractStridedSlice S8x128x96x308 ![0, 0, 0, 0] · slices_S8x128x96x320_S8x128x96x308_0_0_0_0) : (⟨S8x128x96x320, .f32⟩ : BufTy).Contents (Elt F) → (⟨S8x128x96x308, .f32⟩ : BufTy).Contents (Elt F)),
    binary main_v81 main_v82 main_v83 (mulf : (⟨S8x128x96x308, .f32⟩ : BufTy).Contents (Elt F) → (⟨S8x128x96x308, .f32⟩ : BufTy).Contents (Elt F) → (⟨S8x128x96x308, .f32⟩ : BufTy).Contents (Elt F)),
    nullary main_cst_33 (constant S_ .f32 0x00000000#32),
    binary main_v83 main_cst_33 main_v84 ((fun x v => Host.reduceAdd x v reducesTo_S8x128x96x308_S8x96x308_d1 h_S_) : (⟨S8x128x96x308, .f32⟩ : BufTy).Contents (Elt F) → (⟨S_, .f32⟩ : BufTy).Contents (Elt F) → (⟨S8x96x308, .f32⟩ : BufTy).Contents (Elt F)),
    nullary main_cst_34 (constant S_ .f32 0x43000000#32),
    unary main_cst_34 main_v85 (broadcastInDim S8x96x308 ![] bcast_S_S8x96x308 : (⟨S_, .f32⟩ : BufTy).Contents (Elt F) → (⟨S8x96x308, .f32⟩ : BufTy).Contents (Elt F)),
    binary main_v84 main_v85 main_v86 (Host.divf : (⟨S8x96x308, .f32⟩ : BufTy).Contents (Elt F) → (⟨S8x96x308, .f32⟩ : BufTy).Contents (Elt F) → (⟨S8x96x308, .f32⟩ : BufTy).Contents (Elt F)),
    nullary main_c_35 (constantI S_ 32 0#32),
    TRef.unary (TRef.of (T := ⟨S_, .i32⟩) main_c_35) (TRef.of (T := ⟨S_, .f32⟩) main_call11_v0) (sitofp .f32),
    TRef.binary (TRef.of (T := ⟨S8x96x308, .f32⟩) main_v86) (TRef.of (T := ⟨S_, .f32⟩) main_call11_v0) (TRef.of (T := ⟨S8x96x320, .f32⟩) main_v87) (fun x v => pad S8x96x320 ![0, 0, 12] ![0, 0, 0] ![0, 0, 0] x v pads_S8x96x308_S8x96x320_000_000_1200 h_S_) ]

/-- The operations of disparity 13. -/
abbrev ops_c13 : List (HloOp τ sig (Elt F)) :=
  [ unary main_arg0 main_v88 ((extractStridedSlice S8x128x96x307 ![0, 0, 0, 13] · slices_S8x128x96x320_S8x128x96x307_0_0_0_13) : (⟨S8x128x96x320, .f32⟩ : BufTy).Contents (Elt F) → (⟨S8x128x96x307, .f32⟩ : BufTy).Contents (Elt F)),
    unary main_arg1 main_v89 ((extractStridedSlice S8x128x96x307 ![0, 0, 0, 0] · slices_S8x128x96x320_S8x128x96x307_0_0_0_0) : (⟨S8x128x96x320, .f32⟩ : BufTy).Contents (Elt F) → (⟨S8x128x96x307, .f32⟩ : BufTy).Contents (Elt F)),
    binary main_v88 main_v89 main_v90 (mulf : (⟨S8x128x96x307, .f32⟩ : BufTy).Contents (Elt F) → (⟨S8x128x96x307, .f32⟩ : BufTy).Contents (Elt F) → (⟨S8x128x96x307, .f32⟩ : BufTy).Contents (Elt F)),
    nullary main_cst_36 (constant S_ .f32 0x00000000#32),
    binary main_v90 main_cst_36 main_v91 ((fun x v => Host.reduceAdd x v reducesTo_S8x128x96x307_S8x96x307_d1 h_S_) : (⟨S8x128x96x307, .f32⟩ : BufTy).Contents (Elt F) → (⟨S_, .f32⟩ : BufTy).Contents (Elt F) → (⟨S8x96x307, .f32⟩ : BufTy).Contents (Elt F)),
    nullary main_cst_37 (constant S_ .f32 0x43000000#32),
    unary main_cst_37 main_v92 (broadcastInDim S8x96x307 ![] bcast_S_S8x96x307 : (⟨S_, .f32⟩ : BufTy).Contents (Elt F) → (⟨S8x96x307, .f32⟩ : BufTy).Contents (Elt F)),
    binary main_v91 main_v92 main_v93 (Host.divf : (⟨S8x96x307, .f32⟩ : BufTy).Contents (Elt F) → (⟨S8x96x307, .f32⟩ : BufTy).Contents (Elt F) → (⟨S8x96x307, .f32⟩ : BufTy).Contents (Elt F)),
    nullary main_c_38 (constantI S_ 32 0#32),
    TRef.unary (TRef.of (T := ⟨S_, .i32⟩) main_c_38) (TRef.of (T := ⟨S_, .f32⟩) main_call12_v0) (sitofp .f32),
    TRef.binary (TRef.of (T := ⟨S8x96x307, .f32⟩) main_v93) (TRef.of (T := ⟨S_, .f32⟩) main_call12_v0) (TRef.of (T := ⟨S8x96x320, .f32⟩) main_v94) (fun x v => pad S8x96x320 ![0, 0, 13] ![0, 0, 0] ![0, 0, 0] x v pads_S8x96x307_S8x96x320_000_000_1300 h_S_) ]

/-- The operations of disparity 14. -/
abbrev ops_c14 : List (HloOp τ sig (Elt F)) :=
  [ unary main_arg0 main_v95 ((extractStridedSlice S8x128x96x306 ![0, 0, 0, 14] · slices_S8x128x96x320_S8x128x96x306_0_0_0_14) : (⟨S8x128x96x320, .f32⟩ : BufTy).Contents (Elt F) → (⟨S8x128x96x306, .f32⟩ : BufTy).Contents (Elt F)),
    unary main_arg1 main_v96 ((extractStridedSlice S8x128x96x306 ![0, 0, 0, 0] · slices_S8x128x96x320_S8x128x96x306_0_0_0_0) : (⟨S8x128x96x320, .f32⟩ : BufTy).Contents (Elt F) → (⟨S8x128x96x306, .f32⟩ : BufTy).Contents (Elt F)),
    binary main_v95 main_v96 main_v97 (mulf : (⟨S8x128x96x306, .f32⟩ : BufTy).Contents (Elt F) → (⟨S8x128x96x306, .f32⟩ : BufTy).Contents (Elt F) → (⟨S8x128x96x306, .f32⟩ : BufTy).Contents (Elt F)),
    nullary main_cst_39 (constant S_ .f32 0x00000000#32),
    binary main_v97 main_cst_39 main_v98 ((fun x v => Host.reduceAdd x v reducesTo_S8x128x96x306_S8x96x306_d1 h_S_) : (⟨S8x128x96x306, .f32⟩ : BufTy).Contents (Elt F) → (⟨S_, .f32⟩ : BufTy).Contents (Elt F) → (⟨S8x96x306, .f32⟩ : BufTy).Contents (Elt F)),
    nullary main_cst_40 (constant S_ .f32 0x43000000#32),
    unary main_cst_40 main_v99 (broadcastInDim S8x96x306 ![] bcast_S_S8x96x306 : (⟨S_, .f32⟩ : BufTy).Contents (Elt F) → (⟨S8x96x306, .f32⟩ : BufTy).Contents (Elt F)),
    binary main_v98 main_v99 main_v100 (Host.divf : (⟨S8x96x306, .f32⟩ : BufTy).Contents (Elt F) → (⟨S8x96x306, .f32⟩ : BufTy).Contents (Elt F) → (⟨S8x96x306, .f32⟩ : BufTy).Contents (Elt F)),
    nullary main_c_41 (constantI S_ 32 0#32),
    TRef.unary (TRef.of (T := ⟨S_, .i32⟩) main_c_41) (TRef.of (T := ⟨S_, .f32⟩) main_call13_v0) (sitofp .f32),
    TRef.binary (TRef.of (T := ⟨S8x96x306, .f32⟩) main_v100) (TRef.of (T := ⟨S_, .f32⟩) main_call13_v0) (TRef.of (T := ⟨S8x96x320, .f32⟩) main_v101) (fun x v => pad S8x96x320 ![0, 0, 14] ![0, 0, 0] ![0, 0, 0] x v pads_S8x96x306_S8x96x320_000_000_1400 h_S_) ]

/-- The operations of disparity 15. -/
abbrev ops_c15 : List (HloOp τ sig (Elt F)) :=
  [ unary main_arg0 main_v102 ((extractStridedSlice S8x128x96x305 ![0, 0, 0, 15] · slices_S8x128x96x320_S8x128x96x305_0_0_0_15) : (⟨S8x128x96x320, .f32⟩ : BufTy).Contents (Elt F) → (⟨S8x128x96x305, .f32⟩ : BufTy).Contents (Elt F)),
    unary main_arg1 main_v103 ((extractStridedSlice S8x128x96x305 ![0, 0, 0, 0] · slices_S8x128x96x320_S8x128x96x305_0_0_0_0) : (⟨S8x128x96x320, .f32⟩ : BufTy).Contents (Elt F) → (⟨S8x128x96x305, .f32⟩ : BufTy).Contents (Elt F)),
    binary main_v102 main_v103 main_v104 (mulf : (⟨S8x128x96x305, .f32⟩ : BufTy).Contents (Elt F) → (⟨S8x128x96x305, .f32⟩ : BufTy).Contents (Elt F) → (⟨S8x128x96x305, .f32⟩ : BufTy).Contents (Elt F)),
    nullary main_cst_42 (constant S_ .f32 0x00000000#32),
    binary main_v104 main_cst_42 main_v105 ((fun x v => Host.reduceAdd x v reducesTo_S8x128x96x305_S8x96x305_d1 h_S_) : (⟨S8x128x96x305, .f32⟩ : BufTy).Contents (Elt F) → (⟨S_, .f32⟩ : BufTy).Contents (Elt F) → (⟨S8x96x305, .f32⟩ : BufTy).Contents (Elt F)),
    nullary main_cst_43 (constant S_ .f32 0x43000000#32),
    unary main_cst_43 main_v106 (broadcastInDim S8x96x305 ![] bcast_S_S8x96x305 : (⟨S_, .f32⟩ : BufTy).Contents (Elt F) → (⟨S8x96x305, .f32⟩ : BufTy).Contents (Elt F)),
    binary main_v105 main_v106 main_v107 (Host.divf : (⟨S8x96x305, .f32⟩ : BufTy).Contents (Elt F) → (⟨S8x96x305, .f32⟩ : BufTy).Contents (Elt F) → (⟨S8x96x305, .f32⟩ : BufTy).Contents (Elt F)),
    nullary main_c_44 (constantI S_ 32 0#32),
    TRef.unary (TRef.of (T := ⟨S_, .i32⟩) main_c_44) (TRef.of (T := ⟨S_, .f32⟩) main_call14_v0) (sitofp .f32),
    TRef.binary (TRef.of (T := ⟨S8x96x305, .f32⟩) main_v107) (TRef.of (T := ⟨S_, .f32⟩) main_call14_v0) (TRef.of (T := ⟨S8x96x320, .f32⟩) main_v108) (fun x v => pad S8x96x320 ![0, 0, 15] ![0, 0, 0] ![0, 0, 0] x v pads_S8x96x305_S8x96x320_000_000_1500 h_S_) ]

/-- The operations of disparity 16. -/
abbrev ops_c16 : List (HloOp τ sig (Elt F)) :=
  [ unary main_arg0 main_v109 ((extractStridedSlice S8x128x96x304 ![0, 0, 0, 16] · slices_S8x128x96x320_S8x128x96x304_0_0_0_16) : (⟨S8x128x96x320, .f32⟩ : BufTy).Contents (Elt F) → (⟨S8x128x96x304, .f32⟩ : BufTy).Contents (Elt F)),
    unary main_arg1 main_v110 ((extractStridedSlice S8x128x96x304 ![0, 0, 0, 0] · slices_S8x128x96x320_S8x128x96x304_0_0_0_0) : (⟨S8x128x96x320, .f32⟩ : BufTy).Contents (Elt F) → (⟨S8x128x96x304, .f32⟩ : BufTy).Contents (Elt F)),
    binary main_v109 main_v110 main_v111 (mulf : (⟨S8x128x96x304, .f32⟩ : BufTy).Contents (Elt F) → (⟨S8x128x96x304, .f32⟩ : BufTy).Contents (Elt F) → (⟨S8x128x96x304, .f32⟩ : BufTy).Contents (Elt F)),
    nullary main_cst_45 (constant S_ .f32 0x00000000#32),
    binary main_v111 main_cst_45 main_v112 ((fun x v => Host.reduceAdd x v reducesTo_S8x128x96x304_S8x96x304_d1 h_S_) : (⟨S8x128x96x304, .f32⟩ : BufTy).Contents (Elt F) → (⟨S_, .f32⟩ : BufTy).Contents (Elt F) → (⟨S8x96x304, .f32⟩ : BufTy).Contents (Elt F)),
    nullary main_cst_46 (constant S_ .f32 0x43000000#32),
    unary main_cst_46 main_v113 (broadcastInDim S8x96x304 ![] bcast_S_S8x96x304 : (⟨S_, .f32⟩ : BufTy).Contents (Elt F) → (⟨S8x96x304, .f32⟩ : BufTy).Contents (Elt F)),
    binary main_v112 main_v113 main_v114 (Host.divf : (⟨S8x96x304, .f32⟩ : BufTy).Contents (Elt F) → (⟨S8x96x304, .f32⟩ : BufTy).Contents (Elt F) → (⟨S8x96x304, .f32⟩ : BufTy).Contents (Elt F)),
    nullary main_c_47 (constantI S_ 32 0#32),
    TRef.unary (TRef.of (T := ⟨S_, .i32⟩) main_c_47) (TRef.of (T := ⟨S_, .f32⟩) main_call15_v0) (sitofp .f32),
    TRef.binary (TRef.of (T := ⟨S8x96x304, .f32⟩) main_v114) (TRef.of (T := ⟨S_, .f32⟩) main_call15_v0) (TRef.of (T := ⟨S8x96x320, .f32⟩) main_v115) (fun x v => pad S8x96x320 ![0, 0, 16] ![0, 0, 0] ![0, 0, 0] x v pads_S8x96x304_S8x96x320_000_000_1600 h_S_) ]

/-- The operations of disparity 17. -/
abbrev ops_c17 : List (HloOp τ sig (Elt F)) :=
  [ unary main_arg0 main_v116 ((extractStridedSlice S8x128x96x303 ![0, 0, 0, 17] · slices_S8x128x96x320_S8x128x96x303_0_0_0_17) : (⟨S8x128x96x320, .f32⟩ : BufTy).Contents (Elt F) → (⟨S8x128x96x303, .f32⟩ : BufTy).Contents (Elt F)),
    unary main_arg1 main_v117 ((extractStridedSlice S8x128x96x303 ![0, 0, 0, 0] · slices_S8x128x96x320_S8x128x96x303_0_0_0_0) : (⟨S8x128x96x320, .f32⟩ : BufTy).Contents (Elt F) → (⟨S8x128x96x303, .f32⟩ : BufTy).Contents (Elt F)),
    binary main_v116 main_v117 main_v118 (mulf : (⟨S8x128x96x303, .f32⟩ : BufTy).Contents (Elt F) → (⟨S8x128x96x303, .f32⟩ : BufTy).Contents (Elt F) → (⟨S8x128x96x303, .f32⟩ : BufTy).Contents (Elt F)),
    nullary main_cst_48 (constant S_ .f32 0x00000000#32),
    binary main_v118 main_cst_48 main_v119 ((fun x v => Host.reduceAdd x v reducesTo_S8x128x96x303_S8x96x303_d1 h_S_) : (⟨S8x128x96x303, .f32⟩ : BufTy).Contents (Elt F) → (⟨S_, .f32⟩ : BufTy).Contents (Elt F) → (⟨S8x96x303, .f32⟩ : BufTy).Contents (Elt F)),
    nullary main_cst_49 (constant S_ .f32 0x43000000#32),
    unary main_cst_49 main_v120 (broadcastInDim S8x96x303 ![] bcast_S_S8x96x303 : (⟨S_, .f32⟩ : BufTy).Contents (Elt F) → (⟨S8x96x303, .f32⟩ : BufTy).Contents (Elt F)),
    binary main_v119 main_v120 main_v121 (Host.divf : (⟨S8x96x303, .f32⟩ : BufTy).Contents (Elt F) → (⟨S8x96x303, .f32⟩ : BufTy).Contents (Elt F) → (⟨S8x96x303, .f32⟩ : BufTy).Contents (Elt F)),
    nullary main_c_50 (constantI S_ 32 0#32),
    TRef.unary (TRef.of (T := ⟨S_, .i32⟩) main_c_50) (TRef.of (T := ⟨S_, .f32⟩) main_call16_v0) (sitofp .f32),
    TRef.binary (TRef.of (T := ⟨S8x96x303, .f32⟩) main_v121) (TRef.of (T := ⟨S_, .f32⟩) main_call16_v0) (TRef.of (T := ⟨S8x96x320, .f32⟩) main_v122) (fun x v => pad S8x96x320 ![0, 0, 17] ![0, 0, 0] ![0, 0, 0] x v pads_S8x96x303_S8x96x320_000_000_1700 h_S_) ]

/-- The operations of disparity 18. -/
abbrev ops_c18 : List (HloOp τ sig (Elt F)) :=
  [ unary main_arg0 main_v123 ((extractStridedSlice S8x128x96x302 ![0, 0, 0, 18] · slices_S8x128x96x320_S8x128x96x302_0_0_0_18) : (⟨S8x128x96x320, .f32⟩ : BufTy).Contents (Elt F) → (⟨S8x128x96x302, .f32⟩ : BufTy).Contents (Elt F)),
    unary main_arg1 main_v124 ((extractStridedSlice S8x128x96x302 ![0, 0, 0, 0] · slices_S8x128x96x320_S8x128x96x302_0_0_0_0) : (⟨S8x128x96x320, .f32⟩ : BufTy).Contents (Elt F) → (⟨S8x128x96x302, .f32⟩ : BufTy).Contents (Elt F)),
    binary main_v123 main_v124 main_v125 (mulf : (⟨S8x128x96x302, .f32⟩ : BufTy).Contents (Elt F) → (⟨S8x128x96x302, .f32⟩ : BufTy).Contents (Elt F) → (⟨S8x128x96x302, .f32⟩ : BufTy).Contents (Elt F)),
    nullary main_cst_51 (constant S_ .f32 0x00000000#32),
    binary main_v125 main_cst_51 main_v126 ((fun x v => Host.reduceAdd x v reducesTo_S8x128x96x302_S8x96x302_d1 h_S_) : (⟨S8x128x96x302, .f32⟩ : BufTy).Contents (Elt F) → (⟨S_, .f32⟩ : BufTy).Contents (Elt F) → (⟨S8x96x302, .f32⟩ : BufTy).Contents (Elt F)),
    nullary main_cst_52 (constant S_ .f32 0x43000000#32),
    unary main_cst_52 main_v127 (broadcastInDim S8x96x302 ![] bcast_S_S8x96x302 : (⟨S_, .f32⟩ : BufTy).Contents (Elt F) → (⟨S8x96x302, .f32⟩ : BufTy).Contents (Elt F)),
    binary main_v126 main_v127 main_v128 (Host.divf : (⟨S8x96x302, .f32⟩ : BufTy).Contents (Elt F) → (⟨S8x96x302, .f32⟩ : BufTy).Contents (Elt F) → (⟨S8x96x302, .f32⟩ : BufTy).Contents (Elt F)),
    nullary main_c_53 (constantI S_ 32 0#32),
    TRef.unary (TRef.of (T := ⟨S_, .i32⟩) main_c_53) (TRef.of (T := ⟨S_, .f32⟩) main_call17_v0) (sitofp .f32),
    TRef.binary (TRef.of (T := ⟨S8x96x302, .f32⟩) main_v128) (TRef.of (T := ⟨S_, .f32⟩) main_call17_v0) (TRef.of (T := ⟨S8x96x320, .f32⟩) main_v129) (fun x v => pad S8x96x320 ![0, 0, 18] ![0, 0, 0] ![0, 0, 0] x v pads_S8x96x302_S8x96x320_000_000_1800 h_S_) ]

/-- The operations of disparity 19. -/
abbrev ops_c19 : List (HloOp τ sig (Elt F)) :=
  [ unary main_arg0 main_v130 ((extractStridedSlice S8x128x96x301 ![0, 0, 0, 19] · slices_S8x128x96x320_S8x128x96x301_0_0_0_19) : (⟨S8x128x96x320, .f32⟩ : BufTy).Contents (Elt F) → (⟨S8x128x96x301, .f32⟩ : BufTy).Contents (Elt F)),
    unary main_arg1 main_v131 ((extractStridedSlice S8x128x96x301 ![0, 0, 0, 0] · slices_S8x128x96x320_S8x128x96x301_0_0_0_0) : (⟨S8x128x96x320, .f32⟩ : BufTy).Contents (Elt F) → (⟨S8x128x96x301, .f32⟩ : BufTy).Contents (Elt F)),
    binary main_v130 main_v131 main_v132 (mulf : (⟨S8x128x96x301, .f32⟩ : BufTy).Contents (Elt F) → (⟨S8x128x96x301, .f32⟩ : BufTy).Contents (Elt F) → (⟨S8x128x96x301, .f32⟩ : BufTy).Contents (Elt F)),
    nullary main_cst_54 (constant S_ .f32 0x00000000#32),
    binary main_v132 main_cst_54 main_v133 ((fun x v => Host.reduceAdd x v reducesTo_S8x128x96x301_S8x96x301_d1 h_S_) : (⟨S8x128x96x301, .f32⟩ : BufTy).Contents (Elt F) → (⟨S_, .f32⟩ : BufTy).Contents (Elt F) → (⟨S8x96x301, .f32⟩ : BufTy).Contents (Elt F)),
    nullary main_cst_55 (constant S_ .f32 0x43000000#32),
    unary main_cst_55 main_v134 (broadcastInDim S8x96x301 ![] bcast_S_S8x96x301 : (⟨S_, .f32⟩ : BufTy).Contents (Elt F) → (⟨S8x96x301, .f32⟩ : BufTy).Contents (Elt F)),
    binary main_v133 main_v134 main_v135 (Host.divf : (⟨S8x96x301, .f32⟩ : BufTy).Contents (Elt F) → (⟨S8x96x301, .f32⟩ : BufTy).Contents (Elt F) → (⟨S8x96x301, .f32⟩ : BufTy).Contents (Elt F)),
    nullary main_c_56 (constantI S_ 32 0#32),
    TRef.unary (TRef.of (T := ⟨S_, .i32⟩) main_c_56) (TRef.of (T := ⟨S_, .f32⟩) main_call18_v0) (sitofp .f32),
    TRef.binary (TRef.of (T := ⟨S8x96x301, .f32⟩) main_v135) (TRef.of (T := ⟨S_, .f32⟩) main_call18_v0) (TRef.of (T := ⟨S8x96x320, .f32⟩) main_v136) (fun x v => pad S8x96x320 ![0, 0, 19] ![0, 0, 0] ![0, 0, 0] x v pads_S8x96x301_S8x96x320_000_000_1900 h_S_) ]

/-- The operations of disparity 20. -/
abbrev ops_c20 : List (HloOp τ sig (Elt F)) :=
  [ unary main_arg0 main_v137 ((extractStridedSlice S8x128x96x300 ![0, 0, 0, 20] · slices_S8x128x96x320_S8x128x96x300_0_0_0_20) : (⟨S8x128x96x320, .f32⟩ : BufTy).Contents (Elt F) → (⟨S8x128x96x300, .f32⟩ : BufTy).Contents (Elt F)),
    unary main_arg1 main_v138 ((extractStridedSlice S8x128x96x300 ![0, 0, 0, 0] · slices_S8x128x96x320_S8x128x96x300_0_0_0_0) : (⟨S8x128x96x320, .f32⟩ : BufTy).Contents (Elt F) → (⟨S8x128x96x300, .f32⟩ : BufTy).Contents (Elt F)),
    binary main_v137 main_v138 main_v139 (mulf : (⟨S8x128x96x300, .f32⟩ : BufTy).Contents (Elt F) → (⟨S8x128x96x300, .f32⟩ : BufTy).Contents (Elt F) → (⟨S8x128x96x300, .f32⟩ : BufTy).Contents (Elt F)),
    nullary main_cst_57 (constant S_ .f32 0x00000000#32),
    binary main_v139 main_cst_57 main_v140 ((fun x v => Host.reduceAdd x v reducesTo_S8x128x96x300_S8x96x300_d1 h_S_) : (⟨S8x128x96x300, .f32⟩ : BufTy).Contents (Elt F) → (⟨S_, .f32⟩ : BufTy).Contents (Elt F) → (⟨S8x96x300, .f32⟩ : BufTy).Contents (Elt F)),
    nullary main_cst_58 (constant S_ .f32 0x43000000#32),
    unary main_cst_58 main_v141 (broadcastInDim S8x96x300 ![] bcast_S_S8x96x300 : (⟨S_, .f32⟩ : BufTy).Contents (Elt F) → (⟨S8x96x300, .f32⟩ : BufTy).Contents (Elt F)),
    binary main_v140 main_v141 main_v142 (Host.divf : (⟨S8x96x300, .f32⟩ : BufTy).Contents (Elt F) → (⟨S8x96x300, .f32⟩ : BufTy).Contents (Elt F) → (⟨S8x96x300, .f32⟩ : BufTy).Contents (Elt F)),
    nullary main_c_59 (constantI S_ 32 0#32),
    TRef.unary (TRef.of (T := ⟨S_, .i32⟩) main_c_59) (TRef.of (T := ⟨S_, .f32⟩) main_call19_v0) (sitofp .f32),
    TRef.binary (TRef.of (T := ⟨S8x96x300, .f32⟩) main_v142) (TRef.of (T := ⟨S_, .f32⟩) main_call19_v0) (TRef.of (T := ⟨S8x96x320, .f32⟩) main_v143) (fun x v => pad S8x96x320 ![0, 0, 20] ![0, 0, 0] ![0, 0, 0] x v pads_S8x96x300_S8x96x320_000_000_2000 h_S_) ]

/-- The operations of disparity 21. -/
abbrev ops_c21 : List (HloOp τ sig (Elt F)) :=
  [ unary main_arg0 main_v144 ((extractStridedSlice S8x128x96x299 ![0, 0, 0, 21] · slices_S8x128x96x320_S8x128x96x299_0_0_0_21) : (⟨S8x128x96x320, .f32⟩ : BufTy).Contents (Elt F) → (⟨S8x128x96x299, .f32⟩ : BufTy).Contents (Elt F)),
    unary main_arg1 main_v145 ((extractStridedSlice S8x128x96x299 ![0, 0, 0, 0] · slices_S8x128x96x320_S8x128x96x299_0_0_0_0) : (⟨S8x128x96x320, .f32⟩ : BufTy).Contents (Elt F) → (⟨S8x128x96x299, .f32⟩ : BufTy).Contents (Elt F)),
    binary main_v144 main_v145 main_v146 (mulf : (⟨S8x128x96x299, .f32⟩ : BufTy).Contents (Elt F) → (⟨S8x128x96x299, .f32⟩ : BufTy).Contents (Elt F) → (⟨S8x128x96x299, .f32⟩ : BufTy).Contents (Elt F)),
    nullary main_cst_60 (constant S_ .f32 0x00000000#32),
    binary main_v146 main_cst_60 main_v147 ((fun x v => Host.reduceAdd x v reducesTo_S8x128x96x299_S8x96x299_d1 h_S_) : (⟨S8x128x96x299, .f32⟩ : BufTy).Contents (Elt F) → (⟨S_, .f32⟩ : BufTy).Contents (Elt F) → (⟨S8x96x299, .f32⟩ : BufTy).Contents (Elt F)),
    nullary main_cst_61 (constant S_ .f32 0x43000000#32),
    unary main_cst_61 main_v148 (broadcastInDim S8x96x299 ![] bcast_S_S8x96x299 : (⟨S_, .f32⟩ : BufTy).Contents (Elt F) → (⟨S8x96x299, .f32⟩ : BufTy).Contents (Elt F)),
    binary main_v147 main_v148 main_v149 (Host.divf : (⟨S8x96x299, .f32⟩ : BufTy).Contents (Elt F) → (⟨S8x96x299, .f32⟩ : BufTy).Contents (Elt F) → (⟨S8x96x299, .f32⟩ : BufTy).Contents (Elt F)),
    nullary main_c_62 (constantI S_ 32 0#32),
    TRef.unary (TRef.of (T := ⟨S_, .i32⟩) main_c_62) (TRef.of (T := ⟨S_, .f32⟩) main_call20_v0) (sitofp .f32),
    TRef.binary (TRef.of (T := ⟨S8x96x299, .f32⟩) main_v149) (TRef.of (T := ⟨S_, .f32⟩) main_call20_v0) (TRef.of (T := ⟨S8x96x320, .f32⟩) main_v150) (fun x v => pad S8x96x320 ![0, 0, 21] ![0, 0, 0] ![0, 0, 0] x v pads_S8x96x299_S8x96x320_000_000_2100 h_S_) ]

/-- The operations of disparity 22. -/
abbrev ops_c22 : List (HloOp τ sig (Elt F)) :=
  [ unary main_arg0 main_v151 ((extractStridedSlice S8x128x96x298 ![0, 0, 0, 22] · slices_S8x128x96x320_S8x128x96x298_0_0_0_22) : (⟨S8x128x96x320, .f32⟩ : BufTy).Contents (Elt F) → (⟨S8x128x96x298, .f32⟩ : BufTy).Contents (Elt F)),
    unary main_arg1 main_v152 ((extractStridedSlice S8x128x96x298 ![0, 0, 0, 0] · slices_S8x128x96x320_S8x128x96x298_0_0_0_0) : (⟨S8x128x96x320, .f32⟩ : BufTy).Contents (Elt F) → (⟨S8x128x96x298, .f32⟩ : BufTy).Contents (Elt F)),
    binary main_v151 main_v152 main_v153 (mulf : (⟨S8x128x96x298, .f32⟩ : BufTy).Contents (Elt F) → (⟨S8x128x96x298, .f32⟩ : BufTy).Contents (Elt F) → (⟨S8x128x96x298, .f32⟩ : BufTy).Contents (Elt F)),
    nullary main_cst_63 (constant S_ .f32 0x00000000#32),
    binary main_v153 main_cst_63 main_v154 ((fun x v => Host.reduceAdd x v reducesTo_S8x128x96x298_S8x96x298_d1 h_S_) : (⟨S8x128x96x298, .f32⟩ : BufTy).Contents (Elt F) → (⟨S_, .f32⟩ : BufTy).Contents (Elt F) → (⟨S8x96x298, .f32⟩ : BufTy).Contents (Elt F)),
    nullary main_cst_64 (constant S_ .f32 0x43000000#32),
    unary main_cst_64 main_v155 (broadcastInDim S8x96x298 ![] bcast_S_S8x96x298 : (⟨S_, .f32⟩ : BufTy).Contents (Elt F) → (⟨S8x96x298, .f32⟩ : BufTy).Contents (Elt F)),
    binary main_v154 main_v155 main_v156 (Host.divf : (⟨S8x96x298, .f32⟩ : BufTy).Contents (Elt F) → (⟨S8x96x298, .f32⟩ : BufTy).Contents (Elt F) → (⟨S8x96x298, .f32⟩ : BufTy).Contents (Elt F)),
    nullary main_c_65 (constantI S_ 32 0#32),
    TRef.unary (TRef.of (T := ⟨S_, .i32⟩) main_c_65) (TRef.of (T := ⟨S_, .f32⟩) main_call21_v0) (sitofp .f32),
    TRef.binary (TRef.of (T := ⟨S8x96x298, .f32⟩) main_v156) (TRef.of (T := ⟨S_, .f32⟩) main_call21_v0) (TRef.of (T := ⟨S8x96x320, .f32⟩) main_v157) (fun x v => pad S8x96x320 ![0, 0, 22] ![0, 0, 0] ![0, 0, 0] x v pads_S8x96x298_S8x96x320_000_000_2200 h_S_) ]

/-- The operations of disparity 23. -/
abbrev ops_c23 : List (HloOp τ sig (Elt F)) :=
  [ unary main_arg0 main_v158 ((extractStridedSlice S8x128x96x297 ![0, 0, 0, 23] · slices_S8x128x96x320_S8x128x96x297_0_0_0_23) : (⟨S8x128x96x320, .f32⟩ : BufTy).Contents (Elt F) → (⟨S8x128x96x297, .f32⟩ : BufTy).Contents (Elt F)),
    unary main_arg1 main_v159 ((extractStridedSlice S8x128x96x297 ![0, 0, 0, 0] · slices_S8x128x96x320_S8x128x96x297_0_0_0_0) : (⟨S8x128x96x320, .f32⟩ : BufTy).Contents (Elt F) → (⟨S8x128x96x297, .f32⟩ : BufTy).Contents (Elt F)),
    binary main_v158 main_v159 main_v160 (mulf : (⟨S8x128x96x297, .f32⟩ : BufTy).Contents (Elt F) → (⟨S8x128x96x297, .f32⟩ : BufTy).Contents (Elt F) → (⟨S8x128x96x297, .f32⟩ : BufTy).Contents (Elt F)),
    nullary main_cst_66 (constant S_ .f32 0x00000000#32),
    binary main_v160 main_cst_66 main_v161 ((fun x v => Host.reduceAdd x v reducesTo_S8x128x96x297_S8x96x297_d1 h_S_) : (⟨S8x128x96x297, .f32⟩ : BufTy).Contents (Elt F) → (⟨S_, .f32⟩ : BufTy).Contents (Elt F) → (⟨S8x96x297, .f32⟩ : BufTy).Contents (Elt F)),
    nullary main_cst_67 (constant S_ .f32 0x43000000#32),
    unary main_cst_67 main_v162 (broadcastInDim S8x96x297 ![] bcast_S_S8x96x297 : (⟨S_, .f32⟩ : BufTy).Contents (Elt F) → (⟨S8x96x297, .f32⟩ : BufTy).Contents (Elt F)),
    binary main_v161 main_v162 main_v163 (Host.divf : (⟨S8x96x297, .f32⟩ : BufTy).Contents (Elt F) → (⟨S8x96x297, .f32⟩ : BufTy).Contents (Elt F) → (⟨S8x96x297, .f32⟩ : BufTy).Contents (Elt F)),
    nullary main_c_68 (constantI S_ 32 0#32),
    TRef.unary (TRef.of (T := ⟨S_, .i32⟩) main_c_68) (TRef.of (T := ⟨S_, .f32⟩) main_call22_v0) (sitofp .f32),
    TRef.binary (TRef.of (T := ⟨S8x96x297, .f32⟩) main_v163) (TRef.of (T := ⟨S_, .f32⟩) main_call22_v0) (TRef.of (T := ⟨S8x96x320, .f32⟩) main_v164) (fun x v => pad S8x96x320 ![0, 0, 23] ![0, 0, 0] ![0, 0, 0] x v pads_S8x96x297_S8x96x320_000_000_2300 h_S_) ]

/-- The operations of disparity 24. -/
abbrev ops_c24 : List (HloOp τ sig (Elt F)) :=
  [ unary main_arg0 main_v165 ((extractStridedSlice S8x128x96x296 ![0, 0, 0, 24] · slices_S8x128x96x320_S8x128x96x296_0_0_0_24) : (⟨S8x128x96x320, .f32⟩ : BufTy).Contents (Elt F) → (⟨S8x128x96x296, .f32⟩ : BufTy).Contents (Elt F)),
    unary main_arg1 main_v166 ((extractStridedSlice S8x128x96x296 ![0, 0, 0, 0] · slices_S8x128x96x320_S8x128x96x296_0_0_0_0) : (⟨S8x128x96x320, .f32⟩ : BufTy).Contents (Elt F) → (⟨S8x128x96x296, .f32⟩ : BufTy).Contents (Elt F)),
    binary main_v165 main_v166 main_v167 (mulf : (⟨S8x128x96x296, .f32⟩ : BufTy).Contents (Elt F) → (⟨S8x128x96x296, .f32⟩ : BufTy).Contents (Elt F) → (⟨S8x128x96x296, .f32⟩ : BufTy).Contents (Elt F)),
    nullary main_cst_69 (constant S_ .f32 0x00000000#32),
    binary main_v167 main_cst_69 main_v168 ((fun x v => Host.reduceAdd x v reducesTo_S8x128x96x296_S8x96x296_d1 h_S_) : (⟨S8x128x96x296, .f32⟩ : BufTy).Contents (Elt F) → (⟨S_, .f32⟩ : BufTy).Contents (Elt F) → (⟨S8x96x296, .f32⟩ : BufTy).Contents (Elt F)),
    nullary main_cst_70 (constant S_ .f32 0x43000000#32),
    unary main_cst_70 main_v169 (broadcastInDim S8x96x296 ![] bcast_S_S8x96x296 : (⟨S_, .f32⟩ : BufTy).Contents (Elt F) → (⟨S8x96x296, .f32⟩ : BufTy).Contents (Elt F)),
    binary main_v168 main_v169 main_v170 (Host.divf : (⟨S8x96x296, .f32⟩ : BufTy).Contents (Elt F) → (⟨S8x96x296, .f32⟩ : BufTy).Contents (Elt F) → (⟨S8x96x296, .f32⟩ : BufTy).Contents (Elt F)),
    nullary main_c_71 (constantI S_ 32 0#32),
    TRef.unary (TRef.of (T := ⟨S_, .i32⟩) main_c_71) (TRef.of (T := ⟨S_, .f32⟩) main_call23_v0) (sitofp .f32),
    TRef.binary (TRef.of (T := ⟨S8x96x296, .f32⟩) main_v170) (TRef.of (T := ⟨S_, .f32⟩) main_call23_v0) (TRef.of (T := ⟨S8x96x320, .f32⟩) main_v171) (fun x v => pad S8x96x320 ![0, 0, 24] ![0, 0, 0] ![0, 0, 0] x v pads_S8x96x296_S8x96x320_000_000_2400 h_S_) ]

/-- The operations of disparity 25. -/
abbrev ops_c25 : List (HloOp τ sig (Elt F)) :=
  [ unary main_arg0 main_v172 ((extractStridedSlice S8x128x96x295 ![0, 0, 0, 25] · slices_S8x128x96x320_S8x128x96x295_0_0_0_25) : (⟨S8x128x96x320, .f32⟩ : BufTy).Contents (Elt F) → (⟨S8x128x96x295, .f32⟩ : BufTy).Contents (Elt F)),
    unary main_arg1 main_v173 ((extractStridedSlice S8x128x96x295 ![0, 0, 0, 0] · slices_S8x128x96x320_S8x128x96x295_0_0_0_0) : (⟨S8x128x96x320, .f32⟩ : BufTy).Contents (Elt F) → (⟨S8x128x96x295, .f32⟩ : BufTy).Contents (Elt F)),
    binary main_v172 main_v173 main_v174 (mulf : (⟨S8x128x96x295, .f32⟩ : BufTy).Contents (Elt F) → (⟨S8x128x96x295, .f32⟩ : BufTy).Contents (Elt F) → (⟨S8x128x96x295, .f32⟩ : BufTy).Contents (Elt F)),
    nullary main_cst_72 (constant S_ .f32 0x00000000#32),
    binary main_v174 main_cst_72 main_v175 ((fun x v => Host.reduceAdd x v reducesTo_S8x128x96x295_S8x96x295_d1 h_S_) : (⟨S8x128x96x295, .f32⟩ : BufTy).Contents (Elt F) → (⟨S_, .f32⟩ : BufTy).Contents (Elt F) → (⟨S8x96x295, .f32⟩ : BufTy).Contents (Elt F)),
    nullary main_cst_73 (constant S_ .f32 0x43000000#32),
    unary main_cst_73 main_v176 (broadcastInDim S8x96x295 ![] bcast_S_S8x96x295 : (⟨S_, .f32⟩ : BufTy).Contents (Elt F) → (⟨S8x96x295, .f32⟩ : BufTy).Contents (Elt F)),
    binary main_v175 main_v176 main_v177 (Host.divf : (⟨S8x96x295, .f32⟩ : BufTy).Contents (Elt F) → (⟨S8x96x295, .f32⟩ : BufTy).Contents (Elt F) → (⟨S8x96x295, .f32⟩ : BufTy).Contents (Elt F)),
    nullary main_c_74 (constantI S_ 32 0#32),
    TRef.unary (TRef.of (T := ⟨S_, .i32⟩) main_c_74) (TRef.of (T := ⟨S_, .f32⟩) main_call24_v0) (sitofp .f32),
    TRef.binary (TRef.of (T := ⟨S8x96x295, .f32⟩) main_v177) (TRef.of (T := ⟨S_, .f32⟩) main_call24_v0) (TRef.of (T := ⟨S8x96x320, .f32⟩) main_v178) (fun x v => pad S8x96x320 ![0, 0, 25] ![0, 0, 0] ![0, 0, 0] x v pads_S8x96x295_S8x96x320_000_000_2500 h_S_) ]

/-- The operations of disparity 26. -/
abbrev ops_c26 : List (HloOp τ sig (Elt F)) :=
  [ unary main_arg0 main_v179 ((extractStridedSlice S8x128x96x294 ![0, 0, 0, 26] · slices_S8x128x96x320_S8x128x96x294_0_0_0_26) : (⟨S8x128x96x320, .f32⟩ : BufTy).Contents (Elt F) → (⟨S8x128x96x294, .f32⟩ : BufTy).Contents (Elt F)),
    unary main_arg1 main_v180 ((extractStridedSlice S8x128x96x294 ![0, 0, 0, 0] · slices_S8x128x96x320_S8x128x96x294_0_0_0_0) : (⟨S8x128x96x320, .f32⟩ : BufTy).Contents (Elt F) → (⟨S8x128x96x294, .f32⟩ : BufTy).Contents (Elt F)),
    binary main_v179 main_v180 main_v181 (mulf : (⟨S8x128x96x294, .f32⟩ : BufTy).Contents (Elt F) → (⟨S8x128x96x294, .f32⟩ : BufTy).Contents (Elt F) → (⟨S8x128x96x294, .f32⟩ : BufTy).Contents (Elt F)),
    nullary main_cst_75 (constant S_ .f32 0x00000000#32),
    binary main_v181 main_cst_75 main_v182 ((fun x v => Host.reduceAdd x v reducesTo_S8x128x96x294_S8x96x294_d1 h_S_) : (⟨S8x128x96x294, .f32⟩ : BufTy).Contents (Elt F) → (⟨S_, .f32⟩ : BufTy).Contents (Elt F) → (⟨S8x96x294, .f32⟩ : BufTy).Contents (Elt F)),
    nullary main_cst_76 (constant S_ .f32 0x43000000#32),
    unary main_cst_76 main_v183 (broadcastInDim S8x96x294 ![] bcast_S_S8x96x294 : (⟨S_, .f32⟩ : BufTy).Contents (Elt F) → (⟨S8x96x294, .f32⟩ : BufTy).Contents (Elt F)),
    binary main_v182 main_v183 main_v184 (Host.divf : (⟨S8x96x294, .f32⟩ : BufTy).Contents (Elt F) → (⟨S8x96x294, .f32⟩ : BufTy).Contents (Elt F) → (⟨S8x96x294, .f32⟩ : BufTy).Contents (Elt F)),
    nullary main_c_77 (constantI S_ 32 0#32),
    TRef.unary (TRef.of (T := ⟨S_, .i32⟩) main_c_77) (TRef.of (T := ⟨S_, .f32⟩) main_call25_v0) (sitofp .f32),
    TRef.binary (TRef.of (T := ⟨S8x96x294, .f32⟩) main_v184) (TRef.of (T := ⟨S_, .f32⟩) main_call25_v0) (TRef.of (T := ⟨S8x96x320, .f32⟩) main_v185) (fun x v => pad S8x96x320 ![0, 0, 26] ![0, 0, 0] ![0, 0, 0] x v pads_S8x96x294_S8x96x320_000_000_2600 h_S_) ]

/-- The operations of disparity 27. -/
abbrev ops_c27 : List (HloOp τ sig (Elt F)) :=
  [ unary main_arg0 main_v186 ((extractStridedSlice S8x128x96x293 ![0, 0, 0, 27] · slices_S8x128x96x320_S8x128x96x293_0_0_0_27) : (⟨S8x128x96x320, .f32⟩ : BufTy).Contents (Elt F) → (⟨S8x128x96x293, .f32⟩ : BufTy).Contents (Elt F)),
    unary main_arg1 main_v187 ((extractStridedSlice S8x128x96x293 ![0, 0, 0, 0] · slices_S8x128x96x320_S8x128x96x293_0_0_0_0) : (⟨S8x128x96x320, .f32⟩ : BufTy).Contents (Elt F) → (⟨S8x128x96x293, .f32⟩ : BufTy).Contents (Elt F)),
    binary main_v186 main_v187 main_v188 (mulf : (⟨S8x128x96x293, .f32⟩ : BufTy).Contents (Elt F) → (⟨S8x128x96x293, .f32⟩ : BufTy).Contents (Elt F) → (⟨S8x128x96x293, .f32⟩ : BufTy).Contents (Elt F)),
    nullary main_cst_78 (constant S_ .f32 0x00000000#32),
    binary main_v188 main_cst_78 main_v189 ((fun x v => Host.reduceAdd x v reducesTo_S8x128x96x293_S8x96x293_d1 h_S_) : (⟨S8x128x96x293, .f32⟩ : BufTy).Contents (Elt F) → (⟨S_, .f32⟩ : BufTy).Contents (Elt F) → (⟨S8x96x293, .f32⟩ : BufTy).Contents (Elt F)),
    nullary main_cst_79 (constant S_ .f32 0x43000000#32),
    unary main_cst_79 main_v190 (broadcastInDim S8x96x293 ![] bcast_S_S8x96x293 : (⟨S_, .f32⟩ : BufTy).Contents (Elt F) → (⟨S8x96x293, .f32⟩ : BufTy).Contents (Elt F)),
    binary main_v189 main_v190 main_v191 (Host.divf : (⟨S8x96x293, .f32⟩ : BufTy).Contents (Elt F) → (⟨S8x96x293, .f32⟩ : BufTy).Contents (Elt F) → (⟨S8x96x293, .f32⟩ : BufTy).Contents (Elt F)),
    nullary main_c_80 (constantI S_ 32 0#32),
    TRef.unary (TRef.of (T := ⟨S_, .i32⟩) main_c_80) (TRef.of (T := ⟨S_, .f32⟩) main_call26_v0) (sitofp .f32),
    TRef.binary (TRef.of (T := ⟨S8x96x293, .f32⟩) main_v191) (TRef.of (T := ⟨S_, .f32⟩) main_call26_v0) (TRef.of (T := ⟨S8x96x320, .f32⟩) main_v192) (fun x v => pad S8x96x320 ![0, 0, 27] ![0, 0, 0] ![0, 0, 0] x v pads_S8x96x293_S8x96x320_000_000_2700 h_S_) ]

/-- The operations of disparity 28. -/
abbrev ops_c28 : List (HloOp τ sig (Elt F)) :=
  [ unary main_arg0 main_v193 ((extractStridedSlice S8x128x96x292 ![0, 0, 0, 28] · slices_S8x128x96x320_S8x128x96x292_0_0_0_28) : (⟨S8x128x96x320, .f32⟩ : BufTy).Contents (Elt F) → (⟨S8x128x96x292, .f32⟩ : BufTy).Contents (Elt F)),
    unary main_arg1 main_v194 ((extractStridedSlice S8x128x96x292 ![0, 0, 0, 0] · slices_S8x128x96x320_S8x128x96x292_0_0_0_0) : (⟨S8x128x96x320, .f32⟩ : BufTy).Contents (Elt F) → (⟨S8x128x96x292, .f32⟩ : BufTy).Contents (Elt F)),
    binary main_v193 main_v194 main_v195 (mulf : (⟨S8x128x96x292, .f32⟩ : BufTy).Contents (Elt F) → (⟨S8x128x96x292, .f32⟩ : BufTy).Contents (Elt F) → (⟨S8x128x96x292, .f32⟩ : BufTy).Contents (Elt F)),
    nullary main_cst_81 (constant S_ .f32 0x00000000#32),
    binary main_v195 main_cst_81 main_v196 ((fun x v => Host.reduceAdd x v reducesTo_S8x128x96x292_S8x96x292_d1 h_S_) : (⟨S8x128x96x292, .f32⟩ : BufTy).Contents (Elt F) → (⟨S_, .f32⟩ : BufTy).Contents (Elt F) → (⟨S8x96x292, .f32⟩ : BufTy).Contents (Elt F)),
    nullary main_cst_82 (constant S_ .f32 0x43000000#32),
    unary main_cst_82 main_v197 (broadcastInDim S8x96x292 ![] bcast_S_S8x96x292 : (⟨S_, .f32⟩ : BufTy).Contents (Elt F) → (⟨S8x96x292, .f32⟩ : BufTy).Contents (Elt F)),
    binary main_v196 main_v197 main_v198 (Host.divf : (⟨S8x96x292, .f32⟩ : BufTy).Contents (Elt F) → (⟨S8x96x292, .f32⟩ : BufTy).Contents (Elt F) → (⟨S8x96x292, .f32⟩ : BufTy).Contents (Elt F)),
    nullary main_c_83 (constantI S_ 32 0#32),
    TRef.unary (TRef.of (T := ⟨S_, .i32⟩) main_c_83) (TRef.of (T := ⟨S_, .f32⟩) main_call27_v0) (sitofp .f32),
    TRef.binary (TRef.of (T := ⟨S8x96x292, .f32⟩) main_v198) (TRef.of (T := ⟨S_, .f32⟩) main_call27_v0) (TRef.of (T := ⟨S8x96x320, .f32⟩) main_v199) (fun x v => pad S8x96x320 ![0, 0, 28] ![0, 0, 0] ![0, 0, 0] x v pads_S8x96x292_S8x96x320_000_000_2800 h_S_) ]

/-- The operations of disparity 29. -/
abbrev ops_c29 : List (HloOp τ sig (Elt F)) :=
  [ unary main_arg0 main_v200 ((extractStridedSlice S8x128x96x291 ![0, 0, 0, 29] · slices_S8x128x96x320_S8x128x96x291_0_0_0_29) : (⟨S8x128x96x320, .f32⟩ : BufTy).Contents (Elt F) → (⟨S8x128x96x291, .f32⟩ : BufTy).Contents (Elt F)),
    unary main_arg1 main_v201 ((extractStridedSlice S8x128x96x291 ![0, 0, 0, 0] · slices_S8x128x96x320_S8x128x96x291_0_0_0_0) : (⟨S8x128x96x320, .f32⟩ : BufTy).Contents (Elt F) → (⟨S8x128x96x291, .f32⟩ : BufTy).Contents (Elt F)),
    binary main_v200 main_v201 main_v202 (mulf : (⟨S8x128x96x291, .f32⟩ : BufTy).Contents (Elt F) → (⟨S8x128x96x291, .f32⟩ : BufTy).Contents (Elt F) → (⟨S8x128x96x291, .f32⟩ : BufTy).Contents (Elt F)),
    nullary main_cst_84 (constant S_ .f32 0x00000000#32),
    binary main_v202 main_cst_84 main_v203 ((fun x v => Host.reduceAdd x v reducesTo_S8x128x96x291_S8x96x291_d1 h_S_) : (⟨S8x128x96x291, .f32⟩ : BufTy).Contents (Elt F) → (⟨S_, .f32⟩ : BufTy).Contents (Elt F) → (⟨S8x96x291, .f32⟩ : BufTy).Contents (Elt F)),
    nullary main_cst_85 (constant S_ .f32 0x43000000#32),
    unary main_cst_85 main_v204 (broadcastInDim S8x96x291 ![] bcast_S_S8x96x291 : (⟨S_, .f32⟩ : BufTy).Contents (Elt F) → (⟨S8x96x291, .f32⟩ : BufTy).Contents (Elt F)),
    binary main_v203 main_v204 main_v205 (Host.divf : (⟨S8x96x291, .f32⟩ : BufTy).Contents (Elt F) → (⟨S8x96x291, .f32⟩ : BufTy).Contents (Elt F) → (⟨S8x96x291, .f32⟩ : BufTy).Contents (Elt F)),
    nullary main_c_86 (constantI S_ 32 0#32),
    TRef.unary (TRef.of (T := ⟨S_, .i32⟩) main_c_86) (TRef.of (T := ⟨S_, .f32⟩) main_call28_v0) (sitofp .f32),
    TRef.binary (TRef.of (T := ⟨S8x96x291, .f32⟩) main_v205) (TRef.of (T := ⟨S_, .f32⟩) main_call28_v0) (TRef.of (T := ⟨S8x96x320, .f32⟩) main_v206) (fun x v => pad S8x96x320 ![0, 0, 29] ![0, 0, 0] ![0, 0, 0] x v pads_S8x96x291_S8x96x320_000_000_2900 h_S_) ]

/-- The operations of disparity 30. -/
abbrev ops_c30 : List (HloOp τ sig (Elt F)) :=
  [ unary main_arg0 main_v207 ((extractStridedSlice S8x128x96x290 ![0, 0, 0, 30] · slices_S8x128x96x320_S8x128x96x290_0_0_0_30) : (⟨S8x128x96x320, .f32⟩ : BufTy).Contents (Elt F) → (⟨S8x128x96x290, .f32⟩ : BufTy).Contents (Elt F)),
    unary main_arg1 main_v208 ((extractStridedSlice S8x128x96x290 ![0, 0, 0, 0] · slices_S8x128x96x320_S8x128x96x290_0_0_0_0) : (⟨S8x128x96x320, .f32⟩ : BufTy).Contents (Elt F) → (⟨S8x128x96x290, .f32⟩ : BufTy).Contents (Elt F)),
    binary main_v207 main_v208 main_v209 (mulf : (⟨S8x128x96x290, .f32⟩ : BufTy).Contents (Elt F) → (⟨S8x128x96x290, .f32⟩ : BufTy).Contents (Elt F) → (⟨S8x128x96x290, .f32⟩ : BufTy).Contents (Elt F)),
    nullary main_cst_87 (constant S_ .f32 0x00000000#32),
    binary main_v209 main_cst_87 main_v210 ((fun x v => Host.reduceAdd x v reducesTo_S8x128x96x290_S8x96x290_d1 h_S_) : (⟨S8x128x96x290, .f32⟩ : BufTy).Contents (Elt F) → (⟨S_, .f32⟩ : BufTy).Contents (Elt F) → (⟨S8x96x290, .f32⟩ : BufTy).Contents (Elt F)),
    nullary main_cst_88 (constant S_ .f32 0x43000000#32),
    unary main_cst_88 main_v211 (broadcastInDim S8x96x290 ![] bcast_S_S8x96x290 : (⟨S_, .f32⟩ : BufTy).Contents (Elt F) → (⟨S8x96x290, .f32⟩ : BufTy).Contents (Elt F)),
    binary main_v210 main_v211 main_v212 (Host.divf : (⟨S8x96x290, .f32⟩ : BufTy).Contents (Elt F) → (⟨S8x96x290, .f32⟩ : BufTy).Contents (Elt F) → (⟨S8x96x290, .f32⟩ : BufTy).Contents (Elt F)),
    nullary main_c_89 (constantI S_ 32 0#32),
    TRef.unary (TRef.of (T := ⟨S_, .i32⟩) main_c_89) (TRef.of (T := ⟨S_, .f32⟩) main_call29_v0) (sitofp .f32),
    TRef.binary (TRef.of (T := ⟨S8x96x290, .f32⟩) main_v212) (TRef.of (T := ⟨S_, .f32⟩) main_call29_v0) (TRef.of (T := ⟨S8x96x320, .f32⟩) main_v213) (fun x v => pad S8x96x320 ![0, 0, 30] ![0, 0, 0] ![0, 0, 0] x v pads_S8x96x290_S8x96x320_000_000_3000 h_S_) ]

/-- The operations of disparity 31. -/
abbrev ops_c31 : List (HloOp τ sig (Elt F)) :=
  [ unary main_arg0 main_v214 ((extractStridedSlice S8x128x96x289 ![0, 0, 0, 31] · slices_S8x128x96x320_S8x128x96x289_0_0_0_31) : (⟨S8x128x96x320, .f32⟩ : BufTy).Contents (Elt F) → (⟨S8x128x96x289, .f32⟩ : BufTy).Contents (Elt F)),
    unary main_arg1 main_v215 ((extractStridedSlice S8x128x96x289 ![0, 0, 0, 0] · slices_S8x128x96x320_S8x128x96x289_0_0_0_0) : (⟨S8x128x96x320, .f32⟩ : BufTy).Contents (Elt F) → (⟨S8x128x96x289, .f32⟩ : BufTy).Contents (Elt F)),
    binary main_v214 main_v215 main_v216 (mulf : (⟨S8x128x96x289, .f32⟩ : BufTy).Contents (Elt F) → (⟨S8x128x96x289, .f32⟩ : BufTy).Contents (Elt F) → (⟨S8x128x96x289, .f32⟩ : BufTy).Contents (Elt F)),
    nullary main_cst_90 (constant S_ .f32 0x00000000#32),
    binary main_v216 main_cst_90 main_v217 ((fun x v => Host.reduceAdd x v reducesTo_S8x128x96x289_S8x96x289_d1 h_S_) : (⟨S8x128x96x289, .f32⟩ : BufTy).Contents (Elt F) → (⟨S_, .f32⟩ : BufTy).Contents (Elt F) → (⟨S8x96x289, .f32⟩ : BufTy).Contents (Elt F)),
    nullary main_cst_91 (constant S_ .f32 0x43000000#32),
    unary main_cst_91 main_v218 (broadcastInDim S8x96x289 ![] bcast_S_S8x96x289 : (⟨S_, .f32⟩ : BufTy).Contents (Elt F) → (⟨S8x96x289, .f32⟩ : BufTy).Contents (Elt F)),
    binary main_v217 main_v218 main_v219 (Host.divf : (⟨S8x96x289, .f32⟩ : BufTy).Contents (Elt F) → (⟨S8x96x289, .f32⟩ : BufTy).Contents (Elt F) → (⟨S8x96x289, .f32⟩ : BufTy).Contents (Elt F)),
    nullary main_c_92 (constantI S_ 32 0#32),
    TRef.unary (TRef.of (T := ⟨S_, .i32⟩) main_c_92) (TRef.of (T := ⟨S_, .f32⟩) main_call30_v0) (sitofp .f32),
    TRef.binary (TRef.of (T := ⟨S8x96x289, .f32⟩) main_v219) (TRef.of (T := ⟨S_, .f32⟩) main_call30_v0) (TRef.of (T := ⟨S8x96x320, .f32⟩) main_v220) (fun x v => pad S8x96x320 ![0, 0, 31] ![0, 0, 0] ![0, 0, 0] x v pads_S8x96x289_S8x96x320_000_000_3100 h_S_) ]

/-- The operations of disparity 32. -/
abbrev ops_c32 : List (HloOp τ sig (Elt F)) :=
  [ unary main_arg0 main_v221 ((extractStridedSlice S8x128x96x288 ![0, 0, 0, 32] · slices_S8x128x96x320_S8x128x96x288_0_0_0_32) : (⟨S8x128x96x320, .f32⟩ : BufTy).Contents (Elt F) → (⟨S8x128x96x288, .f32⟩ : BufTy).Contents (Elt F)),
    unary main_arg1 main_v222 ((extractStridedSlice S8x128x96x288 ![0, 0, 0, 0] · slices_S8x128x96x320_S8x128x96x288_0_0_0_0) : (⟨S8x128x96x320, .f32⟩ : BufTy).Contents (Elt F) → (⟨S8x128x96x288, .f32⟩ : BufTy).Contents (Elt F)),
    binary main_v221 main_v222 main_v223 (mulf : (⟨S8x128x96x288, .f32⟩ : BufTy).Contents (Elt F) → (⟨S8x128x96x288, .f32⟩ : BufTy).Contents (Elt F) → (⟨S8x128x96x288, .f32⟩ : BufTy).Contents (Elt F)),
    nullary main_cst_93 (constant S_ .f32 0x00000000#32),
    binary main_v223 main_cst_93 main_v224 ((fun x v => Host.reduceAdd x v reducesTo_S8x128x96x288_S8x96x288_d1 h_S_) : (⟨S8x128x96x288, .f32⟩ : BufTy).Contents (Elt F) → (⟨S_, .f32⟩ : BufTy).Contents (Elt F) → (⟨S8x96x288, .f32⟩ : BufTy).Contents (Elt F)),
    nullary main_cst_94 (constant S_ .f32 0x43000000#32),
    unary main_cst_94 main_v225 (broadcastInDim S8x96x288 ![] bcast_S_S8x96x288 : (⟨S_, .f32⟩ : BufTy).Contents (Elt F) → (⟨S8x96x288, .f32⟩ : BufTy).Contents (Elt F)),
    binary main_v224 main_v225 main_v226 (Host.divf : (⟨S8x96x288, .f32⟩ : BufTy).Contents (Elt F) → (⟨S8x96x288, .f32⟩ : BufTy).Contents (Elt F) → (⟨S8x96x288, .f32⟩ : BufTy).Contents (Elt F)),
    nullary main_c_95 (constantI S_ 32 0#32),
    TRef.unary (TRef.of (T := ⟨S_, .i32⟩) main_c_95) (TRef.of (T := ⟨S_, .f32⟩) main_call31_v0) (sitofp .f32),
    TRef.binary (TRef.of (T := ⟨S8x96x288, .f32⟩) main_v226) (TRef.of (T := ⟨S_, .f32⟩) main_call31_v0) (TRef.of (T := ⟨S8x96x320, .f32⟩) main_v227) (fun x v => pad S8x96x320 ![0, 0, 32] ![0, 0, 0] ![0, 0, 0] x v pads_S8x96x288_S8x96x320_000_000_3200 h_S_) ]

/-- The operations of disparity 33. -/
abbrev ops_c33 : List (HloOp τ sig (Elt F)) :=
  [ unary main_arg0 main_v228 ((extractStridedSlice S8x128x96x287 ![0, 0, 0, 33] · slices_S8x128x96x320_S8x128x96x287_0_0_0_33) : (⟨S8x128x96x320, .f32⟩ : BufTy).Contents (Elt F) → (⟨S8x128x96x287, .f32⟩ : BufTy).Contents (Elt F)),
    unary main_arg1 main_v229 ((extractStridedSlice S8x128x96x287 ![0, 0, 0, 0] · slices_S8x128x96x320_S8x128x96x287_0_0_0_0) : (⟨S8x128x96x320, .f32⟩ : BufTy).Contents (Elt F) → (⟨S8x128x96x287, .f32⟩ : BufTy).Contents (Elt F)),
    binary main_v228 main_v229 main_v230 (mulf : (⟨S8x128x96x287, .f32⟩ : BufTy).Contents (Elt F) → (⟨S8x128x96x287, .f32⟩ : BufTy).Contents (Elt F) → (⟨S8x128x96x287, .f32⟩ : BufTy).Contents (Elt F)),
    nullary main_cst_96 (constant S_ .f32 0x00000000#32),
    binary main_v230 main_cst_96 main_v231 ((fun x v => Host.reduceAdd x v reducesTo_S8x128x96x287_S8x96x287_d1 h_S_) : (⟨S8x128x96x287, .f32⟩ : BufTy).Contents (Elt F) → (⟨S_, .f32⟩ : BufTy).Contents (Elt F) → (⟨S8x96x287, .f32⟩ : BufTy).Contents (Elt F)),
    nullary main_cst_97 (constant S_ .f32 0x43000000#32),
    unary main_cst_97 main_v232 (broadcastInDim S8x96x287 ![] bcast_S_S8x96x287 : (⟨S_, .f32⟩ : BufTy).Contents (Elt F) → (⟨S8x96x287, .f32⟩ : BufTy).Contents (Elt F)),
    binary main_v231 main_v232 main_v233 (Host.divf : (⟨S8x96x287, .f32⟩ : BufTy).Contents (Elt F) → (⟨S8x96x287, .f32⟩ : BufTy).Contents (Elt F) → (⟨S8x96x287, .f32⟩ : BufTy).Contents (Elt F)),
    nullary main_c_98 (constantI S_ 32 0#32),
    TRef.unary (TRef.of (T := ⟨S_, .i32⟩) main_c_98) (TRef.of (T := ⟨S_, .f32⟩) main_call32_v0) (sitofp .f32),
    TRef.binary (TRef.of (T := ⟨S8x96x287, .f32⟩) main_v233) (TRef.of (T := ⟨S_, .f32⟩) main_call32_v0) (TRef.of (T := ⟨S8x96x320, .f32⟩) main_v234) (fun x v => pad S8x96x320 ![0, 0, 33] ![0, 0, 0] ![0, 0, 0] x v pads_S8x96x287_S8x96x320_000_000_3300 h_S_) ]

/-- The operations of disparity 34. -/
abbrev ops_c34 : List (HloOp τ sig (Elt F)) :=
  [ unary main_arg0 main_v235 ((extractStridedSlice S8x128x96x286 ![0, 0, 0, 34] · slices_S8x128x96x320_S8x128x96x286_0_0_0_34) : (⟨S8x128x96x320, .f32⟩ : BufTy).Contents (Elt F) → (⟨S8x128x96x286, .f32⟩ : BufTy).Contents (Elt F)),
    unary main_arg1 main_v236 ((extractStridedSlice S8x128x96x286 ![0, 0, 0, 0] · slices_S8x128x96x320_S8x128x96x286_0_0_0_0) : (⟨S8x128x96x320, .f32⟩ : BufTy).Contents (Elt F) → (⟨S8x128x96x286, .f32⟩ : BufTy).Contents (Elt F)),
    binary main_v235 main_v236 main_v237 (mulf : (⟨S8x128x96x286, .f32⟩ : BufTy).Contents (Elt F) → (⟨S8x128x96x286, .f32⟩ : BufTy).Contents (Elt F) → (⟨S8x128x96x286, .f32⟩ : BufTy).Contents (Elt F)),
    nullary main_cst_99 (constant S_ .f32 0x00000000#32),
    binary main_v237 main_cst_99 main_v238 ((fun x v => Host.reduceAdd x v reducesTo_S8x128x96x286_S8x96x286_d1 h_S_) : (⟨S8x128x96x286, .f32⟩ : BufTy).Contents (Elt F) → (⟨S_, .f32⟩ : BufTy).Contents (Elt F) → (⟨S8x96x286, .f32⟩ : BufTy).Contents (Elt F)),
    nullary main_cst_100 (constant S_ .f32 0x43000000#32),
    unary main_cst_100 main_v239 (broadcastInDim S8x96x286 ![] bcast_S_S8x96x286 : (⟨S_, .f32⟩ : BufTy).Contents (Elt F) → (⟨S8x96x286, .f32⟩ : BufTy).Contents (Elt F)),
    binary main_v238 main_v239 main_v240 (Host.divf : (⟨S8x96x286, .f32⟩ : BufTy).Contents (Elt F) → (⟨S8x96x286, .f32⟩ : BufTy).Contents (Elt F) → (⟨S8x96x286, .f32⟩ : BufTy).Contents (Elt F)),
    nullary main_c_101 (constantI S_ 32 0#32),
    TRef.unary (TRef.of (T := ⟨S_, .i32⟩) main_c_101) (TRef.of (T := ⟨S_, .f32⟩) main_call33_v0) (sitofp .f32),
    TRef.binary (TRef.of (T := ⟨S8x96x286, .f32⟩) main_v240) (TRef.of (T := ⟨S_, .f32⟩) main_call33_v0) (TRef.of (T := ⟨S8x96x320, .f32⟩) main_v241) (fun x v => pad S8x96x320 ![0, 0, 34] ![0, 0, 0] ![0, 0, 0] x v pads_S8x96x286_S8x96x320_000_000_3400 h_S_) ]

/-- The operations of disparity 35. -/
abbrev ops_c35 : List (HloOp τ sig (Elt F)) :=
  [ unary main_arg0 main_v242 ((extractStridedSlice S8x128x96x285 ![0, 0, 0, 35] · slices_S8x128x96x320_S8x128x96x285_0_0_0_35) : (⟨S8x128x96x320, .f32⟩ : BufTy).Contents (Elt F) → (⟨S8x128x96x285, .f32⟩ : BufTy).Contents (Elt F)),
    unary main_arg1 main_v243 ((extractStridedSlice S8x128x96x285 ![0, 0, 0, 0] · slices_S8x128x96x320_S8x128x96x285_0_0_0_0) : (⟨S8x128x96x320, .f32⟩ : BufTy).Contents (Elt F) → (⟨S8x128x96x285, .f32⟩ : BufTy).Contents (Elt F)),
    binary main_v242 main_v243 main_v244 (mulf : (⟨S8x128x96x285, .f32⟩ : BufTy).Contents (Elt F) → (⟨S8x128x96x285, .f32⟩ : BufTy).Contents (Elt F) → (⟨S8x128x96x285, .f32⟩ : BufTy).Contents (Elt F)),
    nullary main_cst_102 (constant S_ .f32 0x00000000#32),
    binary main_v244 main_cst_102 main_v245 ((fun x v => Host.reduceAdd x v reducesTo_S8x128x96x285_S8x96x285_d1 h_S_) : (⟨S8x128x96x285, .f32⟩ : BufTy).Contents (Elt F) → (⟨S_, .f32⟩ : BufTy).Contents (Elt F) → (⟨S8x96x285, .f32⟩ : BufTy).Contents (Elt F)),
    nullary main_cst_103 (constant S_ .f32 0x43000000#32),
    unary main_cst_103 main_v246 (broadcastInDim S8x96x285 ![] bcast_S_S8x96x285 : (⟨S_, .f32⟩ : BufTy).Contents (Elt F) → (⟨S8x96x285, .f32⟩ : BufTy).Contents (Elt F)),
    binary main_v245 main_v246 main_v247 (Host.divf : (⟨S8x96x285, .f32⟩ : BufTy).Contents (Elt F) → (⟨S8x96x285, .f32⟩ : BufTy).Contents (Elt F) → (⟨S8x96x285, .f32⟩ : BufTy).Contents (Elt F)),
    nullary main_c_104 (constantI S_ 32 0#32),
    TRef.unary (TRef.of (T := ⟨S_, .i32⟩) main_c_104) (TRef.of (T := ⟨S_, .f32⟩) main_call34_v0) (sitofp .f32),
    TRef.binary (TRef.of (T := ⟨S8x96x285, .f32⟩) main_v247) (TRef.of (T := ⟨S_, .f32⟩) main_call34_v0) (TRef.of (T := ⟨S8x96x320, .f32⟩) main_v248) (fun x v => pad S8x96x320 ![0, 0, 35] ![0, 0, 0] ![0, 0, 0] x v pads_S8x96x285_S8x96x320_000_000_3500 h_S_) ]

/-- The operations of disparity 36. -/
abbrev ops_c36 : List (HloOp τ sig (Elt F)) :=
  [ unary main_arg0 main_v249 ((extractStridedSlice S8x128x96x284 ![0, 0, 0, 36] · slices_S8x128x96x320_S8x128x96x284_0_0_0_36) : (⟨S8x128x96x320, .f32⟩ : BufTy).Contents (Elt F) → (⟨S8x128x96x284, .f32⟩ : BufTy).Contents (Elt F)),
    unary main_arg1 main_v250 ((extractStridedSlice S8x128x96x284 ![0, 0, 0, 0] · slices_S8x128x96x320_S8x128x96x284_0_0_0_0) : (⟨S8x128x96x320, .f32⟩ : BufTy).Contents (Elt F) → (⟨S8x128x96x284, .f32⟩ : BufTy).Contents (Elt F)),
    binary main_v249 main_v250 main_v251 (mulf : (⟨S8x128x96x284, .f32⟩ : BufTy).Contents (Elt F) → (⟨S8x128x96x284, .f32⟩ : BufTy).Contents (Elt F) → (⟨S8x128x96x284, .f32⟩ : BufTy).Contents (Elt F)),
    nullary main_cst_105 (constant S_ .f32 0x00000000#32),
    binary main_v251 main_cst_105 main_v252 ((fun x v => Host.reduceAdd x v reducesTo_S8x128x96x284_S8x96x284_d1 h_S_) : (⟨S8x128x96x284, .f32⟩ : BufTy).Contents (Elt F) → (⟨S_, .f32⟩ : BufTy).Contents (Elt F) → (⟨S8x96x284, .f32⟩ : BufTy).Contents (Elt F)),
    nullary main_cst_106 (constant S_ .f32 0x43000000#32),
    unary main_cst_106 main_v253 (broadcastInDim S8x96x284 ![] bcast_S_S8x96x284 : (⟨S_, .f32⟩ : BufTy).Contents (Elt F) → (⟨S8x96x284, .f32⟩ : BufTy).Contents (Elt F)),
    binary main_v252 main_v253 main_v254 (Host.divf : (⟨S8x96x284, .f32⟩ : BufTy).Contents (Elt F) → (⟨S8x96x284, .f32⟩ : BufTy).Contents (Elt F) → (⟨S8x96x284, .f32⟩ : BufTy).Contents (Elt F)),
    nullary main_c_107 (constantI S_ 32 0#32),
    TRef.unary (TRef.of (T := ⟨S_, .i32⟩) main_c_107) (TRef.of (T := ⟨S_, .f32⟩) main_call35_v0) (sitofp .f32),
    TRef.binary (TRef.of (T := ⟨S8x96x284, .f32⟩) main_v254) (TRef.of (T := ⟨S_, .f32⟩) main_call35_v0) (TRef.of (T := ⟨S8x96x320, .f32⟩) main_v255) (fun x v => pad S8x96x320 ![0, 0, 36] ![0, 0, 0] ![0, 0, 0] x v pads_S8x96x284_S8x96x320_000_000_3600 h_S_) ]

/-- The operations of disparity 37. -/
abbrev ops_c37 : List (HloOp τ sig (Elt F)) :=
  [ unary main_arg0 main_v256 ((extractStridedSlice S8x128x96x283 ![0, 0, 0, 37] · slices_S8x128x96x320_S8x128x96x283_0_0_0_37) : (⟨S8x128x96x320, .f32⟩ : BufTy).Contents (Elt F) → (⟨S8x128x96x283, .f32⟩ : BufTy).Contents (Elt F)),
    unary main_arg1 main_v257 ((extractStridedSlice S8x128x96x283 ![0, 0, 0, 0] · slices_S8x128x96x320_S8x128x96x283_0_0_0_0) : (⟨S8x128x96x320, .f32⟩ : BufTy).Contents (Elt F) → (⟨S8x128x96x283, .f32⟩ : BufTy).Contents (Elt F)),
    binary main_v256 main_v257 main_v258 (mulf : (⟨S8x128x96x283, .f32⟩ : BufTy).Contents (Elt F) → (⟨S8x128x96x283, .f32⟩ : BufTy).Contents (Elt F) → (⟨S8x128x96x283, .f32⟩ : BufTy).Contents (Elt F)),
    nullary main_cst_108 (constant S_ .f32 0x00000000#32),
    binary main_v258 main_cst_108 main_v259 ((fun x v => Host.reduceAdd x v reducesTo_S8x128x96x283_S8x96x283_d1 h_S_) : (⟨S8x128x96x283, .f32⟩ : BufTy).Contents (Elt F) → (⟨S_, .f32⟩ : BufTy).Contents (Elt F) → (⟨S8x96x283, .f32⟩ : BufTy).Contents (Elt F)),
    nullary main_cst_109 (constant S_ .f32 0x43000000#32),
    unary main_cst_109 main_v260 (broadcastInDim S8x96x283 ![] bcast_S_S8x96x283 : (⟨S_, .f32⟩ : BufTy).Contents (Elt F) → (⟨S8x96x283, .f32⟩ : BufTy).Contents (Elt F)),
    binary main_v259 main_v260 main_v261 (Host.divf : (⟨S8x96x283, .f32⟩ : BufTy).Contents (Elt F) → (⟨S8x96x283, .f32⟩ : BufTy).Contents (Elt F) → (⟨S8x96x283, .f32⟩ : BufTy).Contents (Elt F)),
    nullary main_c_110 (constantI S_ 32 0#32),
    TRef.unary (TRef.of (T := ⟨S_, .i32⟩) main_c_110) (TRef.of (T := ⟨S_, .f32⟩) main_call36_v0) (sitofp .f32),
    TRef.binary (TRef.of (T := ⟨S8x96x283, .f32⟩) main_v261) (TRef.of (T := ⟨S_, .f32⟩) main_call36_v0) (TRef.of (T := ⟨S8x96x320, .f32⟩) main_v262) (fun x v => pad S8x96x320 ![0, 0, 37] ![0, 0, 0] ![0, 0, 0] x v pads_S8x96x283_S8x96x320_000_000_3700 h_S_) ]

/-- The operations of disparity 38. -/
abbrev ops_c38 : List (HloOp τ sig (Elt F)) :=
  [ unary main_arg0 main_v263 ((extractStridedSlice S8x128x96x282 ![0, 0, 0, 38] · slices_S8x128x96x320_S8x128x96x282_0_0_0_38) : (⟨S8x128x96x320, .f32⟩ : BufTy).Contents (Elt F) → (⟨S8x128x96x282, .f32⟩ : BufTy).Contents (Elt F)),
    unary main_arg1 main_v264 ((extractStridedSlice S8x128x96x282 ![0, 0, 0, 0] · slices_S8x128x96x320_S8x128x96x282_0_0_0_0) : (⟨S8x128x96x320, .f32⟩ : BufTy).Contents (Elt F) → (⟨S8x128x96x282, .f32⟩ : BufTy).Contents (Elt F)),
    binary main_v263 main_v264 main_v265 (mulf : (⟨S8x128x96x282, .f32⟩ : BufTy).Contents (Elt F) → (⟨S8x128x96x282, .f32⟩ : BufTy).Contents (Elt F) → (⟨S8x128x96x282, .f32⟩ : BufTy).Contents (Elt F)),
    nullary main_cst_111 (constant S_ .f32 0x00000000#32),
    binary main_v265 main_cst_111 main_v266 ((fun x v => Host.reduceAdd x v reducesTo_S8x128x96x282_S8x96x282_d1 h_S_) : (⟨S8x128x96x282, .f32⟩ : BufTy).Contents (Elt F) → (⟨S_, .f32⟩ : BufTy).Contents (Elt F) → (⟨S8x96x282, .f32⟩ : BufTy).Contents (Elt F)),
    nullary main_cst_112 (constant S_ .f32 0x43000000#32),
    unary main_cst_112 main_v267 (broadcastInDim S8x96x282 ![] bcast_S_S8x96x282 : (⟨S_, .f32⟩ : BufTy).Contents (Elt F) → (⟨S8x96x282, .f32⟩ : BufTy).Contents (Elt F)),
    binary main_v266 main_v267 main_v268 (Host.divf : (⟨S8x96x282, .f32⟩ : BufTy).Contents (Elt F) → (⟨S8x96x282, .f32⟩ : BufTy).Contents (Elt F) → (⟨S8x96x282, .f32⟩ : BufTy).Contents (Elt F)),
    nullary main_c_113 (constantI S_ 32 0#32),
    TRef.unary (TRef.of (T := ⟨S_, .i32⟩) main_c_113) (TRef.of (T := ⟨S_, .f32⟩) main_call37_v0) (sitofp .f32),
    TRef.binary (TRef.of (T := ⟨S8x96x282, .f32⟩) main_v268) (TRef.of (T := ⟨S_, .f32⟩) main_call37_v0) (TRef.of (T := ⟨S8x96x320, .f32⟩) main_v269) (fun x v => pad S8x96x320 ![0, 0, 38] ![0, 0, 0] ![0, 0, 0] x v pads_S8x96x282_S8x96x320_000_000_3800 h_S_) ]

/-- The operations of disparity 39. -/
abbrev ops_c39 : List (HloOp τ sig (Elt F)) :=
  [ unary main_arg0 main_v270 ((extractStridedSlice S8x128x96x281 ![0, 0, 0, 39] · slices_S8x128x96x320_S8x128x96x281_0_0_0_39) : (⟨S8x128x96x320, .f32⟩ : BufTy).Contents (Elt F) → (⟨S8x128x96x281, .f32⟩ : BufTy).Contents (Elt F)),
    unary main_arg1 main_v271 ((extractStridedSlice S8x128x96x281 ![0, 0, 0, 0] · slices_S8x128x96x320_S8x128x96x281_0_0_0_0) : (⟨S8x128x96x320, .f32⟩ : BufTy).Contents (Elt F) → (⟨S8x128x96x281, .f32⟩ : BufTy).Contents (Elt F)),
    binary main_v270 main_v271 main_v272 (mulf : (⟨S8x128x96x281, .f32⟩ : BufTy).Contents (Elt F) → (⟨S8x128x96x281, .f32⟩ : BufTy).Contents (Elt F) → (⟨S8x128x96x281, .f32⟩ : BufTy).Contents (Elt F)),
    nullary main_cst_114 (constant S_ .f32 0x00000000#32),
    binary main_v272 main_cst_114 main_v273 ((fun x v => Host.reduceAdd x v reducesTo_S8x128x96x281_S8x96x281_d1 h_S_) : (⟨S8x128x96x281, .f32⟩ : BufTy).Contents (Elt F) → (⟨S_, .f32⟩ : BufTy).Contents (Elt F) → (⟨S8x96x281, .f32⟩ : BufTy).Contents (Elt F)),
    nullary main_cst_115 (constant S_ .f32 0x43000000#32),
    unary main_cst_115 main_v274 (broadcastInDim S8x96x281 ![] bcast_S_S8x96x281 : (⟨S_, .f32⟩ : BufTy).Contents (Elt F) → (⟨S8x96x281, .f32⟩ : BufTy).Contents (Elt F)),
    binary main_v273 main_v274 main_v275 (Host.divf : (⟨S8x96x281, .f32⟩ : BufTy).Contents (Elt F) → (⟨S8x96x281, .f32⟩ : BufTy).Contents (Elt F) → (⟨S8x96x281, .f32⟩ : BufTy).Contents (Elt F)),
    nullary main_c_116 (constantI S_ 32 0#32),
    TRef.unary (TRef.of (T := ⟨S_, .i32⟩) main_c_116) (TRef.of (T := ⟨S_, .f32⟩) main_call38_v0) (sitofp .f32),
    TRef.binary (TRef.of (T := ⟨S8x96x281, .f32⟩) main_v275) (TRef.of (T := ⟨S_, .f32⟩) main_call38_v0) (TRef.of (T := ⟨S8x96x320, .f32⟩) main_v276) (fun x v => pad S8x96x320 ![0, 0, 39] ![0, 0, 0] ![0, 0, 0] x v pads_S8x96x281_S8x96x320_000_000_3900 h_S_) ]

/-- The operations of disparity 40. -/
abbrev ops_c40 : List (HloOp τ sig (Elt F)) :=
  [ unary main_arg0 main_v277 ((extractStridedSlice S8x128x96x280 ![0, 0, 0, 40] · slices_S8x128x96x320_S8x128x96x280_0_0_0_40) : (⟨S8x128x96x320, .f32⟩ : BufTy).Contents (Elt F) → (⟨S8x128x96x280, .f32⟩ : BufTy).Contents (Elt F)),
    unary main_arg1 main_v278 ((extractStridedSlice S8x128x96x280 ![0, 0, 0, 0] · slices_S8x128x96x320_S8x128x96x280_0_0_0_0) : (⟨S8x128x96x320, .f32⟩ : BufTy).Contents (Elt F) → (⟨S8x128x96x280, .f32⟩ : BufTy).Contents (Elt F)),
    binary main_v277 main_v278 main_v279 (mulf : (⟨S8x128x96x280, .f32⟩ : BufTy).Contents (Elt F) → (⟨S8x128x96x280, .f32⟩ : BufTy).Contents (Elt F) → (⟨S8x128x96x280, .f32⟩ : BufTy).Contents (Elt F)),
    nullary main_cst_117 (constant S_ .f32 0x00000000#32),
    binary main_v279 main_cst_117 main_v280 ((fun x v => Host.reduceAdd x v reducesTo_S8x128x96x280_S8x96x280_d1 h_S_) : (⟨S8x128x96x280, .f32⟩ : BufTy).Contents (Elt F) → (⟨S_, .f32⟩ : BufTy).Contents (Elt F) → (⟨S8x96x280, .f32⟩ : BufTy).Contents (Elt F)),
    nullary main_cst_118 (constant S_ .f32 0x43000000#32),
    unary main_cst_118 main_v281 (broadcastInDim S8x96x280 ![] bcast_S_S8x96x280 : (⟨S_, .f32⟩ : BufTy).Contents (Elt F) → (⟨S8x96x280, .f32⟩ : BufTy).Contents (Elt F)),
    binary main_v280 main_v281 main_v282 (Host.divf : (⟨S8x96x280, .f32⟩ : BufTy).Contents (Elt F) → (⟨S8x96x280, .f32⟩ : BufTy).Contents (Elt F) → (⟨S8x96x280, .f32⟩ : BufTy).Contents (Elt F)),
    nullary main_c_119 (constantI S_ 32 0#32),
    TRef.unary (TRef.of (T := ⟨S_, .i32⟩) main_c_119) (TRef.of (T := ⟨S_, .f32⟩) main_call39_v0) (sitofp .f32),
    TRef.binary (TRef.of (T := ⟨S8x96x280, .f32⟩) main_v282) (TRef.of (T := ⟨S_, .f32⟩) main_call39_v0) (TRef.of (T := ⟨S8x96x320, .f32⟩) main_v283) (fun x v => pad S8x96x320 ![0, 0, 40] ![0, 0, 0] ![0, 0, 0] x v pads_S8x96x280_S8x96x320_000_000_4000 h_S_) ]

/-- The operations of disparity 41. -/
abbrev ops_c41 : List (HloOp τ sig (Elt F)) :=
  [ unary main_arg0 main_v284 ((extractStridedSlice S8x128x96x279 ![0, 0, 0, 41] · slices_S8x128x96x320_S8x128x96x279_0_0_0_41) : (⟨S8x128x96x320, .f32⟩ : BufTy).Contents (Elt F) → (⟨S8x128x96x279, .f32⟩ : BufTy).Contents (Elt F)),
    unary main_arg1 main_v285 ((extractStridedSlice S8x128x96x279 ![0, 0, 0, 0] · slices_S8x128x96x320_S8x128x96x279_0_0_0_0) : (⟨S8x128x96x320, .f32⟩ : BufTy).Contents (Elt F) → (⟨S8x128x96x279, .f32⟩ : BufTy).Contents (Elt F)),
    binary main_v284 main_v285 main_v286 (mulf : (⟨S8x128x96x279, .f32⟩ : BufTy).Contents (Elt F) → (⟨S8x128x96x279, .f32⟩ : BufTy).Contents (Elt F) → (⟨S8x128x96x279, .f32⟩ : BufTy).Contents (Elt F)),
    nullary main_cst_120 (constant S_ .f32 0x00000000#32),
    binary main_v286 main_cst_120 main_v287 ((fun x v => Host.reduceAdd x v reducesTo_S8x128x96x279_S8x96x279_d1 h_S_) : (⟨S8x128x96x279, .f32⟩ : BufTy).Contents (Elt F) → (⟨S_, .f32⟩ : BufTy).Contents (Elt F) → (⟨S8x96x279, .f32⟩ : BufTy).Contents (Elt F)),
    nullary main_cst_121 (constant S_ .f32 0x43000000#32),
    unary main_cst_121 main_v288 (broadcastInDim S8x96x279 ![] bcast_S_S8x96x279 : (⟨S_, .f32⟩ : BufTy).Contents (Elt F) → (⟨S8x96x279, .f32⟩ : BufTy).Contents (Elt F)),
    binary main_v287 main_v288 main_v289 (Host.divf : (⟨S8x96x279, .f32⟩ : BufTy).Contents (Elt F) → (⟨S8x96x279, .f32⟩ : BufTy).Contents (Elt F) → (⟨S8x96x279, .f32⟩ : BufTy).Contents (Elt F)),
    nullary main_c_122 (constantI S_ 32 0#32),
    TRef.unary (TRef.of (T := ⟨S_, .i32⟩) main_c_122) (TRef.of (T := ⟨S_, .f32⟩) main_call40_v0) (sitofp .f32),
    TRef.binary (TRef.of (T := ⟨S8x96x279, .f32⟩) main_v289) (TRef.of (T := ⟨S_, .f32⟩) main_call40_v0) (TRef.of (T := ⟨S8x96x320, .f32⟩) main_v290) (fun x v => pad S8x96x320 ![0, 0, 41] ![0, 0, 0] ![0, 0, 0] x v pads_S8x96x279_S8x96x320_000_000_4100 h_S_) ]

/-- The operations of disparity 42. -/
abbrev ops_c42 : List (HloOp τ sig (Elt F)) :=
  [ unary main_arg0 main_v291 ((extractStridedSlice S8x128x96x278 ![0, 0, 0, 42] · slices_S8x128x96x320_S8x128x96x278_0_0_0_42) : (⟨S8x128x96x320, .f32⟩ : BufTy).Contents (Elt F) → (⟨S8x128x96x278, .f32⟩ : BufTy).Contents (Elt F)),
    unary main_arg1 main_v292 ((extractStridedSlice S8x128x96x278 ![0, 0, 0, 0] · slices_S8x128x96x320_S8x128x96x278_0_0_0_0) : (⟨S8x128x96x320, .f32⟩ : BufTy).Contents (Elt F) → (⟨S8x128x96x278, .f32⟩ : BufTy).Contents (Elt F)),
    binary main_v291 main_v292 main_v293 (mulf : (⟨S8x128x96x278, .f32⟩ : BufTy).Contents (Elt F) → (⟨S8x128x96x278, .f32⟩ : BufTy).Contents (Elt F) → (⟨S8x128x96x278, .f32⟩ : BufTy).Contents (Elt F)),
    nullary main_cst_123 (constant S_ .f32 0x00000000#32),
    binary main_v293 main_cst_123 main_v294 ((fun x v => Host.reduceAdd x v reducesTo_S8x128x96x278_S8x96x278_d1 h_S_) : (⟨S8x128x96x278, .f32⟩ : BufTy).Contents (Elt F) → (⟨S_, .f32⟩ : BufTy).Contents (Elt F) → (⟨S8x96x278, .f32⟩ : BufTy).Contents (Elt F)),
    nullary main_cst_124 (constant S_ .f32 0x43000000#32),
    unary main_cst_124 main_v295 (broadcastInDim S8x96x278 ![] bcast_S_S8x96x278 : (⟨S_, .f32⟩ : BufTy).Contents (Elt F) → (⟨S8x96x278, .f32⟩ : BufTy).Contents (Elt F)),
    binary main_v294 main_v295 main_v296 (Host.divf : (⟨S8x96x278, .f32⟩ : BufTy).Contents (Elt F) → (⟨S8x96x278, .f32⟩ : BufTy).Contents (Elt F) → (⟨S8x96x278, .f32⟩ : BufTy).Contents (Elt F)),
    nullary main_c_125 (constantI S_ 32 0#32),
    TRef.unary (TRef.of (T := ⟨S_, .i32⟩) main_c_125) (TRef.of (T := ⟨S_, .f32⟩) main_call41_v0) (sitofp .f32),
    TRef.binary (TRef.of (T := ⟨S8x96x278, .f32⟩) main_v296) (TRef.of (T := ⟨S_, .f32⟩) main_call41_v0) (TRef.of (T := ⟨S8x96x320, .f32⟩) main_v297) (fun x v => pad S8x96x320 ![0, 0, 42] ![0, 0, 0] ![0, 0, 0] x v pads_S8x96x278_S8x96x320_000_000_4200 h_S_) ]

/-- The operations of disparity 43. -/
abbrev ops_c43 : List (HloOp τ sig (Elt F)) :=
  [ unary main_arg0 main_v298 ((extractStridedSlice S8x128x96x277 ![0, 0, 0, 43] · slices_S8x128x96x320_S8x128x96x277_0_0_0_43) : (⟨S8x128x96x320, .f32⟩ : BufTy).Contents (Elt F) → (⟨S8x128x96x277, .f32⟩ : BufTy).Contents (Elt F)),
    unary main_arg1 main_v299 ((extractStridedSlice S8x128x96x277 ![0, 0, 0, 0] · slices_S8x128x96x320_S8x128x96x277_0_0_0_0) : (⟨S8x128x96x320, .f32⟩ : BufTy).Contents (Elt F) → (⟨S8x128x96x277, .f32⟩ : BufTy).Contents (Elt F)),
    binary main_v298 main_v299 main_v300 (mulf : (⟨S8x128x96x277, .f32⟩ : BufTy).Contents (Elt F) → (⟨S8x128x96x277, .f32⟩ : BufTy).Contents (Elt F) → (⟨S8x128x96x277, .f32⟩ : BufTy).Contents (Elt F)),
    nullary main_cst_126 (constant S_ .f32 0x00000000#32),
    binary main_v300 main_cst_126 main_v301 ((fun x v => Host.reduceAdd x v reducesTo_S8x128x96x277_S8x96x277_d1 h_S_) : (⟨S8x128x96x277, .f32⟩ : BufTy).Contents (Elt F) → (⟨S_, .f32⟩ : BufTy).Contents (Elt F) → (⟨S8x96x277, .f32⟩ : BufTy).Contents (Elt F)),
    nullary main_cst_127 (constant S_ .f32 0x43000000#32),
    unary main_cst_127 main_v302 (broadcastInDim S8x96x277 ![] bcast_S_S8x96x277 : (⟨S_, .f32⟩ : BufTy).Contents (Elt F) → (⟨S8x96x277, .f32⟩ : BufTy).Contents (Elt F)),
    binary main_v301 main_v302 main_v303 (Host.divf : (⟨S8x96x277, .f32⟩ : BufTy).Contents (Elt F) → (⟨S8x96x277, .f32⟩ : BufTy).Contents (Elt F) → (⟨S8x96x277, .f32⟩ : BufTy).Contents (Elt F)),
    nullary main_c_128 (constantI S_ 32 0#32),
    TRef.unary (TRef.of (T := ⟨S_, .i32⟩) main_c_128) (TRef.of (T := ⟨S_, .f32⟩) main_call42_v0) (sitofp .f32),
    TRef.binary (TRef.of (T := ⟨S8x96x277, .f32⟩) main_v303) (TRef.of (T := ⟨S_, .f32⟩) main_call42_v0) (TRef.of (T := ⟨S8x96x320, .f32⟩) main_v304) (fun x v => pad S8x96x320 ![0, 0, 43] ![0, 0, 0] ![0, 0, 0] x v pads_S8x96x277_S8x96x320_000_000_4300 h_S_) ]

/-- The operations of disparity 44. -/
abbrev ops_c44 : List (HloOp τ sig (Elt F)) :=
  [ unary main_arg0 main_v305 ((extractStridedSlice S8x128x96x276 ![0, 0, 0, 44] · slices_S8x128x96x320_S8x128x96x276_0_0_0_44) : (⟨S8x128x96x320, .f32⟩ : BufTy).Contents (Elt F) → (⟨S8x128x96x276, .f32⟩ : BufTy).Contents (Elt F)),
    unary main_arg1 main_v306 ((extractStridedSlice S8x128x96x276 ![0, 0, 0, 0] · slices_S8x128x96x320_S8x128x96x276_0_0_0_0) : (⟨S8x128x96x320, .f32⟩ : BufTy).Contents (Elt F) → (⟨S8x128x96x276, .f32⟩ : BufTy).Contents (Elt F)),
    binary main_v305 main_v306 main_v307 (mulf : (⟨S8x128x96x276, .f32⟩ : BufTy).Contents (Elt F) → (⟨S8x128x96x276, .f32⟩ : BufTy).Contents (Elt F) → (⟨S8x128x96x276, .f32⟩ : BufTy).Contents (Elt F)),
    nullary main_cst_129 (constant S_ .f32 0x00000000#32),
    binary main_v307 main_cst_129 main_v308 ((fun x v => Host.reduceAdd x v reducesTo_S8x128x96x276_S8x96x276_d1 h_S_) : (⟨S8x128x96x276, .f32⟩ : BufTy).Contents (Elt F) → (⟨S_, .f32⟩ : BufTy).Contents (Elt F) → (⟨S8x96x276, .f32⟩ : BufTy).Contents (Elt F)),
    nullary main_cst_130 (constant S_ .f32 0x43000000#32),
    unary main_cst_130 main_v309 (broadcastInDim S8x96x276 ![] bcast_S_S8x96x276 : (⟨S_, .f32⟩ : BufTy).Contents (Elt F) → (⟨S8x96x276, .f32⟩ : BufTy).Contents (Elt F)),
    binary main_v308 main_v309 main_v310 (Host.divf : (⟨S8x96x276, .f32⟩ : BufTy).Contents (Elt F) → (⟨S8x96x276, .f32⟩ : BufTy).Contents (Elt F) → (⟨S8x96x276, .f32⟩ : BufTy).Contents (Elt F)),
    nullary main_c_131 (constantI S_ 32 0#32),
    TRef.unary (TRef.of (T := ⟨S_, .i32⟩) main_c_131) (TRef.of (T := ⟨S_, .f32⟩) main_call43_v0) (sitofp .f32),
    TRef.binary (TRef.of (T := ⟨S8x96x276, .f32⟩) main_v310) (TRef.of (T := ⟨S_, .f32⟩) main_call43_v0) (TRef.of (T := ⟨S8x96x320, .f32⟩) main_v311) (fun x v => pad S8x96x320 ![0, 0, 44] ![0, 0, 0] ![0, 0, 0] x v pads_S8x96x276_S8x96x320_000_000_4400 h_S_) ]

/-- The operations of disparity 45. -/
abbrev ops_c45 : List (HloOp τ sig (Elt F)) :=
  [ unary main_arg0 main_v312 ((extractStridedSlice S8x128x96x275 ![0, 0, 0, 45] · slices_S8x128x96x320_S8x128x96x275_0_0_0_45) : (⟨S8x128x96x320, .f32⟩ : BufTy).Contents (Elt F) → (⟨S8x128x96x275, .f32⟩ : BufTy).Contents (Elt F)),
    unary main_arg1 main_v313 ((extractStridedSlice S8x128x96x275 ![0, 0, 0, 0] · slices_S8x128x96x320_S8x128x96x275_0_0_0_0) : (⟨S8x128x96x320, .f32⟩ : BufTy).Contents (Elt F) → (⟨S8x128x96x275, .f32⟩ : BufTy).Contents (Elt F)),
    binary main_v312 main_v313 main_v314 (mulf : (⟨S8x128x96x275, .f32⟩ : BufTy).Contents (Elt F) → (⟨S8x128x96x275, .f32⟩ : BufTy).Contents (Elt F) → (⟨S8x128x96x275, .f32⟩ : BufTy).Contents (Elt F)),
    nullary main_cst_132 (constant S_ .f32 0x00000000#32),
    binary main_v314 main_cst_132 main_v315 ((fun x v => Host.reduceAdd x v reducesTo_S8x128x96x275_S8x96x275_d1 h_S_) : (⟨S8x128x96x275, .f32⟩ : BufTy).Contents (Elt F) → (⟨S_, .f32⟩ : BufTy).Contents (Elt F) → (⟨S8x96x275, .f32⟩ : BufTy).Contents (Elt F)),
    nullary main_cst_133 (constant S_ .f32 0x43000000#32),
    unary main_cst_133 main_v316 (broadcastInDim S8x96x275 ![] bcast_S_S8x96x275 : (⟨S_, .f32⟩ : BufTy).Contents (Elt F) → (⟨S8x96x275, .f32⟩ : BufTy).Contents (Elt F)),
    binary main_v315 main_v316 main_v317 (Host.divf : (⟨S8x96x275, .f32⟩ : BufTy).Contents (Elt F) → (⟨S8x96x275, .f32⟩ : BufTy).Contents (Elt F) → (⟨S8x96x275, .f32⟩ : BufTy).Contents (Elt F)),
    nullary main_c_134 (constantI S_ 32 0#32),
    TRef.unary (TRef.of (T := ⟨S_, .i32⟩) main_c_134) (TRef.of (T := ⟨S_, .f32⟩) main_call44_v0) (sitofp .f32),
    TRef.binary (TRef.of (T := ⟨S8x96x275, .f32⟩) main_v317) (TRef.of (T := ⟨S_, .f32⟩) main_call44_v0) (TRef.of (T := ⟨S8x96x320, .f32⟩) main_v318) (fun x v => pad S8x96x320 ![0, 0, 45] ![0, 0, 0] ![0, 0, 0] x v pads_S8x96x275_S8x96x320_000_000_4500 h_S_) ]

/-- The operations of disparity 46. -/
abbrev ops_c46 : List (HloOp τ sig (Elt F)) :=
  [ unary main_arg0 main_v319 ((extractStridedSlice S8x128x96x274 ![0, 0, 0, 46] · slices_S8x128x96x320_S8x128x96x274_0_0_0_46) : (⟨S8x128x96x320, .f32⟩ : BufTy).Contents (Elt F) → (⟨S8x128x96x274, .f32⟩ : BufTy).Contents (Elt F)),
    unary main_arg1 main_v320 ((extractStridedSlice S8x128x96x274 ![0, 0, 0, 0] · slices_S8x128x96x320_S8x128x96x274_0_0_0_0) : (⟨S8x128x96x320, .f32⟩ : BufTy).Contents (Elt F) → (⟨S8x128x96x274, .f32⟩ : BufTy).Contents (Elt F)),
    binary main_v319 main_v320 main_v321 (mulf : (⟨S8x128x96x274, .f32⟩ : BufTy).Contents (Elt F) → (⟨S8x128x96x274, .f32⟩ : BufTy).Contents (Elt F) → (⟨S8x128x96x274, .f32⟩ : BufTy).Contents (Elt F)),
    nullary main_cst_135 (constant S_ .f32 0x00000000#32),
    binary main_v321 main_cst_135 main_v322 ((fun x v => Host.reduceAdd x v reducesTo_S8x128x96x274_S8x96x274_d1 h_S_) : (⟨S8x128x96x274, .f32⟩ : BufTy).Contents (Elt F) → (⟨S_, .f32⟩ : BufTy).Contents (Elt F) → (⟨S8x96x274, .f32⟩ : BufTy).Contents (Elt F)),
    nullary main_cst_136 (constant S_ .f32 0x43000000#32),
    unary main_cst_136 main_v323 (broadcastInDim S8x96x274 ![] bcast_S_S8x96x274 : (⟨S_, .f32⟩ : BufTy).Contents (Elt F) → (⟨S8x96x274, .f32⟩ : BufTy).Contents (Elt F)),
    binary main_v322 main_v323 main_v324 (Host.divf : (⟨S8x96x274, .f32⟩ : BufTy).Contents (Elt F) → (⟨S8x96x274, .f32⟩ : BufTy).Contents (Elt F) → (⟨S8x96x274, .f32⟩ : BufTy).Contents (Elt F)),
    nullary main_c_137 (constantI S_ 32 0#32),
    TRef.unary (TRef.of (T := ⟨S_, .i32⟩) main_c_137) (TRef.of (T := ⟨S_, .f32⟩) main_call45_v0) (sitofp .f32),
    TRef.binary (TRef.of (T := ⟨S8x96x274, .f32⟩) main_v324) (TRef.of (T := ⟨S_, .f32⟩) main_call45_v0) (TRef.of (T := ⟨S8x96x320, .f32⟩) main_v325) (fun x v => pad S8x96x320 ![0, 0, 46] ![0, 0, 0] ![0, 0, 0] x v pads_S8x96x274_S8x96x320_000_000_4600 h_S_) ]

/-- The operations of disparity 47. -/
abbrev ops_c47 : List (HloOp τ sig (Elt F)) :=
  [ unary main_arg0 main_v326 ((extractStridedSlice S8x128x96x273 ![0, 0, 0, 47] · slices_S8x128x96x320_S8x128x96x273_0_0_0_47) : (⟨S8x128x96x320, .f32⟩ : BufTy).Contents (Elt F) → (⟨S8x128x96x273, .f32⟩ : BufTy).Contents (Elt F)),
    unary main_arg1 main_v327 ((extractStridedSlice S8x128x96x273 ![0, 0, 0, 0] · slices_S8x128x96x320_S8x128x96x273_0_0_0_0) : (⟨S8x128x96x320, .f32⟩ : BufTy).Contents (Elt F) → (⟨S8x128x96x273, .f32⟩ : BufTy).Contents (Elt F)),
    binary main_v326 main_v327 main_v328 (mulf : (⟨S8x128x96x273, .f32⟩ : BufTy).Contents (Elt F) → (⟨S8x128x96x273, .f32⟩ : BufTy).Contents (Elt F) → (⟨S8x128x96x273, .f32⟩ : BufTy).Contents (Elt F)),
    nullary main_cst_138 (constant S_ .f32 0x00000000#32),
    binary main_v328 main_cst_138 main_v329 ((fun x v => Host.reduceAdd x v reducesTo_S8x128x96x273_S8x96x273_d1 h_S_) : (⟨S8x128x96x273, .f32⟩ : BufTy).Contents (Elt F) → (⟨S_, .f32⟩ : BufTy).Contents (Elt F) → (⟨S8x96x273, .f32⟩ : BufTy).Contents (Elt F)),
    nullary main_cst_139 (constant S_ .f32 0x43000000#32),
    unary main_cst_139 main_v330 (broadcastInDim S8x96x273 ![] bcast_S_S8x96x273 : (⟨S_, .f32⟩ : BufTy).Contents (Elt F) → (⟨S8x96x273, .f32⟩ : BufTy).Contents (Elt F)),
    binary main_v329 main_v330 main_v331 (Host.divf : (⟨S8x96x273, .f32⟩ : BufTy).Contents (Elt F) → (⟨S8x96x273, .f32⟩ : BufTy).Contents (Elt F) → (⟨S8x96x273, .f32⟩ : BufTy).Contents (Elt F)),
    nullary main_c_140 (constantI S_ 32 0#32),
    TRef.unary (TRef.of (T := ⟨S_, .i32⟩) main_c_140) (TRef.of (T := ⟨S_, .f32⟩) main_call46_v0) (sitofp .f32),
    TRef.binary (TRef.of (T := ⟨S8x96x273, .f32⟩) main_v331) (TRef.of (T := ⟨S_, .f32⟩) main_call46_v0) (TRef.of (T := ⟨S8x96x320, .f32⟩) main_v332) (fun x v => pad S8x96x320 ![0, 0, 47] ![0, 0, 0] ![0, 0, 0] x v pads_S8x96x273_S8x96x320_000_000_4700 h_S_) ]

/-- The operations that view the 48 slabs under a unit axis and join them. -/
abbrev ops_tail : List (HloOp τ sig (Elt F)) :=
  [ unary main_v3 main_v333 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v10 main_v334 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v17 main_v335 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v24 main_v336 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v31 main_v337 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v38 main_v338 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v45 main_v339 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v52 main_v340 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v59 main_v341 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v66 main_v342 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v73 main_v343 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v80 main_v344 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v87 main_v345 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v94 main_v346 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v101 main_v347 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v108 main_v348 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v115 main_v349 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v122 main_v350 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v129 main_v351 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v136 main_v352 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v143 main_v353 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v150 main_v354 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v157 main_v355 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v164 main_v356 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v171 main_v357 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v178 main_v358 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v185 main_v359 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v192 main_v360 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v199 main_v361 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v206 main_v362 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v213 main_v363 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v220 main_v364 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v227 main_v365 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v234 main_v366 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v241 main_v367 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v248 main_v368 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v255 main_v369 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v262 main_v370 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v269 main_v371 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v276 main_v372 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v283 main_v373 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v290 main_v374 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v297 main_v375 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v304 main_v376 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v311 main_v377 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v318 main_v378 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v325 main_v379 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v332 main_v380 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    nary ![main_v333, main_v334, main_v335, main_v336, main_v337, main_v338, main_v339, main_v340, main_v341, main_v342, main_v343, main_v344, main_v345, main_v346, main_v347, main_v348] main_v381 (fun u => fn_cat16 (F := F) (u 0) (u 1) (u 2) (u 3) (u 4) (u 5) (u 6) (u 7) (u 8) (u 9) (u 10) (u 11) (u 12) (u 13) (u 14) (u 15)),
    nary ![main_v349, main_v350, main_v351, main_v352, main_v353, main_v354, main_v355, main_v356, main_v357, main_v358, main_v359, main_v360, main_v361, main_v362, main_v363, main_v364] main_v382 (fun u => fn_cat16 (F := F) (u 0) (u 1) (u 2) (u 3) (u 4) (u 5) (u 6) (u 7) (u 8) (u 9) (u 10) (u 11) (u 12) (u 13) (u 14) (u 15)),
    nary ![main_v365, main_v366, main_v367, main_v368, main_v369, main_v370, main_v371, main_v372, main_v373, main_v374, main_v375, main_v376, main_v377, main_v378, main_v379, main_v380] main_v383 (fun u => fn_cat16 (F := F) (u 0) (u 1) (u 2) (u 3) (u 4) (u 5) (u 6) (u 7) (u 8) (u 9) (u 10) (u 11) (u 12) (u 13) (u 14) (u 15)),
    nary ![main_v381, main_v382, main_v383] main_v384 (fun u => fn_cat3 (F := F) (u 0) (u 1) (u 2)) ]

/-- @main's 575 operations, in order. -/
abbrev ops : List (HloOp τ sig (Elt F)) :=
  ops_c0 ++ (ops_c1 ++ (ops_c2 ++ (ops_c3 ++ (ops_c4 ++ (ops_c5 ++ (ops_c6 ++ (ops_c7 ++ (ops_c8 ++ (ops_c9 ++ (ops_c10 ++ (ops_c11 ++ (ops_c12 ++ (ops_c13 ++ (ops_c14 ++ (ops_c15 ++ (ops_c16 ++ (ops_c17 ++ (ops_c18 ++ (ops_c19 ++ (ops_c20 ++ (ops_c21 ++ (ops_c22 ++ (ops_c23 ++ (ops_c24 ++ (ops_c25 ++ (ops_c26 ++ (ops_c27 ++ (ops_c28 ++ (ops_c29 ++ (ops_c30 ++ (ops_c31 ++ (ops_c32 ++ (ops_c33 ++ (ops_c34 ++ (ops_c35 ++ (ops_c36 ++ (ops_c37 ++ (ops_c38 ++ (ops_c39 ++ (ops_c40 ++ (ops_c41 ++ (ops_c42 ++ (ops_c43 ++ (ops_c44 ++ (ops_c45 ++ (ops_c46 ++ (ops_c47 ++ (ops_tail))))))))))))))))))))))))))))))))))))))))))))))))

set_option maxRecDepth 16384 in
set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_c0_sub : (ops_c0 : List (HloOp τ sig (Elt F))).Forall fun op => op.bufs ⊆ tcRefs τ sig :=
  ⟨binary_bufs_sub .., nullary_bufs_sub .., binary_bufs_sub .., nullary_bufs_sub .., unary_bufs_sub .., binary_bufs_sub ..⟩
set_option maxRecDepth 8192 in
theorem ops_c0_fresh : ∀ op ∈ (ops_c0 : List (HloOp τ sig (Elt F))), op.fresh = ∅ := by
  intro _ h; (repeat (cases h with | head => rfl | tail _ h => ?_)); exact nomatch h
set_option maxRecDepth 8192 in
theorem ops_c1_sub : (ops_c1 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c1_fresh : ∀ op ∈ (ops_c1 : List (HloOp τ sig (Elt F))), op.fresh = ∅ := by
  intro _ h; (repeat (cases h with | head => rfl | tail _ h => ?_)); exact nomatch h
set_option maxRecDepth 8192 in
theorem ops_c2_sub : (ops_c2 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c2_fresh : ∀ op ∈ (ops_c2 : List (HloOp τ sig (Elt F))), op.fresh = ∅ := by
  intro _ h; (repeat (cases h with | head => rfl | tail _ h => ?_)); exact nomatch h
set_option maxRecDepth 8192 in
theorem ops_c3_sub : (ops_c3 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c3_fresh : ∀ op ∈ (ops_c3 : List (HloOp τ sig (Elt F))), op.fresh = ∅ := by
  intro _ h; (repeat (cases h with | head => rfl | tail _ h => ?_)); exact nomatch h
set_option maxRecDepth 8192 in
theorem ops_c4_sub : (ops_c4 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c4_fresh : ∀ op ∈ (ops_c4 : List (HloOp τ sig (Elt F))), op.fresh = ∅ := by
  intro _ h; (repeat (cases h with | head => rfl | tail _ h => ?_)); exact nomatch h
set_option maxRecDepth 8192 in
theorem ops_c5_sub : (ops_c5 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c5_fresh : ∀ op ∈ (ops_c5 : List (HloOp τ sig (Elt F))), op.fresh = ∅ := by
  intro _ h; (repeat (cases h with | head => rfl | tail _ h => ?_)); exact nomatch h
set_option maxRecDepth 8192 in
theorem ops_c6_sub : (ops_c6 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c6_fresh : ∀ op ∈ (ops_c6 : List (HloOp τ sig (Elt F))), op.fresh = ∅ := by
  intro _ h; (repeat (cases h with | head => rfl | tail _ h => ?_)); exact nomatch h
set_option maxRecDepth 8192 in
theorem ops_c7_sub : (ops_c7 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c7_fresh : ∀ op ∈ (ops_c7 : List (HloOp τ sig (Elt F))), op.fresh = ∅ := by
  intro _ h; (repeat (cases h with | head => rfl | tail _ h => ?_)); exact nomatch h
set_option maxRecDepth 8192 in
theorem ops_c8_sub : (ops_c8 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c8_fresh : ∀ op ∈ (ops_c8 : List (HloOp τ sig (Elt F))), op.fresh = ∅ := by
  intro _ h; (repeat (cases h with | head => rfl | tail _ h => ?_)); exact nomatch h
set_option maxRecDepth 8192 in
theorem ops_c9_sub : (ops_c9 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c9_fresh : ∀ op ∈ (ops_c9 : List (HloOp τ sig (Elt F))), op.fresh = ∅ := by
  intro _ h; (repeat (cases h with | head => rfl | tail _ h => ?_)); exact nomatch h
set_option maxRecDepth 8192 in
theorem ops_c10_sub : (ops_c10 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c10_fresh : ∀ op ∈ (ops_c10 : List (HloOp τ sig (Elt F))), op.fresh = ∅ := by
  intro _ h; (repeat (cases h with | head => rfl | tail _ h => ?_)); exact nomatch h
set_option maxRecDepth 8192 in
theorem ops_c11_sub : (ops_c11 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c11_fresh : ∀ op ∈ (ops_c11 : List (HloOp τ sig (Elt F))), op.fresh = ∅ := by
  intro _ h; (repeat (cases h with | head => rfl | tail _ h => ?_)); exact nomatch h
set_option maxRecDepth 8192 in
theorem ops_c12_sub : (ops_c12 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c12_fresh : ∀ op ∈ (ops_c12 : List (HloOp τ sig (Elt F))), op.fresh = ∅ := by
  intro _ h; (repeat (cases h with | head => rfl | tail _ h => ?_)); exact nomatch h
set_option maxRecDepth 8192 in
theorem ops_c13_sub : (ops_c13 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c13_fresh : ∀ op ∈ (ops_c13 : List (HloOp τ sig (Elt F))), op.fresh = ∅ := by
  intro _ h; (repeat (cases h with | head => rfl | tail _ h => ?_)); exact nomatch h
set_option maxRecDepth 8192 in
theorem ops_c14_sub : (ops_c14 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c14_fresh : ∀ op ∈ (ops_c14 : List (HloOp τ sig (Elt F))), op.fresh = ∅ := by
  intro _ h; (repeat (cases h with | head => rfl | tail _ h => ?_)); exact nomatch h
set_option maxRecDepth 8192 in
theorem ops_c15_sub : (ops_c15 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c15_fresh : ∀ op ∈ (ops_c15 : List (HloOp τ sig (Elt F))), op.fresh = ∅ := by
  intro _ h; (repeat (cases h with | head => rfl | tail _ h => ?_)); exact nomatch h
set_option maxRecDepth 8192 in
theorem ops_c16_sub : (ops_c16 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c16_fresh : ∀ op ∈ (ops_c16 : List (HloOp τ sig (Elt F))), op.fresh = ∅ := by
  intro _ h; (repeat (cases h with | head => rfl | tail _ h => ?_)); exact nomatch h
set_option maxRecDepth 8192 in
theorem ops_c17_sub : (ops_c17 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c17_fresh : ∀ op ∈ (ops_c17 : List (HloOp τ sig (Elt F))), op.fresh = ∅ := by
  intro _ h; (repeat (cases h with | head => rfl | tail _ h => ?_)); exact nomatch h
set_option maxRecDepth 8192 in
theorem ops_c18_sub : (ops_c18 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c18_fresh : ∀ op ∈ (ops_c18 : List (HloOp τ sig (Elt F))), op.fresh = ∅ := by
  intro _ h; (repeat (cases h with | head => rfl | tail _ h => ?_)); exact nomatch h
set_option maxRecDepth 8192 in
theorem ops_c19_sub : (ops_c19 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c19_fresh : ∀ op ∈ (ops_c19 : List (HloOp τ sig (Elt F))), op.fresh = ∅ := by
  intro _ h; (repeat (cases h with | head => rfl | tail _ h => ?_)); exact nomatch h
set_option maxRecDepth 8192 in
theorem ops_c20_sub : (ops_c20 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c20_fresh : ∀ op ∈ (ops_c20 : List (HloOp τ sig (Elt F))), op.fresh = ∅ := by
  intro _ h; (repeat (cases h with | head => rfl | tail _ h => ?_)); exact nomatch h
set_option maxRecDepth 8192 in
theorem ops_c21_sub : (ops_c21 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c21_fresh : ∀ op ∈ (ops_c21 : List (HloOp τ sig (Elt F))), op.fresh = ∅ := by
  intro _ h; (repeat (cases h with | head => rfl | tail _ h => ?_)); exact nomatch h
set_option maxRecDepth 8192 in
theorem ops_c22_sub : (ops_c22 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c22_fresh : ∀ op ∈ (ops_c22 : List (HloOp τ sig (Elt F))), op.fresh = ∅ := by
  intro _ h; (repeat (cases h with | head => rfl | tail _ h => ?_)); exact nomatch h
set_option maxRecDepth 8192 in
theorem ops_c23_sub : (ops_c23 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c23_fresh : ∀ op ∈ (ops_c23 : List (HloOp τ sig (Elt F))), op.fresh = ∅ := by
  intro _ h; (repeat (cases h with | head => rfl | tail _ h => ?_)); exact nomatch h
set_option maxRecDepth 8192 in
theorem ops_c24_sub : (ops_c24 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c24_fresh : ∀ op ∈ (ops_c24 : List (HloOp τ sig (Elt F))), op.fresh = ∅ := by
  intro _ h; (repeat (cases h with | head => rfl | tail _ h => ?_)); exact nomatch h
set_option maxRecDepth 8192 in
theorem ops_c25_sub : (ops_c25 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c25_fresh : ∀ op ∈ (ops_c25 : List (HloOp τ sig (Elt F))), op.fresh = ∅ := by
  intro _ h; (repeat (cases h with | head => rfl | tail _ h => ?_)); exact nomatch h
set_option maxRecDepth 8192 in
theorem ops_c26_sub : (ops_c26 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c26_fresh : ∀ op ∈ (ops_c26 : List (HloOp τ sig (Elt F))), op.fresh = ∅ := by
  intro _ h; (repeat (cases h with | head => rfl | tail _ h => ?_)); exact nomatch h
set_option maxRecDepth 8192 in
theorem ops_c27_sub : (ops_c27 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c27_fresh : ∀ op ∈ (ops_c27 : List (HloOp τ sig (Elt F))), op.fresh = ∅ := by
  intro _ h; (repeat (cases h with | head => rfl | tail _ h => ?_)); exact nomatch h
set_option maxRecDepth 8192 in
theorem ops_c28_sub : (ops_c28 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c28_fresh : ∀ op ∈ (ops_c28 : List (HloOp τ sig (Elt F))), op.fresh = ∅ := by
  intro _ h; (repeat (cases h with | head => rfl | tail _ h => ?_)); exact nomatch h
set_option maxRecDepth 8192 in
theorem ops_c29_sub : (ops_c29 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c29_fresh : ∀ op ∈ (ops_c29 : List (HloOp τ sig (Elt F))), op.fresh = ∅ := by
  intro _ h; (repeat (cases h with | head => rfl | tail _ h => ?_)); exact nomatch h
set_option maxRecDepth 8192 in
theorem ops_c30_sub : (ops_c30 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c30_fresh : ∀ op ∈ (ops_c30 : List (HloOp τ sig (Elt F))), op.fresh = ∅ := by
  intro _ h; (repeat (cases h with | head => rfl | tail _ h => ?_)); exact nomatch h
set_option maxRecDepth 8192 in
theorem ops_c31_sub : (ops_c31 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c31_fresh : ∀ op ∈ (ops_c31 : List (HloOp τ sig (Elt F))), op.fresh = ∅ := by
  intro _ h; (repeat (cases h with | head => rfl | tail _ h => ?_)); exact nomatch h
set_option maxRecDepth 8192 in
theorem ops_c32_sub : (ops_c32 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c32_fresh : ∀ op ∈ (ops_c32 : List (HloOp τ sig (Elt F))), op.fresh = ∅ := by
  intro _ h; (repeat (cases h with | head => rfl | tail _ h => ?_)); exact nomatch h
set_option maxRecDepth 8192 in
theorem ops_c33_sub : (ops_c33 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c33_fresh : ∀ op ∈ (ops_c33 : List (HloOp τ sig (Elt F))), op.fresh = ∅ := by
  intro _ h; (repeat (cases h with | head => rfl | tail _ h => ?_)); exact nomatch h
set_option maxRecDepth 8192 in
theorem ops_c34_sub : (ops_c34 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c34_fresh : ∀ op ∈ (ops_c34 : List (HloOp τ sig (Elt F))), op.fresh = ∅ := by
  intro _ h; (repeat (cases h with | head => rfl | tail _ h => ?_)); exact nomatch h
set_option maxRecDepth 8192 in
theorem ops_c35_sub : (ops_c35 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c35_fresh : ∀ op ∈ (ops_c35 : List (HloOp τ sig (Elt F))), op.fresh = ∅ := by
  intro _ h; (repeat (cases h with | head => rfl | tail _ h => ?_)); exact nomatch h
set_option maxRecDepth 8192 in
theorem ops_c36_sub : (ops_c36 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c36_fresh : ∀ op ∈ (ops_c36 : List (HloOp τ sig (Elt F))), op.fresh = ∅ := by
  intro _ h; (repeat (cases h with | head => rfl | tail _ h => ?_)); exact nomatch h
set_option maxRecDepth 8192 in
theorem ops_c37_sub : (ops_c37 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c37_fresh : ∀ op ∈ (ops_c37 : List (HloOp τ sig (Elt F))), op.fresh = ∅ := by
  intro _ h; (repeat (cases h with | head => rfl | tail _ h => ?_)); exact nomatch h
set_option maxRecDepth 8192 in
theorem ops_c38_sub : (ops_c38 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c38_fresh : ∀ op ∈ (ops_c38 : List (HloOp τ sig (Elt F))), op.fresh = ∅ := by
  intro _ h; (repeat (cases h with | head => rfl | tail _ h => ?_)); exact nomatch h
set_option maxRecDepth 8192 in
theorem ops_c39_sub : (ops_c39 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c39_fresh : ∀ op ∈ (ops_c39 : List (HloOp τ sig (Elt F))), op.fresh = ∅ := by
  intro _ h; (repeat (cases h with | head => rfl | tail _ h => ?_)); exact nomatch h
set_option maxRecDepth 8192 in
theorem ops_c40_sub : (ops_c40 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c40_fresh : ∀ op ∈ (ops_c40 : List (HloOp τ sig (Elt F))), op.fresh = ∅ := by
  intro _ h; (repeat (cases h with | head => rfl | tail _ h => ?_)); exact nomatch h
set_option maxRecDepth 8192 in
theorem ops_c41_sub : (ops_c41 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c41_fresh : ∀ op ∈ (ops_c41 : List (HloOp τ sig (Elt F))), op.fresh = ∅ := by
  intro _ h; (repeat (cases h with | head => rfl | tail _ h => ?_)); exact nomatch h
set_option maxRecDepth 8192 in
theorem ops_c42_sub : (ops_c42 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c42_fresh : ∀ op ∈ (ops_c42 : List (HloOp τ sig (Elt F))), op.fresh = ∅ := by
  intro _ h; (repeat (cases h with | head => rfl | tail _ h => ?_)); exact nomatch h
set_option maxRecDepth 8192 in
theorem ops_c43_sub : (ops_c43 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c43_fresh : ∀ op ∈ (ops_c43 : List (HloOp τ sig (Elt F))), op.fresh = ∅ := by
  intro _ h; (repeat (cases h with | head => rfl | tail _ h => ?_)); exact nomatch h
set_option maxRecDepth 8192 in
theorem ops_c44_sub : (ops_c44 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c44_fresh : ∀ op ∈ (ops_c44 : List (HloOp τ sig (Elt F))), op.fresh = ∅ := by
  intro _ h; (repeat (cases h with | head => rfl | tail _ h => ?_)); exact nomatch h
set_option maxRecDepth 8192 in
theorem ops_c45_sub : (ops_c45 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c45_fresh : ∀ op ∈ (ops_c45 : List (HloOp τ sig (Elt F))), op.fresh = ∅ := by
  intro _ h; (repeat (cases h with | head => rfl | tail _ h => ?_)); exact nomatch h
set_option maxRecDepth 8192 in
theorem ops_c46_sub : (ops_c46 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c46_fresh : ∀ op ∈ (ops_c46 : List (HloOp τ sig (Elt F))), op.fresh = ∅ := by
  intro _ h; (repeat (cases h with | head => rfl | tail _ h => ?_)); exact nomatch h
set_option maxRecDepth 8192 in
theorem ops_c47_sub : (ops_c47 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩
set_option maxRecDepth 8192 in
theorem ops_c47_fresh : ∀ op ∈ (ops_c47 : List (HloOp τ sig (Elt F))), op.fresh = ∅ := by
  intro _ h; (repeat (cases h with | head => rfl | tail _ h => ?_)); exact nomatch h
set_option maxRecDepth 8192 in
theorem ops_tail_sub : (ops_tail : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub ..⟩
set_option maxRecDepth 8192 in
theorem ops_tail_fresh : ∀ op ∈ (ops_tail : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h | h | h | h | h | h | h | h | h | h | h | h | h | h | h | h | h | h | h | h | h | h | h | h | h
    exacts [List.forall_iff_forall_mem.mp ops_c0_sub op h, List.forall_iff_forall_mem.mp ops_c1_sub op h, List.forall_iff_forall_mem.mp ops_c2_sub op h, List.forall_iff_forall_mem.mp ops_c3_sub op h, List.forall_iff_forall_mem.mp ops_c4_sub op h, List.forall_iff_forall_mem.mp ops_c5_sub op h, List.forall_iff_forall_mem.mp ops_c6_sub op h, List.forall_iff_forall_mem.mp ops_c7_sub op h, List.forall_iff_forall_mem.mp ops_c8_sub op h, List.forall_iff_forall_mem.mp ops_c9_sub op h, List.forall_iff_forall_mem.mp ops_c10_sub op h, List.forall_iff_forall_mem.mp ops_c11_sub op h, List.forall_iff_forall_mem.mp ops_c12_sub op h, List.forall_iff_forall_mem.mp ops_c13_sub op h, List.forall_iff_forall_mem.mp ops_c14_sub op h, List.forall_iff_forall_mem.mp ops_c15_sub op h, List.forall_iff_forall_mem.mp ops_c16_sub op h, List.forall_iff_forall_mem.mp ops_c17_sub op h, List.forall_iff_forall_mem.mp ops_c18_sub op h, List.forall_iff_forall_mem.mp ops_c19_sub op h, List.forall_iff_forall_mem.mp ops_c20_sub op h, List.forall_iff_forall_mem.mp ops_c21_sub op h, List.forall_iff_forall_mem.mp ops_c22_sub op h, List.forall_iff_forall_mem.mp ops_c23_sub op h, List.forall_iff_forall_mem.mp ops_c24_sub op h, List.forall_iff_forall_mem.mp ops_c25_sub op h, List.forall_iff_forall_mem.mp ops_c26_sub op h, List.forall_iff_forall_mem.mp ops_c27_sub op h, List.forall_iff_forall_mem.mp ops_c28_sub op h, List.forall_iff_forall_mem.mp ops_c29_sub op h, List.forall_iff_forall_mem.mp ops_c30_sub op h, List.forall_iff_forall_mem.mp ops_c31_sub op h, List.forall_iff_forall_mem.mp ops_c32_sub op h, List.forall_iff_forall_mem.mp ops_c33_sub op h, List.forall_iff_forall_mem.mp ops_c34_sub op h, List.forall_iff_forall_mem.mp ops_c35_sub op h, List.forall_iff_forall_mem.mp ops_c36_sub op h, List.forall_iff_forall_mem.mp ops_c37_sub op h, List.forall_iff_forall_mem.mp ops_c38_sub op h, List.forall_iff_forall_mem.mp ops_c39_sub op h, List.forall_iff_forall_mem.mp ops_c40_sub op h, List.forall_iff_forall_mem.mp ops_c41_sub op h, List.forall_iff_forall_mem.mp ops_c42_sub op h, List.forall_iff_forall_mem.mp ops_c43_sub op h, List.forall_iff_forall_mem.mp ops_c44_sub op h, List.forall_iff_forall_mem.mp ops_c45_sub op h, List.forall_iff_forall_mem.mp ops_c46_sub op h, List.forall_iff_forall_mem.mp ops_c47_sub op h, List.forall_iff_forall_mem.mp ops_tail_sub op h]

theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h | h | h | h | h | h | h | h | h | h | h | h | h | h | h | h | h | h | h | h | h | h | h | h | h | h
  exacts [ops_c0_fresh op h, ops_c1_fresh op h, ops_c2_fresh op h, ops_c3_fresh op h, ops_c4_fresh op h, ops_c5_fresh op h, ops_c6_fresh op h, ops_c7_fresh op h, ops_c8_fresh op h, ops_c9_fresh op h, ops_c10_fresh op h, ops_c11_fresh op h, ops_c12_fresh op h, ops_c13_fresh op h, ops_c14_fresh op h, ops_c15_fresh op h, ops_c16_fresh op h, ops_c17_fresh op h, ops_c18_fresh op h, ops_c19_fresh op h, ops_c20_fresh op h, ops_c21_fresh op h, ops_c22_fresh op h, ops_c23_fresh op h, ops_c24_fresh op h, ops_c25_fresh op h, ops_c26_fresh op h, ops_c27_fresh op h, ops_c28_fresh op h, ops_c29_fresh op h, ops_c30_fresh op h, ops_c31_fresh op h, ops_c32_fresh op h, ops_c33_fresh op h, ops_c34_fresh op h, ops_c35_fresh op h, ops_c36_fresh op h, ops_c37_fresh op h, ops_c38_fresh op h, ops_c39_fresh op h, ops_c40_fresh op h, ops_c41_fresh op h, ops_c42_fresh op h, ops_c43_fresh op h, ops_c44_fresh op h, ops_c45_fresh op h, ops_c46_fresh op h, ops_c47_fresh op h, ops_tail_fresh op h]

/-- The device's buffer contents before the first group. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after the first 1 group. -/
def val1 (V0 : Valuation τ sig (Elt F)) : Valuation τ sig (Elt F) := after ops_c0 (val0 V0)
/-- The buffers this group writes. -/
abbrev ops_c0_W : List (Ref sig .tc) := [main_v0, main_cst, main_v1, main_cst_0, main_v2, main_v3]
set_option maxRecDepth 8192 in
theorem ops_c0_writes : (ops_c0 : List (HloOp τ sig (Elt F))).Forall fun op => op.writes ⊆ (ops_c0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val1_keep (V0 : Valuation τ sig (Elt F)) (r : Ref sig .tc) (h : r ∉ ops_c0_W) :
    val1 V0 (Proc.devRef .tc r) = val0 V0 (Proc.devRef .tc r) :=
  after_of_writes_sub ops_c0 _ ops_c0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxRecDepth 8192 in
set_option maxHeartbeats 2000000 in
/-- What the group leaves in its slab's buffer. -/
theorem val1_slab (V0 : Valuation τ sig (Elt F)) : val1 V0 (no_index (Proc.devRef .tc main_v3)) = res_slab0 V0 := by
  unfold val1
  simp only [ops_c0]
  after_results_simp
  simp only [val0_main_arg0, val0_main_arg1] <;> rfl

/-- The device's buffer contents after the first 2 groups. -/
def val2 (V0 : Valuation τ sig (Elt F)) : Valuation τ sig (Elt F) := after ops_c1 (val1 V0)
/-- The buffers this group writes. -/
abbrev ops_c1_W : List (Ref sig .tc) := [main_v4, main_v5, main_v6, main_cst_1, main_v7, main_cst_2, main_v8, main_v9, main_c, main_call0_v0, main_v10]
set_option maxRecDepth 8192 in
theorem ops_c1_writes : (ops_c1 : List (HloOp τ sig (Elt F))).Forall fun op => op.writes ⊆ (ops_c1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val2_keep (V0 : Valuation τ sig (Elt F)) (r : Ref sig .tc) (h : r ∉ ops_c1_W) :
    val2 V0 (Proc.devRef .tc r) = val1 V0 (Proc.devRef .tc r) :=
  after_of_writes_sub ops_c1 _ ops_c1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
set_option maxRecDepth 8192 in
set_option maxHeartbeats 2000000 in
/-- What the group leaves in its slab's buffer. -/
theorem val2_slab (V0 : Valuation τ sig (Elt F)) : val2 V0 (no_index (Proc.devRef .tc main_v10)) = res_slab1 V0 := by
  unfold val2
  simp only [ops_c1]
  after_results_simp
  simp only [val1_main_arg0, val1_main_arg1] <;> rfl

/-- The device's buffer contents after the first 3 groups. -/
def val3 (V0 : Valuation τ sig (Elt F)) : Valuation τ sig (Elt F) := after ops_c2 (val2 V0)
/-- The buffers this group writes. -/
abbrev ops_c2_W : List (Ref sig .tc) := [main_v11, main_v12, main_v13, main_cst_3, main_v14, main_cst_4, main_v15, main_v16, main_c_5, main_call1_v0, main_v17]
set_option maxRecDepth 8192 in
theorem ops_c2_writes : (ops_c2 : List (HloOp τ sig (Elt F))).Forall fun op => op.writes ⊆ (ops_c2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val3_keep (V0 : Valuation τ sig (Elt F)) (r : Ref sig .tc) (h : r ∉ ops_c2_W) :
    val3 V0 (Proc.devRef .tc r) = val2 V0 (Proc.devRef .tc r) :=
  after_of_writes_sub ops_c2 _ ops_c2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
set_option maxRecDepth 8192 in
set_option maxHeartbeats 2000000 in
/-- What the group leaves in its slab's buffer. -/
theorem val3_slab (V0 : Valuation τ sig (Elt F)) : val3 V0 (no_index (Proc.devRef .tc main_v17)) = res_slab2 V0 := by
  unfold val3
  simp only [ops_c2]
  after_results_simp
  simp only [val2_main_arg0, val2_main_arg1] <;> rfl

/-- The device's buffer contents after the first 4 groups. -/
def val4 (V0 : Valuation τ sig (Elt F)) : Valuation τ sig (Elt F) := after ops_c3 (val3 V0)
/-- The buffers this group writes. -/
abbrev ops_c3_W : List (Ref sig .tc) := [main_v18, main_v19, main_v20, main_cst_6, main_v21, main_cst_7, main_v22, main_v23, main_c_8, main_call2_v0, main_v24]
set_option maxRecDepth 8192 in
theorem ops_c3_writes : (ops_c3 : List (HloOp τ sig (Elt F))).Forall fun op => op.writes ⊆ (ops_c3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val4_keep (V0 : Valuation τ sig (Elt F)) (r : Ref sig .tc) (h : r ∉ ops_c3_W) :
    val4 V0 (Proc.devRef .tc r) = val3 V0 (Proc.devRef .tc r) :=
  after_of_writes_sub ops_c3 _ ops_c3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
set_option maxRecDepth 8192 in
set_option maxHeartbeats 2000000 in
/-- What the group leaves in its slab's buffer. -/
theorem val4_slab (V0 : Valuation τ sig (Elt F)) : val4 V0 (no_index (Proc.devRef .tc main_v24)) = res_slab3 V0 := by
  unfold val4
  simp only [ops_c3]
  after_results_simp
  simp only [val3_main_arg0, val3_main_arg1] <;> rfl

/-- The device's buffer contents after the first 5 groups. -/
def val5 (V0 : Valuation τ sig (Elt F)) : Valuation τ sig (Elt F) := after ops_c4 (val4 V0)
/-- The buffers this group writes. -/
abbrev ops_c4_W : List (Ref sig .tc) := [main_v25, main_v26, main_v27, main_cst_9, main_v28, main_cst_10, main_v29, main_v30, main_c_11, main_call3_v0, main_v31]
set_option maxRecDepth 8192 in
theorem ops_c4_writes : (ops_c4 : List (HloOp τ sig (Elt F))).Forall fun op => op.writes ⊆ (ops_c4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val5_keep (V0 : Valuation τ sig (Elt F)) (r : Ref sig .tc) (h : r ∉ ops_c4_W) :
    val5 V0 (Proc.devRef .tc r) = val4 V0 (Proc.devRef .tc r) :=
  after_of_writes_sub ops_c4 _ ops_c4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
set_option maxRecDepth 8192 in
set_option maxHeartbeats 2000000 in
/-- What the group leaves in its slab's buffer. -/
theorem val5_slab (V0 : Valuation τ sig (Elt F)) : val5 V0 (no_index (Proc.devRef .tc main_v31)) = res_slab4 V0 := by
  unfold val5
  simp only [ops_c4]
  after_results_simp
  simp only [val4_main_arg0, val4_main_arg1] <;> rfl

/-- The device's buffer contents after the first 6 groups. -/
def val6 (V0 : Valuation τ sig (Elt F)) : Valuation τ sig (Elt F) := after ops_c5 (val5 V0)
/-- The buffers this group writes. -/
abbrev ops_c5_W : List (Ref sig .tc) := [main_v32, main_v33, main_v34, main_cst_12, main_v35, main_cst_13, main_v36, main_v37, main_c_14, main_call4_v0, main_v38]
set_option maxRecDepth 8192 in
theorem ops_c5_writes : (ops_c5 : List (HloOp τ sig (Elt F))).Forall fun op => op.writes ⊆ (ops_c5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val6_keep (V0 : Valuation τ sig (Elt F)) (r : Ref sig .tc) (h : r ∉ ops_c5_W) :
    val6 V0 (Proc.devRef .tc r) = val5 V0 (Proc.devRef .tc r) :=
  after_of_writes_sub ops_c5 _ ops_c5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
set_option maxRecDepth 8192 in
set_option maxHeartbeats 2000000 in
/-- What the group leaves in its slab's buffer. -/
theorem val6_slab (V0 : Valuation τ sig (Elt F)) : val6 V0 (no_index (Proc.devRef .tc main_v38)) = res_slab5 V0 := by
  unfold val6
  simp only [ops_c5]
  after_results_simp
  simp only [val5_main_arg0, val5_main_arg1] <;> rfl

/-- The device's buffer contents after the first 7 groups. -/
def val7 (V0 : Valuation τ sig (Elt F)) : Valuation τ sig (Elt F) := after ops_c6 (val6 V0)
/-- The buffers this group writes. -/
abbrev ops_c6_W : List (Ref sig .tc) := [main_v39, main_v40, main_v41, main_cst_15, main_v42, main_cst_16, main_v43, main_v44, main_c_17, main_call5_v0, main_v45]
set_option maxRecDepth 8192 in
theorem ops_c6_writes : (ops_c6 : List (HloOp τ sig (Elt F))).Forall fun op => op.writes ⊆ (ops_c6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val7_keep (V0 : Valuation τ sig (Elt F)) (r : Ref sig .tc) (h : r ∉ ops_c6_W) :
    val7 V0 (Proc.devRef .tc r) = val6 V0 (Proc.devRef .tc r) :=
  after_of_writes_sub ops_c6 _ ops_c6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
set_option maxRecDepth 8192 in
set_option maxHeartbeats 2000000 in
/-- What the group leaves in its slab's buffer. -/
theorem val7_slab (V0 : Valuation τ sig (Elt F)) : val7 V0 (no_index (Proc.devRef .tc main_v45)) = res_slab6 V0 := by
  unfold val7
  simp only [ops_c6]
  after_results_simp
  simp only [val6_main_arg0, val6_main_arg1] <;> rfl

/-- The device's buffer contents after the first 8 groups. -/
def val8 (V0 : Valuation τ sig (Elt F)) : Valuation τ sig (Elt F) := after ops_c7 (val7 V0)
/-- The buffers this group writes. -/
abbrev ops_c7_W : List (Ref sig .tc) := [main_v46, main_v47, main_v48, main_cst_18, main_v49, main_cst_19, main_v50, main_v51, main_c_20, main_call6_v0, main_v52]
set_option maxRecDepth 8192 in
theorem ops_c7_writes : (ops_c7 : List (HloOp τ sig (Elt F))).Forall fun op => op.writes ⊆ (ops_c7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val8_keep (V0 : Valuation τ sig (Elt F)) (r : Ref sig .tc) (h : r ∉ ops_c7_W) :
    val8 V0 (Proc.devRef .tc r) = val7 V0 (Proc.devRef .tc r) :=
  after_of_writes_sub ops_c7 _ ops_c7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
set_option maxRecDepth 8192 in
set_option maxHeartbeats 2000000 in
/-- What the group leaves in its slab's buffer. -/
theorem val8_slab (V0 : Valuation τ sig (Elt F)) : val8 V0 (no_index (Proc.devRef .tc main_v52)) = res_slab7 V0 := by
  unfold val8
  simp only [ops_c7]
  after_results_simp
  simp only [val7_main_arg0, val7_main_arg1] <;> rfl

/-- The device's buffer contents after the first 9 groups. -/
def val9 (V0 : Valuation τ sig (Elt F)) : Valuation τ sig (Elt F) := after ops_c8 (val8 V0)
/-- The buffers this group writes. -/
abbrev ops_c8_W : List (Ref sig .tc) := [main_v53, main_v54, main_v55, main_cst_21, main_v56, main_cst_22, main_v57, main_v58, main_c_23, main_call7_v0, main_v59]
set_option maxRecDepth 8192 in
theorem ops_c8_writes : (ops_c8 : List (HloOp τ sig (Elt F))).Forall fun op => op.writes ⊆ (ops_c8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val9_keep (V0 : Valuation τ sig (Elt F)) (r : Ref sig .tc) (h : r ∉ ops_c8_W) :
    val9 V0 (Proc.devRef .tc r) = val8 V0 (Proc.devRef .tc r) :=
  after_of_writes_sub ops_c8 _ ops_c8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
set_option maxRecDepth 8192 in
set_option maxHeartbeats 2000000 in
/-- What the group leaves in its slab's buffer. -/
theorem val9_slab (V0 : Valuation τ sig (Elt F)) : val9 V0 (no_index (Proc.devRef .tc main_v59)) = res_slab8 V0 := by
  unfold val9
  simp only [ops_c8]
  after_results_simp
  simp only [val8_main_arg0, val8_main_arg1] <;> rfl

/-- The device's buffer contents after the first 10 groups. -/
def val10 (V0 : Valuation τ sig (Elt F)) : Valuation τ sig (Elt F) := after ops_c9 (val9 V0)
/-- The buffers this group writes. -/
abbrev ops_c9_W : List (Ref sig .tc) := [main_v60, main_v61, main_v62, main_cst_24, main_v63, main_cst_25, main_v64, main_v65, main_c_26, main_call8_v0, main_v66]
set_option maxRecDepth 8192 in
theorem ops_c9_writes : (ops_c9 : List (HloOp τ sig (Elt F))).Forall fun op => op.writes ⊆ (ops_c9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val10_keep (V0 : Valuation τ sig (Elt F)) (r : Ref sig .tc) (h : r ∉ ops_c9_W) :
    val10 V0 (Proc.devRef .tc r) = val9 V0 (Proc.devRef .tc r) :=
  after_of_writes_sub ops_c9 _ ops_c9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
set_option maxRecDepth 8192 in
set_option maxHeartbeats 2000000 in
/-- What the group leaves in its slab's buffer. -/
theorem val10_slab (V0 : Valuation τ sig (Elt F)) : val10 V0 (no_index (Proc.devRef .tc main_v66)) = res_slab9 V0 := by
  unfold val10
  simp only [ops_c9]
  after_results_simp
  simp only [val9_main_arg0, val9_main_arg1] <;> rfl

/-- The device's buffer contents after the first 11 groups. -/
def val11 (V0 : Valuation τ sig (Elt F)) : Valuation τ sig (Elt F) := after ops_c10 (val10 V0)
/-- The buffers this group writes. -/
abbrev ops_c10_W : List (Ref sig .tc) := [main_v67, main_v68, main_v69, main_cst_27, main_v70, main_cst_28, main_v71, main_v72, main_c_29, main_call9_v0, main_v73]
set_option maxRecDepth 8192 in
theorem ops_c10_writes : (ops_c10 : List (HloOp τ sig (Elt F))).Forall fun op => op.writes ⊆ (ops_c10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val11_keep (V0 : Valuation τ sig (Elt F)) (r : Ref sig .tc) (h : r ∉ ops_c10_W) :
    val11 V0 (Proc.devRef .tc r) = val10 V0 (Proc.devRef .tc r) :=
  after_of_writes_sub ops_c10 _ ops_c10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
set_option maxRecDepth 8192 in
set_option maxHeartbeats 2000000 in
/-- What the group leaves in its slab's buffer. -/
theorem val11_slab (V0 : Valuation τ sig (Elt F)) : val11 V0 (no_index (Proc.devRef .tc main_v73)) = res_slab10 V0 := by
  unfold val11
  simp only [ops_c10]
  after_results_simp
  simp only [val10_main_arg0, val10_main_arg1] <;> rfl

/-- The device's buffer contents after the first 12 groups. -/
def val12 (V0 : Valuation τ sig (Elt F)) : Valuation τ sig (Elt F) := after ops_c11 (val11 V0)
/-- The buffers this group writes. -/
abbrev ops_c11_W : List (Ref sig .tc) := [main_v74, main_v75, main_v76, main_cst_30, main_v77, main_cst_31, main_v78, main_v79, main_c_32, main_call10_v0, main_v80]
set_option maxRecDepth 8192 in
theorem ops_c11_writes : (ops_c11 : List (HloOp τ sig (Elt F))).Forall fun op => op.writes ⊆ (ops_c11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val12_keep (V0 : Valuation τ sig (Elt F)) (r : Ref sig .tc) (h : r ∉ ops_c11_W) :
    val12 V0 (Proc.devRef .tc r) = val11 V0 (Proc.devRef .tc r) :=
  after_of_writes_sub ops_c11 _ ops_c11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
set_option maxRecDepth 8192 in
set_option maxHeartbeats 2000000 in
/-- What the group leaves in its slab's buffer. -/
theorem val12_slab (V0 : Valuation τ sig (Elt F)) : val12 V0 (no_index (Proc.devRef .tc main_v80)) = res_slab11 V0 := by
  unfold val12
  simp only [ops_c11]
  after_results_simp
  simp only [val11_main_arg0, val11_main_arg1] <;> rfl

/-- The device's buffer contents after the first 13 groups. -/
def val13 (V0 : Valuation τ sig (Elt F)) : Valuation τ sig (Elt F) := after ops_c12 (val12 V0)
/-- The buffers this group writes. -/
abbrev ops_c12_W : List (Ref sig .tc) := [main_v81, main_v82, main_v83, main_cst_33, main_v84, main_cst_34, main_v85, main_v86, main_c_35, main_call11_v0, main_v87]
set_option maxRecDepth 8192 in
theorem ops_c12_writes : (ops_c12 : List (HloOp τ sig (Elt F))).Forall fun op => op.writes ⊆ (ops_c12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val13_keep (V0 : Valuation τ sig (Elt F)) (r : Ref sig .tc) (h : r ∉ ops_c12_W) :
    val13 V0 (Proc.devRef .tc r) = val12 V0 (Proc.devRef .tc r) :=
  after_of_writes_sub ops_c12 _ ops_c12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
set_option maxRecDepth 8192 in
set_option maxHeartbeats 2000000 in
/-- What the group leaves in its slab's buffer. -/
theorem val13_slab (V0 : Valuation τ sig (Elt F)) : val13 V0 (no_index (Proc.devRef .tc main_v87)) = res_slab12 V0 := by
  unfold val13
  simp only [ops_c12]
  after_results_simp
  simp only [val12_main_arg0, val12_main_arg1] <;> rfl

/-- The device's buffer contents after the first 14 groups. -/
def val14 (V0 : Valuation τ sig (Elt F)) : Valuation τ sig (Elt F) := after ops_c13 (val13 V0)
/-- The buffers this group writes. -/
abbrev ops_c13_W : List (Ref sig .tc) := [main_v88, main_v89, main_v90, main_cst_36, main_v91, main_cst_37, main_v92, main_v93, main_c_38, main_call12_v0, main_v94]
set_option maxRecDepth 8192 in
theorem ops_c13_writes : (ops_c13 : List (HloOp τ sig (Elt F))).Forall fun op => op.writes ⊆ (ops_c13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val14_keep (V0 : Valuation τ sig (Elt F)) (r : Ref sig .tc) (h : r ∉ ops_c13_W) :
    val14 V0 (Proc.devRef .tc r) = val13 V0 (Proc.devRef .tc r) :=
  after_of_writes_sub ops_c13 _ ops_c13_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
set_option maxRecDepth 8192 in
set_option maxHeartbeats 2000000 in
/-- What the group leaves in its slab's buffer. -/
theorem val14_slab (V0 : Valuation τ sig (Elt F)) : val14 V0 (no_index (Proc.devRef .tc main_v94)) = res_slab13 V0 := by
  unfold val14
  simp only [ops_c13]
  after_results_simp
  simp only [val13_main_arg0, val13_main_arg1] <;> rfl

/-- The device's buffer contents after the first 15 groups. -/
def val15 (V0 : Valuation τ sig (Elt F)) : Valuation τ sig (Elt F) := after ops_c14 (val14 V0)
/-- The buffers this group writes. -/
abbrev ops_c14_W : List (Ref sig .tc) := [main_v95, main_v96, main_v97, main_cst_39, main_v98, main_cst_40, main_v99, main_v100, main_c_41, main_call13_v0, main_v101]
set_option maxRecDepth 8192 in
theorem ops_c14_writes : (ops_c14 : List (HloOp τ sig (Elt F))).Forall fun op => op.writes ⊆ (ops_c14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val15_keep (V0 : Valuation τ sig (Elt F)) (r : Ref sig .tc) (h : r ∉ ops_c14_W) :
    val15 V0 (Proc.devRef .tc r) = val14 V0 (Proc.devRef .tc r) :=
  after_of_writes_sub ops_c14 _ ops_c14_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
set_option maxRecDepth 8192 in
set_option maxHeartbeats 2000000 in
/-- What the group leaves in its slab's buffer. -/
theorem val15_slab (V0 : Valuation τ sig (Elt F)) : val15 V0 (no_index (Proc.devRef .tc main_v101)) = res_slab14 V0 := by
  unfold val15
  simp only [ops_c14]
  after_results_simp
  simp only [val14_main_arg0, val14_main_arg1] <;> rfl

/-- The device's buffer contents after the first 16 groups. -/
def val16 (V0 : Valuation τ sig (Elt F)) : Valuation τ sig (Elt F) := after ops_c15 (val15 V0)
/-- The buffers this group writes. -/
abbrev ops_c15_W : List (Ref sig .tc) := [main_v102, main_v103, main_v104, main_cst_42, main_v105, main_cst_43, main_v106, main_v107, main_c_44, main_call14_v0, main_v108]
set_option maxRecDepth 8192 in
theorem ops_c15_writes : (ops_c15 : List (HloOp τ sig (Elt F))).Forall fun op => op.writes ⊆ (ops_c15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val16_keep (V0 : Valuation τ sig (Elt F)) (r : Ref sig .tc) (h : r ∉ ops_c15_W) :
    val16 V0 (Proc.devRef .tc r) = val15 V0 (Proc.devRef .tc r) :=
  after_of_writes_sub ops_c15 _ ops_c15_writes h
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
set_option maxRecDepth 8192 in
set_option maxHeartbeats 2000000 in
/-- What the group leaves in its slab's buffer. -/
theorem val16_slab (V0 : Valuation τ sig (Elt F)) : val16 V0 (no_index (Proc.devRef .tc main_v108)) = res_slab15 V0 := by
  unfold val16
  simp only [ops_c15]
  after_results_simp
  simp only [val15_main_arg0, val15_main_arg1] <;> rfl

/-- The device's buffer contents after the first 17 groups. -/
def val17 (V0 : Valuation τ sig (Elt F)) : Valuation τ sig (Elt F) := after ops_c16 (val16 V0)
/-- The buffers this group writes. -/
abbrev ops_c16_W : List (Ref sig .tc) := [main_v109, main_v110, main_v111, main_cst_45, main_v112, main_cst_46, main_v113, main_v114, main_c_47, main_call15_v0, main_v115]
set_option maxRecDepth 8192 in
theorem ops_c16_writes : (ops_c16 : List (HloOp τ sig (Elt F))).Forall fun op => op.writes ⊆ (ops_c16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val17_keep (V0 : Valuation τ sig (Elt F)) (r : Ref sig .tc) (h : r ∉ ops_c16_W) :
    val17 V0 (Proc.devRef .tc r) = val16 V0 (Proc.devRef .tc r) :=
  after_of_writes_sub ops_c16 _ ops_c16_writes h
theorem val17_main_arg0 (V0 : Valuation τ sig (Elt F)) : val17 V0 (no_index (Proc.devRef .tc main_arg0)) = V0 (Proc.devRef .tc main_arg0) :=
  (val17_keep V0 main_arg0 (by decide)).trans (val16_main_arg0 V0)
theorem val17_main_arg1 (V0 : Valuation τ sig (Elt F)) : val17 V0 (no_index (Proc.devRef .tc main_arg1)) = V0 (Proc.devRef .tc main_arg1) :=
  (val17_keep V0 main_arg1 (by decide)).trans (val16_main_arg1 V0)
set_option maxRecDepth 8192 in
set_option maxHeartbeats 2000000 in
/-- What the group leaves in its slab's buffer. -/
theorem val17_slab (V0 : Valuation τ sig (Elt F)) : val17 V0 (no_index (Proc.devRef .tc main_v115)) = res_slab16 V0 := by
  unfold val17
  simp only [ops_c16]
  after_results_simp
  simp only [val16_main_arg0, val16_main_arg1] <;> rfl

/-- The device's buffer contents after the first 18 groups. -/
def val18 (V0 : Valuation τ sig (Elt F)) : Valuation τ sig (Elt F) := after ops_c17 (val17 V0)
/-- The buffers this group writes. -/
abbrev ops_c17_W : List (Ref sig .tc) := [main_v116, main_v117, main_v118, main_cst_48, main_v119, main_cst_49, main_v120, main_v121, main_c_50, main_call16_v0, main_v122]
set_option maxRecDepth 8192 in
theorem ops_c17_writes : (ops_c17 : List (HloOp τ sig (Elt F))).Forall fun op => op.writes ⊆ (ops_c17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val18_keep (V0 : Valuation τ sig (Elt F)) (r : Ref sig .tc) (h : r ∉ ops_c17_W) :
    val18 V0 (Proc.devRef .tc r) = val17 V0 (Proc.devRef .tc r) :=
  after_of_writes_sub ops_c17 _ ops_c17_writes h
theorem val18_main_arg0 (V0 : Valuation τ sig (Elt F)) : val18 V0 (no_index (Proc.devRef .tc main_arg0)) = V0 (Proc.devRef .tc main_arg0) :=
  (val18_keep V0 main_arg0 (by decide)).trans (val17_main_arg0 V0)
theorem val18_main_arg1 (V0 : Valuation τ sig (Elt F)) : val18 V0 (no_index (Proc.devRef .tc main_arg1)) = V0 (Proc.devRef .tc main_arg1) :=
  (val18_keep V0 main_arg1 (by decide)).trans (val17_main_arg1 V0)
set_option maxRecDepth 8192 in
set_option maxHeartbeats 2000000 in
/-- What the group leaves in its slab's buffer. -/
theorem val18_slab (V0 : Valuation τ sig (Elt F)) : val18 V0 (no_index (Proc.devRef .tc main_v122)) = res_slab17 V0 := by
  unfold val18
  simp only [ops_c17]
  after_results_simp
  simp only [val17_main_arg0, val17_main_arg1] <;> rfl

/-- The device's buffer contents after the first 19 groups. -/
def val19 (V0 : Valuation τ sig (Elt F)) : Valuation τ sig (Elt F) := after ops_c18 (val18 V0)
/-- The buffers this group writes. -/
abbrev ops_c18_W : List (Ref sig .tc) := [main_v123, main_v124, main_v125, main_cst_51, main_v126, main_cst_52, main_v127, main_v128, main_c_53, main_call17_v0, main_v129]
set_option maxRecDepth 8192 in
theorem ops_c18_writes : (ops_c18 : List (HloOp τ sig (Elt F))).Forall fun op => op.writes ⊆ (ops_c18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val19_keep (V0 : Valuation τ sig (Elt F)) (r : Ref sig .tc) (h : r ∉ ops_c18_W) :
    val19 V0 (Proc.devRef .tc r) = val18 V0 (Proc.devRef .tc r) :=
  after_of_writes_sub ops_c18 _ ops_c18_writes h
theorem val19_main_arg0 (V0 : Valuation τ sig (Elt F)) : val19 V0 (no_index (Proc.devRef .tc main_arg0)) = V0 (Proc.devRef .tc main_arg0) :=
  (val19_keep V0 main_arg0 (by decide)).trans (val18_main_arg0 V0)
theorem val19_main_arg1 (V0 : Valuation τ sig (Elt F)) : val19 V0 (no_index (Proc.devRef .tc main_arg1)) = V0 (Proc.devRef .tc main_arg1) :=
  (val19_keep V0 main_arg1 (by decide)).trans (val18_main_arg1 V0)
set_option maxRecDepth 8192 in
set_option maxHeartbeats 2000000 in
/-- What the group leaves in its slab's buffer. -/
theorem val19_slab (V0 : Valuation τ sig (Elt F)) : val19 V0 (no_index (Proc.devRef .tc main_v129)) = res_slab18 V0 := by
  unfold val19
  simp only [ops_c18]
  after_results_simp
  simp only [val18_main_arg0, val18_main_arg1] <;> rfl

/-- The device's buffer contents after the first 20 groups. -/
def val20 (V0 : Valuation τ sig (Elt F)) : Valuation τ sig (Elt F) := after ops_c19 (val19 V0)
/-- The buffers this group writes. -/
abbrev ops_c19_W : List (Ref sig .tc) := [main_v130, main_v131, main_v132, main_cst_54, main_v133, main_cst_55, main_v134, main_v135, main_c_56, main_call18_v0, main_v136]
set_option maxRecDepth 8192 in
theorem ops_c19_writes : (ops_c19 : List (HloOp τ sig (Elt F))).Forall fun op => op.writes ⊆ (ops_c19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val20_keep (V0 : Valuation τ sig (Elt F)) (r : Ref sig .tc) (h : r ∉ ops_c19_W) :
    val20 V0 (Proc.devRef .tc r) = val19 V0 (Proc.devRef .tc r) :=
  after_of_writes_sub ops_c19 _ ops_c19_writes h
theorem val20_main_arg0 (V0 : Valuation τ sig (Elt F)) : val20 V0 (no_index (Proc.devRef .tc main_arg0)) = V0 (Proc.devRef .tc main_arg0) :=
  (val20_keep V0 main_arg0 (by decide)).trans (val19_main_arg0 V0)
theorem val20_main_arg1 (V0 : Valuation τ sig (Elt F)) : val20 V0 (no_index (Proc.devRef .tc main_arg1)) = V0 (Proc.devRef .tc main_arg1) :=
  (val20_keep V0 main_arg1 (by decide)).trans (val19_main_arg1 V0)
set_option maxRecDepth 8192 in
set_option maxHeartbeats 2000000 in
/-- What the group leaves in its slab's buffer. -/
theorem val20_slab (V0 : Valuation τ sig (Elt F)) : val20 V0 (no_index (Proc.devRef .tc main_v136)) = res_slab19 V0 := by
  unfold val20
  simp only [ops_c19]
  after_results_simp
  simp only [val19_main_arg0, val19_main_arg1] <;> rfl

/-- The device's buffer contents after the first 21 groups. -/
def val21 (V0 : Valuation τ sig (Elt F)) : Valuation τ sig (Elt F) := after ops_c20 (val20 V0)
/-- The buffers this group writes. -/
abbrev ops_c20_W : List (Ref sig .tc) := [main_v137, main_v138, main_v139, main_cst_57, main_v140, main_cst_58, main_v141, main_v142, main_c_59, main_call19_v0, main_v143]
set_option maxRecDepth 8192 in
theorem ops_c20_writes : (ops_c20 : List (HloOp τ sig (Elt F))).Forall fun op => op.writes ⊆ (ops_c20_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val21_keep (V0 : Valuation τ sig (Elt F)) (r : Ref sig .tc) (h : r ∉ ops_c20_W) :
    val21 V0 (Proc.devRef .tc r) = val20 V0 (Proc.devRef .tc r) :=
  after_of_writes_sub ops_c20 _ ops_c20_writes h
theorem val21_main_arg0 (V0 : Valuation τ sig (Elt F)) : val21 V0 (no_index (Proc.devRef .tc main_arg0)) = V0 (Proc.devRef .tc main_arg0) :=
  (val21_keep V0 main_arg0 (by decide)).trans (val20_main_arg0 V0)
theorem val21_main_arg1 (V0 : Valuation τ sig (Elt F)) : val21 V0 (no_index (Proc.devRef .tc main_arg1)) = V0 (Proc.devRef .tc main_arg1) :=
  (val21_keep V0 main_arg1 (by decide)).trans (val20_main_arg1 V0)
set_option maxRecDepth 8192 in
set_option maxHeartbeats 2000000 in
/-- What the group leaves in its slab's buffer. -/
theorem val21_slab (V0 : Valuation τ sig (Elt F)) : val21 V0 (no_index (Proc.devRef .tc main_v143)) = res_slab20 V0 := by
  unfold val21
  simp only [ops_c20]
  after_results_simp
  simp only [val20_main_arg0, val20_main_arg1] <;> rfl

/-- The device's buffer contents after the first 22 groups. -/
def val22 (V0 : Valuation τ sig (Elt F)) : Valuation τ sig (Elt F) := after ops_c21 (val21 V0)
/-- The buffers this group writes. -/
abbrev ops_c21_W : List (Ref sig .tc) := [main_v144, main_v145, main_v146, main_cst_60, main_v147, main_cst_61, main_v148, main_v149, main_c_62, main_call20_v0, main_v150]
set_option maxRecDepth 8192 in
theorem ops_c21_writes : (ops_c21 : List (HloOp τ sig (Elt F))).Forall fun op => op.writes ⊆ (ops_c21_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val22_keep (V0 : Valuation τ sig (Elt F)) (r : Ref sig .tc) (h : r ∉ ops_c21_W) :
    val22 V0 (Proc.devRef .tc r) = val21 V0 (Proc.devRef .tc r) :=
  after_of_writes_sub ops_c21 _ ops_c21_writes h
theorem val22_main_arg0 (V0 : Valuation τ sig (Elt F)) : val22 V0 (no_index (Proc.devRef .tc main_arg0)) = V0 (Proc.devRef .tc main_arg0) :=
  (val22_keep V0 main_arg0 (by decide)).trans (val21_main_arg0 V0)
theorem val22_main_arg1 (V0 : Valuation τ sig (Elt F)) : val22 V0 (no_index (Proc.devRef .tc main_arg1)) = V0 (Proc.devRef .tc main_arg1) :=
  (val22_keep V0 main_arg1 (by decide)).trans (val21_main_arg1 V0)
set_option maxRecDepth 8192 in
set_option maxHeartbeats 2000000 in
/-- What the group leaves in its slab's buffer. -/
theorem val22_slab (V0 : Valuation τ sig (Elt F)) : val22 V0 (no_index (Proc.devRef .tc main_v150)) = res_slab21 V0 := by
  unfold val22
  simp only [ops_c21]
  after_results_simp
  simp only [val21_main_arg0, val21_main_arg1] <;> rfl

/-- The device's buffer contents after the first 23 groups. -/
def val23 (V0 : Valuation τ sig (Elt F)) : Valuation τ sig (Elt F) := after ops_c22 (val22 V0)
/-- The buffers this group writes. -/
abbrev ops_c22_W : List (Ref sig .tc) := [main_v151, main_v152, main_v153, main_cst_63, main_v154, main_cst_64, main_v155, main_v156, main_c_65, main_call21_v0, main_v157]
set_option maxRecDepth 8192 in
theorem ops_c22_writes : (ops_c22 : List (HloOp τ sig (Elt F))).Forall fun op => op.writes ⊆ (ops_c22_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val23_keep (V0 : Valuation τ sig (Elt F)) (r : Ref sig .tc) (h : r ∉ ops_c22_W) :
    val23 V0 (Proc.devRef .tc r) = val22 V0 (Proc.devRef .tc r) :=
  after_of_writes_sub ops_c22 _ ops_c22_writes h
theorem val23_main_arg0 (V0 : Valuation τ sig (Elt F)) : val23 V0 (no_index (Proc.devRef .tc main_arg0)) = V0 (Proc.devRef .tc main_arg0) :=
  (val23_keep V0 main_arg0 (by decide)).trans (val22_main_arg0 V0)
theorem val23_main_arg1 (V0 : Valuation τ sig (Elt F)) : val23 V0 (no_index (Proc.devRef .tc main_arg1)) = V0 (Proc.devRef .tc main_arg1) :=
  (val23_keep V0 main_arg1 (by decide)).trans (val22_main_arg1 V0)
set_option maxRecDepth 8192 in
set_option maxHeartbeats 2000000 in
/-- What the group leaves in its slab's buffer. -/
theorem val23_slab (V0 : Valuation τ sig (Elt F)) : val23 V0 (no_index (Proc.devRef .tc main_v157)) = res_slab22 V0 := by
  unfold val23
  simp only [ops_c22]
  after_results_simp
  simp only [val22_main_arg0, val22_main_arg1] <;> rfl

/-- The device's buffer contents after the first 24 groups. -/
def val24 (V0 : Valuation τ sig (Elt F)) : Valuation τ sig (Elt F) := after ops_c23 (val23 V0)
/-- The buffers this group writes. -/
abbrev ops_c23_W : List (Ref sig .tc) := [main_v158, main_v159, main_v160, main_cst_66, main_v161, main_cst_67, main_v162, main_v163, main_c_68, main_call22_v0, main_v164]
set_option maxRecDepth 8192 in
theorem ops_c23_writes : (ops_c23 : List (HloOp τ sig (Elt F))).Forall fun op => op.writes ⊆ (ops_c23_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val24_keep (V0 : Valuation τ sig (Elt F)) (r : Ref sig .tc) (h : r ∉ ops_c23_W) :
    val24 V0 (Proc.devRef .tc r) = val23 V0 (Proc.devRef .tc r) :=
  after_of_writes_sub ops_c23 _ ops_c23_writes h
theorem val24_main_arg0 (V0 : Valuation τ sig (Elt F)) : val24 V0 (no_index (Proc.devRef .tc main_arg0)) = V0 (Proc.devRef .tc main_arg0) :=
  (val24_keep V0 main_arg0 (by decide)).trans (val23_main_arg0 V0)
theorem val24_main_arg1 (V0 : Valuation τ sig (Elt F)) : val24 V0 (no_index (Proc.devRef .tc main_arg1)) = V0 (Proc.devRef .tc main_arg1) :=
  (val24_keep V0 main_arg1 (by decide)).trans (val23_main_arg1 V0)
set_option maxRecDepth 8192 in
set_option maxHeartbeats 2000000 in
/-- What the group leaves in its slab's buffer. -/
theorem val24_slab (V0 : Valuation τ sig (Elt F)) : val24 V0 (no_index (Proc.devRef .tc main_v164)) = res_slab23 V0 := by
  unfold val24
  simp only [ops_c23]
  after_results_simp
  simp only [val23_main_arg0, val23_main_arg1] <;> rfl

/-- The device's buffer contents after the first 25 groups. -/
def val25 (V0 : Valuation τ sig (Elt F)) : Valuation τ sig (Elt F) := after ops_c24 (val24 V0)
/-- The buffers this group writes. -/
abbrev ops_c24_W : List (Ref sig .tc) := [main_v165, main_v166, main_v167, main_cst_69, main_v168, main_cst_70, main_v169, main_v170, main_c_71, main_call23_v0, main_v171]
set_option maxRecDepth 8192 in
theorem ops_c24_writes : (ops_c24 : List (HloOp τ sig (Elt F))).Forall fun op => op.writes ⊆ (ops_c24_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val25_keep (V0 : Valuation τ sig (Elt F)) (r : Ref sig .tc) (h : r ∉ ops_c24_W) :
    val25 V0 (Proc.devRef .tc r) = val24 V0 (Proc.devRef .tc r) :=
  after_of_writes_sub ops_c24 _ ops_c24_writes h
theorem val25_main_arg0 (V0 : Valuation τ sig (Elt F)) : val25 V0 (no_index (Proc.devRef .tc main_arg0)) = V0 (Proc.devRef .tc main_arg0) :=
  (val25_keep V0 main_arg0 (by decide)).trans (val24_main_arg0 V0)
theorem val25_main_arg1 (V0 : Valuation τ sig (Elt F)) : val25 V0 (no_index (Proc.devRef .tc main_arg1)) = V0 (Proc.devRef .tc main_arg1) :=
  (val25_keep V0 main_arg1 (by decide)).trans (val24_main_arg1 V0)
set_option maxRecDepth 8192 in
set_option maxHeartbeats 2000000 in
/-- What the group leaves in its slab's buffer. -/
theorem val25_slab (V0 : Valuation τ sig (Elt F)) : val25 V0 (no_index (Proc.devRef .tc main_v171)) = res_slab24 V0 := by
  unfold val25
  simp only [ops_c24]
  after_results_simp
  simp only [val24_main_arg0, val24_main_arg1] <;> rfl

/-- The device's buffer contents after the first 26 groups. -/
def val26 (V0 : Valuation τ sig (Elt F)) : Valuation τ sig (Elt F) := after ops_c25 (val25 V0)
/-- The buffers this group writes. -/
abbrev ops_c25_W : List (Ref sig .tc) := [main_v172, main_v173, main_v174, main_cst_72, main_v175, main_cst_73, main_v176, main_v177, main_c_74, main_call24_v0, main_v178]
set_option maxRecDepth 8192 in
theorem ops_c25_writes : (ops_c25 : List (HloOp τ sig (Elt F))).Forall fun op => op.writes ⊆ (ops_c25_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val26_keep (V0 : Valuation τ sig (Elt F)) (r : Ref sig .tc) (h : r ∉ ops_c25_W) :
    val26 V0 (Proc.devRef .tc r) = val25 V0 (Proc.devRef .tc r) :=
  after_of_writes_sub ops_c25 _ ops_c25_writes h
theorem val26_main_arg0 (V0 : Valuation τ sig (Elt F)) : val26 V0 (no_index (Proc.devRef .tc main_arg0)) = V0 (Proc.devRef .tc main_arg0) :=
  (val26_keep V0 main_arg0 (by decide)).trans (val25_main_arg0 V0)
theorem val26_main_arg1 (V0 : Valuation τ sig (Elt F)) : val26 V0 (no_index (Proc.devRef .tc main_arg1)) = V0 (Proc.devRef .tc main_arg1) :=
  (val26_keep V0 main_arg1 (by decide)).trans (val25_main_arg1 V0)
set_option maxRecDepth 8192 in
set_option maxHeartbeats 2000000 in
/-- What the group leaves in its slab's buffer. -/
theorem val26_slab (V0 : Valuation τ sig (Elt F)) : val26 V0 (no_index (Proc.devRef .tc main_v178)) = res_slab25 V0 := by
  unfold val26
  simp only [ops_c25]
  after_results_simp
  simp only [val25_main_arg0, val25_main_arg1] <;> rfl

/-- The device's buffer contents after the first 27 groups. -/
def val27 (V0 : Valuation τ sig (Elt F)) : Valuation τ sig (Elt F) := after ops_c26 (val26 V0)
/-- The buffers this group writes. -/
abbrev ops_c26_W : List (Ref sig .tc) := [main_v179, main_v180, main_v181, main_cst_75, main_v182, main_cst_76, main_v183, main_v184, main_c_77, main_call25_v0, main_v185]
set_option maxRecDepth 8192 in
theorem ops_c26_writes : (ops_c26 : List (HloOp τ sig (Elt F))).Forall fun op => op.writes ⊆ (ops_c26_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val27_keep (V0 : Valuation τ sig (Elt F)) (r : Ref sig .tc) (h : r ∉ ops_c26_W) :
    val27 V0 (Proc.devRef .tc r) = val26 V0 (Proc.devRef .tc r) :=
  after_of_writes_sub ops_c26 _ ops_c26_writes h
theorem val27_main_arg0 (V0 : Valuation τ sig (Elt F)) : val27 V0 (no_index (Proc.devRef .tc main_arg0)) = V0 (Proc.devRef .tc main_arg0) :=
  (val27_keep V0 main_arg0 (by decide)).trans (val26_main_arg0 V0)
theorem val27_main_arg1 (V0 : Valuation τ sig (Elt F)) : val27 V0 (no_index (Proc.devRef .tc main_arg1)) = V0 (Proc.devRef .tc main_arg1) :=
  (val27_keep V0 main_arg1 (by decide)).trans (val26_main_arg1 V0)
set_option maxRecDepth 8192 in
set_option maxHeartbeats 2000000 in
/-- What the group leaves in its slab's buffer. -/
theorem val27_slab (V0 : Valuation τ sig (Elt F)) : val27 V0 (no_index (Proc.devRef .tc main_v185)) = res_slab26 V0 := by
  unfold val27
  simp only [ops_c26]
  after_results_simp
  simp only [val26_main_arg0, val26_main_arg1] <;> rfl

/-- The device's buffer contents after the first 28 groups. -/
def val28 (V0 : Valuation τ sig (Elt F)) : Valuation τ sig (Elt F) := after ops_c27 (val27 V0)
/-- The buffers this group writes. -/
abbrev ops_c27_W : List (Ref sig .tc) := [main_v186, main_v187, main_v188, main_cst_78, main_v189, main_cst_79, main_v190, main_v191, main_c_80, main_call26_v0, main_v192]
set_option maxRecDepth 8192 in
theorem ops_c27_writes : (ops_c27 : List (HloOp τ sig (Elt F))).Forall fun op => op.writes ⊆ (ops_c27_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val28_keep (V0 : Valuation τ sig (Elt F)) (r : Ref sig .tc) (h : r ∉ ops_c27_W) :
    val28 V0 (Proc.devRef .tc r) = val27 V0 (Proc.devRef .tc r) :=
  after_of_writes_sub ops_c27 _ ops_c27_writes h
theorem val28_main_arg0 (V0 : Valuation τ sig (Elt F)) : val28 V0 (no_index (Proc.devRef .tc main_arg0)) = V0 (Proc.devRef .tc main_arg0) :=
  (val28_keep V0 main_arg0 (by decide)).trans (val27_main_arg0 V0)
theorem val28_main_arg1 (V0 : Valuation τ sig (Elt F)) : val28 V0 (no_index (Proc.devRef .tc main_arg1)) = V0 (Proc.devRef .tc main_arg1) :=
  (val28_keep V0 main_arg1 (by decide)).trans (val27_main_arg1 V0)
set_option maxRecDepth 8192 in
set_option maxHeartbeats 2000000 in
/-- What the group leaves in its slab's buffer. -/
theorem val28_slab (V0 : Valuation τ sig (Elt F)) : val28 V0 (no_index (Proc.devRef .tc main_v192)) = res_slab27 V0 := by
  unfold val28
  simp only [ops_c27]
  after_results_simp
  simp only [val27_main_arg0, val27_main_arg1] <;> rfl

/-- The device's buffer contents after the first 29 groups. -/
def val29 (V0 : Valuation τ sig (Elt F)) : Valuation τ sig (Elt F) := after ops_c28 (val28 V0)
/-- The buffers this group writes. -/
abbrev ops_c28_W : List (Ref sig .tc) := [main_v193, main_v194, main_v195, main_cst_81, main_v196, main_cst_82, main_v197, main_v198, main_c_83, main_call27_v0, main_v199]
set_option maxRecDepth 8192 in
theorem ops_c28_writes : (ops_c28 : List (HloOp τ sig (Elt F))).Forall fun op => op.writes ⊆ (ops_c28_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val29_keep (V0 : Valuation τ sig (Elt F)) (r : Ref sig .tc) (h : r ∉ ops_c28_W) :
    val29 V0 (Proc.devRef .tc r) = val28 V0 (Proc.devRef .tc r) :=
  after_of_writes_sub ops_c28 _ ops_c28_writes h
theorem val29_main_arg0 (V0 : Valuation τ sig (Elt F)) : val29 V0 (no_index (Proc.devRef .tc main_arg0)) = V0 (Proc.devRef .tc main_arg0) :=
  (val29_keep V0 main_arg0 (by decide)).trans (val28_main_arg0 V0)
theorem val29_main_arg1 (V0 : Valuation τ sig (Elt F)) : val29 V0 (no_index (Proc.devRef .tc main_arg1)) = V0 (Proc.devRef .tc main_arg1) :=
  (val29_keep V0 main_arg1 (by decide)).trans (val28_main_arg1 V0)
set_option maxRecDepth 8192 in
set_option maxHeartbeats 2000000 in
/-- What the group leaves in its slab's buffer. -/
theorem val29_slab (V0 : Valuation τ sig (Elt F)) : val29 V0 (no_index (Proc.devRef .tc main_v199)) = res_slab28 V0 := by
  unfold val29
  simp only [ops_c28]
  after_results_simp
  simp only [val28_main_arg0, val28_main_arg1] <;> rfl

/-- The device's buffer contents after the first 30 groups. -/
def val30 (V0 : Valuation τ sig (Elt F)) : Valuation τ sig (Elt F) := after ops_c29 (val29 V0)
/-- The buffers this group writes. -/
abbrev ops_c29_W : List (Ref sig .tc) := [main_v200, main_v201, main_v202, main_cst_84, main_v203, main_cst_85, main_v204, main_v205, main_c_86, main_call28_v0, main_v206]
set_option maxRecDepth 8192 in
theorem ops_c29_writes : (ops_c29 : List (HloOp τ sig (Elt F))).Forall fun op => op.writes ⊆ (ops_c29_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val30_keep (V0 : Valuation τ sig (Elt F)) (r : Ref sig .tc) (h : r ∉ ops_c29_W) :
    val30 V0 (Proc.devRef .tc r) = val29 V0 (Proc.devRef .tc r) :=
  after_of_writes_sub ops_c29 _ ops_c29_writes h
theorem val30_main_arg0 (V0 : Valuation τ sig (Elt F)) : val30 V0 (no_index (Proc.devRef .tc main_arg0)) = V0 (Proc.devRef .tc main_arg0) :=
  (val30_keep V0 main_arg0 (by decide)).trans (val29_main_arg0 V0)
theorem val30_main_arg1 (V0 : Valuation τ sig (Elt F)) : val30 V0 (no_index (Proc.devRef .tc main_arg1)) = V0 (Proc.devRef .tc main_arg1) :=
  (val30_keep V0 main_arg1 (by decide)).trans (val29_main_arg1 V0)
set_option maxRecDepth 8192 in
set_option maxHeartbeats 2000000 in
/-- What the group leaves in its slab's buffer. -/
theorem val30_slab (V0 : Valuation τ sig (Elt F)) : val30 V0 (no_index (Proc.devRef .tc main_v206)) = res_slab29 V0 := by
  unfold val30
  simp only [ops_c29]
  after_results_simp
  simp only [val29_main_arg0, val29_main_arg1] <;> rfl

/-- The device's buffer contents after the first 31 groups. -/
def val31 (V0 : Valuation τ sig (Elt F)) : Valuation τ sig (Elt F) := after ops_c30 (val30 V0)
/-- The buffers this group writes. -/
abbrev ops_c30_W : List (Ref sig .tc) := [main_v207, main_v208, main_v209, main_cst_87, main_v210, main_cst_88, main_v211, main_v212, main_c_89, main_call29_v0, main_v213]
set_option maxRecDepth 8192 in
theorem ops_c30_writes : (ops_c30 : List (HloOp τ sig (Elt F))).Forall fun op => op.writes ⊆ (ops_c30_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val31_keep (V0 : Valuation τ sig (Elt F)) (r : Ref sig .tc) (h : r ∉ ops_c30_W) :
    val31 V0 (Proc.devRef .tc r) = val30 V0 (Proc.devRef .tc r) :=
  after_of_writes_sub ops_c30 _ ops_c30_writes h
theorem val31_main_arg0 (V0 : Valuation τ sig (Elt F)) : val31 V0 (no_index (Proc.devRef .tc main_arg0)) = V0 (Proc.devRef .tc main_arg0) :=
  (val31_keep V0 main_arg0 (by decide)).trans (val30_main_arg0 V0)
theorem val31_main_arg1 (V0 : Valuation τ sig (Elt F)) : val31 V0 (no_index (Proc.devRef .tc main_arg1)) = V0 (Proc.devRef .tc main_arg1) :=
  (val31_keep V0 main_arg1 (by decide)).trans (val30_main_arg1 V0)
set_option maxRecDepth 8192 in
set_option maxHeartbeats 2000000 in
/-- What the group leaves in its slab's buffer. -/
theorem val31_slab (V0 : Valuation τ sig (Elt F)) : val31 V0 (no_index (Proc.devRef .tc main_v213)) = res_slab30 V0 := by
  unfold val31
  simp only [ops_c30]
  after_results_simp
  simp only [val30_main_arg0, val30_main_arg1] <;> rfl

/-- The device's buffer contents after the first 32 groups. -/
def val32 (V0 : Valuation τ sig (Elt F)) : Valuation τ sig (Elt F) := after ops_c31 (val31 V0)
/-- The buffers this group writes. -/
abbrev ops_c31_W : List (Ref sig .tc) := [main_v214, main_v215, main_v216, main_cst_90, main_v217, main_cst_91, main_v218, main_v219, main_c_92, main_call30_v0, main_v220]
set_option maxRecDepth 8192 in
theorem ops_c31_writes : (ops_c31 : List (HloOp τ sig (Elt F))).Forall fun op => op.writes ⊆ (ops_c31_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val32_keep (V0 : Valuation τ sig (Elt F)) (r : Ref sig .tc) (h : r ∉ ops_c31_W) :
    val32 V0 (Proc.devRef .tc r) = val31 V0 (Proc.devRef .tc r) :=
  after_of_writes_sub ops_c31 _ ops_c31_writes h
theorem val32_main_arg0 (V0 : Valuation τ sig (Elt F)) : val32 V0 (no_index (Proc.devRef .tc main_arg0)) = V0 (Proc.devRef .tc main_arg0) :=
  (val32_keep V0 main_arg0 (by decide)).trans (val31_main_arg0 V0)
theorem val32_main_arg1 (V0 : Valuation τ sig (Elt F)) : val32 V0 (no_index (Proc.devRef .tc main_arg1)) = V0 (Proc.devRef .tc main_arg1) :=
  (val32_keep V0 main_arg1 (by decide)).trans (val31_main_arg1 V0)
set_option maxRecDepth 8192 in
set_option maxHeartbeats 2000000 in
/-- What the group leaves in its slab's buffer. -/
theorem val32_slab (V0 : Valuation τ sig (Elt F)) : val32 V0 (no_index (Proc.devRef .tc main_v220)) = res_slab31 V0 := by
  unfold val32
  simp only [ops_c31]
  after_results_simp
  simp only [val31_main_arg0, val31_main_arg1] <;> rfl

/-- The device's buffer contents after the first 33 groups. -/
def val33 (V0 : Valuation τ sig (Elt F)) : Valuation τ sig (Elt F) := after ops_c32 (val32 V0)
/-- The buffers this group writes. -/
abbrev ops_c32_W : List (Ref sig .tc) := [main_v221, main_v222, main_v223, main_cst_93, main_v224, main_cst_94, main_v225, main_v226, main_c_95, main_call31_v0, main_v227]
set_option maxRecDepth 8192 in
theorem ops_c32_writes : (ops_c32 : List (HloOp τ sig (Elt F))).Forall fun op => op.writes ⊆ (ops_c32_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val33_keep (V0 : Valuation τ sig (Elt F)) (r : Ref sig .tc) (h : r ∉ ops_c32_W) :
    val33 V0 (Proc.devRef .tc r) = val32 V0 (Proc.devRef .tc r) :=
  after_of_writes_sub ops_c32 _ ops_c32_writes h
theorem val33_main_arg0 (V0 : Valuation τ sig (Elt F)) : val33 V0 (no_index (Proc.devRef .tc main_arg0)) = V0 (Proc.devRef .tc main_arg0) :=
  (val33_keep V0 main_arg0 (by decide)).trans (val32_main_arg0 V0)
theorem val33_main_arg1 (V0 : Valuation τ sig (Elt F)) : val33 V0 (no_index (Proc.devRef .tc main_arg1)) = V0 (Proc.devRef .tc main_arg1) :=
  (val33_keep V0 main_arg1 (by decide)).trans (val32_main_arg1 V0)
set_option maxRecDepth 8192 in
set_option maxHeartbeats 2000000 in
/-- What the group leaves in its slab's buffer. -/
theorem val33_slab (V0 : Valuation τ sig (Elt F)) : val33 V0 (no_index (Proc.devRef .tc main_v227)) = res_slab32 V0 := by
  unfold val33
  simp only [ops_c32]
  after_results_simp
  simp only [val32_main_arg0, val32_main_arg1] <;> rfl

/-- The device's buffer contents after the first 34 groups. -/
def val34 (V0 : Valuation τ sig (Elt F)) : Valuation τ sig (Elt F) := after ops_c33 (val33 V0)
/-- The buffers this group writes. -/
abbrev ops_c33_W : List (Ref sig .tc) := [main_v228, main_v229, main_v230, main_cst_96, main_v231, main_cst_97, main_v232, main_v233, main_c_98, main_call32_v0, main_v234]
set_option maxRecDepth 8192 in
theorem ops_c33_writes : (ops_c33 : List (HloOp τ sig (Elt F))).Forall fun op => op.writes ⊆ (ops_c33_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val34_keep (V0 : Valuation τ sig (Elt F)) (r : Ref sig .tc) (h : r ∉ ops_c33_W) :
    val34 V0 (Proc.devRef .tc r) = val33 V0 (Proc.devRef .tc r) :=
  after_of_writes_sub ops_c33 _ ops_c33_writes h
theorem val34_main_arg0 (V0 : Valuation τ sig (Elt F)) : val34 V0 (no_index (Proc.devRef .tc main_arg0)) = V0 (Proc.devRef .tc main_arg0) :=
  (val34_keep V0 main_arg0 (by decide)).trans (val33_main_arg0 V0)
theorem val34_main_arg1 (V0 : Valuation τ sig (Elt F)) : val34 V0 (no_index (Proc.devRef .tc main_arg1)) = V0 (Proc.devRef .tc main_arg1) :=
  (val34_keep V0 main_arg1 (by decide)).trans (val33_main_arg1 V0)
set_option maxRecDepth 8192 in
set_option maxHeartbeats 2000000 in
/-- What the group leaves in its slab's buffer. -/
theorem val34_slab (V0 : Valuation τ sig (Elt F)) : val34 V0 (no_index (Proc.devRef .tc main_v234)) = res_slab33 V0 := by
  unfold val34
  simp only [ops_c33]
  after_results_simp
  simp only [val33_main_arg0, val33_main_arg1] <;> rfl

/-- The device's buffer contents after the first 35 groups. -/
def val35 (V0 : Valuation τ sig (Elt F)) : Valuation τ sig (Elt F) := after ops_c34 (val34 V0)
/-- The buffers this group writes. -/
abbrev ops_c34_W : List (Ref sig .tc) := [main_v235, main_v236, main_v237, main_cst_99, main_v238, main_cst_100, main_v239, main_v240, main_c_101, main_call33_v0, main_v241]
set_option maxRecDepth 8192 in
theorem ops_c34_writes : (ops_c34 : List (HloOp τ sig (Elt F))).Forall fun op => op.writes ⊆ (ops_c34_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val35_keep (V0 : Valuation τ sig (Elt F)) (r : Ref sig .tc) (h : r ∉ ops_c34_W) :
    val35 V0 (Proc.devRef .tc r) = val34 V0 (Proc.devRef .tc r) :=
  after_of_writes_sub ops_c34 _ ops_c34_writes h
theorem val35_main_arg0 (V0 : Valuation τ sig (Elt F)) : val35 V0 (no_index (Proc.devRef .tc main_arg0)) = V0 (Proc.devRef .tc main_arg0) :=
  (val35_keep V0 main_arg0 (by decide)).trans (val34_main_arg0 V0)
theorem val35_main_arg1 (V0 : Valuation τ sig (Elt F)) : val35 V0 (no_index (Proc.devRef .tc main_arg1)) = V0 (Proc.devRef .tc main_arg1) :=
  (val35_keep V0 main_arg1 (by decide)).trans (val34_main_arg1 V0)
set_option maxRecDepth 8192 in
set_option maxHeartbeats 2000000 in
/-- What the group leaves in its slab's buffer. -/
theorem val35_slab (V0 : Valuation τ sig (Elt F)) : val35 V0 (no_index (Proc.devRef .tc main_v241)) = res_slab34 V0 := by
  unfold val35
  simp only [ops_c34]
  after_results_simp
  simp only [val34_main_arg0, val34_main_arg1] <;> rfl

/-- The device's buffer contents after the first 36 groups. -/
def val36 (V0 : Valuation τ sig (Elt F)) : Valuation τ sig (Elt F) := after ops_c35 (val35 V0)
/-- The buffers this group writes. -/
abbrev ops_c35_W : List (Ref sig .tc) := [main_v242, main_v243, main_v244, main_cst_102, main_v245, main_cst_103, main_v246, main_v247, main_c_104, main_call34_v0, main_v248]
set_option maxRecDepth 8192 in
theorem ops_c35_writes : (ops_c35 : List (HloOp τ sig (Elt F))).Forall fun op => op.writes ⊆ (ops_c35_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val36_keep (V0 : Valuation τ sig (Elt F)) (r : Ref sig .tc) (h : r ∉ ops_c35_W) :
    val36 V0 (Proc.devRef .tc r) = val35 V0 (Proc.devRef .tc r) :=
  after_of_writes_sub ops_c35 _ ops_c35_writes h
theorem val36_main_arg0 (V0 : Valuation τ sig (Elt F)) : val36 V0 (no_index (Proc.devRef .tc main_arg0)) = V0 (Proc.devRef .tc main_arg0) :=
  (val36_keep V0 main_arg0 (by decide)).trans (val35_main_arg0 V0)
theorem val36_main_arg1 (V0 : Valuation τ sig (Elt F)) : val36 V0 (no_index (Proc.devRef .tc main_arg1)) = V0 (Proc.devRef .tc main_arg1) :=
  (val36_keep V0 main_arg1 (by decide)).trans (val35_main_arg1 V0)
set_option maxRecDepth 8192 in
set_option maxHeartbeats 2000000 in
/-- What the group leaves in its slab's buffer. -/
theorem val36_slab (V0 : Valuation τ sig (Elt F)) : val36 V0 (no_index (Proc.devRef .tc main_v248)) = res_slab35 V0 := by
  unfold val36
  simp only [ops_c35]
  after_results_simp
  simp only [val35_main_arg0, val35_main_arg1] <;> rfl

/-- The device's buffer contents after the first 37 groups. -/
def val37 (V0 : Valuation τ sig (Elt F)) : Valuation τ sig (Elt F) := after ops_c36 (val36 V0)
/-- The buffers this group writes. -/
abbrev ops_c36_W : List (Ref sig .tc) := [main_v249, main_v250, main_v251, main_cst_105, main_v252, main_cst_106, main_v253, main_v254, main_c_107, main_call35_v0, main_v255]
set_option maxRecDepth 8192 in
theorem ops_c36_writes : (ops_c36 : List (HloOp τ sig (Elt F))).Forall fun op => op.writes ⊆ (ops_c36_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val37_keep (V0 : Valuation τ sig (Elt F)) (r : Ref sig .tc) (h : r ∉ ops_c36_W) :
    val37 V0 (Proc.devRef .tc r) = val36 V0 (Proc.devRef .tc r) :=
  after_of_writes_sub ops_c36 _ ops_c36_writes h
theorem val37_main_arg0 (V0 : Valuation τ sig (Elt F)) : val37 V0 (no_index (Proc.devRef .tc main_arg0)) = V0 (Proc.devRef .tc main_arg0) :=
  (val37_keep V0 main_arg0 (by decide)).trans (val36_main_arg0 V0)
theorem val37_main_arg1 (V0 : Valuation τ sig (Elt F)) : val37 V0 (no_index (Proc.devRef .tc main_arg1)) = V0 (Proc.devRef .tc main_arg1) :=
  (val37_keep V0 main_arg1 (by decide)).trans (val36_main_arg1 V0)
set_option maxRecDepth 8192 in
set_option maxHeartbeats 2000000 in
/-- What the group leaves in its slab's buffer. -/
theorem val37_slab (V0 : Valuation τ sig (Elt F)) : val37 V0 (no_index (Proc.devRef .tc main_v255)) = res_slab36 V0 := by
  unfold val37
  simp only [ops_c36]
  after_results_simp
  simp only [val36_main_arg0, val36_main_arg1] <;> rfl

/-- The device's buffer contents after the first 38 groups. -/
def val38 (V0 : Valuation τ sig (Elt F)) : Valuation τ sig (Elt F) := after ops_c37 (val37 V0)
/-- The buffers this group writes. -/
abbrev ops_c37_W : List (Ref sig .tc) := [main_v256, main_v257, main_v258, main_cst_108, main_v259, main_cst_109, main_v260, main_v261, main_c_110, main_call36_v0, main_v262]
set_option maxRecDepth 8192 in
theorem ops_c37_writes : (ops_c37 : List (HloOp τ sig (Elt F))).Forall fun op => op.writes ⊆ (ops_c37_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val38_keep (V0 : Valuation τ sig (Elt F)) (r : Ref sig .tc) (h : r ∉ ops_c37_W) :
    val38 V0 (Proc.devRef .tc r) = val37 V0 (Proc.devRef .tc r) :=
  after_of_writes_sub ops_c37 _ ops_c37_writes h
theorem val38_main_arg0 (V0 : Valuation τ sig (Elt F)) : val38 V0 (no_index (Proc.devRef .tc main_arg0)) = V0 (Proc.devRef .tc main_arg0) :=
  (val38_keep V0 main_arg0 (by decide)).trans (val37_main_arg0 V0)
theorem val38_main_arg1 (V0 : Valuation τ sig (Elt F)) : val38 V0 (no_index (Proc.devRef .tc main_arg1)) = V0 (Proc.devRef .tc main_arg1) :=
  (val38_keep V0 main_arg1 (by decide)).trans (val37_main_arg1 V0)
set_option maxRecDepth 8192 in
set_option maxHeartbeats 2000000 in
/-- What the group leaves in its slab's buffer. -/
theorem val38_slab (V0 : Valuation τ sig (Elt F)) : val38 V0 (no_index (Proc.devRef .tc main_v262)) = res_slab37 V0 := by
  unfold val38
  simp only [ops_c37]
  after_results_simp
  simp only [val37_main_arg0, val37_main_arg1] <;> rfl

/-- The device's buffer contents after the first 39 groups. -/
def val39 (V0 : Valuation τ sig (Elt F)) : Valuation τ sig (Elt F) := after ops_c38 (val38 V0)
/-- The buffers this group writes. -/
abbrev ops_c38_W : List (Ref sig .tc) := [main_v263, main_v264, main_v265, main_cst_111, main_v266, main_cst_112, main_v267, main_v268, main_c_113, main_call37_v0, main_v269]
set_option maxRecDepth 8192 in
theorem ops_c38_writes : (ops_c38 : List (HloOp τ sig (Elt F))).Forall fun op => op.writes ⊆ (ops_c38_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val39_keep (V0 : Valuation τ sig (Elt F)) (r : Ref sig .tc) (h : r ∉ ops_c38_W) :
    val39 V0 (Proc.devRef .tc r) = val38 V0 (Proc.devRef .tc r) :=
  after_of_writes_sub ops_c38 _ ops_c38_writes h
theorem val39_main_arg0 (V0 : Valuation τ sig (Elt F)) : val39 V0 (no_index (Proc.devRef .tc main_arg0)) = V0 (Proc.devRef .tc main_arg0) :=
  (val39_keep V0 main_arg0 (by decide)).trans (val38_main_arg0 V0)
theorem val39_main_arg1 (V0 : Valuation τ sig (Elt F)) : val39 V0 (no_index (Proc.devRef .tc main_arg1)) = V0 (Proc.devRef .tc main_arg1) :=
  (val39_keep V0 main_arg1 (by decide)).trans (val38_main_arg1 V0)
set_option maxRecDepth 8192 in
set_option maxHeartbeats 2000000 in
/-- What the group leaves in its slab's buffer. -/
theorem val39_slab (V0 : Valuation τ sig (Elt F)) : val39 V0 (no_index (Proc.devRef .tc main_v269)) = res_slab38 V0 := by
  unfold val39
  simp only [ops_c38]
  after_results_simp
  simp only [val38_main_arg0, val38_main_arg1] <;> rfl

/-- The device's buffer contents after the first 40 groups. -/
def val40 (V0 : Valuation τ sig (Elt F)) : Valuation τ sig (Elt F) := after ops_c39 (val39 V0)
/-- The buffers this group writes. -/
abbrev ops_c39_W : List (Ref sig .tc) := [main_v270, main_v271, main_v272, main_cst_114, main_v273, main_cst_115, main_v274, main_v275, main_c_116, main_call38_v0, main_v276]
set_option maxRecDepth 8192 in
theorem ops_c39_writes : (ops_c39 : List (HloOp τ sig (Elt F))).Forall fun op => op.writes ⊆ (ops_c39_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val40_keep (V0 : Valuation τ sig (Elt F)) (r : Ref sig .tc) (h : r ∉ ops_c39_W) :
    val40 V0 (Proc.devRef .tc r) = val39 V0 (Proc.devRef .tc r) :=
  after_of_writes_sub ops_c39 _ ops_c39_writes h
theorem val40_main_arg0 (V0 : Valuation τ sig (Elt F)) : val40 V0 (no_index (Proc.devRef .tc main_arg0)) = V0 (Proc.devRef .tc main_arg0) :=
  (val40_keep V0 main_arg0 (by decide)).trans (val39_main_arg0 V0)
theorem val40_main_arg1 (V0 : Valuation τ sig (Elt F)) : val40 V0 (no_index (Proc.devRef .tc main_arg1)) = V0 (Proc.devRef .tc main_arg1) :=
  (val40_keep V0 main_arg1 (by decide)).trans (val39_main_arg1 V0)
set_option maxRecDepth 8192 in
set_option maxHeartbeats 2000000 in
/-- What the group leaves in its slab's buffer. -/
theorem val40_slab (V0 : Valuation τ sig (Elt F)) : val40 V0 (no_index (Proc.devRef .tc main_v276)) = res_slab39 V0 := by
  unfold val40
  simp only [ops_c39]
  after_results_simp
  simp only [val39_main_arg0, val39_main_arg1] <;> rfl

/-- The device's buffer contents after the first 41 groups. -/
def val41 (V0 : Valuation τ sig (Elt F)) : Valuation τ sig (Elt F) := after ops_c40 (val40 V0)
/-- The buffers this group writes. -/
abbrev ops_c40_W : List (Ref sig .tc) := [main_v277, main_v278, main_v279, main_cst_117, main_v280, main_cst_118, main_v281, main_v282, main_c_119, main_call39_v0, main_v283]
set_option maxRecDepth 8192 in
theorem ops_c40_writes : (ops_c40 : List (HloOp τ sig (Elt F))).Forall fun op => op.writes ⊆ (ops_c40_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val41_keep (V0 : Valuation τ sig (Elt F)) (r : Ref sig .tc) (h : r ∉ ops_c40_W) :
    val41 V0 (Proc.devRef .tc r) = val40 V0 (Proc.devRef .tc r) :=
  after_of_writes_sub ops_c40 _ ops_c40_writes h
theorem val41_main_arg0 (V0 : Valuation τ sig (Elt F)) : val41 V0 (no_index (Proc.devRef .tc main_arg0)) = V0 (Proc.devRef .tc main_arg0) :=
  (val41_keep V0 main_arg0 (by decide)).trans (val40_main_arg0 V0)
theorem val41_main_arg1 (V0 : Valuation τ sig (Elt F)) : val41 V0 (no_index (Proc.devRef .tc main_arg1)) = V0 (Proc.devRef .tc main_arg1) :=
  (val41_keep V0 main_arg1 (by decide)).trans (val40_main_arg1 V0)
set_option maxRecDepth 8192 in
set_option maxHeartbeats 2000000 in
/-- What the group leaves in its slab's buffer. -/
theorem val41_slab (V0 : Valuation τ sig (Elt F)) : val41 V0 (no_index (Proc.devRef .tc main_v283)) = res_slab40 V0 := by
  unfold val41
  simp only [ops_c40]
  after_results_simp
  simp only [val40_main_arg0, val40_main_arg1] <;> rfl

/-- The device's buffer contents after the first 42 groups. -/
def val42 (V0 : Valuation τ sig (Elt F)) : Valuation τ sig (Elt F) := after ops_c41 (val41 V0)
/-- The buffers this group writes. -/
abbrev ops_c41_W : List (Ref sig .tc) := [main_v284, main_v285, main_v286, main_cst_120, main_v287, main_cst_121, main_v288, main_v289, main_c_122, main_call40_v0, main_v290]
set_option maxRecDepth 8192 in
theorem ops_c41_writes : (ops_c41 : List (HloOp τ sig (Elt F))).Forall fun op => op.writes ⊆ (ops_c41_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val42_keep (V0 : Valuation τ sig (Elt F)) (r : Ref sig .tc) (h : r ∉ ops_c41_W) :
    val42 V0 (Proc.devRef .tc r) = val41 V0 (Proc.devRef .tc r) :=
  after_of_writes_sub ops_c41 _ ops_c41_writes h
theorem val42_main_arg0 (V0 : Valuation τ sig (Elt F)) : val42 V0 (no_index (Proc.devRef .tc main_arg0)) = V0 (Proc.devRef .tc main_arg0) :=
  (val42_keep V0 main_arg0 (by decide)).trans (val41_main_arg0 V0)
theorem val42_main_arg1 (V0 : Valuation τ sig (Elt F)) : val42 V0 (no_index (Proc.devRef .tc main_arg1)) = V0 (Proc.devRef .tc main_arg1) :=
  (val42_keep V0 main_arg1 (by decide)).trans (val41_main_arg1 V0)
set_option maxRecDepth 8192 in
set_option maxHeartbeats 2000000 in
/-- What the group leaves in its slab's buffer. -/
theorem val42_slab (V0 : Valuation τ sig (Elt F)) : val42 V0 (no_index (Proc.devRef .tc main_v290)) = res_slab41 V0 := by
  unfold val42
  simp only [ops_c41]
  after_results_simp
  simp only [val41_main_arg0, val41_main_arg1] <;> rfl

/-- The device's buffer contents after the first 43 groups. -/
def val43 (V0 : Valuation τ sig (Elt F)) : Valuation τ sig (Elt F) := after ops_c42 (val42 V0)
/-- The buffers this group writes. -/
abbrev ops_c42_W : List (Ref sig .tc) := [main_v291, main_v292, main_v293, main_cst_123, main_v294, main_cst_124, main_v295, main_v296, main_c_125, main_call41_v0, main_v297]
set_option maxRecDepth 8192 in
theorem ops_c42_writes : (ops_c42 : List (HloOp τ sig (Elt F))).Forall fun op => op.writes ⊆ (ops_c42_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val43_keep (V0 : Valuation τ sig (Elt F)) (r : Ref sig .tc) (h : r ∉ ops_c42_W) :
    val43 V0 (Proc.devRef .tc r) = val42 V0 (Proc.devRef .tc r) :=
  after_of_writes_sub ops_c42 _ ops_c42_writes h
theorem val43_main_arg0 (V0 : Valuation τ sig (Elt F)) : val43 V0 (no_index (Proc.devRef .tc main_arg0)) = V0 (Proc.devRef .tc main_arg0) :=
  (val43_keep V0 main_arg0 (by decide)).trans (val42_main_arg0 V0)
theorem val43_main_arg1 (V0 : Valuation τ sig (Elt F)) : val43 V0 (no_index (Proc.devRef .tc main_arg1)) = V0 (Proc.devRef .tc main_arg1) :=
  (val43_keep V0 main_arg1 (by decide)).trans (val42_main_arg1 V0)
set_option maxRecDepth 8192 in
set_option maxHeartbeats 2000000 in
/-- What the group leaves in its slab's buffer. -/
theorem val43_slab (V0 : Valuation τ sig (Elt F)) : val43 V0 (no_index (Proc.devRef .tc main_v297)) = res_slab42 V0 := by
  unfold val43
  simp only [ops_c42]
  after_results_simp
  simp only [val42_main_arg0, val42_main_arg1] <;> rfl

/-- The device's buffer contents after the first 44 groups. -/
def val44 (V0 : Valuation τ sig (Elt F)) : Valuation τ sig (Elt F) := after ops_c43 (val43 V0)
/-- The buffers this group writes. -/
abbrev ops_c43_W : List (Ref sig .tc) := [main_v298, main_v299, main_v300, main_cst_126, main_v301, main_cst_127, main_v302, main_v303, main_c_128, main_call42_v0, main_v304]
set_option maxRecDepth 8192 in
theorem ops_c43_writes : (ops_c43 : List (HloOp τ sig (Elt F))).Forall fun op => op.writes ⊆ (ops_c43_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val44_keep (V0 : Valuation τ sig (Elt F)) (r : Ref sig .tc) (h : r ∉ ops_c43_W) :
    val44 V0 (Proc.devRef .tc r) = val43 V0 (Proc.devRef .tc r) :=
  after_of_writes_sub ops_c43 _ ops_c43_writes h
theorem val44_main_arg0 (V0 : Valuation τ sig (Elt F)) : val44 V0 (no_index (Proc.devRef .tc main_arg0)) = V0 (Proc.devRef .tc main_arg0) :=
  (val44_keep V0 main_arg0 (by decide)).trans (val43_main_arg0 V0)
theorem val44_main_arg1 (V0 : Valuation τ sig (Elt F)) : val44 V0 (no_index (Proc.devRef .tc main_arg1)) = V0 (Proc.devRef .tc main_arg1) :=
  (val44_keep V0 main_arg1 (by decide)).trans (val43_main_arg1 V0)
set_option maxRecDepth 8192 in
set_option maxHeartbeats 2000000 in
/-- What the group leaves in its slab's buffer. -/
theorem val44_slab (V0 : Valuation τ sig (Elt F)) : val44 V0 (no_index (Proc.devRef .tc main_v304)) = res_slab43 V0 := by
  unfold val44
  simp only [ops_c43]
  after_results_simp
  simp only [val43_main_arg0, val43_main_arg1] <;> rfl

/-- The device's buffer contents after the first 45 groups. -/
def val45 (V0 : Valuation τ sig (Elt F)) : Valuation τ sig (Elt F) := after ops_c44 (val44 V0)
/-- The buffers this group writes. -/
abbrev ops_c44_W : List (Ref sig .tc) := [main_v305, main_v306, main_v307, main_cst_129, main_v308, main_cst_130, main_v309, main_v310, main_c_131, main_call43_v0, main_v311]
set_option maxRecDepth 8192 in
theorem ops_c44_writes : (ops_c44 : List (HloOp τ sig (Elt F))).Forall fun op => op.writes ⊆ (ops_c44_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val45_keep (V0 : Valuation τ sig (Elt F)) (r : Ref sig .tc) (h : r ∉ ops_c44_W) :
    val45 V0 (Proc.devRef .tc r) = val44 V0 (Proc.devRef .tc r) :=
  after_of_writes_sub ops_c44 _ ops_c44_writes h
theorem val45_main_arg0 (V0 : Valuation τ sig (Elt F)) : val45 V0 (no_index (Proc.devRef .tc main_arg0)) = V0 (Proc.devRef .tc main_arg0) :=
  (val45_keep V0 main_arg0 (by decide)).trans (val44_main_arg0 V0)
theorem val45_main_arg1 (V0 : Valuation τ sig (Elt F)) : val45 V0 (no_index (Proc.devRef .tc main_arg1)) = V0 (Proc.devRef .tc main_arg1) :=
  (val45_keep V0 main_arg1 (by decide)).trans (val44_main_arg1 V0)
set_option maxRecDepth 8192 in
set_option maxHeartbeats 2000000 in
/-- What the group leaves in its slab's buffer. -/
theorem val45_slab (V0 : Valuation τ sig (Elt F)) : val45 V0 (no_index (Proc.devRef .tc main_v311)) = res_slab44 V0 := by
  unfold val45
  simp only [ops_c44]
  after_results_simp
  simp only [val44_main_arg0, val44_main_arg1] <;> rfl

/-- The device's buffer contents after the first 46 groups. -/
def val46 (V0 : Valuation τ sig (Elt F)) : Valuation τ sig (Elt F) := after ops_c45 (val45 V0)
/-- The buffers this group writes. -/
abbrev ops_c45_W : List (Ref sig .tc) := [main_v312, main_v313, main_v314, main_cst_132, main_v315, main_cst_133, main_v316, main_v317, main_c_134, main_call44_v0, main_v318]
set_option maxRecDepth 8192 in
theorem ops_c45_writes : (ops_c45 : List (HloOp τ sig (Elt F))).Forall fun op => op.writes ⊆ (ops_c45_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val46_keep (V0 : Valuation τ sig (Elt F)) (r : Ref sig .tc) (h : r ∉ ops_c45_W) :
    val46 V0 (Proc.devRef .tc r) = val45 V0 (Proc.devRef .tc r) :=
  after_of_writes_sub ops_c45 _ ops_c45_writes h
theorem val46_main_arg0 (V0 : Valuation τ sig (Elt F)) : val46 V0 (no_index (Proc.devRef .tc main_arg0)) = V0 (Proc.devRef .tc main_arg0) :=
  (val46_keep V0 main_arg0 (by decide)).trans (val45_main_arg0 V0)
theorem val46_main_arg1 (V0 : Valuation τ sig (Elt F)) : val46 V0 (no_index (Proc.devRef .tc main_arg1)) = V0 (Proc.devRef .tc main_arg1) :=
  (val46_keep V0 main_arg1 (by decide)).trans (val45_main_arg1 V0)
set_option maxRecDepth 8192 in
set_option maxHeartbeats 2000000 in
/-- What the group leaves in its slab's buffer. -/
theorem val46_slab (V0 : Valuation τ sig (Elt F)) : val46 V0 (no_index (Proc.devRef .tc main_v318)) = res_slab45 V0 := by
  unfold val46
  simp only [ops_c45]
  after_results_simp
  simp only [val45_main_arg0, val45_main_arg1] <;> rfl

/-- The device's buffer contents after the first 47 groups. -/
def val47 (V0 : Valuation τ sig (Elt F)) : Valuation τ sig (Elt F) := after ops_c46 (val46 V0)
/-- The buffers this group writes. -/
abbrev ops_c46_W : List (Ref sig .tc) := [main_v319, main_v320, main_v321, main_cst_135, main_v322, main_cst_136, main_v323, main_v324, main_c_137, main_call45_v0, main_v325]
set_option maxRecDepth 8192 in
theorem ops_c46_writes : (ops_c46 : List (HloOp τ sig (Elt F))).Forall fun op => op.writes ⊆ (ops_c46_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val47_keep (V0 : Valuation τ sig (Elt F)) (r : Ref sig .tc) (h : r ∉ ops_c46_W) :
    val47 V0 (Proc.devRef .tc r) = val46 V0 (Proc.devRef .tc r) :=
  after_of_writes_sub ops_c46 _ ops_c46_writes h
theorem val47_main_arg0 (V0 : Valuation τ sig (Elt F)) : val47 V0 (no_index (Proc.devRef .tc main_arg0)) = V0 (Proc.devRef .tc main_arg0) :=
  (val47_keep V0 main_arg0 (by decide)).trans (val46_main_arg0 V0)
theorem val47_main_arg1 (V0 : Valuation τ sig (Elt F)) : val47 V0 (no_index (Proc.devRef .tc main_arg1)) = V0 (Proc.devRef .tc main_arg1) :=
  (val47_keep V0 main_arg1 (by decide)).trans (val46_main_arg1 V0)
set_option maxRecDepth 8192 in
set_option maxHeartbeats 2000000 in
/-- What the group leaves in its slab's buffer. -/
theorem val47_slab (V0 : Valuation τ sig (Elt F)) : val47 V0 (no_index (Proc.devRef .tc main_v325)) = res_slab46 V0 := by
  unfold val47
  simp only [ops_c46]
  after_results_simp
  simp only [val46_main_arg0, val46_main_arg1] <;> rfl

/-- The device's buffer contents after the first 48 groups. -/
def val48 (V0 : Valuation τ sig (Elt F)) : Valuation τ sig (Elt F) := after ops_c47 (val47 V0)
/-- The buffers this group writes. -/
abbrev ops_c47_W : List (Ref sig .tc) := [main_v326, main_v327, main_v328, main_cst_138, main_v329, main_cst_139, main_v330, main_v331, main_c_140, main_call46_v0, main_v332]
set_option maxRecDepth 8192 in
theorem ops_c47_writes : (ops_c47 : List (HloOp τ sig (Elt F))).Forall fun op => op.writes ⊆ (ops_c47_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val48_keep (V0 : Valuation τ sig (Elt F)) (r : Ref sig .tc) (h : r ∉ ops_c47_W) :
    val48 V0 (Proc.devRef .tc r) = val47 V0 (Proc.devRef .tc r) :=
  after_of_writes_sub ops_c47 _ ops_c47_writes h
theorem val48_main_arg0 (V0 : Valuation τ sig (Elt F)) : val48 V0 (no_index (Proc.devRef .tc main_arg0)) = V0 (Proc.devRef .tc main_arg0) :=
  (val48_keep V0 main_arg0 (by decide)).trans (val47_main_arg0 V0)
theorem val48_main_arg1 (V0 : Valuation τ sig (Elt F)) : val48 V0 (no_index (Proc.devRef .tc main_arg1)) = V0 (Proc.devRef .tc main_arg1) :=
  (val48_keep V0 main_arg1 (by decide)).trans (val47_main_arg1 V0)
set_option maxRecDepth 8192 in
set_option maxHeartbeats 2000000 in
/-- What the group leaves in its slab's buffer. -/
theorem val48_slab (V0 : Valuation τ sig (Elt F)) : val48 V0 (no_index (Proc.devRef .tc main_v332)) = res_slab47 V0 := by
  unfold val48
  simp only [ops_c47]
  after_results_simp
  simp only [val47_main_arg0, val47_main_arg1] <;> rfl

/-- The device's buffer contents after the first 49 groups. -/
def val49 (V0 : Valuation τ sig (Elt F)) : Valuation τ sig (Elt F) := after ops_tail (val48 V0)
/-- The buffers this group writes. -/
abbrev ops_tail_W : List (Ref sig .tc) := [main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384]
set_option maxRecDepth 8192 in
theorem ops_tail_writes : (ops_tail : List (HloOp τ sig (Elt F))).Forall fun op => op.writes ⊆ (ops_tail_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the group does not write keeps its contents through it. -/
theorem val49_keep (V0 : Valuation τ sig (Elt F)) (r : Ref sig .tc) (h : r ∉ ops_tail_W) :
    val49 V0 (Proc.devRef .tc r) = val48 V0 (Proc.devRef .tc r) :=
  after_of_writes_sub ops_tail _ ops_tail_writes h
theorem val49_main_arg0 (V0 : Valuation τ sig (Elt F)) : val49 V0 (no_index (Proc.devRef .tc main_arg0)) = V0 (Proc.devRef .tc main_arg0) :=
  (val49_keep V0 main_arg0 (by decide)).trans (val48_main_arg0 V0)
theorem val49_main_arg1 (V0 : Valuation τ sig (Elt F)) : val49 V0 (no_index (Proc.devRef .tc main_arg1)) = V0 (Proc.devRef .tc main_arg1) :=
  (val49_keep V0 main_arg1 (by decide)).trans (val48_main_arg1 V0)
/-- The slab of disparity 0 is still in its buffer after all 48 groups. -/
theorem val48_slab0 (V0 : Valuation τ sig (Elt F)) : val48 V0 (no_index (Proc.devRef .tc main_v3)) = res_slab0 V0 :=
  ((val48_keep V0 main_v3 (by decide)).trans ((val47_keep V0 main_v3 (by decide)).trans ((val46_keep V0 main_v3 (by decide)).trans ((val45_keep V0 main_v3 (by decide)).trans ((val44_keep V0 main_v3 (by decide)).trans ((val43_keep V0 main_v3 (by decide)).trans ((val42_keep V0 main_v3 (by decide)).trans ((val41_keep V0 main_v3 (by decide)).trans ((val40_keep V0 main_v3 (by decide)).trans ((val39_keep V0 main_v3 (by decide)).trans ((val38_keep V0 main_v3 (by decide)).trans ((val37_keep V0 main_v3 (by decide)).trans ((val36_keep V0 main_v3 (by decide)).trans ((val35_keep V0 main_v3 (by decide)).trans ((val34_keep V0 main_v3 (by decide)).trans ((val33_keep V0 main_v3 (by decide)).trans ((val32_keep V0 main_v3 (by decide)).trans ((val31_keep V0 main_v3 (by decide)).trans ((val30_keep V0 main_v3 (by decide)).trans ((val29_keep V0 main_v3 (by decide)).trans ((val28_keep V0 main_v3 (by decide)).trans ((val27_keep V0 main_v3 (by decide)).trans ((val26_keep V0 main_v3 (by decide)).trans ((val25_keep V0 main_v3 (by decide)).trans ((val24_keep V0 main_v3 (by decide)).trans ((val23_keep V0 main_v3 (by decide)).trans ((val22_keep V0 main_v3 (by decide)).trans ((val21_keep V0 main_v3 (by decide)).trans ((val20_keep V0 main_v3 (by decide)).trans ((val19_keep V0 main_v3 (by decide)).trans ((val18_keep V0 main_v3 (by decide)).trans ((val17_keep V0 main_v3 (by decide)).trans ((val16_keep V0 main_v3 (by decide)).trans ((val15_keep V0 main_v3 (by decide)).trans ((val14_keep V0 main_v3 (by decide)).trans ((val13_keep V0 main_v3 (by decide)).trans ((val12_keep V0 main_v3 (by decide)).trans ((val11_keep V0 main_v3 (by decide)).trans ((val10_keep V0 main_v3 (by decide)).trans ((val9_keep V0 main_v3 (by decide)).trans ((val8_keep V0 main_v3 (by decide)).trans ((val7_keep V0 main_v3 (by decide)).trans ((val6_keep V0 main_v3 (by decide)).trans ((val5_keep V0 main_v3 (by decide)).trans ((val4_keep V0 main_v3 (by decide)).trans ((val3_keep V0 main_v3 (by decide)).trans ((val2_keep V0 main_v3 (by decide)).trans (val1_slab V0))))))))))))))))))))))))))))))))))))))))))))))))
/-- The slab of disparity 1 is still in its buffer after all 48 groups. -/
theorem val48_slab1 (V0 : Valuation τ sig (Elt F)) : val48 V0 (no_index (Proc.devRef .tc main_v10)) = res_slab1 V0 :=
  ((val48_keep V0 main_v10 (by decide)).trans ((val47_keep V0 main_v10 (by decide)).trans ((val46_keep V0 main_v10 (by decide)).trans ((val45_keep V0 main_v10 (by decide)).trans ((val44_keep V0 main_v10 (by decide)).trans ((val43_keep V0 main_v10 (by decide)).trans ((val42_keep V0 main_v10 (by decide)).trans ((val41_keep V0 main_v10 (by decide)).trans ((val40_keep V0 main_v10 (by decide)).trans ((val39_keep V0 main_v10 (by decide)).trans ((val38_keep V0 main_v10 (by decide)).trans ((val37_keep V0 main_v10 (by decide)).trans ((val36_keep V0 main_v10 (by decide)).trans ((val35_keep V0 main_v10 (by decide)).trans ((val34_keep V0 main_v10 (by decide)).trans ((val33_keep V0 main_v10 (by decide)).trans ((val32_keep V0 main_v10 (by decide)).trans ((val31_keep V0 main_v10 (by decide)).trans ((val30_keep V0 main_v10 (by decide)).trans ((val29_keep V0 main_v10 (by decide)).trans ((val28_keep V0 main_v10 (by decide)).trans ((val27_keep V0 main_v10 (by decide)).trans ((val26_keep V0 main_v10 (by decide)).trans ((val25_keep V0 main_v10 (by decide)).trans ((val24_keep V0 main_v10 (by decide)).trans ((val23_keep V0 main_v10 (by decide)).trans ((val22_keep V0 main_v10 (by decide)).trans ((val21_keep V0 main_v10 (by decide)).trans ((val20_keep V0 main_v10 (by decide)).trans ((val19_keep V0 main_v10 (by decide)).trans ((val18_keep V0 main_v10 (by decide)).trans ((val17_keep V0 main_v10 (by decide)).trans ((val16_keep V0 main_v10 (by decide)).trans ((val15_keep V0 main_v10 (by decide)).trans ((val14_keep V0 main_v10 (by decide)).trans ((val13_keep V0 main_v10 (by decide)).trans ((val12_keep V0 main_v10 (by decide)).trans ((val11_keep V0 main_v10 (by decide)).trans ((val10_keep V0 main_v10 (by decide)).trans ((val9_keep V0 main_v10 (by decide)).trans ((val8_keep V0 main_v10 (by decide)).trans ((val7_keep V0 main_v10 (by decide)).trans ((val6_keep V0 main_v10 (by decide)).trans ((val5_keep V0 main_v10 (by decide)).trans ((val4_keep V0 main_v10 (by decide)).trans ((val3_keep V0 main_v10 (by decide)).trans (val2_slab V0)))))))))))))))))))))))))))))))))))))))))))))))
/-- The slab of disparity 2 is still in its buffer after all 48 groups. -/
theorem val48_slab2 (V0 : Valuation τ sig (Elt F)) : val48 V0 (no_index (Proc.devRef .tc main_v17)) = res_slab2 V0 :=
  ((val48_keep V0 main_v17 (by decide)).trans ((val47_keep V0 main_v17 (by decide)).trans ((val46_keep V0 main_v17 (by decide)).trans ((val45_keep V0 main_v17 (by decide)).trans ((val44_keep V0 main_v17 (by decide)).trans ((val43_keep V0 main_v17 (by decide)).trans ((val42_keep V0 main_v17 (by decide)).trans ((val41_keep V0 main_v17 (by decide)).trans ((val40_keep V0 main_v17 (by decide)).trans ((val39_keep V0 main_v17 (by decide)).trans ((val38_keep V0 main_v17 (by decide)).trans ((val37_keep V0 main_v17 (by decide)).trans ((val36_keep V0 main_v17 (by decide)).trans ((val35_keep V0 main_v17 (by decide)).trans ((val34_keep V0 main_v17 (by decide)).trans ((val33_keep V0 main_v17 (by decide)).trans ((val32_keep V0 main_v17 (by decide)).trans ((val31_keep V0 main_v17 (by decide)).trans ((val30_keep V0 main_v17 (by decide)).trans ((val29_keep V0 main_v17 (by decide)).trans ((val28_keep V0 main_v17 (by decide)).trans ((val27_keep V0 main_v17 (by decide)).trans ((val26_keep V0 main_v17 (by decide)).trans ((val25_keep V0 main_v17 (by decide)).trans ((val24_keep V0 main_v17 (by decide)).trans ((val23_keep V0 main_v17 (by decide)).trans ((val22_keep V0 main_v17 (by decide)).trans ((val21_keep V0 main_v17 (by decide)).trans ((val20_keep V0 main_v17 (by decide)).trans ((val19_keep V0 main_v17 (by decide)).trans ((val18_keep V0 main_v17 (by decide)).trans ((val17_keep V0 main_v17 (by decide)).trans ((val16_keep V0 main_v17 (by decide)).trans ((val15_keep V0 main_v17 (by decide)).trans ((val14_keep V0 main_v17 (by decide)).trans ((val13_keep V0 main_v17 (by decide)).trans ((val12_keep V0 main_v17 (by decide)).trans ((val11_keep V0 main_v17 (by decide)).trans ((val10_keep V0 main_v17 (by decide)).trans ((val9_keep V0 main_v17 (by decide)).trans ((val8_keep V0 main_v17 (by decide)).trans ((val7_keep V0 main_v17 (by decide)).trans ((val6_keep V0 main_v17 (by decide)).trans ((val5_keep V0 main_v17 (by decide)).trans ((val4_keep V0 main_v17 (by decide)).trans (val3_slab V0))))))))))))))))))))))))))))))))))))))))))))))
/-- The slab of disparity 3 is still in its buffer after all 48 groups. -/
theorem val48_slab3 (V0 : Valuation τ sig (Elt F)) : val48 V0 (no_index (Proc.devRef .tc main_v24)) = res_slab3 V0 :=
  ((val48_keep V0 main_v24 (by decide)).trans ((val47_keep V0 main_v24 (by decide)).trans ((val46_keep V0 main_v24 (by decide)).trans ((val45_keep V0 main_v24 (by decide)).trans ((val44_keep V0 main_v24 (by decide)).trans ((val43_keep V0 main_v24 (by decide)).trans ((val42_keep V0 main_v24 (by decide)).trans ((val41_keep V0 main_v24 (by decide)).trans ((val40_keep V0 main_v24 (by decide)).trans ((val39_keep V0 main_v24 (by decide)).trans ((val38_keep V0 main_v24 (by decide)).trans ((val37_keep V0 main_v24 (by decide)).trans ((val36_keep V0 main_v24 (by decide)).trans ((val35_keep V0 main_v24 (by decide)).trans ((val34_keep V0 main_v24 (by decide)).trans ((val33_keep V0 main_v24 (by decide)).trans ((val32_keep V0 main_v24 (by decide)).trans ((val31_keep V0 main_v24 (by decide)).trans ((val30_keep V0 main_v24 (by decide)).trans ((val29_keep V0 main_v24 (by decide)).trans ((val28_keep V0 main_v24 (by decide)).trans ((val27_keep V0 main_v24 (by decide)).trans ((val26_keep V0 main_v24 (by decide)).trans ((val25_keep V0 main_v24 (by decide)).trans ((val24_keep V0 main_v24 (by decide)).trans ((val23_keep V0 main_v24 (by decide)).trans ((val22_keep V0 main_v24 (by decide)).trans ((val21_keep V0 main_v24 (by decide)).trans ((val20_keep V0 main_v24 (by decide)).trans ((val19_keep V0 main_v24 (by decide)).trans ((val18_keep V0 main_v24 (by decide)).trans ((val17_keep V0 main_v24 (by decide)).trans ((val16_keep V0 main_v24 (by decide)).trans ((val15_keep V0 main_v24 (by decide)).trans ((val14_keep V0 main_v24 (by decide)).trans ((val13_keep V0 main_v24 (by decide)).trans ((val12_keep V0 main_v24 (by decide)).trans ((val11_keep V0 main_v24 (by decide)).trans ((val10_keep V0 main_v24 (by decide)).trans ((val9_keep V0 main_v24 (by decide)).trans ((val8_keep V0 main_v24 (by decide)).trans ((val7_keep V0 main_v24 (by decide)).trans ((val6_keep V0 main_v24 (by decide)).trans ((val5_keep V0 main_v24 (by decide)).trans (val4_slab V0)))))))))))))))))))))))))))))))))))))))))))))
/-- The slab of disparity 4 is still in its buffer after all 48 groups. -/
theorem val48_slab4 (V0 : Valuation τ sig (Elt F)) : val48 V0 (no_index (Proc.devRef .tc main_v31)) = res_slab4 V0 :=
  ((val48_keep V0 main_v31 (by decide)).trans ((val47_keep V0 main_v31 (by decide)).trans ((val46_keep V0 main_v31 (by decide)).trans ((val45_keep V0 main_v31 (by decide)).trans ((val44_keep V0 main_v31 (by decide)).trans ((val43_keep V0 main_v31 (by decide)).trans ((val42_keep V0 main_v31 (by decide)).trans ((val41_keep V0 main_v31 (by decide)).trans ((val40_keep V0 main_v31 (by decide)).trans ((val39_keep V0 main_v31 (by decide)).trans ((val38_keep V0 main_v31 (by decide)).trans ((val37_keep V0 main_v31 (by decide)).trans ((val36_keep V0 main_v31 (by decide)).trans ((val35_keep V0 main_v31 (by decide)).trans ((val34_keep V0 main_v31 (by decide)).trans ((val33_keep V0 main_v31 (by decide)).trans ((val32_keep V0 main_v31 (by decide)).trans ((val31_keep V0 main_v31 (by decide)).trans ((val30_keep V0 main_v31 (by decide)).trans ((val29_keep V0 main_v31 (by decide)).trans ((val28_keep V0 main_v31 (by decide)).trans ((val27_keep V0 main_v31 (by decide)).trans ((val26_keep V0 main_v31 (by decide)).trans ((val25_keep V0 main_v31 (by decide)).trans ((val24_keep V0 main_v31 (by decide)).trans ((val23_keep V0 main_v31 (by decide)).trans ((val22_keep V0 main_v31 (by decide)).trans ((val21_keep V0 main_v31 (by decide)).trans ((val20_keep V0 main_v31 (by decide)).trans ((val19_keep V0 main_v31 (by decide)).trans ((val18_keep V0 main_v31 (by decide)).trans ((val17_keep V0 main_v31 (by decide)).trans ((val16_keep V0 main_v31 (by decide)).trans ((val15_keep V0 main_v31 (by decide)).trans ((val14_keep V0 main_v31 (by decide)).trans ((val13_keep V0 main_v31 (by decide)).trans ((val12_keep V0 main_v31 (by decide)).trans ((val11_keep V0 main_v31 (by decide)).trans ((val10_keep V0 main_v31 (by decide)).trans ((val9_keep V0 main_v31 (by decide)).trans ((val8_keep V0 main_v31 (by decide)).trans ((val7_keep V0 main_v31 (by decide)).trans ((val6_keep V0 main_v31 (by decide)).trans (val5_slab V0))))))))))))))))))))))))))))))))))))))))))))
/-- The slab of disparity 5 is still in its buffer after all 48 groups. -/
theorem val48_slab5 (V0 : Valuation τ sig (Elt F)) : val48 V0 (no_index (Proc.devRef .tc main_v38)) = res_slab5 V0 :=
  ((val48_keep V0 main_v38 (by decide)).trans ((val47_keep V0 main_v38 (by decide)).trans ((val46_keep V0 main_v38 (by decide)).trans ((val45_keep V0 main_v38 (by decide)).trans ((val44_keep V0 main_v38 (by decide)).trans ((val43_keep V0 main_v38 (by decide)).trans ((val42_keep V0 main_v38 (by decide)).trans ((val41_keep V0 main_v38 (by decide)).trans ((val40_keep V0 main_v38 (by decide)).trans ((val39_keep V0 main_v38 (by decide)).trans ((val38_keep V0 main_v38 (by decide)).trans ((val37_keep V0 main_v38 (by decide)).trans ((val36_keep V0 main_v38 (by decide)).trans ((val35_keep V0 main_v38 (by decide)).trans ((val34_keep V0 main_v38 (by decide)).trans ((val33_keep V0 main_v38 (by decide)).trans ((val32_keep V0 main_v38 (by decide)).trans ((val31_keep V0 main_v38 (by decide)).trans ((val30_keep V0 main_v38 (by decide)).trans ((val29_keep V0 main_v38 (by decide)).trans ((val28_keep V0 main_v38 (by decide)).trans ((val27_keep V0 main_v38 (by decide)).trans ((val26_keep V0 main_v38 (by decide)).trans ((val25_keep V0 main_v38 (by decide)).trans ((val24_keep V0 main_v38 (by decide)).trans ((val23_keep V0 main_v38 (by decide)).trans ((val22_keep V0 main_v38 (by decide)).trans ((val21_keep V0 main_v38 (by decide)).trans ((val20_keep V0 main_v38 (by decide)).trans ((val19_keep V0 main_v38 (by decide)).trans ((val18_keep V0 main_v38 (by decide)).trans ((val17_keep V0 main_v38 (by decide)).trans ((val16_keep V0 main_v38 (by decide)).trans ((val15_keep V0 main_v38 (by decide)).trans ((val14_keep V0 main_v38 (by decide)).trans ((val13_keep V0 main_v38 (by decide)).trans ((val12_keep V0 main_v38 (by decide)).trans ((val11_keep V0 main_v38 (by decide)).trans ((val10_keep V0 main_v38 (by decide)).trans ((val9_keep V0 main_v38 (by decide)).trans ((val8_keep V0 main_v38 (by decide)).trans ((val7_keep V0 main_v38 (by decide)).trans (val6_slab V0)))))))))))))))))))))))))))))))))))))))))))
/-- The slab of disparity 6 is still in its buffer after all 48 groups. -/
theorem val48_slab6 (V0 : Valuation τ sig (Elt F)) : val48 V0 (no_index (Proc.devRef .tc main_v45)) = res_slab6 V0 :=
  ((val48_keep V0 main_v45 (by decide)).trans ((val47_keep V0 main_v45 (by decide)).trans ((val46_keep V0 main_v45 (by decide)).trans ((val45_keep V0 main_v45 (by decide)).trans ((val44_keep V0 main_v45 (by decide)).trans ((val43_keep V0 main_v45 (by decide)).trans ((val42_keep V0 main_v45 (by decide)).trans ((val41_keep V0 main_v45 (by decide)).trans ((val40_keep V0 main_v45 (by decide)).trans ((val39_keep V0 main_v45 (by decide)).trans ((val38_keep V0 main_v45 (by decide)).trans ((val37_keep V0 main_v45 (by decide)).trans ((val36_keep V0 main_v45 (by decide)).trans ((val35_keep V0 main_v45 (by decide)).trans ((val34_keep V0 main_v45 (by decide)).trans ((val33_keep V0 main_v45 (by decide)).trans ((val32_keep V0 main_v45 (by decide)).trans ((val31_keep V0 main_v45 (by decide)).trans ((val30_keep V0 main_v45 (by decide)).trans ((val29_keep V0 main_v45 (by decide)).trans ((val28_keep V0 main_v45 (by decide)).trans ((val27_keep V0 main_v45 (by decide)).trans ((val26_keep V0 main_v45 (by decide)).trans ((val25_keep V0 main_v45 (by decide)).trans ((val24_keep V0 main_v45 (by decide)).trans ((val23_keep V0 main_v45 (by decide)).trans ((val22_keep V0 main_v45 (by decide)).trans ((val21_keep V0 main_v45 (by decide)).trans ((val20_keep V0 main_v45 (by decide)).trans ((val19_keep V0 main_v45 (by decide)).trans ((val18_keep V0 main_v45 (by decide)).trans ((val17_keep V0 main_v45 (by decide)).trans ((val16_keep V0 main_v45 (by decide)).trans ((val15_keep V0 main_v45 (by decide)).trans ((val14_keep V0 main_v45 (by decide)).trans ((val13_keep V0 main_v45 (by decide)).trans ((val12_keep V0 main_v45 (by decide)).trans ((val11_keep V0 main_v45 (by decide)).trans ((val10_keep V0 main_v45 (by decide)).trans ((val9_keep V0 main_v45 (by decide)).trans ((val8_keep V0 main_v45 (by decide)).trans (val7_slab V0))))))))))))))))))))))))))))))))))))))))))
/-- The slab of disparity 7 is still in its buffer after all 48 groups. -/
theorem val48_slab7 (V0 : Valuation τ sig (Elt F)) : val48 V0 (no_index (Proc.devRef .tc main_v52)) = res_slab7 V0 :=
  ((val48_keep V0 main_v52 (by decide)).trans ((val47_keep V0 main_v52 (by decide)).trans ((val46_keep V0 main_v52 (by decide)).trans ((val45_keep V0 main_v52 (by decide)).trans ((val44_keep V0 main_v52 (by decide)).trans ((val43_keep V0 main_v52 (by decide)).trans ((val42_keep V0 main_v52 (by decide)).trans ((val41_keep V0 main_v52 (by decide)).trans ((val40_keep V0 main_v52 (by decide)).trans ((val39_keep V0 main_v52 (by decide)).trans ((val38_keep V0 main_v52 (by decide)).trans ((val37_keep V0 main_v52 (by decide)).trans ((val36_keep V0 main_v52 (by decide)).trans ((val35_keep V0 main_v52 (by decide)).trans ((val34_keep V0 main_v52 (by decide)).trans ((val33_keep V0 main_v52 (by decide)).trans ((val32_keep V0 main_v52 (by decide)).trans ((val31_keep V0 main_v52 (by decide)).trans ((val30_keep V0 main_v52 (by decide)).trans ((val29_keep V0 main_v52 (by decide)).trans ((val28_keep V0 main_v52 (by decide)).trans ((val27_keep V0 main_v52 (by decide)).trans ((val26_keep V0 main_v52 (by decide)).trans ((val25_keep V0 main_v52 (by decide)).trans ((val24_keep V0 main_v52 (by decide)).trans ((val23_keep V0 main_v52 (by decide)).trans ((val22_keep V0 main_v52 (by decide)).trans ((val21_keep V0 main_v52 (by decide)).trans ((val20_keep V0 main_v52 (by decide)).trans ((val19_keep V0 main_v52 (by decide)).trans ((val18_keep V0 main_v52 (by decide)).trans ((val17_keep V0 main_v52 (by decide)).trans ((val16_keep V0 main_v52 (by decide)).trans ((val15_keep V0 main_v52 (by decide)).trans ((val14_keep V0 main_v52 (by decide)).trans ((val13_keep V0 main_v52 (by decide)).trans ((val12_keep V0 main_v52 (by decide)).trans ((val11_keep V0 main_v52 (by decide)).trans ((val10_keep V0 main_v52 (by decide)).trans ((val9_keep V0 main_v52 (by decide)).trans (val8_slab V0)))))))))))))))))))))))))))))))))))))))))
/-- The slab of disparity 8 is still in its buffer after all 48 groups. -/
theorem val48_slab8 (V0 : Valuation τ sig (Elt F)) : val48 V0 (no_index (Proc.devRef .tc main_v59)) = res_slab8 V0 :=
  ((val48_keep V0 main_v59 (by decide)).trans ((val47_keep V0 main_v59 (by decide)).trans ((val46_keep V0 main_v59 (by decide)).trans ((val45_keep V0 main_v59 (by decide)).trans ((val44_keep V0 main_v59 (by decide)).trans ((val43_keep V0 main_v59 (by decide)).trans ((val42_keep V0 main_v59 (by decide)).trans ((val41_keep V0 main_v59 (by decide)).trans ((val40_keep V0 main_v59 (by decide)).trans ((val39_keep V0 main_v59 (by decide)).trans ((val38_keep V0 main_v59 (by decide)).trans ((val37_keep V0 main_v59 (by decide)).trans ((val36_keep V0 main_v59 (by decide)).trans ((val35_keep V0 main_v59 (by decide)).trans ((val34_keep V0 main_v59 (by decide)).trans ((val33_keep V0 main_v59 (by decide)).trans ((val32_keep V0 main_v59 (by decide)).trans ((val31_keep V0 main_v59 (by decide)).trans ((val30_keep V0 main_v59 (by decide)).trans ((val29_keep V0 main_v59 (by decide)).trans ((val28_keep V0 main_v59 (by decide)).trans ((val27_keep V0 main_v59 (by decide)).trans ((val26_keep V0 main_v59 (by decide)).trans ((val25_keep V0 main_v59 (by decide)).trans ((val24_keep V0 main_v59 (by decide)).trans ((val23_keep V0 main_v59 (by decide)).trans ((val22_keep V0 main_v59 (by decide)).trans ((val21_keep V0 main_v59 (by decide)).trans ((val20_keep V0 main_v59 (by decide)).trans ((val19_keep V0 main_v59 (by decide)).trans ((val18_keep V0 main_v59 (by decide)).trans ((val17_keep V0 main_v59 (by decide)).trans ((val16_keep V0 main_v59 (by decide)).trans ((val15_keep V0 main_v59 (by decide)).trans ((val14_keep V0 main_v59 (by decide)).trans ((val13_keep V0 main_v59 (by decide)).trans ((val12_keep V0 main_v59 (by decide)).trans ((val11_keep V0 main_v59 (by decide)).trans ((val10_keep V0 main_v59 (by decide)).trans (val9_slab V0))))))))))))))))))))))))))))))))))))))))
/-- The slab of disparity 9 is still in its buffer after all 48 groups. -/
theorem val48_slab9 (V0 : Valuation τ sig (Elt F)) : val48 V0 (no_index (Proc.devRef .tc main_v66)) = res_slab9 V0 :=
  ((val48_keep V0 main_v66 (by decide)).trans ((val47_keep V0 main_v66 (by decide)).trans ((val46_keep V0 main_v66 (by decide)).trans ((val45_keep V0 main_v66 (by decide)).trans ((val44_keep V0 main_v66 (by decide)).trans ((val43_keep V0 main_v66 (by decide)).trans ((val42_keep V0 main_v66 (by decide)).trans ((val41_keep V0 main_v66 (by decide)).trans ((val40_keep V0 main_v66 (by decide)).trans ((val39_keep V0 main_v66 (by decide)).trans ((val38_keep V0 main_v66 (by decide)).trans ((val37_keep V0 main_v66 (by decide)).trans ((val36_keep V0 main_v66 (by decide)).trans ((val35_keep V0 main_v66 (by decide)).trans ((val34_keep V0 main_v66 (by decide)).trans ((val33_keep V0 main_v66 (by decide)).trans ((val32_keep V0 main_v66 (by decide)).trans ((val31_keep V0 main_v66 (by decide)).trans ((val30_keep V0 main_v66 (by decide)).trans ((val29_keep V0 main_v66 (by decide)).trans ((val28_keep V0 main_v66 (by decide)).trans ((val27_keep V0 main_v66 (by decide)).trans ((val26_keep V0 main_v66 (by decide)).trans ((val25_keep V0 main_v66 (by decide)).trans ((val24_keep V0 main_v66 (by decide)).trans ((val23_keep V0 main_v66 (by decide)).trans ((val22_keep V0 main_v66 (by decide)).trans ((val21_keep V0 main_v66 (by decide)).trans ((val20_keep V0 main_v66 (by decide)).trans ((val19_keep V0 main_v66 (by decide)).trans ((val18_keep V0 main_v66 (by decide)).trans ((val17_keep V0 main_v66 (by decide)).trans ((val16_keep V0 main_v66 (by decide)).trans ((val15_keep V0 main_v66 (by decide)).trans ((val14_keep V0 main_v66 (by decide)).trans ((val13_keep V0 main_v66 (by decide)).trans ((val12_keep V0 main_v66 (by decide)).trans ((val11_keep V0 main_v66 (by decide)).trans (val10_slab V0)))))))))))))))))))))))))))))))))))))))
/-- The slab of disparity 10 is still in its buffer after all 48 groups. -/
theorem val48_slab10 (V0 : Valuation τ sig (Elt F)) : val48 V0 (no_index (Proc.devRef .tc main_v73)) = res_slab10 V0 :=
  ((val48_keep V0 main_v73 (by decide)).trans ((val47_keep V0 main_v73 (by decide)).trans ((val46_keep V0 main_v73 (by decide)).trans ((val45_keep V0 main_v73 (by decide)).trans ((val44_keep V0 main_v73 (by decide)).trans ((val43_keep V0 main_v73 (by decide)).trans ((val42_keep V0 main_v73 (by decide)).trans ((val41_keep V0 main_v73 (by decide)).trans ((val40_keep V0 main_v73 (by decide)).trans ((val39_keep V0 main_v73 (by decide)).trans ((val38_keep V0 main_v73 (by decide)).trans ((val37_keep V0 main_v73 (by decide)).trans ((val36_keep V0 main_v73 (by decide)).trans ((val35_keep V0 main_v73 (by decide)).trans ((val34_keep V0 main_v73 (by decide)).trans ((val33_keep V0 main_v73 (by decide)).trans ((val32_keep V0 main_v73 (by decide)).trans ((val31_keep V0 main_v73 (by decide)).trans ((val30_keep V0 main_v73 (by decide)).trans ((val29_keep V0 main_v73 (by decide)).trans ((val28_keep V0 main_v73 (by decide)).trans ((val27_keep V0 main_v73 (by decide)).trans ((val26_keep V0 main_v73 (by decide)).trans ((val25_keep V0 main_v73 (by decide)).trans ((val24_keep V0 main_v73 (by decide)).trans ((val23_keep V0 main_v73 (by decide)).trans ((val22_keep V0 main_v73 (by decide)).trans ((val21_keep V0 main_v73 (by decide)).trans ((val20_keep V0 main_v73 (by decide)).trans ((val19_keep V0 main_v73 (by decide)).trans ((val18_keep V0 main_v73 (by decide)).trans ((val17_keep V0 main_v73 (by decide)).trans ((val16_keep V0 main_v73 (by decide)).trans ((val15_keep V0 main_v73 (by decide)).trans ((val14_keep V0 main_v73 (by decide)).trans ((val13_keep V0 main_v73 (by decide)).trans ((val12_keep V0 main_v73 (by decide)).trans (val11_slab V0))))))))))))))))))))))))))))))))))))))
/-- The slab of disparity 11 is still in its buffer after all 48 groups. -/
theorem val48_slab11 (V0 : Valuation τ sig (Elt F)) : val48 V0 (no_index (Proc.devRef .tc main_v80)) = res_slab11 V0 :=
  ((val48_keep V0 main_v80 (by decide)).trans ((val47_keep V0 main_v80 (by decide)).trans ((val46_keep V0 main_v80 (by decide)).trans ((val45_keep V0 main_v80 (by decide)).trans ((val44_keep V0 main_v80 (by decide)).trans ((val43_keep V0 main_v80 (by decide)).trans ((val42_keep V0 main_v80 (by decide)).trans ((val41_keep V0 main_v80 (by decide)).trans ((val40_keep V0 main_v80 (by decide)).trans ((val39_keep V0 main_v80 (by decide)).trans ((val38_keep V0 main_v80 (by decide)).trans ((val37_keep V0 main_v80 (by decide)).trans ((val36_keep V0 main_v80 (by decide)).trans ((val35_keep V0 main_v80 (by decide)).trans ((val34_keep V0 main_v80 (by decide)).trans ((val33_keep V0 main_v80 (by decide)).trans ((val32_keep V0 main_v80 (by decide)).trans ((val31_keep V0 main_v80 (by decide)).trans ((val30_keep V0 main_v80 (by decide)).trans ((val29_keep V0 main_v80 (by decide)).trans ((val28_keep V0 main_v80 (by decide)).trans ((val27_keep V0 main_v80 (by decide)).trans ((val26_keep V0 main_v80 (by decide)).trans ((val25_keep V0 main_v80 (by decide)).trans ((val24_keep V0 main_v80 (by decide)).trans ((val23_keep V0 main_v80 (by decide)).trans ((val22_keep V0 main_v80 (by decide)).trans ((val21_keep V0 main_v80 (by decide)).trans ((val20_keep V0 main_v80 (by decide)).trans ((val19_keep V0 main_v80 (by decide)).trans ((val18_keep V0 main_v80 (by decide)).trans ((val17_keep V0 main_v80 (by decide)).trans ((val16_keep V0 main_v80 (by decide)).trans ((val15_keep V0 main_v80 (by decide)).trans ((val14_keep V0 main_v80 (by decide)).trans ((val13_keep V0 main_v80 (by decide)).trans (val12_slab V0)))))))))))))))))))))))))))))))))))))
/-- The slab of disparity 12 is still in its buffer after all 48 groups. -/
theorem val48_slab12 (V0 : Valuation τ sig (Elt F)) : val48 V0 (no_index (Proc.devRef .tc main_v87)) = res_slab12 V0 :=
  ((val48_keep V0 main_v87 (by decide)).trans ((val47_keep V0 main_v87 (by decide)).trans ((val46_keep V0 main_v87 (by decide)).trans ((val45_keep V0 main_v87 (by decide)).trans ((val44_keep V0 main_v87 (by decide)).trans ((val43_keep V0 main_v87 (by decide)).trans ((val42_keep V0 main_v87 (by decide)).trans ((val41_keep V0 main_v87 (by decide)).trans ((val40_keep V0 main_v87 (by decide)).trans ((val39_keep V0 main_v87 (by decide)).trans ((val38_keep V0 main_v87 (by decide)).trans ((val37_keep V0 main_v87 (by decide)).trans ((val36_keep V0 main_v87 (by decide)).trans ((val35_keep V0 main_v87 (by decide)).trans ((val34_keep V0 main_v87 (by decide)).trans ((val33_keep V0 main_v87 (by decide)).trans ((val32_keep V0 main_v87 (by decide)).trans ((val31_keep V0 main_v87 (by decide)).trans ((val30_keep V0 main_v87 (by decide)).trans ((val29_keep V0 main_v87 (by decide)).trans ((val28_keep V0 main_v87 (by decide)).trans ((val27_keep V0 main_v87 (by decide)).trans ((val26_keep V0 main_v87 (by decide)).trans ((val25_keep V0 main_v87 (by decide)).trans ((val24_keep V0 main_v87 (by decide)).trans ((val23_keep V0 main_v87 (by decide)).trans ((val22_keep V0 main_v87 (by decide)).trans ((val21_keep V0 main_v87 (by decide)).trans ((val20_keep V0 main_v87 (by decide)).trans ((val19_keep V0 main_v87 (by decide)).trans ((val18_keep V0 main_v87 (by decide)).trans ((val17_keep V0 main_v87 (by decide)).trans ((val16_keep V0 main_v87 (by decide)).trans ((val15_keep V0 main_v87 (by decide)).trans ((val14_keep V0 main_v87 (by decide)).trans (val13_slab V0))))))))))))))))))))))))))))))))))))
/-- The slab of disparity 13 is still in its buffer after all 48 groups. -/
theorem val48_slab13 (V0 : Valuation τ sig (Elt F)) : val48 V0 (no_index (Proc.devRef .tc main_v94)) = res_slab13 V0 :=
  ((val48_keep V0 main_v94 (by decide)).trans ((val47_keep V0 main_v94 (by decide)).trans ((val46_keep V0 main_v94 (by decide)).trans ((val45_keep V0 main_v94 (by decide)).trans ((val44_keep V0 main_v94 (by decide)).trans ((val43_keep V0 main_v94 (by decide)).trans ((val42_keep V0 main_v94 (by decide)).trans ((val41_keep V0 main_v94 (by decide)).trans ((val40_keep V0 main_v94 (by decide)).trans ((val39_keep V0 main_v94 (by decide)).trans ((val38_keep V0 main_v94 (by decide)).trans ((val37_keep V0 main_v94 (by decide)).trans ((val36_keep V0 main_v94 (by decide)).trans ((val35_keep V0 main_v94 (by decide)).trans ((val34_keep V0 main_v94 (by decide)).trans ((val33_keep V0 main_v94 (by decide)).trans ((val32_keep V0 main_v94 (by decide)).trans ((val31_keep V0 main_v94 (by decide)).trans ((val30_keep V0 main_v94 (by decide)).trans ((val29_keep V0 main_v94 (by decide)).trans ((val28_keep V0 main_v94 (by decide)).trans ((val27_keep V0 main_v94 (by decide)).trans ((val26_keep V0 main_v94 (by decide)).trans ((val25_keep V0 main_v94 (by decide)).trans ((val24_keep V0 main_v94 (by decide)).trans ((val23_keep V0 main_v94 (by decide)).trans ((val22_keep V0 main_v94 (by decide)).trans ((val21_keep V0 main_v94 (by decide)).trans ((val20_keep V0 main_v94 (by decide)).trans ((val19_keep V0 main_v94 (by decide)).trans ((val18_keep V0 main_v94 (by decide)).trans ((val17_keep V0 main_v94 (by decide)).trans ((val16_keep V0 main_v94 (by decide)).trans ((val15_keep V0 main_v94 (by decide)).trans (val14_slab V0)))))))))))))))))))))))))))))))))))
/-- The slab of disparity 14 is still in its buffer after all 48 groups. -/
theorem val48_slab14 (V0 : Valuation τ sig (Elt F)) : val48 V0 (no_index (Proc.devRef .tc main_v101)) = res_slab14 V0 :=
  ((val48_keep V0 main_v101 (by decide)).trans ((val47_keep V0 main_v101 (by decide)).trans ((val46_keep V0 main_v101 (by decide)).trans ((val45_keep V0 main_v101 (by decide)).trans ((val44_keep V0 main_v101 (by decide)).trans ((val43_keep V0 main_v101 (by decide)).trans ((val42_keep V0 main_v101 (by decide)).trans ((val41_keep V0 main_v101 (by decide)).trans ((val40_keep V0 main_v101 (by decide)).trans ((val39_keep V0 main_v101 (by decide)).trans ((val38_keep V0 main_v101 (by decide)).trans ((val37_keep V0 main_v101 (by decide)).trans ((val36_keep V0 main_v101 (by decide)).trans ((val35_keep V0 main_v101 (by decide)).trans ((val34_keep V0 main_v101 (by decide)).trans ((val33_keep V0 main_v101 (by decide)).trans ((val32_keep V0 main_v101 (by decide)).trans ((val31_keep V0 main_v101 (by decide)).trans ((val30_keep V0 main_v101 (by decide)).trans ((val29_keep V0 main_v101 (by decide)).trans ((val28_keep V0 main_v101 (by decide)).trans ((val27_keep V0 main_v101 (by decide)).trans ((val26_keep V0 main_v101 (by decide)).trans ((val25_keep V0 main_v101 (by decide)).trans ((val24_keep V0 main_v101 (by decide)).trans ((val23_keep V0 main_v101 (by decide)).trans ((val22_keep V0 main_v101 (by decide)).trans ((val21_keep V0 main_v101 (by decide)).trans ((val20_keep V0 main_v101 (by decide)).trans ((val19_keep V0 main_v101 (by decide)).trans ((val18_keep V0 main_v101 (by decide)).trans ((val17_keep V0 main_v101 (by decide)).trans ((val16_keep V0 main_v101 (by decide)).trans (val15_slab V0))))))))))))))))))))))))))))))))))
/-- The slab of disparity 15 is still in its buffer after all 48 groups. -/
theorem val48_slab15 (V0 : Valuation τ sig (Elt F)) : val48 V0 (no_index (Proc.devRef .tc main_v108)) = res_slab15 V0 :=
  ((val48_keep V0 main_v108 (by decide)).trans ((val47_keep V0 main_v108 (by decide)).trans ((val46_keep V0 main_v108 (by decide)).trans ((val45_keep V0 main_v108 (by decide)).trans ((val44_keep V0 main_v108 (by decide)).trans ((val43_keep V0 main_v108 (by decide)).trans ((val42_keep V0 main_v108 (by decide)).trans ((val41_keep V0 main_v108 (by decide)).trans ((val40_keep V0 main_v108 (by decide)).trans ((val39_keep V0 main_v108 (by decide)).trans ((val38_keep V0 main_v108 (by decide)).trans ((val37_keep V0 main_v108 (by decide)).trans ((val36_keep V0 main_v108 (by decide)).trans ((val35_keep V0 main_v108 (by decide)).trans ((val34_keep V0 main_v108 (by decide)).trans ((val33_keep V0 main_v108 (by decide)).trans ((val32_keep V0 main_v108 (by decide)).trans ((val31_keep V0 main_v108 (by decide)).trans ((val30_keep V0 main_v108 (by decide)).trans ((val29_keep V0 main_v108 (by decide)).trans ((val28_keep V0 main_v108 (by decide)).trans ((val27_keep V0 main_v108 (by decide)).trans ((val26_keep V0 main_v108 (by decide)).trans ((val25_keep V0 main_v108 (by decide)).trans ((val24_keep V0 main_v108 (by decide)).trans ((val23_keep V0 main_v108 (by decide)).trans ((val22_keep V0 main_v108 (by decide)).trans ((val21_keep V0 main_v108 (by decide)).trans ((val20_keep V0 main_v108 (by decide)).trans ((val19_keep V0 main_v108 (by decide)).trans ((val18_keep V0 main_v108 (by decide)).trans ((val17_keep V0 main_v108 (by decide)).trans (val16_slab V0)))))))))))))))))))))))))))))))))
/-- The slab of disparity 16 is still in its buffer after all 48 groups. -/
theorem val48_slab16 (V0 : Valuation τ sig (Elt F)) : val48 V0 (no_index (Proc.devRef .tc main_v115)) = res_slab16 V0 :=
  ((val48_keep V0 main_v115 (by decide)).trans ((val47_keep V0 main_v115 (by decide)).trans ((val46_keep V0 main_v115 (by decide)).trans ((val45_keep V0 main_v115 (by decide)).trans ((val44_keep V0 main_v115 (by decide)).trans ((val43_keep V0 main_v115 (by decide)).trans ((val42_keep V0 main_v115 (by decide)).trans ((val41_keep V0 main_v115 (by decide)).trans ((val40_keep V0 main_v115 (by decide)).trans ((val39_keep V0 main_v115 (by decide)).trans ((val38_keep V0 main_v115 (by decide)).trans ((val37_keep V0 main_v115 (by decide)).trans ((val36_keep V0 main_v115 (by decide)).trans ((val35_keep V0 main_v115 (by decide)).trans ((val34_keep V0 main_v115 (by decide)).trans ((val33_keep V0 main_v115 (by decide)).trans ((val32_keep V0 main_v115 (by decide)).trans ((val31_keep V0 main_v115 (by decide)).trans ((val30_keep V0 main_v115 (by decide)).trans ((val29_keep V0 main_v115 (by decide)).trans ((val28_keep V0 main_v115 (by decide)).trans ((val27_keep V0 main_v115 (by decide)).trans ((val26_keep V0 main_v115 (by decide)).trans ((val25_keep V0 main_v115 (by decide)).trans ((val24_keep V0 main_v115 (by decide)).trans ((val23_keep V0 main_v115 (by decide)).trans ((val22_keep V0 main_v115 (by decide)).trans ((val21_keep V0 main_v115 (by decide)).trans ((val20_keep V0 main_v115 (by decide)).trans ((val19_keep V0 main_v115 (by decide)).trans ((val18_keep V0 main_v115 (by decide)).trans (val17_slab V0))))))))))))))))))))))))))))))))
/-- The slab of disparity 17 is still in its buffer after all 48 groups. -/
theorem val48_slab17 (V0 : Valuation τ sig (Elt F)) : val48 V0 (no_index (Proc.devRef .tc main_v122)) = res_slab17 V0 :=
  ((val48_keep V0 main_v122 (by decide)).trans ((val47_keep V0 main_v122 (by decide)).trans ((val46_keep V0 main_v122 (by decide)).trans ((val45_keep V0 main_v122 (by decide)).trans ((val44_keep V0 main_v122 (by decide)).trans ((val43_keep V0 main_v122 (by decide)).trans ((val42_keep V0 main_v122 (by decide)).trans ((val41_keep V0 main_v122 (by decide)).trans ((val40_keep V0 main_v122 (by decide)).trans ((val39_keep V0 main_v122 (by decide)).trans ((val38_keep V0 main_v122 (by decide)).trans ((val37_keep V0 main_v122 (by decide)).trans ((val36_keep V0 main_v122 (by decide)).trans ((val35_keep V0 main_v122 (by decide)).trans ((val34_keep V0 main_v122 (by decide)).trans ((val33_keep V0 main_v122 (by decide)).trans ((val32_keep V0 main_v122 (by decide)).trans ((val31_keep V0 main_v122 (by decide)).trans ((val30_keep V0 main_v122 (by decide)).trans ((val29_keep V0 main_v122 (by decide)).trans ((val28_keep V0 main_v122 (by decide)).trans ((val27_keep V0 main_v122 (by decide)).trans ((val26_keep V0 main_v122 (by decide)).trans ((val25_keep V0 main_v122 (by decide)).trans ((val24_keep V0 main_v122 (by decide)).trans ((val23_keep V0 main_v122 (by decide)).trans ((val22_keep V0 main_v122 (by decide)).trans ((val21_keep V0 main_v122 (by decide)).trans ((val20_keep V0 main_v122 (by decide)).trans ((val19_keep V0 main_v122 (by decide)).trans (val18_slab V0)))))))))))))))))))))))))))))))
/-- The slab of disparity 18 is still in its buffer after all 48 groups. -/
theorem val48_slab18 (V0 : Valuation τ sig (Elt F)) : val48 V0 (no_index (Proc.devRef .tc main_v129)) = res_slab18 V0 :=
  ((val48_keep V0 main_v129 (by decide)).trans ((val47_keep V0 main_v129 (by decide)).trans ((val46_keep V0 main_v129 (by decide)).trans ((val45_keep V0 main_v129 (by decide)).trans ((val44_keep V0 main_v129 (by decide)).trans ((val43_keep V0 main_v129 (by decide)).trans ((val42_keep V0 main_v129 (by decide)).trans ((val41_keep V0 main_v129 (by decide)).trans ((val40_keep V0 main_v129 (by decide)).trans ((val39_keep V0 main_v129 (by decide)).trans ((val38_keep V0 main_v129 (by decide)).trans ((val37_keep V0 main_v129 (by decide)).trans ((val36_keep V0 main_v129 (by decide)).trans ((val35_keep V0 main_v129 (by decide)).trans ((val34_keep V0 main_v129 (by decide)).trans ((val33_keep V0 main_v129 (by decide)).trans ((val32_keep V0 main_v129 (by decide)).trans ((val31_keep V0 main_v129 (by decide)).trans ((val30_keep V0 main_v129 (by decide)).trans ((val29_keep V0 main_v129 (by decide)).trans ((val28_keep V0 main_v129 (by decide)).trans ((val27_keep V0 main_v129 (by decide)).trans ((val26_keep V0 main_v129 (by decide)).trans ((val25_keep V0 main_v129 (by decide)).trans ((val24_keep V0 main_v129 (by decide)).trans ((val23_keep V0 main_v129 (by decide)).trans ((val22_keep V0 main_v129 (by decide)).trans ((val21_keep V0 main_v129 (by decide)).trans ((val20_keep V0 main_v129 (by decide)).trans (val19_slab V0))))))))))))))))))))))))))))))
/-- The slab of disparity 19 is still in its buffer after all 48 groups. -/
theorem val48_slab19 (V0 : Valuation τ sig (Elt F)) : val48 V0 (no_index (Proc.devRef .tc main_v136)) = res_slab19 V0 :=
  ((val48_keep V0 main_v136 (by decide)).trans ((val47_keep V0 main_v136 (by decide)).trans ((val46_keep V0 main_v136 (by decide)).trans ((val45_keep V0 main_v136 (by decide)).trans ((val44_keep V0 main_v136 (by decide)).trans ((val43_keep V0 main_v136 (by decide)).trans ((val42_keep V0 main_v136 (by decide)).trans ((val41_keep V0 main_v136 (by decide)).trans ((val40_keep V0 main_v136 (by decide)).trans ((val39_keep V0 main_v136 (by decide)).trans ((val38_keep V0 main_v136 (by decide)).trans ((val37_keep V0 main_v136 (by decide)).trans ((val36_keep V0 main_v136 (by decide)).trans ((val35_keep V0 main_v136 (by decide)).trans ((val34_keep V0 main_v136 (by decide)).trans ((val33_keep V0 main_v136 (by decide)).trans ((val32_keep V0 main_v136 (by decide)).trans ((val31_keep V0 main_v136 (by decide)).trans ((val30_keep V0 main_v136 (by decide)).trans ((val29_keep V0 main_v136 (by decide)).trans ((val28_keep V0 main_v136 (by decide)).trans ((val27_keep V0 main_v136 (by decide)).trans ((val26_keep V0 main_v136 (by decide)).trans ((val25_keep V0 main_v136 (by decide)).trans ((val24_keep V0 main_v136 (by decide)).trans ((val23_keep V0 main_v136 (by decide)).trans ((val22_keep V0 main_v136 (by decide)).trans ((val21_keep V0 main_v136 (by decide)).trans (val20_slab V0)))))))))))))))))))))))))))))
/-- The slab of disparity 20 is still in its buffer after all 48 groups. -/
theorem val48_slab20 (V0 : Valuation τ sig (Elt F)) : val48 V0 (no_index (Proc.devRef .tc main_v143)) = res_slab20 V0 :=
  ((val48_keep V0 main_v143 (by decide)).trans ((val47_keep V0 main_v143 (by decide)).trans ((val46_keep V0 main_v143 (by decide)).trans ((val45_keep V0 main_v143 (by decide)).trans ((val44_keep V0 main_v143 (by decide)).trans ((val43_keep V0 main_v143 (by decide)).trans ((val42_keep V0 main_v143 (by decide)).trans ((val41_keep V0 main_v143 (by decide)).trans ((val40_keep V0 main_v143 (by decide)).trans ((val39_keep V0 main_v143 (by decide)).trans ((val38_keep V0 main_v143 (by decide)).trans ((val37_keep V0 main_v143 (by decide)).trans ((val36_keep V0 main_v143 (by decide)).trans ((val35_keep V0 main_v143 (by decide)).trans ((val34_keep V0 main_v143 (by decide)).trans ((val33_keep V0 main_v143 (by decide)).trans ((val32_keep V0 main_v143 (by decide)).trans ((val31_keep V0 main_v143 (by decide)).trans ((val30_keep V0 main_v143 (by decide)).trans ((val29_keep V0 main_v143 (by decide)).trans ((val28_keep V0 main_v143 (by decide)).trans ((val27_keep V0 main_v143 (by decide)).trans ((val26_keep V0 main_v143 (by decide)).trans ((val25_keep V0 main_v143 (by decide)).trans ((val24_keep V0 main_v143 (by decide)).trans ((val23_keep V0 main_v143 (by decide)).trans ((val22_keep V0 main_v143 (by decide)).trans (val21_slab V0))))))))))))))))))))))))))))
/-- The slab of disparity 21 is still in its buffer after all 48 groups. -/
theorem val48_slab21 (V0 : Valuation τ sig (Elt F)) : val48 V0 (no_index (Proc.devRef .tc main_v150)) = res_slab21 V0 :=
  ((val48_keep V0 main_v150 (by decide)).trans ((val47_keep V0 main_v150 (by decide)).trans ((val46_keep V0 main_v150 (by decide)).trans ((val45_keep V0 main_v150 (by decide)).trans ((val44_keep V0 main_v150 (by decide)).trans ((val43_keep V0 main_v150 (by decide)).trans ((val42_keep V0 main_v150 (by decide)).trans ((val41_keep V0 main_v150 (by decide)).trans ((val40_keep V0 main_v150 (by decide)).trans ((val39_keep V0 main_v150 (by decide)).trans ((val38_keep V0 main_v150 (by decide)).trans ((val37_keep V0 main_v150 (by decide)).trans ((val36_keep V0 main_v150 (by decide)).trans ((val35_keep V0 main_v150 (by decide)).trans ((val34_keep V0 main_v150 (by decide)).trans ((val33_keep V0 main_v150 (by decide)).trans ((val32_keep V0 main_v150 (by decide)).trans ((val31_keep V0 main_v150 (by decide)).trans ((val30_keep V0 main_v150 (by decide)).trans ((val29_keep V0 main_v150 (by decide)).trans ((val28_keep V0 main_v150 (by decide)).trans ((val27_keep V0 main_v150 (by decide)).trans ((val26_keep V0 main_v150 (by decide)).trans ((val25_keep V0 main_v150 (by decide)).trans ((val24_keep V0 main_v150 (by decide)).trans ((val23_keep V0 main_v150 (by decide)).trans (val22_slab V0)))))))))))))))))))))))))))
/-- The slab of disparity 22 is still in its buffer after all 48 groups. -/
theorem val48_slab22 (V0 : Valuation τ sig (Elt F)) : val48 V0 (no_index (Proc.devRef .tc main_v157)) = res_slab22 V0 :=
  ((val48_keep V0 main_v157 (by decide)).trans ((val47_keep V0 main_v157 (by decide)).trans ((val46_keep V0 main_v157 (by decide)).trans ((val45_keep V0 main_v157 (by decide)).trans ((val44_keep V0 main_v157 (by decide)).trans ((val43_keep V0 main_v157 (by decide)).trans ((val42_keep V0 main_v157 (by decide)).trans ((val41_keep V0 main_v157 (by decide)).trans ((val40_keep V0 main_v157 (by decide)).trans ((val39_keep V0 main_v157 (by decide)).trans ((val38_keep V0 main_v157 (by decide)).trans ((val37_keep V0 main_v157 (by decide)).trans ((val36_keep V0 main_v157 (by decide)).trans ((val35_keep V0 main_v157 (by decide)).trans ((val34_keep V0 main_v157 (by decide)).trans ((val33_keep V0 main_v157 (by decide)).trans ((val32_keep V0 main_v157 (by decide)).trans ((val31_keep V0 main_v157 (by decide)).trans ((val30_keep V0 main_v157 (by decide)).trans ((val29_keep V0 main_v157 (by decide)).trans ((val28_keep V0 main_v157 (by decide)).trans ((val27_keep V0 main_v157 (by decide)).trans ((val26_keep V0 main_v157 (by decide)).trans ((val25_keep V0 main_v157 (by decide)).trans ((val24_keep V0 main_v157 (by decide)).trans (val23_slab V0))))))))))))))))))))))))))
/-- The slab of disparity 23 is still in its buffer after all 48 groups. -/
theorem val48_slab23 (V0 : Valuation τ sig (Elt F)) : val48 V0 (no_index (Proc.devRef .tc main_v164)) = res_slab23 V0 :=
  ((val48_keep V0 main_v164 (by decide)).trans ((val47_keep V0 main_v164 (by decide)).trans ((val46_keep V0 main_v164 (by decide)).trans ((val45_keep V0 main_v164 (by decide)).trans ((val44_keep V0 main_v164 (by decide)).trans ((val43_keep V0 main_v164 (by decide)).trans ((val42_keep V0 main_v164 (by decide)).trans ((val41_keep V0 main_v164 (by decide)).trans ((val40_keep V0 main_v164 (by decide)).trans ((val39_keep V0 main_v164 (by decide)).trans ((val38_keep V0 main_v164 (by decide)).trans ((val37_keep V0 main_v164 (by decide)).trans ((val36_keep V0 main_v164 (by decide)).trans ((val35_keep V0 main_v164 (by decide)).trans ((val34_keep V0 main_v164 (by decide)).trans ((val33_keep V0 main_v164 (by decide)).trans ((val32_keep V0 main_v164 (by decide)).trans ((val31_keep V0 main_v164 (by decide)).trans ((val30_keep V0 main_v164 (by decide)).trans ((val29_keep V0 main_v164 (by decide)).trans ((val28_keep V0 main_v164 (by decide)).trans ((val27_keep V0 main_v164 (by decide)).trans ((val26_keep V0 main_v164 (by decide)).trans ((val25_keep V0 main_v164 (by decide)).trans (val24_slab V0)))))))))))))))))))))))))
/-- The slab of disparity 24 is still in its buffer after all 48 groups. -/
theorem val48_slab24 (V0 : Valuation τ sig (Elt F)) : val48 V0 (no_index (Proc.devRef .tc main_v171)) = res_slab24 V0 :=
  ((val48_keep V0 main_v171 (by decide)).trans ((val47_keep V0 main_v171 (by decide)).trans ((val46_keep V0 main_v171 (by decide)).trans ((val45_keep V0 main_v171 (by decide)).trans ((val44_keep V0 main_v171 (by decide)).trans ((val43_keep V0 main_v171 (by decide)).trans ((val42_keep V0 main_v171 (by decide)).trans ((val41_keep V0 main_v171 (by decide)).trans ((val40_keep V0 main_v171 (by decide)).trans ((val39_keep V0 main_v171 (by decide)).trans ((val38_keep V0 main_v171 (by decide)).trans ((val37_keep V0 main_v171 (by decide)).trans ((val36_keep V0 main_v171 (by decide)).trans ((val35_keep V0 main_v171 (by decide)).trans ((val34_keep V0 main_v171 (by decide)).trans ((val33_keep V0 main_v171 (by decide)).trans ((val32_keep V0 main_v171 (by decide)).trans ((val31_keep V0 main_v171 (by decide)).trans ((val30_keep V0 main_v171 (by decide)).trans ((val29_keep V0 main_v171 (by decide)).trans ((val28_keep V0 main_v171 (by decide)).trans ((val27_keep V0 main_v171 (by decide)).trans ((val26_keep V0 main_v171 (by decide)).trans (val25_slab V0))))))))))))))))))))))))
/-- The slab of disparity 25 is still in its buffer after all 48 groups. -/
theorem val48_slab25 (V0 : Valuation τ sig (Elt F)) : val48 V0 (no_index (Proc.devRef .tc main_v178)) = res_slab25 V0 :=
  ((val48_keep V0 main_v178 (by decide)).trans ((val47_keep V0 main_v178 (by decide)).trans ((val46_keep V0 main_v178 (by decide)).trans ((val45_keep V0 main_v178 (by decide)).trans ((val44_keep V0 main_v178 (by decide)).trans ((val43_keep V0 main_v178 (by decide)).trans ((val42_keep V0 main_v178 (by decide)).trans ((val41_keep V0 main_v178 (by decide)).trans ((val40_keep V0 main_v178 (by decide)).trans ((val39_keep V0 main_v178 (by decide)).trans ((val38_keep V0 main_v178 (by decide)).trans ((val37_keep V0 main_v178 (by decide)).trans ((val36_keep V0 main_v178 (by decide)).trans ((val35_keep V0 main_v178 (by decide)).trans ((val34_keep V0 main_v178 (by decide)).trans ((val33_keep V0 main_v178 (by decide)).trans ((val32_keep V0 main_v178 (by decide)).trans ((val31_keep V0 main_v178 (by decide)).trans ((val30_keep V0 main_v178 (by decide)).trans ((val29_keep V0 main_v178 (by decide)).trans ((val28_keep V0 main_v178 (by decide)).trans ((val27_keep V0 main_v178 (by decide)).trans (val26_slab V0)))))))))))))))))))))))
/-- The slab of disparity 26 is still in its buffer after all 48 groups. -/
theorem val48_slab26 (V0 : Valuation τ sig (Elt F)) : val48 V0 (no_index (Proc.devRef .tc main_v185)) = res_slab26 V0 :=
  ((val48_keep V0 main_v185 (by decide)).trans ((val47_keep V0 main_v185 (by decide)).trans ((val46_keep V0 main_v185 (by decide)).trans ((val45_keep V0 main_v185 (by decide)).trans ((val44_keep V0 main_v185 (by decide)).trans ((val43_keep V0 main_v185 (by decide)).trans ((val42_keep V0 main_v185 (by decide)).trans ((val41_keep V0 main_v185 (by decide)).trans ((val40_keep V0 main_v185 (by decide)).trans ((val39_keep V0 main_v185 (by decide)).trans ((val38_keep V0 main_v185 (by decide)).trans ((val37_keep V0 main_v185 (by decide)).trans ((val36_keep V0 main_v185 (by decide)).trans ((val35_keep V0 main_v185 (by decide)).trans ((val34_keep V0 main_v185 (by decide)).trans ((val33_keep V0 main_v185 (by decide)).trans ((val32_keep V0 main_v185 (by decide)).trans ((val31_keep V0 main_v185 (by decide)).trans ((val30_keep V0 main_v185 (by decide)).trans ((val29_keep V0 main_v185 (by decide)).trans ((val28_keep V0 main_v185 (by decide)).trans (val27_slab V0))))))))))))))))))))))
/-- The slab of disparity 27 is still in its buffer after all 48 groups. -/
theorem val48_slab27 (V0 : Valuation τ sig (Elt F)) : val48 V0 (no_index (Proc.devRef .tc main_v192)) = res_slab27 V0 :=
  ((val48_keep V0 main_v192 (by decide)).trans ((val47_keep V0 main_v192 (by decide)).trans ((val46_keep V0 main_v192 (by decide)).trans ((val45_keep V0 main_v192 (by decide)).trans ((val44_keep V0 main_v192 (by decide)).trans ((val43_keep V0 main_v192 (by decide)).trans ((val42_keep V0 main_v192 (by decide)).trans ((val41_keep V0 main_v192 (by decide)).trans ((val40_keep V0 main_v192 (by decide)).trans ((val39_keep V0 main_v192 (by decide)).trans ((val38_keep V0 main_v192 (by decide)).trans ((val37_keep V0 main_v192 (by decide)).trans ((val36_keep V0 main_v192 (by decide)).trans ((val35_keep V0 main_v192 (by decide)).trans ((val34_keep V0 main_v192 (by decide)).trans ((val33_keep V0 main_v192 (by decide)).trans ((val32_keep V0 main_v192 (by decide)).trans ((val31_keep V0 main_v192 (by decide)).trans ((val30_keep V0 main_v192 (by decide)).trans ((val29_keep V0 main_v192 (by decide)).trans (val28_slab V0)))))))))))))))))))))
/-- The slab of disparity 28 is still in its buffer after all 48 groups. -/
theorem val48_slab28 (V0 : Valuation τ sig (Elt F)) : val48 V0 (no_index (Proc.devRef .tc main_v199)) = res_slab28 V0 :=
  ((val48_keep V0 main_v199 (by decide)).trans ((val47_keep V0 main_v199 (by decide)).trans ((val46_keep V0 main_v199 (by decide)).trans ((val45_keep V0 main_v199 (by decide)).trans ((val44_keep V0 main_v199 (by decide)).trans ((val43_keep V0 main_v199 (by decide)).trans ((val42_keep V0 main_v199 (by decide)).trans ((val41_keep V0 main_v199 (by decide)).trans ((val40_keep V0 main_v199 (by decide)).trans ((val39_keep V0 main_v199 (by decide)).trans ((val38_keep V0 main_v199 (by decide)).trans ((val37_keep V0 main_v199 (by decide)).trans ((val36_keep V0 main_v199 (by decide)).trans ((val35_keep V0 main_v199 (by decide)).trans ((val34_keep V0 main_v199 (by decide)).trans ((val33_keep V0 main_v199 (by decide)).trans ((val32_keep V0 main_v199 (by decide)).trans ((val31_keep V0 main_v199 (by decide)).trans ((val30_keep V0 main_v199 (by decide)).trans (val29_slab V0))))))))))))))))))))
/-- The slab of disparity 29 is still in its buffer after all 48 groups. -/
theorem val48_slab29 (V0 : Valuation τ sig (Elt F)) : val48 V0 (no_index (Proc.devRef .tc main_v206)) = res_slab29 V0 :=
  ((val48_keep V0 main_v206 (by decide)).trans ((val47_keep V0 main_v206 (by decide)).trans ((val46_keep V0 main_v206 (by decide)).trans ((val45_keep V0 main_v206 (by decide)).trans ((val44_keep V0 main_v206 (by decide)).trans ((val43_keep V0 main_v206 (by decide)).trans ((val42_keep V0 main_v206 (by decide)).trans ((val41_keep V0 main_v206 (by decide)).trans ((val40_keep V0 main_v206 (by decide)).trans ((val39_keep V0 main_v206 (by decide)).trans ((val38_keep V0 main_v206 (by decide)).trans ((val37_keep V0 main_v206 (by decide)).trans ((val36_keep V0 main_v206 (by decide)).trans ((val35_keep V0 main_v206 (by decide)).trans ((val34_keep V0 main_v206 (by decide)).trans ((val33_keep V0 main_v206 (by decide)).trans ((val32_keep V0 main_v206 (by decide)).trans ((val31_keep V0 main_v206 (by decide)).trans (val30_slab V0)))))))))))))))))))
/-- The slab of disparity 30 is still in its buffer after all 48 groups. -/
theorem val48_slab30 (V0 : Valuation τ sig (Elt F)) : val48 V0 (no_index (Proc.devRef .tc main_v213)) = res_slab30 V0 :=
  ((val48_keep V0 main_v213 (by decide)).trans ((val47_keep V0 main_v213 (by decide)).trans ((val46_keep V0 main_v213 (by decide)).trans ((val45_keep V0 main_v213 (by decide)).trans ((val44_keep V0 main_v213 (by decide)).trans ((val43_keep V0 main_v213 (by decide)).trans ((val42_keep V0 main_v213 (by decide)).trans ((val41_keep V0 main_v213 (by decide)).trans ((val40_keep V0 main_v213 (by decide)).trans ((val39_keep V0 main_v213 (by decide)).trans ((val38_keep V0 main_v213 (by decide)).trans ((val37_keep V0 main_v213 (by decide)).trans ((val36_keep V0 main_v213 (by decide)).trans ((val35_keep V0 main_v213 (by decide)).trans ((val34_keep V0 main_v213 (by decide)).trans ((val33_keep V0 main_v213 (by decide)).trans ((val32_keep V0 main_v213 (by decide)).trans (val31_slab V0))))))))))))))))))
/-- The slab of disparity 31 is still in its buffer after all 48 groups. -/
theorem val48_slab31 (V0 : Valuation τ sig (Elt F)) : val48 V0 (no_index (Proc.devRef .tc main_v220)) = res_slab31 V0 :=
  ((val48_keep V0 main_v220 (by decide)).trans ((val47_keep V0 main_v220 (by decide)).trans ((val46_keep V0 main_v220 (by decide)).trans ((val45_keep V0 main_v220 (by decide)).trans ((val44_keep V0 main_v220 (by decide)).trans ((val43_keep V0 main_v220 (by decide)).trans ((val42_keep V0 main_v220 (by decide)).trans ((val41_keep V0 main_v220 (by decide)).trans ((val40_keep V0 main_v220 (by decide)).trans ((val39_keep V0 main_v220 (by decide)).trans ((val38_keep V0 main_v220 (by decide)).trans ((val37_keep V0 main_v220 (by decide)).trans ((val36_keep V0 main_v220 (by decide)).trans ((val35_keep V0 main_v220 (by decide)).trans ((val34_keep V0 main_v220 (by decide)).trans ((val33_keep V0 main_v220 (by decide)).trans (val32_slab V0)))))))))))))))))
/-- The slab of disparity 32 is still in its buffer after all 48 groups. -/
theorem val48_slab32 (V0 : Valuation τ sig (Elt F)) : val48 V0 (no_index (Proc.devRef .tc main_v227)) = res_slab32 V0 :=
  ((val48_keep V0 main_v227 (by decide)).trans ((val47_keep V0 main_v227 (by decide)).trans ((val46_keep V0 main_v227 (by decide)).trans ((val45_keep V0 main_v227 (by decide)).trans ((val44_keep V0 main_v227 (by decide)).trans ((val43_keep V0 main_v227 (by decide)).trans ((val42_keep V0 main_v227 (by decide)).trans ((val41_keep V0 main_v227 (by decide)).trans ((val40_keep V0 main_v227 (by decide)).trans ((val39_keep V0 main_v227 (by decide)).trans ((val38_keep V0 main_v227 (by decide)).trans ((val37_keep V0 main_v227 (by decide)).trans ((val36_keep V0 main_v227 (by decide)).trans ((val35_keep V0 main_v227 (by decide)).trans ((val34_keep V0 main_v227 (by decide)).trans (val33_slab V0))))))))))))))))
/-- The slab of disparity 33 is still in its buffer after all 48 groups. -/
theorem val48_slab33 (V0 : Valuation τ sig (Elt F)) : val48 V0 (no_index (Proc.devRef .tc main_v234)) = res_slab33 V0 :=
  ((val48_keep V0 main_v234 (by decide)).trans ((val47_keep V0 main_v234 (by decide)).trans ((val46_keep V0 main_v234 (by decide)).trans ((val45_keep V0 main_v234 (by decide)).trans ((val44_keep V0 main_v234 (by decide)).trans ((val43_keep V0 main_v234 (by decide)).trans ((val42_keep V0 main_v234 (by decide)).trans ((val41_keep V0 main_v234 (by decide)).trans ((val40_keep V0 main_v234 (by decide)).trans ((val39_keep V0 main_v234 (by decide)).trans ((val38_keep V0 main_v234 (by decide)).trans ((val37_keep V0 main_v234 (by decide)).trans ((val36_keep V0 main_v234 (by decide)).trans ((val35_keep V0 main_v234 (by decide)).trans (val34_slab V0)))))))))))))))
/-- The slab of disparity 34 is still in its buffer after all 48 groups. -/
theorem val48_slab34 (V0 : Valuation τ sig (Elt F)) : val48 V0 (no_index (Proc.devRef .tc main_v241)) = res_slab34 V0 :=
  ((val48_keep V0 main_v241 (by decide)).trans ((val47_keep V0 main_v241 (by decide)).trans ((val46_keep V0 main_v241 (by decide)).trans ((val45_keep V0 main_v241 (by decide)).trans ((val44_keep V0 main_v241 (by decide)).trans ((val43_keep V0 main_v241 (by decide)).trans ((val42_keep V0 main_v241 (by decide)).trans ((val41_keep V0 main_v241 (by decide)).trans ((val40_keep V0 main_v241 (by decide)).trans ((val39_keep V0 main_v241 (by decide)).trans ((val38_keep V0 main_v241 (by decide)).trans ((val37_keep V0 main_v241 (by decide)).trans ((val36_keep V0 main_v241 (by decide)).trans (val35_slab V0))))))))))))))
/-- The slab of disparity 35 is still in its buffer after all 48 groups. -/
theorem val48_slab35 (V0 : Valuation τ sig (Elt F)) : val48 V0 (no_index (Proc.devRef .tc main_v248)) = res_slab35 V0 :=
  ((val48_keep V0 main_v248 (by decide)).trans ((val47_keep V0 main_v248 (by decide)).trans ((val46_keep V0 main_v248 (by decide)).trans ((val45_keep V0 main_v248 (by decide)).trans ((val44_keep V0 main_v248 (by decide)).trans ((val43_keep V0 main_v248 (by decide)).trans ((val42_keep V0 main_v248 (by decide)).trans ((val41_keep V0 main_v248 (by decide)).trans ((val40_keep V0 main_v248 (by decide)).trans ((val39_keep V0 main_v248 (by decide)).trans ((val38_keep V0 main_v248 (by decide)).trans ((val37_keep V0 main_v248 (by decide)).trans (val36_slab V0)))))))))))))
/-- The slab of disparity 36 is still in its buffer after all 48 groups. -/
theorem val48_slab36 (V0 : Valuation τ sig (Elt F)) : val48 V0 (no_index (Proc.devRef .tc main_v255)) = res_slab36 V0 :=
  ((val48_keep V0 main_v255 (by decide)).trans ((val47_keep V0 main_v255 (by decide)).trans ((val46_keep V0 main_v255 (by decide)).trans ((val45_keep V0 main_v255 (by decide)).trans ((val44_keep V0 main_v255 (by decide)).trans ((val43_keep V0 main_v255 (by decide)).trans ((val42_keep V0 main_v255 (by decide)).trans ((val41_keep V0 main_v255 (by decide)).trans ((val40_keep V0 main_v255 (by decide)).trans ((val39_keep V0 main_v255 (by decide)).trans ((val38_keep V0 main_v255 (by decide)).trans (val37_slab V0))))))))))))
/-- The slab of disparity 37 is still in its buffer after all 48 groups. -/
theorem val48_slab37 (V0 : Valuation τ sig (Elt F)) : val48 V0 (no_index (Proc.devRef .tc main_v262)) = res_slab37 V0 :=
  ((val48_keep V0 main_v262 (by decide)).trans ((val47_keep V0 main_v262 (by decide)).trans ((val46_keep V0 main_v262 (by decide)).trans ((val45_keep V0 main_v262 (by decide)).trans ((val44_keep V0 main_v262 (by decide)).trans ((val43_keep V0 main_v262 (by decide)).trans ((val42_keep V0 main_v262 (by decide)).trans ((val41_keep V0 main_v262 (by decide)).trans ((val40_keep V0 main_v262 (by decide)).trans ((val39_keep V0 main_v262 (by decide)).trans (val38_slab V0)))))))))))
/-- The slab of disparity 38 is still in its buffer after all 48 groups. -/
theorem val48_slab38 (V0 : Valuation τ sig (Elt F)) : val48 V0 (no_index (Proc.devRef .tc main_v269)) = res_slab38 V0 :=
  ((val48_keep V0 main_v269 (by decide)).trans ((val47_keep V0 main_v269 (by decide)).trans ((val46_keep V0 main_v269 (by decide)).trans ((val45_keep V0 main_v269 (by decide)).trans ((val44_keep V0 main_v269 (by decide)).trans ((val43_keep V0 main_v269 (by decide)).trans ((val42_keep V0 main_v269 (by decide)).trans ((val41_keep V0 main_v269 (by decide)).trans ((val40_keep V0 main_v269 (by decide)).trans (val39_slab V0))))))))))
/-- The slab of disparity 39 is still in its buffer after all 48 groups. -/
theorem val48_slab39 (V0 : Valuation τ sig (Elt F)) : val48 V0 (no_index (Proc.devRef .tc main_v276)) = res_slab39 V0 :=
  ((val48_keep V0 main_v276 (by decide)).trans ((val47_keep V0 main_v276 (by decide)).trans ((val46_keep V0 main_v276 (by decide)).trans ((val45_keep V0 main_v276 (by decide)).trans ((val44_keep V0 main_v276 (by decide)).trans ((val43_keep V0 main_v276 (by decide)).trans ((val42_keep V0 main_v276 (by decide)).trans ((val41_keep V0 main_v276 (by decide)).trans (val40_slab V0)))))))))
/-- The slab of disparity 40 is still in its buffer after all 48 groups. -/
theorem val48_slab40 (V0 : Valuation τ sig (Elt F)) : val48 V0 (no_index (Proc.devRef .tc main_v283)) = res_slab40 V0 :=
  ((val48_keep V0 main_v283 (by decide)).trans ((val47_keep V0 main_v283 (by decide)).trans ((val46_keep V0 main_v283 (by decide)).trans ((val45_keep V0 main_v283 (by decide)).trans ((val44_keep V0 main_v283 (by decide)).trans ((val43_keep V0 main_v283 (by decide)).trans ((val42_keep V0 main_v283 (by decide)).trans (val41_slab V0))))))))
/-- The slab of disparity 41 is still in its buffer after all 48 groups. -/
theorem val48_slab41 (V0 : Valuation τ sig (Elt F)) : val48 V0 (no_index (Proc.devRef .tc main_v290)) = res_slab41 V0 :=
  ((val48_keep V0 main_v290 (by decide)).trans ((val47_keep V0 main_v290 (by decide)).trans ((val46_keep V0 main_v290 (by decide)).trans ((val45_keep V0 main_v290 (by decide)).trans ((val44_keep V0 main_v290 (by decide)).trans ((val43_keep V0 main_v290 (by decide)).trans (val42_slab V0)))))))
/-- The slab of disparity 42 is still in its buffer after all 48 groups. -/
theorem val48_slab42 (V0 : Valuation τ sig (Elt F)) : val48 V0 (no_index (Proc.devRef .tc main_v297)) = res_slab42 V0 :=
  ((val48_keep V0 main_v297 (by decide)).trans ((val47_keep V0 main_v297 (by decide)).trans ((val46_keep V0 main_v297 (by decide)).trans ((val45_keep V0 main_v297 (by decide)).trans ((val44_keep V0 main_v297 (by decide)).trans (val43_slab V0))))))
/-- The slab of disparity 43 is still in its buffer after all 48 groups. -/
theorem val48_slab43 (V0 : Valuation τ sig (Elt F)) : val48 V0 (no_index (Proc.devRef .tc main_v304)) = res_slab43 V0 :=
  ((val48_keep V0 main_v304 (by decide)).trans ((val47_keep V0 main_v304 (by decide)).trans ((val46_keep V0 main_v304 (by decide)).trans ((val45_keep V0 main_v304 (by decide)).trans (val44_slab V0)))))
/-- The slab of disparity 44 is still in its buffer after all 48 groups. -/
theorem val48_slab44 (V0 : Valuation τ sig (Elt F)) : val48 V0 (no_index (Proc.devRef .tc main_v311)) = res_slab44 V0 :=
  ((val48_keep V0 main_v311 (by decide)).trans ((val47_keep V0 main_v311 (by decide)).trans ((val46_keep V0 main_v311 (by decide)).trans (val45_slab V0))))
/-- The slab of disparity 45 is still in its buffer after all 48 groups. -/
theorem val48_slab45 (V0 : Valuation τ sig (Elt F)) : val48 V0 (no_index (Proc.devRef .tc main_v318)) = res_slab45 V0 :=
  ((val48_keep V0 main_v318 (by decide)).trans ((val47_keep V0 main_v318 (by decide)).trans (val46_slab V0)))
/-- The slab of disparity 46 is still in its buffer after all 48 groups. -/
theorem val48_slab46 (V0 : Valuation τ sig (Elt F)) : val48 V0 (no_index (Proc.devRef .tc main_v325)) = res_slab46 V0 :=
  ((val48_keep V0 main_v325 (by decide)).trans (val47_slab V0))
/-- The slab of disparity 47 is still in its buffer after all 48 groups. -/
theorem val48_slab47 (V0 : Valuation τ sig (Elt F)) : val48 V0 (no_index (Proc.devRef .tc main_v332)) = res_slab47 V0 :=
  (val48_slab V0)

set_option maxRecDepth 16384 in
set_option maxHeartbeats 40000000 in
/-- What the last group leaves in the result buffer: the 48 slabs joined. -/
theorem val49_main_v384 (V0 : Valuation τ sig (Elt F)) : val49 V0 (no_index (Proc.devRef .tc main_v384)) = fn_cat3 (F := F) (fn_cat16 (F := F) (broadcastInDim S8x1x96x320 ![0, 2, 3] bcast_S8x96x320_S8x1x96x320_0_2_3 (res_slab0 V0)) (broadcastInDim S8x1x96x320 ![0, 2, 3] bcast_S8x96x320_S8x1x96x320_0_2_3 (res_slab1 V0)) (broadcastInDim S8x1x96x320 ![0, 2, 3] bcast_S8x96x320_S8x1x96x320_0_2_3 (res_slab2 V0)) (broadcastInDim S8x1x96x320 ![0, 2, 3] bcast_S8x96x320_S8x1x96x320_0_2_3 (res_slab3 V0)) (broadcastInDim S8x1x96x320 ![0, 2, 3] bcast_S8x96x320_S8x1x96x320_0_2_3 (res_slab4 V0)) (broadcastInDim S8x1x96x320 ![0, 2, 3] bcast_S8x96x320_S8x1x96x320_0_2_3 (res_slab5 V0)) (broadcastInDim S8x1x96x320 ![0, 2, 3] bcast_S8x96x320_S8x1x96x320_0_2_3 (res_slab6 V0)) (broadcastInDim S8x1x96x320 ![0, 2, 3] bcast_S8x96x320_S8x1x96x320_0_2_3 (res_slab7 V0)) (broadcastInDim S8x1x96x320 ![0, 2, 3] bcast_S8x96x320_S8x1x96x320_0_2_3 (res_slab8 V0)) (broadcastInDim S8x1x96x320 ![0, 2, 3] bcast_S8x96x320_S8x1x96x320_0_2_3 (res_slab9 V0)) (broadcastInDim S8x1x96x320 ![0, 2, 3] bcast_S8x96x320_S8x1x96x320_0_2_3 (res_slab10 V0)) (broadcastInDim S8x1x96x320 ![0, 2, 3] bcast_S8x96x320_S8x1x96x320_0_2_3 (res_slab11 V0)) (broadcastInDim S8x1x96x320 ![0, 2, 3] bcast_S8x96x320_S8x1x96x320_0_2_3 (res_slab12 V0)) (broadcastInDim S8x1x96x320 ![0, 2, 3] bcast_S8x96x320_S8x1x96x320_0_2_3 (res_slab13 V0)) (broadcastInDim S8x1x96x320 ![0, 2, 3] bcast_S8x96x320_S8x1x96x320_0_2_3 (res_slab14 V0)) (broadcastInDim S8x1x96x320 ![0, 2, 3] bcast_S8x96x320_S8x1x96x320_0_2_3 (res_slab15 V0))) (fn_cat16 (F := F) (broadcastInDim S8x1x96x320 ![0, 2, 3] bcast_S8x96x320_S8x1x96x320_0_2_3 (res_slab16 V0)) (broadcastInDim S8x1x96x320 ![0, 2, 3] bcast_S8x96x320_S8x1x96x320_0_2_3 (res_slab17 V0)) (broadcastInDim S8x1x96x320 ![0, 2, 3] bcast_S8x96x320_S8x1x96x320_0_2_3 (res_slab18 V0)) (broadcastInDim S8x1x96x320 ![0, 2, 3] bcast_S8x96x320_S8x1x96x320_0_2_3 (res_slab19 V0)) (broadcastInDim S8x1x96x320 ![0, 2, 3] bcast_S8x96x320_S8x1x96x320_0_2_3 (res_slab20 V0)) (broadcastInDim S8x1x96x320 ![0, 2, 3] bcast_S8x96x320_S8x1x96x320_0_2_3 (res_slab21 V0)) (broadcastInDim S8x1x96x320 ![0, 2, 3] bcast_S8x96x320_S8x1x96x320_0_2_3 (res_slab22 V0)) (broadcastInDim S8x1x96x320 ![0, 2, 3] bcast_S8x96x320_S8x1x96x320_0_2_3 (res_slab23 V0)) (broadcastInDim S8x1x96x320 ![0, 2, 3] bcast_S8x96x320_S8x1x96x320_0_2_3 (res_slab24 V0)) (broadcastInDim S8x1x96x320 ![0, 2, 3] bcast_S8x96x320_S8x1x96x320_0_2_3 (res_slab25 V0)) (broadcastInDim S8x1x96x320 ![0, 2, 3] bcast_S8x96x320_S8x1x96x320_0_2_3 (res_slab26 V0)) (broadcastInDim S8x1x96x320 ![0, 2, 3] bcast_S8x96x320_S8x1x96x320_0_2_3 (res_slab27 V0)) (broadcastInDim S8x1x96x320 ![0, 2, 3] bcast_S8x96x320_S8x1x96x320_0_2_3 (res_slab28 V0)) (broadcastInDim S8x1x96x320 ![0, 2, 3] bcast_S8x96x320_S8x1x96x320_0_2_3 (res_slab29 V0)) (broadcastInDim S8x1x96x320 ![0, 2, 3] bcast_S8x96x320_S8x1x96x320_0_2_3 (res_slab30 V0)) (broadcastInDim S8x1x96x320 ![0, 2, 3] bcast_S8x96x320_S8x1x96x320_0_2_3 (res_slab31 V0))) (fn_cat16 (F := F) (broadcastInDim S8x1x96x320 ![0, 2, 3] bcast_S8x96x320_S8x1x96x320_0_2_3 (res_slab32 V0)) (broadcastInDim S8x1x96x320 ![0, 2, 3] bcast_S8x96x320_S8x1x96x320_0_2_3 (res_slab33 V0)) (broadcastInDim S8x1x96x320 ![0, 2, 3] bcast_S8x96x320_S8x1x96x320_0_2_3 (res_slab34 V0)) (broadcastInDim S8x1x96x320 ![0, 2, 3] bcast_S8x96x320_S8x1x96x320_0_2_3 (res_slab35 V0)) (broadcastInDim S8x1x96x320 ![0, 2, 3] bcast_S8x96x320_S8x1x96x320_0_2_3 (res_slab36 V0)) (broadcastInDim S8x1x96x320 ![0, 2, 3] bcast_S8x96x320_S8x1x96x320_0_2_3 (res_slab37 V0)) (broadcastInDim S8x1x96x320 ![0, 2, 3] bcast_S8x96x320_S8x1x96x320_0_2_3 (res_slab38 V0)) (broadcastInDim S8x1x96x320 ![0, 2, 3] bcast_S8x96x320_S8x1x96x320_0_2_3 (res_slab39 V0)) (broadcastInDim S8x1x96x320 ![0, 2, 3] bcast_S8x96x320_S8x1x96x320_0_2_3 (res_slab40 V0)) (broadcastInDim S8x1x96x320 ![0, 2, 3] bcast_S8x96x320_S8x1x96x320_0_2_3 (res_slab41 V0)) (broadcastInDim S8x1x96x320 ![0, 2, 3] bcast_S8x96x320_S8x1x96x320_0_2_3 (res_slab42 V0)) (broadcastInDim S8x1x96x320 ![0, 2, 3] bcast_S8x96x320_S8x1x96x320_0_2_3 (res_slab43 V0)) (broadcastInDim S8x1x96x320 ![0, 2, 3] bcast_S8x96x320_S8x1x96x320_0_2_3 (res_slab44 V0)) (broadcastInDim S8x1x96x320 ![0, 2, 3] bcast_S8x96x320_S8x1x96x320_0_2_3 (res_slab45 V0)) (broadcastInDim S8x1x96x320 ![0, 2, 3] bcast_S8x96x320_S8x1x96x320_0_2_3 (res_slab46 V0)) (broadcastInDim S8x1x96x320 ![0, 2, 3] bcast_S8x96x320_S8x1x96x320_0_2_3 (res_slab47 V0))) := by
  unfold val49
  simp only [ops_tail]
  after_results_simp
  try dsimp only [Matrix.cons_val]
  try after_results_simp
  try dsimp only [Matrix.cons_val]
  try after_results_simp
  simp only [val48_slab0, val48_slab1, val48_slab2, val48_slab3, val48_slab4, val48_slab5, val48_slab6, val48_slab7, val48_slab8, val48_slab9, val48_slab10, val48_slab11, val48_slab12, val48_slab13, val48_slab14, val48_slab15, val48_slab16, val48_slab17, val48_slab18, val48_slab19, val48_slab20, val48_slab21, val48_slab22, val48_slab23, val48_slab24, val48_slab25, val48_slab26, val48_slab27, val48_slab28, val48_slab29, val48_slab30, val48_slab31, val48_slab32, val48_slab33, val48_slab34, val48_slab35, val48_slab36, val48_slab37, val48_slab38, val48_slab39, val48_slab40, val48_slab41, val48_slab42, val48_slab43, val48_slab44, val48_slab45, val48_slab46, val48_slab47] <;> rfl

theorem after_ops (V0 : Valuation τ sig (Elt F)) : after ops V0 = val49 V0 := by
  simp only [ops, after_append]
  rfl

/-- The result array's term of the argument arrays: the 48 slabs, each viewed as `[8, 1, 96, 320]`, joined. -/
def res_main_v384 (m : (ℓ : Loc nD τ sig) → Buf (Elt F) ℓ) (c : Dev nD) : Buf (Elt F) ((c.tc : Thread nD τ).loc main_v384) :=
  fn_cat3 (F := F) (fn_cat16 (F := F) (broadcastInDim S8x1x96x320 ![0, 2, 3] bcast_S8x96x320_S8x1x96x320_0_2_3 (res_slab0 (launchContents m c))) (broadcastInDim S8x1x96x320 ![0, 2, 3] bcast_S8x96x320_S8x1x96x320_0_2_3 (res_slab1 (launchContents m c))) (broadcastInDim S8x1x96x320 ![0, 2, 3] bcast_S8x96x320_S8x1x96x320_0_2_3 (res_slab2 (launchContents m c))) (broadcastInDim S8x1x96x320 ![0, 2, 3] bcast_S8x96x320_S8x1x96x320_0_2_3 (res_slab3 (launchContents m c))) (broadcastInDim S8x1x96x320 ![0, 2, 3] bcast_S8x96x320_S8x1x96x320_0_2_3 (res_slab4 (launchContents m c))) (broadcastInDim S8x1x96x320 ![0, 2, 3] bcast_S8x96x320_S8x1x96x320_0_2_3 (res_slab5 (launchContents m c))) (broadcastInDim S8x1x96x320 ![0, 2, 3] bcast_S8x96x320_S8x1x96x320_0_2_3 (res_slab6 (launchContents m c))) (broadcastInDim S8x1x96x320 ![0, 2, 3] bcast_S8x96x320_S8x1x96x320_0_2_3 (res_slab7 (launchContents m c))) (broadcastInDim S8x1x96x320 ![0, 2, 3] bcast_S8x96x320_S8x1x96x320_0_2_3 (res_slab8 (launchContents m c))) (broadcastInDim S8x1x96x320 ![0, 2, 3] bcast_S8x96x320_S8x1x96x320_0_2_3 (res_slab9 (launchContents m c))) (broadcastInDim S8x1x96x320 ![0, 2, 3] bcast_S8x96x320_S8x1x96x320_0_2_3 (res_slab10 (launchContents m c))) (broadcastInDim S8x1x96x320 ![0, 2, 3] bcast_S8x96x320_S8x1x96x320_0_2_3 (res_slab11 (launchContents m c))) (broadcastInDim S8x1x96x320 ![0, 2, 3] bcast_S8x96x320_S8x1x96x320_0_2_3 (res_slab12 (launchContents m c))) (broadcastInDim S8x1x96x320 ![0, 2, 3] bcast_S8x96x320_S8x1x96x320_0_2_3 (res_slab13 (launchContents m c))) (broadcastInDim S8x1x96x320 ![0, 2, 3] bcast_S8x96x320_S8x1x96x320_0_2_3 (res_slab14 (launchContents m c))) (broadcastInDim S8x1x96x320 ![0, 2, 3] bcast_S8x96x320_S8x1x96x320_0_2_3 (res_slab15 (launchContents m c)))) (fn_cat16 (F := F) (broadcastInDim S8x1x96x320 ![0, 2, 3] bcast_S8x96x320_S8x1x96x320_0_2_3 (res_slab16 (launchContents m c))) (broadcastInDim S8x1x96x320 ![0, 2, 3] bcast_S8x96x320_S8x1x96x320_0_2_3 (res_slab17 (launchContents m c))) (broadcastInDim S8x1x96x320 ![0, 2, 3] bcast_S8x96x320_S8x1x96x320_0_2_3 (res_slab18 (launchContents m c))) (broadcastInDim S8x1x96x320 ![0, 2, 3] bcast_S8x96x320_S8x1x96x320_0_2_3 (res_slab19 (launchContents m c))) (broadcastInDim S8x1x96x320 ![0, 2, 3] bcast_S8x96x320_S8x1x96x320_0_2_3 (res_slab20 (launchContents m c))) (broadcastInDim S8x1x96x320 ![0, 2, 3] bcast_S8x96x320_S8x1x96x320_0_2_3 (res_slab21 (launchContents m c))) (broadcastInDim S8x1x96x320 ![0, 2, 3] bcast_S8x96x320_S8x1x96x320_0_2_3 (res_slab22 (launchContents m c))) (broadcastInDim S8x1x96x320 ![0, 2, 3] bcast_S8x96x320_S8x1x96x320_0_2_3 (res_slab23 (launchContents m c))) (broadcastInDim S8x1x96x320 ![0, 2, 3] bcast_S8x96x320_S8x1x96x320_0_2_3 (res_slab24 (launchContents m c))) (broadcastInDim S8x1x96x320 ![0, 2, 3] bcast_S8x96x320_S8x1x96x320_0_2_3 (res_slab25 (launchContents m c))) (broadcastInDim S8x1x96x320 ![0, 2, 3] bcast_S8x96x320_S8x1x96x320_0_2_3 (res_slab26 (launchContents m c))) (broadcastInDim S8x1x96x320 ![0, 2, 3] bcast_S8x96x320_S8x1x96x320_0_2_3 (res_slab27 (launchContents m c))) (broadcastInDim S8x1x96x320 ![0, 2, 3] bcast_S8x96x320_S8x1x96x320_0_2_3 (res_slab28 (launchContents m c))) (broadcastInDim S8x1x96x320 ![0, 2, 3] bcast_S8x96x320_S8x1x96x320_0_2_3 (res_slab29 (launchContents m c))) (broadcastInDim S8x1x96x320 ![0, 2, 3] bcast_S8x96x320_S8x1x96x320_0_2_3 (res_slab30 (launchContents m c))) (broadcastInDim S8x1x96x320 ![0, 2, 3] bcast_S8x96x320_S8x1x96x320_0_2_3 (res_slab31 (launchContents m c)))) (fn_cat16 (F := F) (broadcastInDim S8x1x96x320 ![0, 2, 3] bcast_S8x96x320_S8x1x96x320_0_2_3 (res_slab32 (launchContents m c))) (broadcastInDim S8x1x96x320 ![0, 2, 3] bcast_S8x96x320_S8x1x96x320_0_2_3 (res_slab33 (launchContents m c))) (broadcastInDim S8x1x96x320 ![0, 2, 3] bcast_S8x96x320_S8x1x96x320_0_2_3 (res_slab34 (launchContents m c))) (broadcastInDim S8x1x96x320 ![0, 2, 3] bcast_S8x96x320_S8x1x96x320_0_2_3 (res_slab35 (launchContents m c))) (broadcastInDim S8x1x96x320 ![0, 2, 3] bcast_S8x96x320_S8x1x96x320_0_2_3 (res_slab36 (launchContents m c))) (broadcastInDim S8x1x96x320 ![0, 2, 3] bcast_S8x96x320_S8x1x96x320_0_2_3 (res_slab37 (launchContents m c))) (broadcastInDim S8x1x96x320 ![0, 2, 3] bcast_S8x96x320_S8x1x96x320_0_2_3 (res_slab38 (launchContents m c))) (broadcastInDim S8x1x96x320 ![0, 2, 3] bcast_S8x96x320_S8x1x96x320_0_2_3 (res_slab39 (launchContents m c))) (broadcastInDim S8x1x96x320 ![0, 2, 3] bcast_S8x96x320_S8x1x96x320_0_2_3 (res_slab40 (launchContents m c))) (broadcastInDim S8x1x96x320 ![0, 2, 3] bcast_S8x96x320_S8x1x96x320_0_2_3 (res_slab41 (launchContents m c))) (broadcastInDim S8x1x96x320 ![0, 2, 3] bcast_S8x96x320_S8x1x96x320_0_2_3 (res_slab42 (launchContents m c))) (broadcastInDim S8x1x96x320 ![0, 2, 3] bcast_S8x96x320_S8x1x96x320_0_2_3 (res_slab43 (launchContents m c))) (broadcastInDim S8x1x96x320 ![0, 2, 3] bcast_S8x96x320_S8x1x96x320_0_2_3 (res_slab44 (launchContents m c))) (broadcastInDim S8x1x96x320 ![0, 2, 3] bcast_S8x96x320_S8x1x96x320_0_2_3 (res_slab45 (launchContents m c))) (broadcastInDim S8x1x96x320 ![0, 2, 3] bcast_S8x96x320_S8x1x96x320_0_2_3 (res_slab46 (launchContents m c))) (broadcastInDim S8x1x96x320 ![0, 2, 3] bcast_S8x96x320_S8x1x96x320_0_2_3 (res_slab47 (launchContents m c))))

set_option maxRecDepth 8192 in
/-- On every device, for any float values, from any memory with zero counters: every weakly fair execution of @main
    terminates with the result at the joined slabs of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v384) = res_main_v384 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v384).trans (by simp only [after_ops]; exact val49_main_v384 (launchContents m c)),
      (h c main_arg0).trans (by simp only [after_ops]; exact val49_main_arg0 (launchContents m c)),
      (h c main_arg1).trans (by simp only [after_ops]; exact val49_main_arg1 (launchContents m c))⟩)
    (run_seq scopedRefs_eq scopedSems_eq defs main (fun _ => ops) main_eq (fun _ => ops_sub) m ρ (fun _ => ops_fresh))

end Cert.ReferenceIdeal.Value

end
-- ==== Proof.RefSlab.lean ====
/-
  One disparity's slab of the reference, read at an entry.

  For a disparity `d ≥ 1` the reference cuts the last `w = 320 − d` columns out of the left array and the first `w` out of the
  right one, multiplies, sums over the channels (starting from the float `0`), divides by `128`, and pads `d` zero columns in
  front.  At column `x ≥ d` the padded slab reads the unpadded one at `x − d`, whose left factor sits at column
  `d + (x − d) = x` and whose right factor sits at column `x − d`; at a column `x < d` it reads the padding value, the integer
  `0` converted to a float.  For `d = 0` nothing is cut or padded.  Either way the entry is `cost L R d b h x`.
-/
import Idealize.ShloMosaic.Lib.ValueIdx
import Idealize.ShloMosaic.Lib.Pipeline.Value
import Idealize.ShloMosaic.Lib.KernelVsHost
import Idealize.ShloMosaic.PureOps.Ideal.Laws
import proofs.«126808_j80762565034123_2_alg».proof.Proof.Spec

noncomputable section

namespace Cert.CostVolume

open Idealize.ShloMosaic Idealize.ShloMosaic.ValueIdx

/-- The scalar shape. -/
abbrev Sc : Shape := ⟨0, ![]⟩

/-- The channel sum of a `[8, 128, 96, w]` array from the float `0`, divided by the broadcast float `128`, at `(b, h, x)`. -/
theorem mean_apply (w : ℕ) (P : FVec Ideal ⟨4, ![8, 128, 96, w]⟩ .f32)
    (hrt : Shape.ReducesTo ⟨4, ![8, 128, 96, w]⟩ [1] ⟨3, ![8, 96, w]⟩) (hr : Shape.Reduces ⟨4, ![8, 128, 96, w]⟩ [1] ⟨3, ![8, 96, w]⟩)
    (hu : 0 < Sc.numel) (hb : Sc.BroadcastsInDim ⟨3, ![8, 96, w]⟩ ![])
    (b : Fin 8) (h : Fin 96) (x : Fin w) :
    Host.divf (Host.reduceAdd P (constant (F := Ideal) Sc .f32 0x00000000#32) hrt hu)
        (broadcastInDim ⟨3, ![8, 96, w]⟩ ![] hb (constant (F := Ideal) Sc .f32 0x43000000#32)) (ix3 b h x)
      = Ideal.div (∑ k : Fin 128, P (ix4 b k h x)) (Ideal.ofBits .f32 0x43000000#32) := by
  show Ideal.div (Ideal.hostReduceAdd hrt P (Ideal.ofBits .f32 0x00000000#32) (ix3 b h x))
      (broadcastInDim ⟨3, ![8, 96, w]⟩ ![] hb (constant (F := Ideal) Sc .f32 0x43000000#32) (ix3 b h x)) = _
  rw [Ideal.hostReduceAdd_single hrt hr, Ideal.ofBits_zero_f32, zero_add,
    broadcastInDim_apply ![] hb _ (ix3 b h x) ix0 (fun a => a.elim0)]
  refine congrArg (Ideal.div · _) (Finset.sum_congr rfl fun k _ => congrArg P ?_)
  funext a; apply Fin.ext
  match a with
  | ⟨0, _⟩ => rfl
  | ⟨1, _⟩ => rfl
  | ⟨2, _⟩ => rfl
  | ⟨3, _⟩ => rfl

/-- THE SLAB OF DISPARITY 0: the channel mean of the unshifted products. -/
theorem slab_zero_apply (L R : FVec Ideal Feat .f32)
    (hrt : Shape.ReducesTo Feat [1] ⟨3, ![8, 96, 320]⟩) (hr : Shape.Reduces Feat [1] ⟨3, ![8, 96, 320]⟩)
    (hu : 0 < Sc.numel) (hb : Sc.BroadcastsInDim ⟨3, ![8, 96, 320]⟩ ![])
    (b : Fin 8) (h : Fin 96) (x : Fin 320) :
    Host.divf (Host.reduceAdd (mulf L R) (constant (F := Ideal) Sc .f32 0x00000000#32) hrt hu)
        (broadcastInDim ⟨3, ![8, 96, 320]⟩ ![] hb (constant (F := Ideal) Sc .f32 0x43000000#32)) (ix3 b h x)
      = cost L R 0 b h x := by
  rw [mean_apply 320 (mulf L R) hrt hr hu hb b h x]
  unfold cost
  rw [if_pos (Nat.zero_le _)]
  rfl

/-- THE SLAB OF A DISPARITY `d ≥ 1`, `w = 320 − d` columns wide before the padding. -/
theorem slab_apply (d w : ℕ) (hdw : d + w = 320) (L R : FVec Ideal Feat .f32)
    (hsL : Feat.Slices ![0, 0, 0, d] ⟨4, ![8, 128, 96, w]⟩) (hsR : Feat.Slices ![0, 0, 0, 0] ⟨4, ![8, 128, 96, w]⟩)
    (hrt : Shape.ReducesTo ⟨4, ![8, 128, 96, w]⟩ [1] ⟨3, ![8, 96, w]⟩) (hr : Shape.Reduces ⟨4, ![8, 128, 96, w]⟩ [1] ⟨3, ![8, 96, w]⟩)
    (hu : 0 < Sc.numel) (hb : Sc.BroadcastsInDim ⟨3, ![8, 96, w]⟩ ![])
    (hp : Shape.Pads ⟨3, ![8, 96, w]⟩ ![0, 0, d] ![0, 0, 0] ![0, 0, 0] ⟨3, ![8, 96, 320]⟩)
    (b : Fin 8) (h : Fin 96) (x : Fin 320) :
    pad ⟨3, ![8, 96, 320]⟩ ![0, 0, d] ![0, 0, 0] ![0, 0, 0]
        (Host.divf (Host.reduceAdd (mulf (extractStridedSlice ⟨4, ![8, 128, 96, w]⟩ ![0, 0, 0, d] L hsL)
              (extractStridedSlice ⟨4, ![8, 128, 96, w]⟩ ![0, 0, 0, 0] R hsR))
            (constant (F := Ideal) Sc .f32 0x00000000#32) hrt hu)
          (broadcastInDim ⟨3, ![8, 96, w]⟩ ![] hb (constant (F := Ideal) Sc .f32 0x43000000#32)))
        (sitofp (F := Ideal) .f32 (constantI Sc 32 0#32)) hp hu (ix3 b h x)
      = cost L R d b h x := by
  have hx320 := x.isLt
  unfold cost
  by_cases hx : d ≤ x.val
  · rw [if_pos hx]
    have hxw : x.val - d < w := by omega
    rw [pad_apply_of_inside ![0, 0, d] ![0, 0, 0] ![0, 0, 0] _ _ hp hu (ix3 b h x) (ix3 b h (⟨x.val - d, hxw⟩ : Fin w)) (fun a => by
      match a with
      | ⟨0, _⟩ => show b.val = 0 + b.val * (0 + 1); omega
      | ⟨1, _⟩ => show h.val = 0 + h.val * (0 + 1); omega
      | ⟨2, _⟩ => show x.val = d + (x.val - d) * (0 + 1); omega)]
    rw [mean_apply w _ hrt hr hu hb b h ⟨x.val - d, hxw⟩]
    refine congrArg (Ideal.div · _) (Finset.sum_congr rfl fun k _ => ?_)
    show extractStridedSlice ⟨4, ![8, 128, 96, w]⟩ ![0, 0, 0, d] L hsL (ix4 b k h (⟨x.val - d, hxw⟩ : Fin w))
        * extractStridedSlice ⟨4, ![8, 128, 96, w]⟩ ![0, 0, 0, 0] R hsR (ix4 b k h (⟨x.val - d, hxw⟩ : Fin w)) = _
    rw [extractStridedSlice_apply ![0, 0, 0, d] L hsL _ (ix4 b k h x) (fun a => by
        match a with
        | ⟨0, _⟩ => show b.val = 0 + b.val; omega
        | ⟨1, _⟩ => show k.val = 0 + k.val; omega
        | ⟨2, _⟩ => show h.val = 0 + h.val; omega
        | ⟨3, _⟩ => show x.val = d + (x.val - d); omega),
      extractStridedSlice_apply ![0, 0, 0, 0] R hsR _ (ix4 b k h (⟨x.val - d, by omega⟩ : Fin 320)) (fun a => by
        match a with
        | ⟨0, _⟩ => show b.val = 0 + b.val; omega
        | ⟨1, _⟩ => show k.val = 0 + k.val; omega
        | ⟨2, _⟩ => show h.val = 0 + h.val; omega
        | ⟨3, _⟩ => show x.val - d = 0 + (x.val - d); omega)]
  · rw [if_neg hx]
    refine (pad_apply_of_not_inside ![0, 0, d] ![0, 0, 0] ![0, 0, 0] _ _ hp hu (ix3 b h x)
      (2 : Fin (⟨3, ![8, 96, w]⟩ : Shape).rank) ?_).trans ?_
    · intro hc
      have h1 : d ≤ x.val := hc.1
      exact hx h1
    · show (((0#32 : BitVec 32).toInt : ℝ) : EReal) = 0
      simp

end Cert.CostVolume

end
-- ==== Proof.Stack.lean ====
/-
  The reference stacks its 48 slabs along a new disparity axis in two steps: each slab `[8, 96, 320]` is viewed as
  `[8, 1, 96, 320]`, sixteen of those are joined along axis 1 into `[8, 16, 96, 320]`, and three of these into
  `[8, 48, 96, 320]`.  Read at `(b, d, h, x)` the joined array is slab `d` at `(b, h, x)`: group `d / 16`, member `d mod 16`.
-/
import Idealize.ShloMosaic.Lib.ValueIdx
import Idealize.ShloMosaic.Lib.Pipeline.Value

noncomputable section

namespace Cert.CostVolume

open Idealize.ShloMosaic Idealize.ShloMosaic.ValueIdx

/-- One slab, `[batch, row, column]`. -/
abbrev Slab : Shape := ⟨3, ![8, 96, 320]⟩
/-- A slab under a unit disparity axis. -/
abbrev Slab1 : Shape := ⟨4, ![8, 1, 96, 320]⟩
/-- Sixteen slabs joined. -/
abbrev Slab16 : Shape := ⟨4, ![8, 16, 96, 320]⟩
/-- All 48 slabs joined. -/
abbrev Slab48 : Shape := ⟨4, ![8, 48, 96, 320]⟩

variable {α : Type}

/-- SIXTEEN SLABS JOINED, at `(b, r, h, x)`: slab `r` at `(b, h, x)`. -/
theorem row16_apply (s : Fin 16 → (Slab.Idx → α)) (hb : Slab.BroadcastsInDim Slab1 ![0, 2, 3])
    (h16 : Shape.Concatenates (List.replicate 16 Slab1) Slab16 1) (b : Fin 8) (r : Fin 16) (h : Fin 96) (x : Fin 320) :
    concatenate Slab16 1
      [⟨Slab1, broadcastInDim Slab1 ![0, 2, 3] hb (s 0)⟩,
        ⟨Slab1, broadcastInDim Slab1 ![0, 2, 3] hb (s 1)⟩,
        ⟨Slab1, broadcastInDim Slab1 ![0, 2, 3] hb (s 2)⟩,
        ⟨Slab1, broadcastInDim Slab1 ![0, 2, 3] hb (s 3)⟩,
        ⟨Slab1, broadcastInDim Slab1 ![0, 2, 3] hb (s 4)⟩,
        ⟨Slab1, broadcastInDim Slab1 ![0, 2, 3] hb (s 5)⟩,
        ⟨Slab1, broadcastInDim Slab1 ![0, 2, 3] hb (s 6)⟩,
        ⟨Slab1, broadcastInDim Slab1 ![0, 2, 3] hb (s 7)⟩,
        ⟨Slab1, broadcastInDim Slab1 ![0, 2, 3] hb (s 8)⟩,
        ⟨Slab1, broadcastInDim Slab1 ![0, 2, 3] hb (s 9)⟩,
        ⟨Slab1, broadcastInDim Slab1 ![0, 2, 3] hb (s 10)⟩,
        ⟨Slab1, broadcastInDim Slab1 ![0, 2, 3] hb (s 11)⟩,
        ⟨Slab1, broadcastInDim Slab1 ![0, 2, 3] hb (s 12)⟩,
        ⟨Slab1, broadcastInDim Slab1 ![0, 2, 3] hb (s 13)⟩,
        ⟨Slab1, broadcastInDim Slab1 ![0, 2, 3] hb (s 14)⟩,
        ⟨Slab1, broadcastInDim Slab1 ![0, 2, 3] hb (s 15)⟩] h16 (ix4 b r h x)
      = s r (ix3 b h x) := by
  refine (concatenate_ofFn_unit_apply (t := Slab16) (s₁ := Slab1) 1
    (fun n : Fin 16 => broadcastInDim Slab1 ![0, 2, 3] hb (s n)) h16 rfl rfl (ix4 b r h x) r rfl
    (ix4 b (0 : Fin 1) h x) ?_).trans ?_
  · intro a ha
    match a with
    | ⟨0, _⟩ => rfl
    | ⟨1, _⟩ => exact absurd rfl ha
    | ⟨2, _⟩ => rfl
    | ⟨3, _⟩ => rfl
  · exact broadcastInDim_apply _ hb (s r) (ix4 b (0 : Fin 1) h x) (ix3 b h x) (fun a => match a with
      | ⟨0, _⟩ => by show b.val = if (8 : ℕ) = 1 then 0 else b.val; rw [if_neg (by decide)]
      | ⟨1, _⟩ => by show h.val = if (96 : ℕ) = 1 then 0 else h.val; rw [if_neg (by decide)]
      | ⟨2, _⟩ => by show x.val = if (320 : ℕ) = 1 then 0 else x.val; rw [if_neg (by decide)])

/-- THREE GROUPS OF SIXTEEN JOINED, at `(b, 16 q + r, h, x)`: group `q` at `(b, r, h, x)`. -/
theorem group3_apply (A : Fin 3 → (Slab16.Idx → α)) (h48 : Shape.Concatenates (List.replicate 3 Slab16) Slab48 1)
    (b : Fin 8) (q : Fin 3) (r : Fin 16) (h : Fin 96) (x : Fin 320) :
    concatenate Slab48 1 [⟨Slab16, A 0⟩, ⟨Slab16, A 1⟩, ⟨Slab16, A 2⟩] h48
        (ix4 b (⟨16 * q.val + r.val, by have := q.isLt; have := r.isLt; omega⟩ : Fin 48) h x)
      = A q (ix4 b r h x) := by
  refine concatenate_ofFn_apply (t := Slab48) (s₁ := Slab16) 1 (fun n : Fin 3 => A n) h48 rfl 16 rfl _ q ?_
    (ix4 b r h x) ?_ ?_
  · show (16 * q.val + r.val) / 16 = q.val
    have := r.isLt; omega
  · show r.val = (16 * q.val + r.val) % 16
    have := r.isLt; omega
  · intro a ha
    match a with
    | ⟨0, _⟩ => rfl
    | ⟨1, _⟩ => exact absurd rfl ha
    | ⟨2, _⟩ => rfl
    | ⟨3, _⟩ => rfl

/-- The same with the sixteen slabs named one by one. -/
theorem row16_list_apply (s0 s1 s2 s3 s4 s5 s6 s7 s8 s9 s10 s11 s12 s13 s14 s15 : Slab.Idx → α) (hb : Slab.BroadcastsInDim Slab1 ![0, 2, 3])
    (h16 : Shape.Concatenates (List.replicate 16 Slab1) Slab16 1) (b : Fin 8) (r : Fin 16) (h : Fin 96) (x : Fin 320) :
    concatenate Slab16 1
      [⟨Slab1, broadcastInDim Slab1 ![0, 2, 3] hb (s0)⟩,
        ⟨Slab1, broadcastInDim Slab1 ![0, 2, 3] hb (s1)⟩,
        ⟨Slab1, broadcastInDim Slab1 ![0, 2, 3] hb (s2)⟩,
        ⟨Slab1, broadcastInDim Slab1 ![0, 2, 3] hb (s3)⟩,
        ⟨Slab1, broadcastInDim Slab1 ![0, 2, 3] hb (s4)⟩,
        ⟨Slab1, broadcastInDim Slab1 ![0, 2, 3] hb (s5)⟩,
        ⟨Slab1, broadcastInDim Slab1 ![0, 2, 3] hb (s6)⟩,
        ⟨Slab1, broadcastInDim Slab1 ![0, 2, 3] hb (s7)⟩,
        ⟨Slab1, broadcastInDim Slab1 ![0, 2, 3] hb (s8)⟩,
        ⟨Slab1, broadcastInDim Slab1 ![0, 2, 3] hb (s9)⟩,
        ⟨Slab1, broadcastInDim Slab1 ![0, 2, 3] hb (s10)⟩,
        ⟨Slab1, broadcastInDim Slab1 ![0, 2, 3] hb (s11)⟩,
        ⟨Slab1, broadcastInDim Slab1 ![0, 2, 3] hb (s12)⟩,
        ⟨Slab1, broadcastInDim Slab1 ![0, 2, 3] hb (s13)⟩,
        ⟨Slab1, broadcastInDim Slab1 ![0, 2, 3] hb (s14)⟩,
        ⟨Slab1, broadcastInDim Slab1 ![0, 2, 3] hb (s15)⟩] h16 (ix4 b r h x)
      = (![s0, s1, s2, s3, s4, s5, s6, s7, s8, s9, s10, s11, s12, s13, s14, s15] : Fin 16 → (Slab.Idx → α)) r (ix3 b h x) :=
  row16_apply ![s0, s1, s2, s3, s4, s5, s6, s7, s8, s9, s10, s11, s12, s13, s14, s15] hb h16 b r h x

/-- The same with the three groups named one by one. -/
theorem group3_list_apply (A0 A1 A2 : Slab16.Idx → α) (h48 : Shape.Concatenates (List.replicate 3 Slab16) Slab48 1)
    (b : Fin 8) (q : Fin 3) (r : Fin 16) (h : Fin 96) (x : Fin 320) :
    concatenate Slab48 1 [⟨Slab16, A0⟩, ⟨Slab16, A1⟩, ⟨Slab16, A2⟩] h48
        (ix4 b (⟨16 * q.val + r.val, by have := q.isLt; have := r.isLt; omega⟩ : Fin 48) h x)
      = (![A0, A1, A2] : Fin 3 → (Slab16.Idx → α)) q (ix4 b r h x) :=
  group3_apply ![A0, A1, A2] h48 b q r h x

end Cert.CostVolume

end
-- ==== Proof.RefVolume.lean ====
/-
  The reference's result is the cost volume.

  The reference computes 48 slabs — one channel mean per disparity, the shifted ones padded back to 320 columns — and
  stacks them along a new axis.  Entry `(b, d, h, x)` of the stack is slab `d` at `(b, h, x)`, and slab `d` at `(b, h, x)`
  is `cost L R d b h x`: for every one of the 48 disparities, by the one lemma on a slab of width `320 − d`.
-/
import proofs.«126808_j80762565034123_2_alg».proof.Proof.RefRun
import proofs.«126808_j80762565034123_2_alg».proof.Proof.RefSlab
import proofs.«126808_j80762565034123_2_alg».proof.Proof.Stack

set_option maxRecDepth 16384

noncomputable section

namespace Cert.CostVolume

open Cert.ReferenceIdeal Idealize.ShloMosaic Idealize.ShloMosaic.ValueIdx Idealize.ShloMosaic.TcCoe Idealize.SL.Sem

/-- A disparity written `16 q + r` is below 48. -/
theorem qr_lt (q : Fin 3) (r : Fin 16) : 16 * q.val + r.val < 48 := by have := q.isLt; have := r.isLt; omega

set_option maxHeartbeats 4000000 in
/-- The reference's result array, entry by entry (the disparity written `16 q + r`). -/
theorem ref_entry (m : (ℓ : Loc nD τ sig) → Buf (Elt Ideal) ℓ) (c : Dev nD)
    (b : Fin 8) (q : Fin 3) (r : Fin 16) (h : Fin 96) (x : Fin 320) :
    (Cert.ReferenceIdeal.Value.res_main_v384 (F := Ideal) m c : Slab48.Idx → EReal)
        (ix4 b (⟨16 * q.val + r.val, qr_lt q r⟩ : Fin 48) h x)
      = cost (m ((c.tc : Thread nD τ).loc main_arg0)) (m ((c.tc : Thread nD τ).loc main_arg1)) (16 * q.val + r.val) b h x := by
  unfold Cert.ReferenceIdeal.Value.res_main_v384 Cert.ReferenceIdeal.Value.fn_cat3 Cert.ReferenceIdeal.Value.fn_cat16
  refine (group3_list_apply _ _ _ Cert.ReferenceIdeal.Gen.concatenates_S8x16x96x320_S8x16x96x320_S8x16x96x320_S8x48x96x320_d1 b q r h x).trans ?_
  fin_cases q
  · refine (row16_list_apply _ _ _ _ _ _ _ _ _ _ _ _ _ _ _ _ Cert.ReferenceIdeal.Gen.bcast_S8x96x320_S8x1x96x320_0_2_3 Cert.ReferenceIdeal.Gen.concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1 b r h x).trans ?_
    fin_cases r <;> first
      | exact slab_zero_apply _ _ (by decide) (by decide) (by decide) (by decide) b h x
      | exact slab_apply _ _ (by norm_num) _ _ (by decide) (by decide) (by decide) (by decide) (by decide) (by decide) (by decide) b h x
  · refine (row16_list_apply _ _ _ _ _ _ _ _ _ _ _ _ _ _ _ _ Cert.ReferenceIdeal.Gen.bcast_S8x96x320_S8x1x96x320_0_2_3 Cert.ReferenceIdeal.Gen.concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1 b r h x).trans ?_
    fin_cases r <;> first
      | exact slab_zero_apply _ _ (by decide) (by decide) (by decide) (by decide) b h x
      | exact slab_apply _ _ (by norm_num) _ _ (by decide) (by decide) (by decide) (by decide) (by decide) (by decide) (by decide) b h x
  · refine (row16_list_apply _ _ _ _ _ _ _ _ _ _ _ _ _ _ _ _ Cert.ReferenceIdeal.Gen.bcast_S8x96x320_S8x1x96x320_0_2_3 Cert.ReferenceIdeal.Gen.concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1 b r h x).trans ?_
    fin_cases r <;> first
      | exact slab_zero_apply _ _ (by decide) (by decide) (by decide) (by decide) b h x
      | exact slab_apply _ _ (by norm_num) _ _ (by decide) (by decide) (by decide) (by decide) (by decide) (by decide) (by decide) b h x

/-- THE REFERENCE'S RESULT IS THE VOLUME of the two argument arrays. -/
theorem ref_volume (m : (ℓ : Loc nD τ sig) → Buf (Elt Ideal) ℓ) (c : Dev nD) :
    (Cert.ReferenceIdeal.Value.res_main_v384 (F := Ideal) m c : Slab48.Idx → EReal)
      = volume (m ((c.tc : Thread nD τ).loc main_arg0)) (m ((c.tc : Thread nD τ).loc main_arg1)) := by
  funext j
  obtain ⟨b, d, h, x, rfl⟩ : ∃ (b : Fin 8) (d : Fin 48) (h : Fin 96) (x : Fin 320), j = ix4 b d h x :=
    ⟨j 0, j 1, j 2, j 3, eq_ix4 j⟩
  obtain ⟨q, r, hqr⟩ : ∃ (q : Fin 3) (r : Fin 16), d.val = 16 * q.val + r.val :=
    ⟨⟨d.val / 16, by have := d.isLt; omega⟩, ⟨d.val % 16, by omega⟩, by show d.val = 16 * (d.val / 16) + d.val % 16; omega⟩
  have hd' : d = ⟨16 * q.val + r.val, qr_lt q r⟩ := Fin.ext hqr
  rw [hd']
  exact ref_entry m c b q r h x

end Cert.CostVolume

end
-- ==== Proof.lean ====
/-
  The correlation cost volume: a Pallas kernel against its jnp reference, as extended reals.

  Both programs compute, for a batch entry `b`, a disparity `d < 48`, a row `h` and a column `x`,
  `(∑ over the 128 channels c of left[b, c, h, x] · right[b, c, h, x − d]) / 128` where `d ≤ x`, and `0` where `x < d`
  (Proof/Spec.lean, `volume`).  The kernel gets the shifted right factor by rotating its staged block by `d` along the
  columns and masks the wrapped columns `x < d` to zero (Proof/Tile.lean); its 48 stores tile the output block
  (Proof/KernelBlock.lean) and its 8 × 6 blocks tile the array (Proof/KernelVolume.lean).  The reference cuts the two
  arrays to the overlapping `320 − d` columns, pads `d` zero columns back in front (Proof/RefSlab.lean) and stacks the 48
  slabs (Proof/Stack.lean, Proof/RefVolume.lean); its program is run in Proof/RefRun.lean.  The two sums are the same
  finite sum of extended reals, term by term, and both divide by the same float `128`, so no law of arithmetic beyond
  reading each side at an index is used, and the inputs' finiteness is not needed.
  The idealized kernel is the kernel's own text read at the extended reals, nothing rewritten, so `preserves` has nothing
  to state.
-/
import proofs.«126808_j80762565034123_2_alg».proof.Defs
import proofs.«126808_j80762565034123_2_alg».proof.Proof.Gen.Kernel
import proofs.«126808_j80762565034123_2_alg».proof.Proof.Gen.Kernel.Frame
import proofs.«126808_j80762565034123_2_alg».proof.Proof.Gen.KernelIdeal
import proofs.«126808_j80762565034123_2_alg».proof.Proof.Gen.KernelIdeal.Frame
import proofs.«126808_j80762565034123_2_alg».proof.Proof.Gen.ReferenceIdeal
import proofs.«126808_j80762565034123_2_alg».proof.Proof.Gen.Pre_finite_inputs
import proofs.«126808_j80762565034123_2_alg».proof.Proof.KernelVolume
import proofs.«126808_j80762565034123_2_alg».proof.Proof.RefVolume
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped: it terminates and leaves the two arguments as they were. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `volume` of the (agreeing) argument arrays. -/
theorem algebraic : Cert.algebraic_KernelIdeal_ReferenceIdeal := by
  intro m ρ m' ρ' _ hagree
  refine ⟨fun c => Cert.CostVolume.volume (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.CostVolume.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.CostVolume.ref_volume m' c, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
